-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x256 : Shape := ⟨2, ![512, 256]⟩
abbrev S256 : Shape := ⟨1, ![256]⟩
abbrev S256x62 : Shape := ⟨2, ![256, 62]⟩
abbrev S62 : Shape := ⟨1, ![62]⟩
abbrev S62x128 : Shape := ⟨2, ![62, 128]⟩
abbrev S128 : Shape := ⟨1, ![128]⟩
abbrev S256x256 : Shape := ⟨2, ![256, 256]⟩
abbrev S62x62 : Shape := ⟨2, ![62, 62]⟩
abbrev S128x128 : Shape := ⟨2, ![128, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x62 : S_.BroadcastsInDim S256x62 (![] : Fin 0 → Fin S256x62.rank)
  reducesTo_S256x62_S_d0_1 : S256x62.ReducesTo [0, 1] S_
  bcast_S_S62 : S_.BroadcastsInDim S62 (![] : Fin 0 → Fin S62.rank)
  reducesTo_S62_S_d0 : S62.ReducesTo [0] S_
  bcast_S_S62x128 : S_.BroadcastsInDim S62x128 (![] : Fin 0 → Fin S62x128.rank)
  reducesTo_S62x128_S_d0_1 : S62x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S62x62 : S_.BroadcastsInDim S62x62 (![] : Fin 0 → Fin S62x62.rank)
  reducesTo_S62x62_S_d0_1 : S62x62.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg19 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v48 : IVec S_ 1) (main_v49 : FVec F S62 .f32) (main_v50 : FVec F S62 .f32) : IVec S_ 1 :=
  let main_v51 : IVec S62 1 := cmpf .olt main_v49 main_v50
  let main_c_19 : IVec S_ 1 := constantI S_ 1 1#1
  let main_v52 : IVec S_ 1 := (fun x v => Host.reduce IntOp.andi x v reducesTo_S62_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S256x256 .f32) (main_arg9 : FVec F S256 .f32) (main_arg10 : FVec F S62x62 .f32) (main_arg11 : FVec F S62 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S62x62 .f32 := Host.absf main_arg10
  let main_cst_16 : FVec F S_ .f32 := constant S_ .f32 0x7F800000#32
  let main_v45 : FVec F S62x62 .f32 := broadcastInDim S62x62 ![] bcast_S_S62x62 main_cst_16
  let main_v46 : IVec S62x62 1 := cmpf .olt main_v44 main_v45
  let main_c_17 : IVec S_ 1 := constantI S_ 1 1#1
  let main_v47 : IVec S_ 1 := (fun x v => Host.reduce IntOp.andi x v reducesTo_S62x62_S_d0_1 h_S_) main_v46 main_c_17
  let main_v48 : IVec S_ 1 := andi main_v43 main_v47
  let main_v49 : FVec F S62 .f32 := Host.absf main_arg11
  let main_cst_18 : FVec F S_ .f32 := constant S_ .f32 0x7F800000#32
  let main_v50 : FVec F S62 .f32 := broadcastInDim S62 ![] bcast_S_S62 main_cst_18
  fn_part3 (F := F) main_arg12 main_arg13 main_arg14 main_arg15 main_arg16 main_arg17 main_arg18 main_arg19 main_v48 main_v49 main_v50

def fn_part1 {F : FTy → Type} [FloatOps F] (main_arg5 : FVec F S62 .f32) (main_arg6 : FVec F S62x128 .f32) (main_arg7 : FVec F S128 .f32) (main_arg8 : FVec F S256x256 .f32) (main_arg9 : FVec F S256 .f32) (main_arg10 : FVec F S62x62 .f32) (main_arg11 : FVec F S62 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S256x62 1) : IVec S_ 1 :=
  let main_c_5 : IVec S_ 1 := constantI S_ 1 1#1
  let main_v17 : IVec S_ 1 := (fun x v => Host.reduce IntOp.andi x v reducesTo_S256x62_S_d0_1 h_S_) main_v16 main_c_5
  let main_v18 : IVec S_ 1 := andi main_v13 main_v17
  let main_v19 : FVec F S62 .f32 := Host.absf main_arg5
  let main_cst_6 : FVec F S_ .f32 := constant S_ .f32 0x7F800000#32
  let main_v20 : FVec F S62 .f32 := broadcastInDim S62 ![] bcast_S_S62 main_cst_6
  let main_v21 : IVec S62 1 := cmpf .olt main_v19 main_v20
  let main_c_7 : IVec S_ 1 := constantI S_ 1 1#1
  let main_v22 : IVec S_ 1 := (fun x v => Host.reduce IntOp.andi x v reducesTo_S62_S_d0 h_S_) main_v21 main_c_7
  let main_v23 : IVec S_ 1 := andi main_v18 main_v22
  let main_v24 : FVec F S62x128 .f32 := Host.absf main_arg6
  let main_cst_8 : FVec F S_ .f32 := constant S_ .f32 0x7F800000#32
  let main_v25 : FVec F S62x128 .f32 := broadcastInDim S62x128 ![] bcast_S_S62x128 main_cst_8
  let main_v26 : IVec S62x128 1 := cmpf .olt main_v24 main_v25
  let main_c_9 : IVec S_ 1 := constantI S_ 1 1#1
  let main_v27 : IVec S_ 1 := (fun x v => Host.reduce IntOp.andi x v reducesTo_S62x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x512 .f32) (main_arg1 : IVec S2x400000 32) (main_arg2 : FVec F S512x256 .f32) (main_arg3 : FVec F S256 .f32) (main_arg4 : FVec F S256x62 .f32) (main_arg5 : FVec F S62 .f32) (main_arg6 : FVec F S62x128 .f32) (main_arg7 : FVec F S128 .f32) (main_arg8 : FVec F S256x256 .f32) (main_arg9 : FVec F S256 .f32) (main_arg10 : FVec F S62x62 .f32) (main_arg11 : FVec F S62 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x62 .f32 := Host.absf main_arg4
  let main_cst_4 : FVec F S_ .f32 := constant S_ .f32 0x7F800000#32
  let main_v15 : FVec F S256x62 .f32 := broadcastInDim S256x62 ![] bcast_S_S256x62 main_cst_4
  let main_v16 : IVec S256x62 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x512 : Shape := ⟨2, ![50000, 512]⟩
abbrev S2x400000 : Shape := ⟨2, ![2, 400000]⟩
abbrev S512x256 : Shape := ⟨2, ![512, 256]⟩
abbrev S256 : Shape := ⟨1, ![256]⟩
abbrev S256x62 : Shape := ⟨2, ![256, 62]⟩
abbrev S62 : Shape := ⟨1, ![62]⟩
abbrev S62x128 : Shape := ⟨2, ![62, 128]⟩
abbrev S128 : Shape := ⟨1, ![128]⟩
abbrev S256x256 : Shape := ⟨2, ![256, 256]⟩
abbrev S62x62 : Shape := ⟨2, ![62, 62]⟩
abbrev S128x128 : Shape := ⟨2, ![128, 128]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S1x256 : Shape := ⟨2, ![1, 256]⟩
abbrev S50000x256 : Shape := ⟨2, ![50000, 256]⟩
abbrev S2000x512 : Shape := ⟨2, ![2000, 512]⟩
abbrev S2000x256 : Shape := ⟨2, ![2000, 256]⟩
abbrev S450000x256 : Shape := ⟨2, ![450000, 256]⟩
abbrev S1x62 : Shape := ⟨2, ![1, 62]⟩
abbrev S50000x62 : Shape := ⟨2, ![50000, 62]⟩
abbrev S2000x62 : Shape := ⟨2, ![2000, 62]⟩
abbrev S450000x62 : Shape := ⟨2, ![450000, 62]⟩
abbrev S1x128 : Shape := ⟨2, ![1, 128]⟩
abbrev S50000x128 : Shape := ⟨2, ![50000, 128]⟩
abbrev S2000x128 : Shape := ⟨2, ![2000, 128]⟩
abbrev S450000x128 : Shape := ⟨2, ![450000, 128]⟩

abbrev nBuf : Space → Nat
  | .hbm => 201
  | .vmem => 96
  | .smem => 0
  | _ => 0

abbrev hbmTy0_0 (i : Nat) : BufTy := match i % 128 with
  | 0 => ⟨S50000x512, .f32⟩
  | 1 => ⟨S2x400000, .i32⟩
  | 2 => ⟨S512x256, .f32⟩
  | 3 => ⟨S256, .f32⟩
  | 4 => ⟨S256x62, .f32⟩
  | 5 => ⟨S62, .f32⟩
  | 6 => ⟨S62x128, .f32⟩
  | 7 => ⟨S128, .f32⟩
  | 8 => ⟨S256x256, .f32⟩
  | 9 => ⟨S256, .f32⟩
  | 10 => ⟨S62x62, .f32⟩
  | 11 => ⟨S62, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S50000, .i32⟩
  | 21 => ⟨S1x400000, .i32⟩
  | 22 => ⟨S400000, .i32⟩
  | 23 => ⟨S450000, .i32⟩
  | 24 => ⟨S1x400000, .i32⟩
  | 25 => ⟨S400000, .i32⟩
  | 26 => ⟨S450000, .i32⟩
  | 27 => ⟨S_, .f32⟩
  | 28 => ⟨S450000, .f32⟩
  | 29 => ⟨S_, .f32⟩
  | 30 => ⟨S50000, .f32⟩
  | 31 => ⟨S450000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S450000, .i32⟩
  | 46 => ⟨S450000, .i1⟩
  | 47 => ⟨S_, .i32⟩
  | 48 => ⟨S450000, .i32⟩
  | 49 => ⟨S450000, .i32⟩
  | 50 => ⟨S450000, .i32⟩
  | 51 => ⟨S450000x1, .i32⟩
  | 52 => ⟨S450000, .f32⟩
  | 53 => ⟨S_, .i32⟩
  | 54 => ⟨S450000, .i32⟩
  | 55 => ⟨S450000, .i1⟩
  | 56 => ⟨S_, .i32⟩
  | 57 => ⟨S450000, .i32⟩
  | 58 => ⟨S450000, .i32⟩
  | 59 => ⟨S450000, .i32⟩
  | 60 => ⟨S450000x1, .i32⟩
  | 61 => ⟨S450000, .f32⟩
  | 62 => ⟨S450000, .f32⟩
  | 63 => ⟨S1x256, .f32⟩
  | 64 => ⟨S50000x256, .f32⟩
  | 65 => ⟨S_, .f32⟩
  | 66 => ⟨S256, .f32⟩
  | 67 => ⟨S1x256, .f32⟩
  | 68 => ⟨S50000x256, .f32⟩
  | 69 => ⟨S_, .i32⟩
  | 70 => ⟨S450000, .i32⟩
  | 71 => ⟨S450000, .i1⟩
  | 72 => ⟨S_, .i32⟩
  | 73 => ⟨S450000, .i32⟩
  | 74 => ⟨S450000, .i32⟩
  | 75 => ⟨S450000, .i32⟩
  | 76 => ⟨S450000x1, .i32⟩
  | 77 => ⟨S450000x256, .f32⟩
  | 78 => ⟨S450000x1, .f32⟩
  | 79 => ⟨S450000x256, .f32⟩
  | 80 => ⟨S450000x256, .f32⟩
  | 81 => ⟨S_, .f32⟩
  | 82 => ⟨S50000x256, .f32⟩
  | 83 => ⟨S450000x1, .i32⟩
  | 84 => ⟨S50000x256, .f32⟩
  | 85 => ⟨S1x256, .f32⟩
  | 86 => ⟨S50000x256, .f32⟩
  | 87 => ⟨S1x62, .f32⟩
  | 88 => ⟨S50000x62, .f32⟩
  | 89 => ⟨S_, .f32⟩
  | 90 => ⟨S62, .f32⟩
  | 91 => ⟨S1x62, .f32⟩
  | 92 => ⟨S50000x62, .f32⟩
  | 93 => ⟨S_, .i32⟩
  | 94 => ⟨S450000, .i32⟩
  | 95 => ⟨S450000, .i1⟩
  | 96 => ⟨S_, .i32⟩
  | 97 => ⟨S450000, .i32⟩
  | 98 => ⟨S450000, .i32⟩
  | 99 => ⟨S450000, .i32⟩
  | 100 => ⟨S450000x1, .i32⟩
  | 101 => ⟨S450000x62, .f32⟩
  | 102 => ⟨S450000x1, .f32⟩
  | 103 => ⟨S450000x62, .f32⟩
  | 104 => ⟨S450000x62, .f32⟩
  | 105 => ⟨S_, .f32⟩
  | 106 => ⟨S50000x62, .f32⟩
  | 107 => ⟨S450000x1, .i32⟩
  | 108 => ⟨S50000x62, .f32⟩
  | 109 => ⟨S1x62, .f32⟩
  | 110 => ⟨S50000x62, .f32⟩
  | 111 => ⟨S1x128, .f32⟩
  | 112 => ⟨S50000x128, .f32⟩
  | 113 => ⟨S_, .f32⟩
  | 114 => ⟨S128, .f32⟩
  | 115 => ⟨S1x128, .f32⟩
  | 116 => ⟨S50000x128, .f32⟩
  | 117 => ⟨S_, .i32⟩
  | 118 => ⟨S450000, .i32⟩
  | 119 => ⟨S450000, .i1⟩
  | 120 => ⟨S_, .i32⟩
  | 121 => ⟨S450000, .i32⟩
  | 122 => ⟨S450000, .i32⟩
  | 123 => ⟨S450000, .i32⟩
  | 124 => ⟨S450000x1, .i32⟩
  | 125 => ⟨S450000x128, .f32⟩
  | 126 => ⟨S450000x1, .f32⟩
  | 127 => ⟨S450000x128, .f32⟩
  | _ => ⟨S50000x512, .f32⟩

abbrev hbmTy0_1 (i : Nat) : BufTy := match i % 128 with
  | 0 => ⟨S450000x128, .f32⟩
  | 1 => ⟨S_, .f32⟩
  | 2 => ⟨S50000x128, .f32⟩
  | 3 => ⟨S450000x1, .i32⟩
  | 4 => ⟨S50000x128, .f32⟩
  | 5 => ⟨S1x128, .f32⟩
  | 6 => ⟨S50000x128, .f32⟩
  | 7 => ⟨S_, .f32⟩
  | 8 => ⟨S128, .f32⟩
  | 9 => ⟨S1x128, .f32⟩
  | 10 => ⟨S50000x128, .f32⟩
  | 11 => ⟨S_, .i32⟩
  | 12 => ⟨S450000, .i32⟩
  | 13 => ⟨S450000, .i1⟩
  | 14 => ⟨S_, .i32⟩
  | 15 => ⟨S450000, .i32⟩
  | 16 => ⟨S450000, .i32⟩
  | 17 => ⟨S450000, .i32⟩
  | 18 => ⟨S450000x1, .i32⟩
  | 19 => ⟨S450000x128, .f32⟩
  | 20 => ⟨S450000x1, .f32⟩
  | 21 => ⟨S450000x128, .f32⟩
  | 22 => ⟨S450000x128, .f32⟩
  | 23 => ⟨S_, .f32⟩
  | 24 => ⟨S50000x128, .f32⟩
  | 25 => ⟨S450000x1, .i32⟩
  | 26 => ⟨S50000x128, .f32⟩
  | 27 => ⟨S1x128, .f32⟩
  | 28 => ⟨S50000x128, .f32⟩
  | 29 => ⟨S_, .f32⟩
  | 30 => ⟨S128, .f32⟩
  | 31 => ⟨S1x128, .f32⟩
  | 32 => ⟨S50000x128, .f32⟩
  | 33 => ⟨S_, .i32⟩
  | 34 => ⟨S450000, .i32⟩
  | 35 => ⟨S450000, .i1⟩
  | 36 => ⟨S_, .i32⟩
  | 37 => ⟨S450000, .i32⟩
  | 38 => ⟨S450000, .i32⟩
  | 39 => ⟨S450000, .i32⟩
  | 40 => ⟨S450000x1, .i32⟩
  | 41 => ⟨S450000x128, .f32⟩
  | 42 => ⟨S450000x1, .f32⟩
  | 43 => ⟨S450000x128, .f32⟩
  | 44 => ⟨S450000x128, .f32⟩
  | 45 => ⟨S_, .f32⟩
  | 46 => ⟨S50000x128, .f32⟩
  | 47 => ⟨S450000x1, .i32⟩
  | 48 => ⟨S50000x128, .f32⟩
  | 49 => ⟨S1x128, .f32⟩
  | 50 => ⟨S50000x128, .f32⟩
  | 51 => ⟨S_, .f32⟩
  | 52 => ⟨S128, .f32⟩
  | 53 => ⟨S1x128, .f32⟩
  | 54 => ⟨S50000x128, .f32⟩
  | 55 => ⟨S_, .i32⟩
  | 56 => ⟨S450000, .i32⟩
  | 57 => ⟨S450000, .i1⟩
  | 58 => ⟨S_, .i32⟩
  | 59 => ⟨S450000, .i32⟩
  | 60 => ⟨S450000, .i32⟩
  | 61 => ⟨S450000, .i32⟩
  | 62 => ⟨S450000x1, .i32⟩
  | 63 => ⟨S450000x128, .f32⟩
  | 64 => ⟨S450000x1, .f32⟩
  | 65 => ⟨S450000x128, .f32⟩
  | 66 => ⟨S450000x128, .f32⟩
  | 67 => ⟨S_, .f32⟩
  | 68 => ⟨S50000x128, .f32⟩
  | 69 => ⟨S450000x1, .i32⟩
  | 70 => ⟨S50000x128, .f32⟩
  | 71 => ⟨S1x128, .f32⟩
  | 72 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x62, .f32⟩
  | .local _ .vmem, ⟨22, _⟩ => ⟨S1x62, .f32⟩
  | .local _ .vmem, ⟨23, _⟩ => ⟨S2000x62, .f32⟩
  | .local _ .vmem, ⟨24, _⟩ => ⟨S2000x62, .f32⟩
  | .local _ .vmem, ⟨25, _⟩ => ⟨S2000x62, .f32⟩
  | .local _ .vmem, ⟨26, _⟩ => ⟨S2000x62, .f32⟩
  | .local _ .vmem, ⟨27, _⟩ => ⟨S62x62, .f32⟩
  | .local _ .vmem, ⟨28, _⟩ => ⟨S1x62, .f32⟩
  | .local _ .vmem, ⟨29, _⟩ => ⟨S2000x62, .f32⟩
  | .local _ .vmem, ⟨30, _⟩ => ⟨S2000x62, .f32⟩
  | .local _ .vmem, ⟨31, _⟩ => ⟨S2000x62, .f32⟩
  | .local _ .vmem, ⟨32, _⟩ => ⟨S2000x62, .f32⟩
  | .local _ .vmem, ⟨33, _⟩ => ⟨S2000x62, .f32⟩
  | .local _ .vmem, ⟨34, _⟩ => ⟨S2000x62, .f32⟩
  | .local _ .vmem, ⟨35, _⟩ => ⟨S1x62, .f32⟩
  | .local _ .vmem, ⟨36, _⟩ => ⟨S2000x62, .f32⟩
  | .local _ .vmem, ⟨37, _⟩ => ⟨S2000x62, .f32⟩
  | .local _ .vmem, ⟨38, _⟩ => ⟨S2000x62, .f32⟩
  | .local _ .vmem, ⟨39, _⟩ => ⟨S2000x62, .f32⟩
  | .local _ .vmem, ⟨40, _⟩ => ⟨S62x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S128x128, .f32⟩
  | .local _ .vmem, ⟨60, _⟩ => ⟨S1x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S1x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | .local _ .vmem, ⟨72, _⟩ => ⟨S128x128, .f32⟩
  | .local _ .vmem, ⟨73, _⟩ => ⟨S1x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S128x128, .f32⟩
  | .local _ .vmem, ⟨86, _⟩ => ⟨S1x128, .f32⟩
  | .local _ .vmem, ⟨87, _⟩ => ⟨S2000x128, .f32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S2000x128, .f32⟩
  | .local _ .vmem, ⟨92, _⟩ => ⟨S2000x128, .f32⟩
  | .local _ .vmem, ⟨93, _⟩ => ⟨S1x128, .f32⟩
  | .local _ .vmem, ⟨94, _⟩ => ⟨S2000x128, .f32⟩
  | .local _ .vmem, ⟨95, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_8 : Ref sig .tc := ⟨.hbm, 69, rfl⟩
abbrev main_v37 : Ref sig .tc := ⟨.hbm, 70, rfl⟩
abbrev main_v38 : Ref sig .tc := ⟨.hbm, 71, rfl⟩
abbrev main_c_9 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_12 : Ref sig .tc := ⟨.hbm, 93, rfl⟩
abbrev main_v57 : Ref sig .tc := ⟨.hbm, 94, rfl⟩
abbrev main_v58 : Ref sig .tc := ⟨.hbm, 95, rfl⟩
abbrev main_c_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_15 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_16 : Ref sig .tc := ⟨.hbm, 117, rfl⟩
abbrev main_v77 : Ref sig .tc := ⟨.hbm, 118, rfl⟩
abbrev main_v78 : Ref sig .tc := ⟨.hbm, 119, rfl⟩
abbrev main_c_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_18 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_c_20 : Ref sig .tc := ⟨.hbm, 139, rfl⟩
abbrev main_v95 : Ref sig .tc := ⟨.hbm, 140, rfl⟩
abbrev main_v96 : Ref sig .tc := ⟨.hbm, 141, rfl⟩
abbrev main_c_21 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_22 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_23 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_24 : Ref sig .tc := ⟨.hbm, 161, rfl⟩
abbrev main_v113 : Ref sig .tc := ⟨.hbm, 162, rfl⟩
abbrev main_v114 : Ref sig .tc := ⟨.hbm, 163, rfl⟩
abbrev main_c_25 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_26 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_27 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_c_28 : Ref sig .tc := ⟨.hbm, 183, rfl⟩
abbrev main_v131 : Ref sig .tc := ⟨.hbm, 184, rfl⟩
abbrev main_v132 : Ref sig .tc := ⟨.hbm, 185, rfl⟩
abbrev main_c_29 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_30 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg3_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg3_0 : Ref sig .tc := ⟨.vmem, 55, rfl⟩
abbrev cc8_stg3_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg3_0 : Ref sig .tc := ⟨.vmem, 61, rfl⟩
abbrev cc9_stg3_1 : Ref sig .tc := ⟨.vmem, 62, rfl⟩
abbrev cc10_stg0_0 : Ref sig .tc := ⟨.vmem, 63, rfl⟩
abbrev cc10_stg0_1 : Ref sig .tc := ⟨.vmem, 64, rfl⟩
abbrev cc10_stg1_0 : Ref sig .tc := ⟨.vmem, 65, rfl⟩
abbrev cc10_stg1_1 : Ref sig .tc := ⟨.vmem, 66, rfl⟩
abbrev cc10_stg2_0 : Ref sig .tc := ⟨.vmem, 67, rfl⟩
abbrev cc10_stg3_0 : Ref sig .tc := ⟨.vmem, 68, rfl⟩
abbrev cc10_stg3_1 : Ref sig .tc := ⟨.vmem, 69, rfl⟩
abbrev cc11_stg0_0 : Ref sig .tc := ⟨.vmem, 70, rfl⟩
abbrev cc11_stg0_1 : Ref sig .tc := ⟨.vmem, 71, rfl⟩
abbrev cc11_stg1_0 : Ref sig .tc := ⟨.vmem, 72, rfl⟩
abbrev cc11_stg2_0 : Ref sig .tc := ⟨.vmem, 73, rfl⟩
abbrev cc11_stg3_0 : Ref sig .tc := ⟨.vmem, 74, rfl⟩
abbrev cc11_stg3_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg1_1 : Ref sig .tc := ⟨.vmem, 79, rfl⟩
abbrev cc12_stg2_0 : Ref sig .tc := ⟨.vmem, 80, rfl⟩
abbrev cc12_stg3_0 : Ref sig .tc := ⟨.vmem, 81, rfl⟩
abbrev cc12_stg3_1 : Ref sig .tc := ⟨.vmem, 82, rfl⟩
abbrev cc13_stg0_0 : Ref sig .tc := ⟨.vmem, 83, rfl⟩
abbrev cc13_stg0_1 : Ref sig .tc := ⟨.vmem, 84, rfl⟩
abbrev cc13_stg1_0 : Ref sig .tc := ⟨.vmem, 85, rfl⟩
abbrev cc13_stg2_0 : Ref sig .tc := ⟨.vmem, 86, rfl⟩
abbrev cc13_stg3_0 : Ref sig .tc := ⟨.vmem, 87, rfl⟩
abbrev cc13_stg3_1 : Ref sig .tc := ⟨.vmem, 88, rfl⟩
abbrev cc14_stg0_0 : Ref sig .tc := ⟨.vmem, 89, rfl⟩
abbrev cc14_stg0_1 : Ref sig .tc := ⟨.vmem, 90, rfl⟩
abbrev cc14_stg1_0 : Ref sig .tc := ⟨.vmem, 91, rfl⟩
abbrev cc14_stg1_1 : Ref sig .tc := ⟨.vmem, 92, rfl⟩
abbrev cc14_stg2_0 : Ref sig .tc := ⟨.vmem, 93, rfl⟩
abbrev cc14_stg3_0 : Ref sig .tc := ⟨.vmem, 94, rfl⟩
abbrev cc14_stg3_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem3_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem3_0 : DmaSem sig := 55
abbrev cc8_sem3_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem3_0 : DmaSem sig := 61
abbrev cc9_sem3_1 : DmaSem sig := 62
abbrev cc10_sem0_0 : DmaSem sig := 63
abbrev cc10_sem0_1 : DmaSem sig := 64
abbrev cc10_sem1_0 : DmaSem sig := 65
abbrev cc10_sem1_1 : DmaSem sig := 66
abbrev cc10_sem2_0 : DmaSem sig := 67
abbrev cc10_sem3_0 : DmaSem sig := 68
abbrev cc10_sem3_1 : DmaSem sig := 69
abbrev cc11_sem0_0 : DmaSem sig := 70
abbrev cc11_sem0_1 : DmaSem sig := 71
abbrev cc11_sem1_0 : DmaSem sig := 72
abbrev cc11_sem2_0 : DmaSem sig := 73
abbrev cc11_sem3_0 : DmaSem sig := 74
abbrev cc11_sem3_1 : DmaSem sig := 75
abbrev cc12_sem0_0 : DmaSem sig := 76
abbrev cc12_sem0_1 : DmaSem sig := 77
abbrev cc12_sem1_0 : DmaSem sig := 78
abbrev cc12_sem1_1 : DmaSem sig := 79
abbrev cc12_sem2_0 : DmaSem sig := 80
abbrev cc12_sem3_0 : DmaSem sig := 81
abbrev cc12_sem3_1 : DmaSem sig := 82
abbrev cc13_sem0_0 : DmaSem sig := 83
abbrev cc13_sem0_1 : DmaSem sig := 84
abbrev cc13_sem1_0 : DmaSem sig := 85
abbrev cc13_sem2_0 : DmaSem sig := 86
abbrev cc13_sem3_0 : DmaSem sig := 87
abbrev cc13_sem3_1 : DmaSem sig := 88
abbrev cc14_sem0_0 : DmaSem sig := 89
abbrev cc14_sem0_1 : DmaSem sig := 90
abbrev cc14_sem1_0 : DmaSem sig := 91
abbrev cc14_sem1_1 : DmaSem sig := 92
abbrev cc14_sem2_0 : DmaSem sig := 93
abbrev cc14_sem3_0 : DmaSem sig := 94
abbrev cc14_sem3_1 : DmaSem sig := 95

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x62 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x62 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x62 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x62 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S62x62 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x62 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x62 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x62 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x62 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x62 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x62 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x62 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S62x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S2000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S2000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S256 : S_.BroadcastsInDim S256 (![] : Fin 0 → Fin S256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  shapeCasts_S62_S1x62 : S62.ShapeCasts S1x62
  inb_S256x62_S256x62_0_0 : ∀ a, (![0, 0] : Fin 2 → Nat) a + S256x62.size a ≤ S256x62.size a
  h_S256x62 : 0 < S256x62.numel
  inb_S1x62_S1x62_0_0 : ∀ a, (![0, 0] : Fin 2 → Nat) a + S1x62.size a ≤ S1x62.size a
  h_S1x62 : 0 < S1x62.numel
  shapeCasts_S1x62_S1x62 : S1x62.ShapeCasts S1x62
  broadcasts_S1x62_S2000x62 : S1x62.Broadcasts S2000x62
  inb_S2000x62_S2000x62_0_0 : ∀ a, (![0, 0] : Fin 2 → Nat) a + S2000x62.size a ≤ S2000x62.size a
  h_S2000x62 : 0 < S2000x62.numel
  bcast_S_S62 : S_.BroadcastsInDim S62 (![] : Fin 0 → Fin S62.rank)
  shapeCasts_S2000x62_S2000x62 : S2000x62.ShapeCasts S2000x62
  inb_S62x62_S62x62_0_0 : ∀ a, (![0, 0] : Fin 2 → Nat) a + S62x62.size a ≤ S62x62.size a
  h_S62x62 : 0 < S62x62.numel
  bcast_S450000x1_S450000x62_0_1 : S450000x1.BroadcastsInDim S450000x62 (![0, 1] : Fin 2 → Fin S450000x62.rank)
  bcast_S_S50000x62 : S_.BroadcastsInDim S50000x62 (![] : Fin 0 → Fin S50000x62.rank)
  shapeCasts_S128_S1x128 : S128.ShapeCasts S1x128
  inb_S62x128_S62x128_0_0 : ∀ a, (![0, 0] : Fin 2 → Nat) a + S62x128.size a ≤ S62x128.size a
  h_S62x128 : 0 < S62x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S128 : S_.BroadcastsInDim S128 (![] : Fin 0 → Fin S128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S2000x256_S256x62_S2000x62_1_0_0_1_n_n_wf : DotDims.WF S2000x256 S256x62 S2000x62 [1] [0] [0] [1] [] []
  dot_S2000x62_S62x62_S2000x62_1_0_0_1_n_n_wf : DotDims.WF S2000x62 S62x62 S2000x62 [1] [0] [0] [1] [] []
  gather_S50000x62_S450000x1_S450000x62_1_0_n_n_0_1_162_wf : GatherDims.WF S50000x62 S450000x1 S450000x62 [1] [0] [] [0] [] 1 ![1, 62]
  scatter_S50000x62_S450000x1_S450000x62_1_0_0_1_wf : ScatterDims.WF S50000x62 S450000x1 S450000x62 [1] [0] [0] 1
  dot_S2000x62_S62x128_S2000x128_1_0_0_1_n_n_wf : DotDims.WF S2000x62 S62x128 S2000x128 [1] [0] [0] [1] [] []
  dot_S2000x128_S128x128_S2000x128_1_0_0_1_n_n_wf : DotDims.WF S2000x128 S128x128 S2000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x62.size a ≤ S256x62.size a
  hwx3_1 : ∀ i : grid3.Coords, EltTy.bits .f32 = 32 ∨ (Rect.block (s := S256x62) S256x62.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x62.size a ≤ S1x62.size a
  hwx3_2 : ∀ i : grid3.Coords, EltTy.bits .f32 = 32 ∨ (Rect.block (s := S1x62) S1x62.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x62.size a ≤ S50000x62.size a
  hwx3_3 : ∀ i : grid3.Coords, EltTy.bits .f32 = 32 ∨ (Rect.block (s := S50000x62) S2000x62.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x62.size a ≤ S50000x62.size a
  hwx4_0 : ∀ i : grid4.Coords, EltTy.bits .f32 = 32 ∨ (Rect.block (s := S50000x62) S2000x62.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S62x62.size a ≤ S62x62.size a
  hwx4_1 : ∀ i : grid4.Coords, EltTy.bits .f32 = 32 ∨ (Rect.block (s := S62x62) S62x62.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x62.size a ≤ S1x62.size a
  hwx4_2 : ∀ i : grid4.Coords, EltTy.bits .f32 = 32 ∨ (Rect.block (s := S1x62) S1x62.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x62.size a ≤ S50000x62.size a
  hwx4_3 : ∀ i : grid4.Coords, EltTy.bits .f32 = 32 ∨ (Rect.block (s := S50000x62) S2000x62.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x62.size a ≤ S50000x62.size a
  hwx5_0 : ∀ i : grid5.Coords, EltTy.bits .f32 = 32 ∨ (Rect.block (s := S50000x62) S2000x62.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x62.size a ≤ S50000x62.size a
  hwx5_1 : ∀ i : grid5.Coords, EltTy.bits .f32 = 32 ∨ (Rect.block (s := S50000x62) S2000x62.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x62.size a ≤ S1x62.size a
  hwx5_2 : ∀ i : grid5.Coords, EltTy.bits .f32 = 32 ∨ (Rect.block (s := S1x62) S1x62.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x62.size a ≤ S50000x62.size a
  hwx5_3 : ∀ i : grid5.Coords, EltTy.bits .f32 = 32 ∨ (Rect.block (s := S50000x62) S2000x62.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x62.size a ≤ S50000x62.size a
  hwx6_0 : ∀ i : grid6.Coords, EltTy.bits .f32 = 32 ∨ (Rect.block (s := S50000x62) S2000x62.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S62x128.size a ≤ S62x128.size a
  hwx6_1 : ∀ i : grid6.Coords, EltTy.bits .f32 = 32 ∨ (Rect.block (s := S62x128) S62x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x128.size a ≤ S50000x128.size a
  hwx9_3 : ∀ i : grid9.Coords, EltTy.bits .f32 = 32 ∨ (Rect.block (s := S50000x128) S2000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S50000x128.size a
  hwx10_1 : ∀ i : grid10.Coords, EltTy.bits .f32 = 32 ∨ (Rect.block (s := S50000x128) S2000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S50000x128.size a
  hwx10_3 : ∀ i : grid10.Coords, EltTy.bits .f32 = 32 ∨ (Rect.block (s := S50000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S50000x128.size a
  hwx11_3 : ∀ i : grid11.Coords, EltTy.bits .f32 = 32 ∨ (Rect.block (s := S50000x128) S2000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x128.size a ≤ S50000x128.size a
  hwx12_1 : ∀ i : grid12.Coords, EltTy.bits .f32 = 32 ∨ (Rect.block (s := S50000x128) S2000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S50000x128.size a
  hwx12_3 : ∀ i : grid12.Coords, EltTy.bits .f32 = 32 ∨ (Rect.block (s := S50000x128) S2000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S50000x128.size a
  hwx13_3 : ∀ i : grid13.Coords, EltTy.bits .f32 = 32 ∨ (Rect.block (s := S50000x128) S2000x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S50000x128.size a
  hwx14_0 : ∀ i : grid14.Coords, EltTy.bits .f32 = 32 ∨ (Rect.block (s := S50000x128) S2000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x128.size a ≤ S50000x128.size a
  hwx14_1 : ∀ i : grid14.Coords, EltTy.bits .f32 = 32 ∨ (Rect.block (s := S50000x128) S2000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x128.size a ≤ S50000x128.size a
  hwx14_3 : ∀ i : grid14.Coords, EltTy.bits .f32 = 32 ∨ (Rect.block (s := S50000x128) S2000x128.size (cc14_transform_3 i) (hinb14_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S2000x256_S256x62_S2000x62_1_0_0_1_n_n : DotDims S2000x256 S256x62 S2000x62 where
  lhsContracting := [1]
  rhsContracting := [0]
  lhsNonContracting := [0]
  rhsNonContracting := [1]
  lhsBatch := []
  rhsBatch := []
  wf := dot_S2000x256_S256x62_S2000x62_1_0_0_1_n_n_wf
def dot_S2000x62_S62x62_S2000x62_1_0_0_1_n_n : DotDims S2000x62 S62x62 S2000x62 where
  lhsContracting := [1]
  rhsContracting := [0]
  lhsNonContracting := [0]
  rhsNonContracting := [1]
  lhsBatch := []
  rhsBatch := []
  wf := dot_S2000x62_S62x62_S2000x62_1_0_0_1_n_n_wf
def gather_S50000x62_S450000x1_S450000x62_1_0_n_n_0_1_162 : GatherDims S50000x62 S450000x1 S450000x62 where
  offsetDims := [1]
  collapsedSliceDims := [0]
  operandBatchingDims := []
  startIndicesBatchingDims := []
  startIndexMap := [0]
  indexVectorDim := 1
  sliceSizes := ![1, 62]
  wf := gather_S50000x62_S450000x1_S450000x62_1_0_n_n_0_1_162_wf
def scatter_S50000x62_S450000x1_S450000x62_1_0_0_1 : ScatterDims S50000x62 S450000x1 S450000x62 where
  updateWindowDims := [1]
  insertedWindowDims := [0]
  scatterDimsToOperandDims := [0]
  indexVectorDim := 1
  wf := scatter_S50000x62_S450000x1_S450000x62_1_0_0_1_wf
def dot_S2000x62_S62x128_S2000x128_1_0_0_1_n_n : DotDims S2000x62 S62x128 S2000x128 where
  lhsContracting := [1]
  rhsContracting := [0]
  lhsNonContracting := [0]
  rhsNonContracting := [1]
  lhsBatch := []
  rhsBatch := []
  wf := dot_S2000x62_S62x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x62.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x62.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S2000x62.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v53) S2000x62.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S62x62.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x62.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S2000x62.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v53) S2000x62.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S2000x62.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x62.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S2000x62.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v71) S2000x62.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S62x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v72) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v73) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v75) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v76) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v73) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v89) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v90) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v91) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v91) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v93) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v94) S2000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v91) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v107) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v108) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v109) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v109) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg16) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v111) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v112) S2000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v109) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v125) S2000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v126) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v127) S2000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v127) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg18) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v129) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v130) S2000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v127) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v143) S2000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v144) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v145) S2000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x256 : Shape := ⟨2, ![512, 256]⟩
abbrev S256 : Shape := ⟨1, ![256]⟩
abbrev S256x62 : Shape := ⟨2, ![256, 62]⟩
abbrev S62 : Shape := ⟨1, ![62]⟩
abbrev S62x128 : Shape := ⟨2, ![62, 128]⟩
abbrev S128 : Shape := ⟨1, ![128]⟩
abbrev S256x256 : Shape := ⟨2, ![256, 256]⟩
abbrev S62x62 : Shape := ⟨2, ![62, 62]⟩
abbrev S128x128 : Shape := ⟨2, ![128, 128]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x256 : Shape := ⟨2, ![50000, 256]⟩
abbrev S1x256 : Shape := ⟨2, ![1, 256]⟩
abbrev S450000x256 : Shape := ⟨2, ![450000, 256]⟩
abbrev S50000x62 : Shape := ⟨2, ![50000, 62]⟩
abbrev S1x62 : Shape := ⟨2, ![1, 62]⟩
abbrev S450000x62 : Shape := ⟨2, ![450000, 62]⟩
abbrev S50000x128 : Shape := ⟨2, ![50000, 128]⟩
abbrev S1x128 : Shape := ⟨2, ![1, 128]⟩
abbrev S450000x128 : Shape := ⟨2, ![450000, 128]⟩

abbrev nBuf : Space → Nat
  | .hbm => 228
  | .vmem => 0
  | .smem => 0
  | _ => 0

abbrev hbmTy0_0 (i : Nat) : BufTy := match i % 128 with
  | 0 => ⟨S50000x512, .f32⟩
  | 1 => ⟨S2x400000, .i32⟩
  | 2 => ⟨S512x256, .f32⟩
  | 3 => ⟨S256, .f32⟩
  | 4 => ⟨S256x62, .f32⟩
  | 5 => ⟨S62, .f32⟩
  | 6 => ⟨S62x128, .f32⟩
  | 7 => ⟨S128, .f32⟩
  | 8 => ⟨S256x256, .f32⟩
  | 9 => ⟨S256, .f32⟩
  | 10 => ⟨S62x62, .f32⟩
  | 11 => ⟨S62, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S50000, .i32⟩
  | 21 => ⟨S1x400000, .i32⟩
  | 22 => ⟨S400000, .i32⟩
  | 23 => ⟨S450000, .i32⟩
  | 24 => ⟨S1x400000, .i32⟩
  | 25 => ⟨S400000, .i32⟩
  | 26 => ⟨S450000, .i32⟩
  | 27 => ⟨S_, .f32⟩
  | 28 => ⟨S450000, .f32⟩
  | 29 => ⟨S_, .f32⟩
  | 30 => ⟨S50000, .f32⟩
  | 31 => ⟨S450000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S450000, .i32⟩
  | 46 => ⟨S450000, .i1⟩
  | 47 => ⟨S_, .i32⟩
  | 48 => ⟨S450000, .i32⟩
  | 49 => ⟨S450000, .i32⟩
  | 50 => ⟨S450000, .i32⟩
  | 51 => ⟨S450000x1, .i32⟩
  | 52 => ⟨S450000, .f32⟩
  | 53 => ⟨S_, .i32⟩
  | 54 => ⟨S450000, .i32⟩
  | 55 => ⟨S450000, .i1⟩
  | 56 => ⟨S_, .i32⟩
  | 57 => ⟨S450000, .i32⟩
  | 58 => ⟨S450000, .i32⟩
  | 59 => ⟨S450000, .i32⟩
  | 60 => ⟨S450000x1, .i32⟩
  | 61 => ⟨S450000, .f32⟩
  | 62 => ⟨S450000, .f32⟩
  | 63 => ⟨S50000x256, .f32⟩
  | 64 => ⟨S1x256, .f32⟩
  | 65 => ⟨S50000x256, .f32⟩
  | 66 => ⟨S50000x256, .f32⟩
  | 67 => ⟨S50000x256, .f32⟩
  | 68 => ⟨S_, .i32⟩
  | 69 => ⟨S450000, .i32⟩
  | 70 => ⟨S450000, .i1⟩
  | 71 => ⟨S_, .i32⟩
  | 72 => ⟨S450000, .i32⟩
  | 73 => ⟨S450000, .i32⟩
  | 74 => ⟨S450000, .i32⟩
  | 75 => ⟨S450000x1, .i32⟩
  | 76 => ⟨S450000x256, .f32⟩
  | 77 => ⟨S450000x1, .f32⟩
  | 78 => ⟨S450000x256, .f32⟩
  | 79 => ⟨S450000x256, .f32⟩
  | 80 => ⟨S_, .f32⟩
  | 81 => ⟨S50000x256, .f32⟩
  | 82 => ⟨S450000x1, .i32⟩
  | 83 => ⟨S50000x256, .f32⟩
  | 84 => ⟨S1x256, .f32⟩
  | 85 => ⟨S50000x256, .f32⟩
  | 86 => ⟨S50000x256, .f32⟩
  | 87 => ⟨S_, .f32⟩
  | 88 => ⟨S50000x256, .f32⟩
  | 89 => ⟨S50000x256, .f32⟩
  | 90 => ⟨S50000x256, .f32⟩
  | 91 => ⟨S50000x62, .f32⟩
  | 92 => ⟨S1x62, .f32⟩
  | 93 => ⟨S50000x62, .f32⟩
  | 94 => ⟨S50000x62, .f32⟩
  | 95 => ⟨S50000x62, .f32⟩
  | 96 => ⟨S_, .i32⟩
  | 97 => ⟨S450000, .i32⟩
  | 98 => ⟨S450000, .i1⟩
  | 99 => ⟨S_, .i32⟩
  | 100 => ⟨S450000, .i32⟩
  | 101 => ⟨S450000, .i32⟩
  | 102 => ⟨S450000, .i32⟩
  | 103 => ⟨S450000x1, .i32⟩
  | 104 => ⟨S450000x62, .f32⟩
  | 105 => ⟨S450000x1, .f32⟩
  | 106 => ⟨S450000x62, .f32⟩
  | 107 => ⟨S450000x62, .f32⟩
  | 108 => ⟨S_, .f32⟩
  | 109 => ⟨S50000x62, .f32⟩
  | 110 => ⟨S450000x1, .i32⟩
  | 111 => ⟨S50000x62, .f32⟩
  | 112 => ⟨S1x62, .f32⟩
  | 113 => ⟨S50000x62, .f32⟩
  | 114 => ⟨S50000x62, .f32⟩
  | 115 => ⟨S_, .f32⟩
  | 116 => ⟨S50000x62, .f32⟩
  | 117 => ⟨S50000x62, .f32⟩
  | 118 => ⟨S50000x62, .f32⟩
  | 119 => ⟨S50000x128, .f32⟩
  | 120 => ⟨S1x128, .f32⟩
  | 121 => ⟨S50000x128, .f32⟩
  | 122 => ⟨S50000x128, .f32⟩
  | 123 => ⟨S50000x128, .f32⟩
  | 124 => ⟨S_, .i32⟩
  | 125 => ⟨S450000, .i32⟩
  | 126 => ⟨S450000, .i1⟩
  | 127 => ⟨S_, .i32⟩
  | _ => ⟨S50000x512, .f32⟩

abbrev hbmTy0_1 (i : Nat) : BufTy := match i % 128 with
  | 0 => ⟨S450000, .i32⟩
  | 1 => ⟨S450000, .i32⟩
  | 2 => ⟨S450000, .i32⟩
  | 3 => ⟨S450000x1, .i32⟩
  | 4 => ⟨S450000x128, .f32⟩
  | 5 => ⟨S450000x1, .f32⟩
  | 6 => ⟨S450000x128, .f32⟩
  | 7 => ⟨S450000x128, .f32⟩
  | 8 => ⟨S_, .f32⟩
  | 9 => ⟨S50000x128, .f32⟩
  | 10 => ⟨S450000x1, .i32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S50000x128, .f32⟩
  | 23 => ⟨S_, .i32⟩
  | 24 => ⟨S450000, .i32⟩
  | 25 => ⟨S450000, .i1⟩
  | 26 => ⟨S_, .i32⟩
  | 27 => ⟨S450000, .i32⟩
  | 28 => ⟨S450000, .i32⟩
  | 29 => ⟨S450000, .i32⟩
  | 30 => ⟨S450000x1, .i32⟩
  | 31 => ⟨S450000x128, .f32⟩
  | 32 => ⟨S450000x1, .f32⟩
  | 33 => ⟨S450000x128, .f32⟩
  | 34 => ⟨S450000x128, .f32⟩
  | 35 => ⟨S_, .f32⟩
  | 36 => ⟨S50000x128, .f32⟩
  | 37 => ⟨S450000x1, .i32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S50000x128, .f32⟩
  | 50 => ⟨S_, .i32⟩
  | 51 => ⟨S450000, .i32⟩
  | 52 => ⟨S450000, .i1⟩
  | 53 => ⟨S_, .i32⟩
  | 54 => ⟨S450000, .i32⟩
  | 55 => ⟨S450000, .i32⟩
  | 56 => ⟨S450000, .i32⟩
  | 57 => ⟨S450000x1, .i32⟩
  | 58 => ⟨S450000x128, .f32⟩
  | 59 => ⟨S450000x1, .f32⟩
  | 60 => ⟨S450000x128, .f32⟩
  | 61 => ⟨S450000x128, .f32⟩
  | 62 => ⟨S_, .f32⟩
  | 63 => ⟨S50000x128, .f32⟩
  | 64 => ⟨S450000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000x128, .f32⟩
  | 77 => ⟨S_, .i32⟩
  | 78 => ⟨S450000, .i32⟩
  | 79 => ⟨S450000, .i1⟩
  | 80 => ⟨S_, .i32⟩
  | 81 => ⟨S450000, .i32⟩
  | 82 => ⟨S450000, .i32⟩
  | 83 => ⟨S450000, .i32⟩
  | 84 => ⟨S450000x1, .i32⟩
  | 85 => ⟨S450000x128, .f32⟩
  | 86 => ⟨S450000x1, .f32⟩
  | 87 => ⟨S450000x128, .f32⟩
  | 88 => ⟨S450000x128, .f32⟩
  | 89 => ⟨S_, .f32⟩
  | 90 => ⟨S50000x128, .f32⟩
  | 91 => ⟨S450000x1, .i32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v38 : Ref sig .tc := ⟨.hbm, 70, rfl⟩
abbrev main_c_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call1_cst : Ref sig .tc := ⟨.hbm, 87, rfl⟩
abbrev main_call1_v0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_10 : Ref sig .tc := ⟨.hbm, 96, rfl⟩
abbrev main_v60 : Ref sig .tc := ⟨.hbm, 97, rfl⟩
abbrev main_v61 : Ref sig .tc := ⟨.hbm, 98, rfl⟩
abbrev main_c_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_12 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call2_cst : Ref sig .tc := ⟨.hbm, 115, rfl⟩
abbrev main_call2_v0 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_13 : Ref sig .tc := ⟨.hbm, 124, rfl⟩
abbrev main_v83 : Ref sig .tc := ⟨.hbm, 125, rfl⟩
abbrev main_v84 : Ref sig .tc := ⟨.hbm, 126, rfl⟩
abbrev main_c_14 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_15 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_call3_cst : Ref sig .tc := ⟨.hbm, 143, rfl⟩
abbrev main_call3_v0 : Ref sig .tc := ⟨.hbm, 144, rfl⟩
abbrev main_v99 : Ref sig .tc := ⟨.hbm, 145, rfl⟩
abbrev main_cst_16 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_17 : Ref sig .tc := ⟨.hbm, 151, rfl⟩
abbrev main_v104 : Ref sig .tc := ⟨.hbm, 152, rfl⟩
abbrev main_v105 : Ref sig .tc := ⟨.hbm, 153, rfl⟩
abbrev main_c_18 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_19 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_call4_cst : Ref sig .tc := ⟨.hbm, 170, rfl⟩
abbrev main_call4_v0 : Ref sig .tc := ⟨.hbm, 171, rfl⟩
abbrev main_v120 : Ref sig .tc := ⟨.hbm, 172, rfl⟩
abbrev main_cst_20 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_21 : Ref sig .tc := ⟨.hbm, 178, rfl⟩
abbrev main_v125 : Ref sig .tc := ⟨.hbm, 179, rfl⟩
abbrev main_v126 : Ref sig .tc := ⟨.hbm, 180, rfl⟩
abbrev main_c_22 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_23 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_call5_cst : Ref sig .tc := ⟨.hbm, 197, rfl⟩
abbrev main_call5_v0 : Ref sig .tc := ⟨.hbm, 198, rfl⟩
abbrev main_v141 : Ref sig .tc := ⟨.hbm, 199, rfl⟩
abbrev main_cst_24 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_c_25 : Ref sig .tc := ⟨.hbm, 205, rfl⟩
abbrev main_v146 : Ref sig .tc := ⟨.hbm, 206, rfl⟩
abbrev main_v147 : Ref sig .tc := ⟨.hbm, 207, rfl⟩
abbrev main_c_26 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_cst_27 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_cst_28 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S62_S1x62_1 : S62.BroadcastsInDim S1x62 (![1] : Fin 1 → Fin S1x62.rank)
  bcast_S1x62_S50000x62_0_1 : S1x62.BroadcastsInDim S50000x62 (![0, 1] : Fin 2 → Fin S50000x62.rank)
  bcast_S450000x1_S450000x62_0_1 : S450000x1.BroadcastsInDim S450000x62 (![0, 1] : Fin 2 → Fin S450000x62.rank)
  bcast_S_S50000x62 : S_.BroadcastsInDim S50000x62 (![] : Fin 0 → Fin S50000x62.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x62_S50000x62_1_0_0_1_n_n_wf : DotDims.WF S50000x256 S256x62 S50000x62 [1] [0] [0] [1] [] []
  dot_S50000x62_S62x62_S50000x62_1_0_0_1_n_n_wf : DotDims.WF S50000x62 S62x62 S50000x62 [1] [0] [0] [1] [] []
  gather_S50000x62_S450000x1_S450000x62_1_0_n_n_0_1_162_wf : GatherDims.WF S50000x62 S450000x1 S450000x62 [1] [0] [] [0] [] 1 ![1, 62]
  scatter_S50000x62_S450000x1_S450000x62_1_0_0_1_wf : ScatterDims.WF S50000x62 S450000x1 S450000x62 [1] [0] [0] 1
  dot_S50000x62_S62x128_S50000x128_1_0_0_1_n_n_wf : DotDims.WF S50000x62 S62x128 S50000x128 [1] [0] [0] [1] [] []
  dot_S50000x128_S128x128_S50000x128_1_0_0_1_n_n_wf : DotDims.WF S50000x128 S128x128 S50000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x62_S50000x62_1_0_0_1_n_n : DotDims S50000x256 S256x62 S50000x62 where
  lhsContracting := [1]
  rhsContracting := [0]
  lhsNonContracting := [0]
  rhsNonContracting := [1]
  lhsBatch := []
  rhsBatch := []
  wf := dot_S50000x256_S256x62_S50000x62_1_0_0_1_n_n_wf
def dot_S50000x62_S62x62_S50000x62_1_0_0_1_n_n : DotDims S50000x62 S62x62 S50000x62 where
  lhsContracting := [1]
  rhsContracting := [0]
  lhsNonContracting := [0]
  rhsNonContracting := [1]
  lhsBatch := []
  rhsBatch := []
  wf := dot_S50000x62_S62x62_S50000x62_1_0_0_1_n_n_wf
def gather_S50000x62_S450000x1_S450000x62_1_0_n_n_0_1_162 : GatherDims S50000x62 S450000x1 S450000x62 where
  offsetDims := [1]
  collapsedSliceDims := [0]
  operandBatchingDims := []
  startIndicesBatchingDims := []
  startIndexMap := [0]
  indexVectorDim := 1
  sliceSizes := ![1, 62]
  wf := gather_S50000x62_S450000x1_S450000x62_1_0_n_n_0_1_162_wf
def scatter_S50000x62_S450000x1_S450000x62_1_0_0_1 : ScatterDims S50000x62 S450000x1 S450000x62 where
  updateWindowDims := [1]
  insertedWindowDims := [0]
  scatterDimsToOperandDims := [0]
  indexVectorDim := 1
  wf := scatter_S50000x62_S450000x1_S450000x62_1_0_0_1_wf
def dot_S50000x62_S62x128_S50000x128_1_0_0_1_n_n : DotDims S50000x62 S62x128 S50000x128 where
  lhsContracting := [1]
  rhsContracting := [0]
  lhsNonContracting := [0]
  rhsNonContracting := [1]
  lhsBatch := []
  rhsBatch := []
  wf := dot_S50000x62_S62x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf

class Facts : Prop extends Facts₀ where

variable [Facts]
-- ==== Proof.KRun.lean ====
/-
  The idealized kernel's run with its result named.  @main is thirty-two segments: sixteen stretches of host
  operations and fifteen pallas_calls between them.  The buffer contents at each boundary are a fold from the launch
  memory (a stretch applies its operations; a pallas_call replaces its output array by what its write-backs leave and
  keeps every other buffer).  Every weakly fair execution terminates with each unscoped buffer at the last boundary's
  contents; read at the result buffer this is the last pallas_call's output array, and read at an argument it is the
  launch contents, since no segment writes an argument.
-/
import proofs.«147497_j34437047780015_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v145) = W32 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h c =>
      ⟨h c _ (mem_uc main_v145 (by decide)),
       (h c _ (mem_uc main_arg0 (by decide))).trans (W32_main_arg0 m ρ c),
       (h c _ (mem_uc main_arg1 (by decide))).trans (W32_main_arg1 m ρ c),
       (h c _ (mem_uc main_arg2 (by decide))).trans (W32_main_arg2 m ρ c),
       (h c _ (mem_uc main_arg3 (by decide))).trans (W32_main_arg3 m ρ c),
       (h c _ (mem_uc main_arg4 (by decide))).trans (W32_main_arg4 m ρ c),
       (h c _ (mem_uc main_arg5 (by decide))).trans (W32_main_arg5 m ρ c),
       (h c _ (mem_uc main_arg6 (by decide))).trans (W32_main_arg6 m ρ c),
       (h c _ (mem_uc main_arg7 (by decide))).trans (W32_main_arg7 m ρ c),
       (h c _ (mem_uc main_arg8 (by decide))).trans (W32_main_arg8 m ρ c),
       (h c _ (mem_uc main_arg9 (by decide))).trans (W32_main_arg9 m ρ c),
       (h c _ (mem_uc main_arg10 (by decide))).trans (W32_main_arg10 m ρ c),
       (h c _ (mem_uc main_arg11 (by decide))).trans (W32_main_arg11 m ρ c),
       (h c _ (mem_uc main_arg12 (by decide))).trans (W32_main_arg12 m ρ c),
       (h c _ (mem_uc main_arg13 (by decide))).trans (W32_main_arg13 m ρ c),
       (h c _ (mem_uc main_arg14 (by decide))).trans (W32_main_arg14 m ρ c),
       (h c _ (mem_uc main_arg15 (by decide))).trans (W32_main_arg15 m ρ c),
       (h c _ (mem_uc main_arg16 (by decide))).trans (W32_main_arg16 m ρ c),
       (h c _ (mem_uc main_arg17 (by decide))).trans (W32_main_arg17 m ρ c),
       (h c _ (mem_uc main_arg18 (by decide))).trans (W32_main_arg18 m ρ c),
       (h c _ (mem_uc main_arg19 (by decide))).trans (W32_main_arg19 m ρ c)⟩)

end Cert.KernelIdeal.RunValue

end
-- ==== Proof.Keep.lean ====
/-
  A stretch of host operations leaves every buffer it does not write: the contents after the stretch, read at a
  buffer outside the stretch's list of written buffers, are the contents before it.  One statement per stretch of
  @main, over any such buffer.
-/
import proofs.«147497_j34437047780015_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers `hostOps0` writes. -/
abbrev wr_hostOps0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]

theorem hostOps0_keep (c : Dev nD) (b : Ref sig .tc) (hb : b ∉ wr_hostOps0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps0_1` writes. -/
abbrev wr_hostOps0_1 : List (Ref sig .tc) := [main_call0_v0, main_call0_v1, main_v16]

theorem hostOps0_1_keep (c : Dev nD) (b : Ref sig .tc) (hb : b ∉ wr_hostOps0_1) :
    W2 m ρ c (Proc.devRef .tc b) = W1 m ρ c (Proc.devRef .tc b) :=
  StableHlo.after_of_forall_not_mem (b := Proc.devRef .tc b) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps0_2` writes. -/
abbrev wr_hostOps0_2 : List (Ref sig .tc) := [main_c, main_v17, main_v18, main_c_4, main_v19, main_v20, main_v21, main_v22, main_v23, main_c_5, main_v24, main_v25, main_c_6, main_v26, main_v27, main_v28, main_v29, main_v30, main_v31, main_v32]

theorem hostOps0_2_keep (c : Dev nD) (b : Ref sig .tc) (hb : b ∉ wr_hostOps0_2) :
    W3 m ρ c (Proc.devRef .tc b) = W2 m ρ c (Proc.devRef .tc b) :=
  StableHlo.after_of_forall_not_mem (b := Proc.devRef .tc b) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps1` writes. -/
abbrev wr_hostOps1 : List (Ref sig .tc) := [main_cst_7, main_v34, main_v35]

theorem hostOps1_keep (c : Dev nD) (b : Ref sig .tc) (hb : b ∉ wr_hostOps1) :
    W5 m ρ c (Proc.devRef .tc b) = W4 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps2` writes. -/
abbrev wr_hostOps2 : List (Ref sig .tc) := [main_c_8, main_v37, main_v38, main_c_9, main_v39, main_v40, main_v41, main_v42, main_v43, main_v44, main_v45, main_v46, main_cst_10, main_v47, main_v48, main_v49, main_v50]

theorem hostOps2_keep (c : Dev nD) (b : Ref sig .tc) (hb : b ∉ wr_hostOps2) :
    W7 m ρ c (Proc.devRef .tc b) = W6 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps3` writes. -/
abbrev wr_hostOps3 : List (Ref sig .tc) := [main_v52]

theorem hostOps3_keep (c : Dev nD) (b : Ref sig .tc) (hb : b ∉ wr_hostOps3) :
    W9 m ρ c (Proc.devRef .tc b) = W8 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps4` writes. -/
abbrev wr_hostOps4 : List (Ref sig .tc) := [main_cst_11, main_v54, main_v55]

theorem hostOps4_keep (c : Dev nD) (b : Ref sig .tc) (hb : b ∉ wr_hostOps4) :
    W11 m ρ c (Proc.devRef .tc b) = W10 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps5` writes. -/
abbrev wr_hostOps5 : List (Ref sig .tc) := [main_c_12, main_v57, main_v58, main_c_13, main_v59, main_v60, main_v61, main_v62, main_v63, main_v64, main_v65, main_v66, main_cst_14, main_v67, main_v68, main_v69, main_v70]

theorem hostOps5_keep (c : Dev nD) (b : Ref sig .tc) (hb : b ∉ wr_hostOps5) :
    W13 m ρ c (Proc.devRef .tc b) = W12 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps6` writes. -/
abbrev wr_hostOps6 : List (Ref sig .tc) := [main_v72]

theorem hostOps6_keep (c : Dev nD) (b : Ref sig .tc) (hb : b ∉ wr_hostOps6) :
    W15 m ρ c (Proc.devRef .tc b) = W14 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps7` writes. -/
abbrev wr_hostOps7 : List (Ref sig .tc) := [main_cst_15, main_v74, main_v75]

theorem hostOps7_keep (c : Dev nD) (b : Ref sig .tc) (hb : b ∉ wr_hostOps7) :
    W17 m ρ c (Proc.devRef .tc b) = W16 m ρ c (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps8` writes. -/
abbrev wr_hostOps8 : List (Ref sig .tc) := [main_c_16, main_v77, main_v78, main_c_17, main_v79, main_v80, main_v81, main_v82, main_v83, main_v84, main_v85, main_v86, main_cst_18, main_v87, main_v88, main_v89, main_v90]

theorem hostOps8_keep (c : Dev nD) (b : Ref sig .tc) (hb : b ∉ wr_hostOps8) :
    W19 m ρ c (Proc.devRef .tc b) = W18 m ρ c (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps9` writes. -/
abbrev wr_hostOps9 : List (Ref sig .tc) := [main_cst_19, main_v92, main_v93]

theorem hostOps9_keep (c : Dev nD) (b : Ref sig .tc) (hb : b ∉ wr_hostOps9) :
    W21 m ρ c (Proc.devRef .tc b) = W20 m ρ c (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps10` writes. -/
abbrev wr_hostOps10 : List (Ref sig .tc) := [main_c_20, main_v95, main_v96, main_c_21, main_v97, main_v98, main_v99, main_v100, main_v101, main_v102, main_v103, main_v104, main_cst_22, main_v105, main_v106, main_v107, main_v108]

theorem hostOps10_keep (c : Dev nD) (b : Ref sig .tc) (hb : b ∉ wr_hostOps10) :
    W23 m ρ c (Proc.devRef .tc b) = W22 m ρ c (Proc.devRef .tc b) :=
  StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps11` writes. -/
abbrev wr_hostOps11 : List (Ref sig .tc) := [main_cst_23, main_v110, main_v111]

theorem hostOps11_keep (c : Dev nD) (b : Ref sig .tc) (hb : b ∉ wr_hostOps11) :
    W25 m ρ c (Proc.devRef .tc b) = W24 m ρ c (Proc.devRef .tc b) :=
  StableHlo.after_of_forall_not_mem (b := Proc.devRef .tc b) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps12` writes. -/
abbrev wr_hostOps12 : List (Ref sig .tc) := [main_c_24, main_v113, main_v114, main_c_25, main_v115, main_v116, main_v117, main_v118, main_v119, main_v120, main_v121, main_v122, main_cst_26, main_v123, main_v124, main_v125, main_v126]

theorem hostOps12_keep (c : Dev nD) (b : Ref sig .tc) (hb : b ∉ wr_hostOps12) :
    W27 m ρ c (Proc.devRef .tc b) = W26 m ρ c (Proc.devRef .tc b) :=
  StableHlo.after_of_forall_not_mem (b := Proc.devRef .tc b) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps13` writes. -/
abbrev wr_hostOps13 : List (Ref sig .tc) := [main_cst_27, main_v128, main_v129]

theorem hostOps13_keep (c : Dev nD) (b : Ref sig .tc) (hb : b ∉ wr_hostOps13) :
    W29 m ρ c (Proc.devRef .tc b) = W28 m ρ c (Proc.devRef .tc b) :=
  StableHlo.after_of_forall_not_mem (b := Proc.devRef .tc b) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

/-- The buffers `hostOps14` writes. -/
abbrev wr_hostOps14 : List (Ref sig .tc) := [main_c_28, main_v131, main_v132, main_c_29, main_v133, main_v134, main_v135, main_v136, main_v137, main_v138, main_v139, main_v140, main_cst_30, main_v141, main_v142, main_v143, main_v144]

theorem hostOps14_keep (c : Dev nD) (b : Ref sig .tc) (hb : b ∉ wr_hostOps14) :
    W31 m ρ c (Proc.devRef .tc b) = W30 m ρ c (Proc.devRef .tc b) :=
  StableHlo.after_of_forall_not_mem (b := Proc.devRef .tc b) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; simp))))

end Cert.KernelIdeal.Keep

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.LibHostSsa.lean ====
/-
  A line of host operations in which every buffer is written once, read as a system of equations.

  When each operation of a line writes one buffer of its own and no later operation writes that buffer again, what the
  buffer holds after the WHOLE line is the operation's function of what its operand buffers hold after the WHOLE line:
  an operand is written, if at all, before the operation, so the line's later operations leave it alone.  Each lemma
  below states this for one kind of operation, the k-th of the line; the side conditions are that the result buffer is
  not among the buffers written after place k, and that no operand is among the buffers written from place k on.
-/
import proofs.«147497_j34437047780015_1_alg».proof.Proof.LibHostRead

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}

/-- A constant: after the line the buffer holds it. -/
theorem nullary_at (h : Outs l ys) (V : Valuation τ sig Val) (k : Nat) (y : Ref sig .tc) (v : y.ty.Contents Val) (hy)
    (hk : l[k]? = some (nullary y v hy)) (hy' : y ∉ ys.drop (k + 1)) :
    after l V (Proc.devRef .tc y) = v := by
  rw [after_at h k _ y hk hy' V, nullary_result]

/-- A one-operand operation. -/
theorem unary_at (h : Outs l ys) (V : Valuation τ sig Val) (k : Nat) (x y : Ref sig .tc)
    (f : x.ty.Contents Val → y.ty.Contents Val) (hx hy)
    (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- A reshape. -/
theorem reshape_at (h : Outs l ys) (V : Valuation τ sig Val) (k : Nat) (x y : Ref sig .tc) (he hn hx hy)
    (hk : l[k]? = some (reshape (Val := Val) x y he hn hx hy)) (hy' : y ∉ ys.drop (k + 1)) (hx' : x ∉ ys.drop k) :
    after l V (Proc.devRef .tc y) = fun i => he ▸ shapeCast y.ty.shape (after l V (Proc.devRef .tc x)) hn i := by
  rw [after_at h k _ y hk hy' V, reshape_result, after_take h k x hx' V]

/-- A two-operand operation. -/
theorem binary_at (h : Outs l ys) (V : Valuation τ sig Val) (k : Nat) (a b y : Ref sig .tc)
    (f : a.ty.Contents Val → b.ty.Contents Val → y.ty.Contents Val) (ha hb hy)
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- A three-operand operation. -/
theorem ternary_at (h : Outs l ys) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ ys.drop (k + 1))
    (hc' : c ∉ ys.drop k) (ha' : a ∉ ys.drop k) (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

end HostRead
-- ==== Proof.LibHostOnce.lean ====
/-
  A line of host operations in which every buffer is written once: the side conditions, from the list of written
  buffers having no repetition.

  When the buffers a line writes are all different, the buffer written at place k is not written after place k, and a
  buffer written at an earlier place j < k is not written from place k on; a buffer the line never writes is not written
  from any place on. Also here: an operation of any number of operands read as an equation between the buffers' contents
  after the whole line, and the written-buffer lists of two lines run one after the other.
-/
import proofs.«147497_j34437047780015_1_alg».proof.Proof.LibHostSsa
import Mathlib.Data.List.Nodup

namespace HostRead

open Idealize.ShloMosaic Idealize.ShloMosaic.StableHlo Idealize.ShloMosaic.TcCoe

/-- In a list without repetition, the entry at place j does not occur from a later place k on. -/
theorem not_mem_drop_of_lt {α : Type*} {ys : List α} (h : ys.Nodup) {j k : Nat} {x : α} (hj : ys[j]? = some x) (hjk : j < k) :
    x ∉ ys.drop k := by
  intro hx
  obtain ⟨i, hi⟩ := List.mem_iff_getElem?.mp hx
  rw [List.getElem?_drop] at hi
  have hlt : k + i < ys.length := by
    by_contra hge
    rw [List.getElem?_eq_none (Nat.le_of_not_lt hge)] at hi
    cases hi
  exact (List.nodup_iff_getElem?_ne_getElem?.mp h) j (k + i) (by omega) hlt (hj.trans hi.symm)

variable {sig : RefSig} {τ : Topo} {Val : EltTy → Type}

/-- Two lines, each writing its listed buffers, run one after the other write the two lists in turn. -/
theorem outs_append {l₁ l₂ : List (HloOp τ sig Val)} {y₁ y₂ : List (Ref sig .tc)} (h₁ : Outs l₁ y₁) (h₂ : Outs l₂ y₂) :
    Outs (l₁ ++ l₂) (y₁ ++ y₂) := by
  induction h₁ with
  | nil => exact h₂
  | cons hw _ ih => exact List.Forall₂.cons hw ih

variable {l : List (HloOp τ sig Val)} {ys : List (Ref sig .tc)}

/-- An operation of any number of operands. -/
theorem nary_at (h : Outs l ys) (V : Valuation τ sig Val) (k : Nat) {n : Nat} (xs : Fin n → Ref sig .tc) (y : Ref sig .tc)
    (f : ((i : Fin n) → (xs i).ty.Contents Val) → y.ty.Contents Val) (hxs hy)
    (hk : l[k]? = some (nary xs y f hxs hy)) (hy' : y ∉ ys.drop (k + 1)) (hx' : ∀ i, xs i ∉ ys.drop k) :
    after l V (Proc.devRef .tc y) = f (fun i => after l V (Proc.devRef .tc (xs i))) := by
  rw [after_at h k _ y hk hy' V, nary_result]
  exact congrArg f (funext fun i => (after_take h k (xs i) (hx' i) V).symm)

end HostRead
-- ==== Proof.LibHostTyped.lean ====
/-
  A line of host operations in which every buffer is written once: the operations of a module-local function.

  Such an operation names its buffers through typed references and moves contents between a buffer's own type and the
  value's type along the equation of the two. Read at the valuation after the whole line, the result buffer holds the
  operation's function of what its operand buffers hold — stated with heterogeneous equality, so that at literal
  references, where the two types coincide by computation, the transports never have to be opened.
-/
import proofs.«147497_j34437047780015_1_alg».proof.Proof.LibHostOnce

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}
variable {Tx Ta Tb Tc Ty : BufTy}

/-- A constant into a typed reference's buffer. -/
theorem tnullary_at (h : Outs l ys) (V : Valuation τ sig Val) (k : Nat) (y : TRef sig Ty) (v : Ty.Contents Val)
    (hk : l[k]? = some (TRef.nullary y v)) (hy' : y.ref ∉ ys.drop (k + 1)) :
    HEq (after l V (Proc.devRef .tc y.ref)) v := by
  rw [after_at h k _ y.ref hk hy' V]
  exact tnullary_heq y v _

/-- A one-operand operation over typed references. -/
theorem tunary_at (h : Outs l ys) (V : Valuation τ sig Val) (k : Nat) (x : TRef sig Tx) (y : TRef sig Ty)
    (f : Tx.Contents Val → Ty.Contents Val)
    (hk : l[k]? = some (TRef.unary x y f)) (hy' : y.ref ∉ ys.drop (k + 1)) (hx' : x.ref ∉ ys.drop k)
    (vx : Tx.Contents Val) (hx : HEq (after l V (Proc.devRef .tc x.ref)) vx) :
    HEq (after l V (Proc.devRef .tc y.ref)) (f vx) := by
  rw [after_at h k _ y.ref hk hy' V]
  exact tunary_heq x y f _ vx (by rw [← after_take h k x.ref hx' V]; exact hx)

/-- A two-operand operation over typed references. -/
theorem tbinary_at (h : Outs l ys) (V : Valuation τ sig Val) (k : Nat) (a : TRef sig Ta) (b : TRef sig Tb) (y : TRef sig Ty)
    (f : Ta.Contents Val → Tb.Contents Val → Ty.Contents Val)
    (hk : l[k]? = some (TRef.binary a b y f)) (hy' : y.ref ∉ ys.drop (k + 1)) (ha' : a.ref ∉ ys.drop k) (hb' : b.ref ∉ ys.drop k)
    (va : Ta.Contents Val) (vb : Tb.Contents Val)
    (ha : HEq (after l V (Proc.devRef .tc a.ref)) va) (hb : HEq (after l V (Proc.devRef .tc b.ref)) vb) :
    HEq (after l V (Proc.devRef .tc y.ref)) (f va vb) := by
  rw [after_at h k _ y.ref hk hy' V]
  exact tbinary_heq a b y f _ va vb (by rw [← after_take h k a.ref ha' V]; exact ha) (by rw [← after_take h k b.ref hb' V]; exact hb)

/-- A three-operand operation over typed references. -/
theorem tternary_at (h : Outs l ys) (V : Valuation τ sig Val) (k : Nat) (c : TRef sig Tc) (a : TRef sig Ta) (b : TRef sig Tb)
    (y : TRef sig Ty) (f : Tc.Contents Val → Ta.Contents Val → Tb.Contents Val → Ty.Contents Val)
    (hk : l[k]? = some (TRef.ternary c a b y f)) (hy' : y.ref ∉ ys.drop (k + 1))
    (hc' : c.ref ∉ ys.drop k) (ha' : a.ref ∉ ys.drop k) (hb' : b.ref ∉ ys.drop k)
    (vc : Tc.Contents Val) (va : Ta.Contents Val) (vb : Tb.Contents Val)
    (hc : HEq (after l V (Proc.devRef .tc c.ref)) vc) (ha : HEq (after l V (Proc.devRef .tc a.ref)) va)
    (hb : HEq (after l V (Proc.devRef .tc b.ref)) vb) :
    HEq (after l V (Proc.devRef .tc y.ref)) (f vc va vb) := by
  rw [after_at h k _ y.ref hk hy' V]
  exact tternary_heq c a b y f _ vc va vb (by rw [← after_take h k c.ref hc' V]; exact hc)
    (by rw [← after_take h k a.ref ha' V]; exact ha) (by rw [← after_take h k b.ref hb' V]; exact hb)

end HostRead
-- ==== Proof.Lin0.lean ====
/-
  Region 0: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin0

open Cert.KernelIdeal Cert.KernelIdeal.Gen
open Idealize.ShloMosaic Idealize.ShloMosaic.TcCoe Idealize.SL.Sem Idealize.ShloMosaic.ValueIdx

/-- The block product's dimension record. -/
abbrev D := dot_S2000x512_S512x256_S2000x256_1_0_0_1_n_n

/-- The output array as one function of the three input arrays. -/
def G (X : FVec Ideal S50000x512 .f32) (Wt : FVec Ideal S512x256 .f32) (B : FVec Ideal S1x256 .f32) : FVec Ideal S50000x256 .f32 :=
  fun i => (∑ k : Fin 512, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x256.Idx) (q : D.contr.Idx) : (D.lhsIdx i q 0).val = (i 0).val := by
  unfold DotDims.lhsIdx
  rw [dif_neg (show ¬(0 : Fin S2000x512.rank) ∈ D.lhsBatch by decide), dif_pos (show (0 : Fin S2000x512.rank) ∈ D.lhsNonContracting by decide)]
  rfl
theorem lhs1 (i : S2000x256.Idx) (q : D.contr.Idx) : (D.lhsIdx i q 1).val = (q ⟨0, by decide⟩).val :=
  D.lhsIdx_val_of_single rfl i q
theorem rhs0 (i : S2000x256.Idx) (q : D.contr.Idx) : (D.rhsIdx i q 0).val = (q ⟨0, by decide⟩).val :=
  D.rhsIdx_val_of_single rfl i q
theorem rhs1 (i : S2000x256.Idx) (q : D.contr.Idx) : (D.rhsIdx i q 1).val = (i 1).val := by
  unfold DotDims.rhsIdx
  rw [dif_neg (show ¬(1 : Fin S512x256.rank) ∈ D.rhsBatch by decide), dif_pos (show (1 : Fin S512x256.rank) ∈ D.rhsNonContracting by decide)]
  rfl

/-! ## The body's stored value at an index of its block -/

/-- At (p, q) the stored block is the row-p-times-column-q sum plus the bias at q. -/
theorem pay (x0 : FVec Ideal S2000x512 .f32) (x1 : FVec Ideal S512x256 .f32) (x2 : FVec Ideal S1x256 .f32) (p : Fin 2000) (q : Fin 256) :
    k0_pay1 x0 x1 x2 (ix2 p q) = (∑ k : Fin 512, x0 (ix2 p k) * x1 (ix2 k q)) + x2 (ix2 (0 : Fin 1) q) := by
  unfold k0_pay1
  refine (addf_apply _ _ _).trans ?_
  refine congrArg₂ (· + ·) ?_ ?_
  · refine (Ideal.matmul_constant_zero_apply D none _ _ _).trans ?_
    rw [← Equiv.sum_comp (contrEquiv1 D 512 rfl rfl).symm]
    refine Finset.sum_congr rfl fun k _ => ?_
    have hk := contrEquiv1_symm_val D 512 rfl rfl k
    have el : D.lhsIdx (ix2 p q) ((contrEquiv1 D 512 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 512 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's value on the blocks of point t, at j, is G at j's place in the array. -/
theorem block_eq (X : FVec Ideal S50000x512 .f32) (Wt : FVec Ideal S512x256 .f32) (B : FVec Ideal S1x256 .f32) (t : Fin cfg0.N) (j : S2000x256.Idx) :
    k0_pay1 (((cfg0.win 0).blk t).view.read (Elt Ideal) X) (((cfg0.win 1).blk t).view.read (Elt Ideal) Wt) (((cfg0.win 2).blk t).view.read (Elt Ideal) B) j
      = G X Wt B (((cfg0.win 3).blk t).view.emb j) := by
  obtain ⟨e00, e01, e10, e11, e20, e21, e30, e31⟩ := idx_facts t
  obtain ⟨p, q, rfl⟩ : ∃ (p : Fin 2000) (q : Fin 256), j = ix2 p q := ⟨j 0, j 1, eq_ix2 j⟩
  refine (pay _ _ _ p q).trans ?_
  show (∑ k : Fin 512, X (((cfg0.win 0).blk t).view.emb (ix2 p k)) * Wt (((cfg0.win 1).blk t).view.emb (ix2 k q)))
      + B (((cfg0.win 2).blk t).view.emb (ix2 (0 : Fin 1) q))
    = (∑ k : Fin 512, X (ix2 ((((cfg0.win 3).blk t).view.emb (ix2 p q)) 0) k) * Wt (ix2 k ((((cfg0.win 3).blk t).view.emb (ix2 p q)) 1)))
      + B (ix2 (0 : Fin 1) ((((cfg0.win 3).blk t).view.emb (ix2 p q)) 1))
  have h0 : ∀ k : Fin 512, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 512 + 1 * k.val = k.val; omega
  have h1 : ∀ k : Fin 512, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 512 + 1 * k.val = k.val; omega
    | ⟨1, _⟩ => show win0_1.index t (1 : Fin 2) * 256 + 1 * q.val = win0_3.index t (1 : Fin 2) * 256 + 1 * q.val; omega
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg0.N) :
    (dat0 V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x256) hz, View.ld_unit_zero (S := S1x256) hz]
  funext j
  exact block_eq _ _ _ t j

/-- An index of the array is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v33).slice (win0_3.rect t)).set ↔ _
  rw [View.set_slice_whole, Rect.mem_set_unit]
  exact Iff.rfl

/-- Row r lies in the block of point r / 2000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; omega⟩
  obtain ⟨e00, e01, e10, e11, e20, e21, e30, e31⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the region is G of the arrays the region was entered with. -/
theorem final (c : Dev nD) :
    (dat0 V c).arrAt 3 cfg0.N = G (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Lin0

end
-- ==== Proof.BLin0.lean ====
/-
  Region 0 against the reference: the reference's dot product over the whole arrays, plus its bias broadcast twice
  (a row, then every row), is the region's function of the same arrays, index by index.  At (r, q) both are
  Σ_k X(r, k) · W(k, q) + b(q): the reference's operand indices are (r, k) and (k, q), and the bias recast as a
  one-row array reads b(q) at (0, q).
-/
import proofs.«147497_j34437047780015_1_alg».proof.Proof.ReadP
import proofs.«147497_j34437047780015_1_alg».proof.Proof.Lin0
import Idealize.ShloMosaic.Lib.ValueLayout

set_option maxRecDepth 16384

noncomputable section

namespace Cert.Bridge.Lin0

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v35 (F := Ideal) x0 x2 x3
local notation "PREV" => x0
local notation "WT" => x2
local notation "BIAS" => x3

theorem eq : OUT = Cert.KernelIdeal.Lin0.G PREV WT (shapeCast S1x256 BIAS shapeCasts_S256_S1x256) := by
  funext i
  rw [val_main_v35_apply, val_main_v32_apply, val_main_v34_apply, val_main_v33_apply]
  unfold Cert.KernelIdeal.Lin0.G
  refine congrArg₂ (· + ·) (Finset.sum_congr rfl fun k _ => ?_) ?_
  · refine congrArg₂ (· * ·) (congrArg PREV ?_) (congrArg WT ?_)
    · funext a; match a with | ⟨0, _⟩ => rfl | ⟨1, _⟩ => rfl
    · funext a; match a with | ⟨0, _⟩ => rfl | ⟨1, _⟩ => rfl
  · refine Eq.trans ?_ (shapeCast_a_1a_apply BIAS _ (0 : Fin 1) (i 1)).symm
    exact congrArg BIAS (funext fun a => match a with | ⟨0, _⟩ => rfl)

end Cert.Bridge.Lin0

end
-- ==== Proof.Lin1.lean ====
/-
  Region 1: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin1

open Cert.KernelIdeal Cert.KernelIdeal.Gen
open Idealize.ShloMosaic Idealize.ShloMosaic.TcCoe Idealize.SL.Sem Idealize.ShloMosaic.ValueIdx

/-- The block product's dimension record. -/
abbrev D := dot_S2000x256_S256x256_S2000x256_1_0_0_1_n_n

/-- The output array as one function of the three input arrays. -/
def G (X : FVec Ideal S50000x256 .f32) (Wt : FVec Ideal S256x256 .f32) (B : FVec Ideal S1x256 .f32) : FVec Ideal S50000x256 .f32 :=
  fun i => (∑ k : Fin 256, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x256.Idx) (q : D.contr.Idx) : (D.lhsIdx i q 0).val = (i 0).val := by
  unfold DotDims.lhsIdx
  rw [dif_neg (show ¬(0 : Fin S2000x256.rank) ∈ D.lhsBatch by decide), dif_pos (show (0 : Fin S2000x256.rank) ∈ D.lhsNonContracting by decide)]
  rfl
theorem lhs1 (i : S2000x256.Idx) (q : D.contr.Idx) : (D.lhsIdx i q 1).val = (q ⟨0, by decide⟩).val :=
  D.lhsIdx_val_of_single rfl i q
theorem rhs0 (i : S2000x256.Idx) (q : D.contr.Idx) : (D.rhsIdx i q 0).val = (q ⟨0, by decide⟩).val :=
  D.rhsIdx_val_of_single rfl i q
theorem rhs1 (i : S2000x256.Idx) (q : D.contr.Idx) : (D.rhsIdx i q 1).val = (i 1).val := by
  unfold DotDims.rhsIdx
  rw [dif_neg (show ¬(1 : Fin S256x256.rank) ∈ D.rhsBatch by decide), dif_pos (show (1 : Fin S256x256.rank) ∈ D.rhsNonContracting by decide)]
  rfl

/-! ## The body's stored value at an index of its block -/

/-- At (p, q) the stored block is the row-p-times-column-q sum plus the bias at q. -/
theorem pay (x0 : FVec Ideal S2000x256 .f32) (x1 : FVec Ideal S256x256 .f32) (x2 : FVec Ideal S1x256 .f32) (p : Fin 2000) (q : Fin 256) :
    k1_pay1 x0 x1 x2 (ix2 p q) = (∑ k : Fin 256, x0 (ix2 p k) * x1 (ix2 k q)) + x2 (ix2 (0 : Fin 1) q) := by
  unfold k1_pay1
  refine (addf_apply _ _ _).trans ?_
  refine congrArg₂ (· + ·) ?_ ?_
  · refine (Ideal.matmul_constant_zero_apply D none _ _ _).trans ?_
    rw [← Equiv.sum_comp (contrEquiv1 D 256 rfl rfl).symm]
    refine Finset.sum_congr rfl fun k _ => ?_
    have hk := contrEquiv1_symm_val D 256 rfl rfl k
    have el : D.lhsIdx (ix2 p q) ((contrEquiv1 D 256 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 256 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's value on the blocks of point t, at j, is G at j's place in the array. -/
theorem block_eq (X : FVec Ideal S50000x256 .f32) (Wt : FVec Ideal S256x256 .f32) (B : FVec Ideal S1x256 .f32) (t : Fin cfg1.N) (j : S2000x256.Idx) :
    k1_pay1 (((cfg1.win 0).blk t).view.read (Elt Ideal) X) (((cfg1.win 1).blk t).view.read (Elt Ideal) Wt) (((cfg1.win 2).blk t).view.read (Elt Ideal) B) j
      = G X Wt B (((cfg1.win 3).blk t).view.emb j) := by
  obtain ⟨e00, e01, e10, e11, e20, e21, e30, e31⟩ := idx_facts t
  obtain ⟨p, q, rfl⟩ : ∃ (p : Fin 2000) (q : Fin 256), j = ix2 p q := ⟨j 0, j 1, eq_ix2 j⟩
  refine (pay _ _ _ p q).trans ?_
  show (∑ k : Fin 256, X (((cfg1.win 0).blk t).view.emb (ix2 p k)) * Wt (((cfg1.win 1).blk t).view.emb (ix2 k q)))
      + B (((cfg1.win 2).blk t).view.emb (ix2 (0 : Fin 1) q))
    = (∑ k : Fin 256, X (ix2 ((((cfg1.win 3).blk t).view.emb (ix2 p q)) 0) k) * Wt (ix2 k ((((cfg1.win 3).blk t).view.emb (ix2 p q)) 1)))
      + B (ix2 (0 : Fin 1) ((((cfg1.win 3).blk t).view.emb (ix2 p q)) 1))
  have h0 : ∀ k : Fin 256, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 256 + 1 * k.val = k.val; omega
  have h1 : ∀ k : Fin 256, ((cfg1.win 1).blk t).view.emb (ix2 k q) = ix2 k ((((cfg1.win 3).blk t).view.emb (ix2 p q)) 1) := fun k => by
    funext a; apply Fin.ext
    match a with
    | ⟨0, _⟩ => show win1_1.index t (0 : Fin 2) * 256 + 1 * k.val = k.val; omega
    | ⟨1, _⟩ => show win1_1.index t (1 : Fin 2) * 256 + 1 * q.val = win1_3.index t (1 : Fin 2) * 256 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg1.N) :
    (dat1 V c).flushed 3 t = ((cfg1.win 3).blk t).view.read (Elt Ideal)
      (G (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  funext j
  exact block_eq _ _ _ t j

/-- An index of the array is in point t's block iff each coordinate is in the block's range on its axis. -/
theorem mem_blk (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v36).slice (win1_3.rect t)).set ↔ _
  rw [View.set_slice_whole, Rect.mem_set_unit]
  exact Iff.rfl

/-- Row r lies in the block of point r / 2000. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : grid1.N = 25 := N_1
  let t : Fin cfg1.N := ⟨(i 0).val / 2000, by show (i 0).val / 2000 < grid1.N; omega⟩
  obtain ⟨e00, e01, e10, e11, e20, e21, e30, e31⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- The output array after the region is G of the arrays the region was entered with. -/
theorem final (c : Dev nD) :
    (dat1 V c).arrAt 3 cfg1.N = G (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.Lin1

end
-- ==== Proof.BLin1.lean ====
/-
  Region 1 against the reference: the region is entered with an all-zero bias row, and x + 0 = x on every extended
  real, so the region's function of (Y, W, zeros) is the reference's dot product of Y and W over the whole arrays.
  At (r, q) both are Σ_k Y(r, k) · W(k, q).
-/
import proofs.«147497_j34437047780015_1_alg».proof.Proof.ReadP
import proofs.«147497_j34437047780015_1_alg».proof.Proof.Lin1
import Idealize.ShloMosaic.Lib.ValueLayout
import Idealize.ShloMosaic.Lib.IdealHost

set_option maxRecDepth 16384

noncomputable section

namespace Cert.Bridge.Lin1

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v36 (F := Ideal) x0 x2 x3 x8
local notation "PREV" => val_main_v35 (F := Ideal) x0 x2 x3
local notation "WT" => x8

theorem eq (Z : FVec Ideal S1x256 .f32) (hZ : ∀ j, Z j = 0) : OUT = Cert.KernelIdeal.Lin1.G PREV WT Z := by
  funext i
  rw [val_main_v36_apply]
  unfold Cert.KernelIdeal.Lin1.G
  rw [hZ, add_zero]
  refine Finset.sum_congr rfl fun k _ => ?_
  refine congrArg₂ (· * ·) (congrArg PREV ?_) (congrArg WT ?_)
  · funext a; match a with | ⟨0, _⟩ => rfl | ⟨1, _⟩ => rfl
  · funext a; match a with | ⟨0, _⟩ => rfl | ⟨1, _⟩ => rfl

/-- The zero row the region is entered with: a zero constant broadcast to the bias's length and recast as one row. -/
theorem zero_row (j : S1x256.Idx) :
    shapeCast S1x256 (broadcastInDim S256 ![] bcast_S_S256 (constant (F := Ideal) S_ .f32 0x00000000#32)) shapeCasts_S256_S1x256 j = 0 :=
  Ideal.ofBits_zero_f32

end Cert.Bridge.Lin1

end
-- ==== Proof.Lin3.lean ====
/-
  Region 3: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin3

open Cert.KernelIdeal Cert.KernelIdeal.Gen
open Idealize.ShloMosaic Idealize.ShloMosaic.TcCoe Idealize.SL.Sem Idealize.ShloMosaic.ValueIdx

/-- The block product's dimension record. -/
abbrev D := dot_S2000x256_S256x62_S2000x62_1_0_0_1_n_n

/-- The output array as one function of the three input arrays. -/
def G (X : FVec Ideal S50000x256 .f32) (Wt : FVec Ideal S256x62 .f32) (B : FVec Ideal S1x62 .f32) : FVec Ideal S50000x62 .f32 :=
  fun i => (∑ k : Fin 256, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x62.Idx) (q : D.contr.Idx) : (D.lhsIdx i q 0).val = (i 0).val := by
  unfold DotDims.lhsIdx
  rw [dif_neg (show ¬(0 : Fin S2000x256.rank) ∈ D.lhsBatch by decide), dif_pos (show (0 : Fin S2000x256.rank) ∈ D.lhsNonContracting by decide)]
  rfl
theorem lhs1 (i : S2000x62.Idx) (q : D.contr.Idx) : (D.lhsIdx i q 1).val = (q ⟨0, by decide⟩).val :=
  D.lhsIdx_val_of_single rfl i q
theorem rhs0 (i : S2000x62.Idx) (q : D.contr.Idx) : (D.rhsIdx i q 0).val = (q ⟨0, by decide⟩).val :=
  D.rhsIdx_val_of_single rfl i q
theorem rhs1 (i : S2000x62.Idx) (q : D.contr.Idx) : (D.rhsIdx i q 1).val = (i 1).val := by
  unfold DotDims.rhsIdx
  rw [dif_neg (show ¬(1 : Fin S256x62.rank) ∈ D.rhsBatch by decide), dif_pos (show (1 : Fin S256x62.rank) ∈ D.rhsNonContracting by decide)]
  rfl

/-! ## The body's stored value at an index of its block -/

/-- At (p, q) the stored block is the row-p-times-column-q sum plus the bias at q. -/
theorem pay (x0 : FVec Ideal S2000x256 .f32) (x1 : FVec Ideal S256x62 .f32) (x2 : FVec Ideal S1x62 .f32) (p : Fin 2000) (q : Fin 62) :
    k3_pay1 x0 x1 x2 (ix2 p q) = (∑ k : Fin 256, x0 (ix2 p k) * x1 (ix2 k q)) + x2 (ix2 (0 : Fin 1) q) := by
  unfold k3_pay1
  refine (addf_apply _ _ _).trans ?_
  refine congrArg₂ (· + ·) ?_ ?_
  · refine (Ideal.matmul_constant_zero_apply D none _ _ _).trans ?_
    rw [← Equiv.sum_comp (contrEquiv1 D 256 rfl rfl).symm]
    refine Finset.sum_congr rfl fun k _ => ?_
    have hk := contrEquiv1_symm_val D 256 rfl rfl k
    have el : D.lhsIdx (ix2 p q) ((contrEquiv1 D 256 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 256 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's value on the blocks of point t, at j, is G at j's place in the array. -/
theorem block_eq (X : FVec Ideal S50000x256 .f32) (Wt : FVec Ideal S256x62 .f32) (B : FVec Ideal S1x62 .f32) (t : Fin cfg3.N) (j : S2000x62.Idx) :
    k3_pay1 (((cfg3.win 0).blk t).view.read (Elt Ideal) X) (((cfg3.win 1).blk t).view.read (Elt Ideal) Wt) (((cfg3.win 2).blk t).view.read (Elt Ideal) B) j
      = G X Wt B (((cfg3.win 3).blk t).view.emb j) := by
  obtain ⟨e00, e01, e10, e11, e20, e21, e30, e31⟩ := idx_facts t
  obtain ⟨p, q, rfl⟩ : ∃ (p : Fin 2000) (q : Fin 62), j = ix2 p q := ⟨j 0, j 1, eq_ix2 j⟩
  refine (pay _ _ _ p q).trans ?_
  show (∑ k : Fin 256, X (((cfg3.win 0).blk t).view.emb (ix2 p k)) * Wt (((cfg3.win 1).blk t).view.emb (ix2 k q)))
      + B (((cfg3.win 2).blk t).view.emb (ix2 (0 : Fin 1) q))
    = (∑ k : Fin 256, X (ix2 ((((cfg3.win 3).blk t).view.emb (ix2 p q)) 0) k) * Wt (ix2 k ((((cfg3.win 3).blk t).view.emb (ix2 p q)) 1)))
      + B (ix2 (0 : Fin 1) ((((cfg3.win 3).blk t).view.emb (ix2 p q)) 1))
  have h0 : ∀ k : Fin 256, ((cfg3.win 0).blk t).view.emb (ix2 p k) = ix2 ((((cfg3.win 3).blk t).view.emb (ix2 p q)) 0) k := fun k => by
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 256 + 1 * k.val = k.val; omega
  have h1 : ∀ k : Fin 256, ((cfg3.win 1).blk t).view.emb (ix2 k q) = ix2 k ((((cfg3.win 3).blk t).view.emb (ix2 p q)) 1) := fun k => by
    funext a; apply Fin.ext
    match a with
    | ⟨0, _⟩ => show win3_1.index t (0 : Fin 2) * 256 + 1 * k.val = k.val; omega
    | ⟨1, _⟩ => show win3_1.index t (1 : Fin 2) * 62 + 1 * q.val = win3_3.index t (1 : Fin 2) * 62 + 1 * q.val; omega
  have h2 : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 62 + 1 * q.val = win3_3.index t (1 : Fin 2) * 62 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg3.N) :
    (dat3 V c).flushed 3 t = ((cfg3.win 3).blk t).view.read (Elt Ideal)
      (G (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S2000x256) hz, View.ld_unit_zero (S := S256x62) hz, View.ld_unit_zero (S := S1x62) hz]
  funext j
  exact block_eq _ _ _ t j

/-- An index of the array is in point t's block iff each coordinate is in the block's range on its axis. -/
theorem mem_blk (t : Fin cfg3.N) (i : S50000x62.Idx) :
    i ∈ ((cfg3.win 3).blk t).view.set ↔ ∀ a : Fin 2, win3_3.index t a * S2000x62.size a ≤ (i a).val ∧ (i a).val < win3_3.index t a * S2000x62.size a + S2000x62.size a := by
  show i ∈ ((View.whole main_v53).slice (win3_3.rect t)).set ↔ _
  rw [View.set_slice_whole, Rect.mem_set_unit]
  exact Iff.rfl

/-- Row r lies in the block of point r / 2000. -/
theorem cover (i : S50000x62.Idx) : ∃ t : Fin cfg3.N, (cfg3.win 3).flush t = true ∧ i ∈ ((cfg3.win 3).blk t).view.set := by
  have hi0 : (i 0).val < 50000 := (i 0).isLt
  have hi1 : (i 1).val < 62 := (i 1).isLt
  have hN : grid3.N = 25 := N_3
  let t : Fin cfg3.N := ⟨(i 0).val / 2000, by show (i 0).val / 2000 < grid3.N; omega⟩
  obtain ⟨e00, e01, e10, e11, e20, e21, e30, e31⟩ := idx_facts t
  have ht : t.val = (i 0).val / 2000 := rfl
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 62 ≤ (i 1).val ∧ (i 1).val < win3_3.index t (1 : Fin 2) * 62 + 62; omega

/-- The output array after the region is G of the arrays the region was entered with. -/
theorem final (c : Dev nD) :
    (dat3 V c).arrAt 3 cfg3.N = G (V c (Pipeline.arrRef spec3 0)) (V c (Pipeline.arrRef spec3 1)) (V c (Pipeline.arrRef spec3 2)) :=
  (dat3 V c).arrAt_eq_of_cover 3 _ (fun t _ => flushed_eq V c t) cover

end Cert.KernelIdeal.Lin3

end
-- ==== Proof.BLin3.lean ====
/-
  Region 3 against the reference: the reference's dot product over the whole arrays, plus its bias broadcast twice
  (a row, then every row), is the region's function of the same arrays, index by index.  At (r, q) both are
  Σ_k X(r, k) · W(k, q) + b(q): the reference's operand indices are (r, k) and (k, q), and the bias recast as a
  one-row array reads b(q) at (0, q).
-/
import proofs.«147497_j34437047780015_1_alg».proof.Proof.ReadP
import proofs.«147497_j34437047780015_1_alg».proof.Proof.Lin3
import Idealize.ShloMosaic.Lib.ValueLayout

set_option maxRecDepth 16384

noncomputable section

namespace Cert.Bridge.Lin3

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v58 (F := Ideal) x0 x1 x2 x3 x4 x5 x8 x9
local notation "PREV" => val_main_v54 (F := Ideal) x0 x1 x2 x3 x8 x9
local notation "WT" => x4
local notation "BIAS" => x5

theorem eq : OUT = Cert.KernelIdeal.Lin3.G PREV WT (shapeCast S1x62 BIAS shapeCasts_S62_S1x62) := by
  funext i
  rw [val_main_v58_apply, val_main_v55_apply, val_main_v57_apply, val_main_v56_apply]
  unfold Cert.KernelIdeal.Lin3.G
  refine congrArg₂ (· + ·) (Finset.sum_congr rfl fun k _ => ?_) ?_
  · refine congrArg₂ (· * ·) (congrArg PREV ?_) (congrArg WT ?_)
    · funext a; match a with | ⟨0, _⟩ => rfl | ⟨1, _⟩ => rfl
    · funext a; match a with | ⟨0, _⟩ => rfl | ⟨1, _⟩ => rfl
  · refine Eq.trans ?_ (shapeCast_a_1a_apply BIAS _ (0 : Fin 1) (i 1)).symm
    exact congrArg BIAS (funext fun a => match a with | ⟨0, _⟩ => rfl)

end Cert.Bridge.Lin3

end
-- ==== Proof.Lin4.lean ====
/-
  Region 4: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin4

open Cert.KernelIdeal Cert.KernelIdeal.Gen
open Idealize.ShloMosaic Idealize.ShloMosaic.TcCoe Idealize.SL.Sem Idealize.ShloMosaic.ValueIdx

/-- The block product's dimension record. -/
abbrev D := dot_S2000x62_S62x62_S2000x62_1_0_0_1_n_n

/-- The output array as one function of the three input arrays. -/
def G (X : FVec Ideal S50000x62 .f32) (Wt : FVec Ideal S62x62 .f32) (B : FVec Ideal S1x62 .f32) : FVec Ideal S50000x62 .f32 :=
  fun i => (∑ k : Fin 62, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x62.Idx) (q : D.contr.Idx) : (D.lhsIdx i q 0).val = (i 0).val := by
  unfold DotDims.lhsIdx
  rw [dif_neg (show ¬(0 : Fin S2000x62.rank) ∈ D.lhsBatch by decide), dif_pos (show (0 : Fin S2000x62.rank) ∈ D.lhsNonContracting by decide)]
  rfl
theorem lhs1 (i : S2000x62.Idx) (q : D.contr.Idx) : (D.lhsIdx i q 1).val = (q ⟨0, by decide⟩).val :=
  D.lhsIdx_val_of_single rfl i q
theorem rhs0 (i : S2000x62.Idx) (q : D.contr.Idx) : (D.rhsIdx i q 0).val = (q ⟨0, by decide⟩).val :=
  D.rhsIdx_val_of_single rfl i q
theorem rhs1 (i : S2000x62.Idx) (q : D.contr.Idx) : (D.rhsIdx i q 1).val = (i 1).val := by
  unfold DotDims.rhsIdx
  rw [dif_neg (show ¬(1 : Fin S62x62.rank) ∈ D.rhsBatch by decide), dif_pos (show (1 : Fin S62x62.rank) ∈ D.rhsNonContracting by decide)]
  rfl

/-! ## The body's stored value at an index of its block -/

/-- At (p, q) the stored block is the row-p-times-column-q sum plus the bias at q. -/
theorem pay (x0 : FVec Ideal S2000x62 .f32) (x1 : FVec Ideal S62x62 .f32) (x2 : FVec Ideal S1x62 .f32) (p : Fin 2000) (q : Fin 62) :
    k4_pay1 x0 x1 x2 (ix2 p q) = (∑ k : Fin 62, x0 (ix2 p k) * x1 (ix2 k q)) + x2 (ix2 (0 : Fin 1) q) := by
  unfold k4_pay1
  refine (addf_apply _ _ _).trans ?_
  refine congrArg₂ (· + ·) ?_ ?_
  · refine (Ideal.matmul_constant_zero_apply D none _ _ _).trans ?_
    rw [← Equiv.sum_comp (contrEquiv1 D 62 rfl rfl).symm]
    refine Finset.sum_congr rfl fun k _ => ?_
    have hk := contrEquiv1_symm_val D 62 rfl rfl k
    have el : D.lhsIdx (ix2 p q) ((contrEquiv1 D 62 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 62 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's value on the blocks of point t, at j, is G at j's place in the array. -/
theorem block_eq (X : FVec Ideal S50000x62 .f32) (Wt : FVec Ideal S62x62 .f32) (B : FVec Ideal S1x62 .f32) (t : Fin cfg4.N) (j : S2000x62.Idx) :
    k4_pay1 (((cfg4.win 0).blk t).view.read (Elt Ideal) X) (((cfg4.win 1).blk t).view.read (Elt Ideal) Wt) (((cfg4.win 2).blk t).view.read (Elt Ideal) B) j
      = G X Wt B (((cfg4.win 3).blk t).view.emb j) := by
  obtain ⟨e00, e01, e10, e11, e20, e21, e30, e31⟩ := idx_facts t
  obtain ⟨p, q, rfl⟩ : ∃ (p : Fin 2000) (q : Fin 62), j = ix2 p q := ⟨j 0, j 1, eq_ix2 j⟩
  refine (pay _ _ _ p q).trans ?_
  show (∑ k : Fin 62, X (((cfg4.win 0).blk t).view.emb (ix2 p k)) * Wt (((cfg4.win 1).blk t).view.emb (ix2 k q)))
      + B (((cfg4.win 2).blk t).view.emb (ix2 (0 : Fin 1) q))
    = (∑ k : Fin 62, X (ix2 ((((cfg4.win 3).blk t).view.emb (ix2 p q)) 0) k) * Wt (ix2 k ((((cfg4.win 3).blk t).view.emb (ix2 p q)) 1)))
      + B (ix2 (0 : Fin 1) ((((cfg4.win 3).blk t).view.emb (ix2 p q)) 1))
  have h0 : ∀ k : Fin 62, ((cfg4.win 0).blk t).view.emb (ix2 p k) = ix2 ((((cfg4.win 3).blk t).view.emb (ix2 p q)) 0) k := fun k => by
    funext a; apply Fin.ext
    match a with
    | ⟨0, _⟩ => show win4_0.index t (0 : Fin 2) * 2000 + 1 * p.val = win4_3.index t (0 : Fin 2) * 2000 + 1 * p.val; omega
    | ⟨1, _⟩ => show win4_0.index t (1 : Fin 2) * 62 + 1 * k.val = k.val; omega
  have h1 : ∀ k : Fin 62, ((cfg4.win 1).blk t).view.emb (ix2 k q) = ix2 k ((((cfg4.win 3).blk t).view.emb (ix2 p q)) 1) := fun k => by
    funext a; apply Fin.ext
    match a with
    | ⟨0, _⟩ => show win4_1.index t (0 : Fin 2) * 62 + 1 * k.val = k.val; omega
    | ⟨1, _⟩ => show win4_1.index t (1 : Fin 2) * 62 + 1 * q.val = win4_3.index t (1 : Fin 2) * 62 + 1 * q.val; omega
  have h2 : ((cfg4.win 2).blk t).view.emb (ix2 (0 : Fin 1) q) = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 62 + 1 * q.val = win4_3.index t (1 : Fin 2) * 62 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg4.N) :
    (dat4 V c).flushed 3 t = ((cfg4.win 3).blk t).view.read (Elt Ideal)
      (G (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S2000x62) hz, View.ld_unit_zero (S := S62x62) hz, View.ld_unit_zero (S := S1x62) hz]
  funext j
  exact block_eq _ _ _ t j

/-- An index of the array is in point t's block iff each coordinate is in the block's range on its axis. -/
theorem mem_blk (t : Fin cfg4.N) (i : S50000x62.Idx) :
    i ∈ ((cfg4.win 3).blk t).view.set ↔ ∀ a : Fin 2, win4_3.index t a * S2000x62.size a ≤ (i a).val ∧ (i a).val < win4_3.index t a * S2000x62.size a + S2000x62.size a := by
  show i ∈ ((View.whole main_v56).slice (win4_3.rect t)).set ↔ _
  rw [View.set_slice_whole, Rect.mem_set_unit]
  exact Iff.rfl

/-- Row r lies in the block of point r / 2000. -/
theorem cover (i : S50000x62.Idx) : ∃ t : Fin cfg4.N, (cfg4.win 3).flush t = true ∧ i ∈ ((cfg4.win 3).blk t).view.set := by
  have hi0 : (i 0).val < 50000 := (i 0).isLt
  have hi1 : (i 1).val < 62 := (i 1).isLt
  have hN : grid4.N = 25 := N_4
  let t : Fin cfg4.N := ⟨(i 0).val / 2000, by show (i 0).val / 2000 < grid4.N; omega⟩
  obtain ⟨e00, e01, e10, e11, e20, e21, e30, e31⟩ := idx_facts t
  have ht : t.val = (i 0).val / 2000 := rfl
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 62 ≤ (i 1).val ∧ (i 1).val < win4_3.index t (1 : Fin 2) * 62 + 62; omega

/-- The output array after the region is G of the arrays the region was entered with. -/
theorem final (c : Dev nD) :
    (dat4 V c).arrAt 3 cfg4.N = G (V c (Pipeline.arrRef spec4 0)) (V c (Pipeline.arrRef spec4 1)) (V c (Pipeline.arrRef spec4 2)) :=
  (dat4 V c).arrAt_eq_of_cover 3 _ (fun t _ => flushed_eq V c t) cover

end Cert.KernelIdeal.Lin4

end
-- ==== Proof.BLin4.lean ====
/-
  Region 4 against the reference: the region is entered with an all-zero bias row, and x + 0 = x on every extended
  real, so the region's function of (Y, W, zeros) is the reference's dot product of Y and W over the whole arrays.
  At (r, q) both are Σ_k Y(r, k) · W(k, q).
-/
import proofs.«147497_j34437047780015_1_alg».proof.Proof.ReadP
import proofs.«147497_j34437047780015_1_alg».proof.Proof.Lin4
import Idealize.ShloMosaic.Lib.ValueLayout
import Idealize.ShloMosaic.Lib.IdealHost

set_option maxRecDepth 16384

noncomputable section

namespace Cert.Bridge.Lin4

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v59 (F := Ideal) x0 x1 x2 x3 x4 x5 x8 x9 x10
local notation "PREV" => val_main_v58 (F := Ideal) x0 x1 x2 x3 x4 x5 x8 x9
local notation "WT" => x10

theorem eq (Z : FVec Ideal S1x62 .f32) (hZ : ∀ j, Z j = 0) : OUT = Cert.KernelIdeal.Lin4.G PREV WT Z := by
  funext i
  rw [val_main_v59_apply]
  unfold Cert.KernelIdeal.Lin4.G
  rw [hZ, add_zero]
  refine Finset.sum_congr rfl fun k _ => ?_
  refine congrArg₂ (· * ·) (congrArg PREV ?_) (congrArg WT ?_)
  · funext a; match a with | ⟨0, _⟩ => rfl | ⟨1, _⟩ => rfl
  · funext a; match a with | ⟨0, _⟩ => rfl | ⟨1, _⟩ => rfl

/-- The zero row the region is entered with: a zero constant broadcast to the bias's length and recast as one row. -/
theorem zero_row (j : S1x62.Idx) :
    shapeCast S1x62 (broadcastInDim S62 ![] bcast_S_S62 (constant (F := Ideal) S_ .f32 0x00000000#32)) shapeCasts_S62_S1x62 j = 0 :=
  Ideal.ofBits_zero_f32

end Cert.Bridge.Lin4

end
-- ==== Proof.Lin6.lean ====
/-
  Region 6: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin6

open Cert.KernelIdeal Cert.KernelIdeal.Gen
open Idealize.ShloMosaic Idealize.ShloMosaic.TcCoe Idealize.SL.Sem Idealize.ShloMosaic.ValueIdx

/-- The block product's dimension record. -/
abbrev D := dot_S2000x62_S62x128_S2000x128_1_0_0_1_n_n

/-- The output array as one function of the three input arrays. -/
def G (X : FVec Ideal S50000x62 .f32) (Wt : FVec Ideal S62x128 .f32) (B : FVec Ideal S1x128 .f32) : FVec Ideal S50000x128 .f32 :=
  fun i => (∑ k : Fin 62, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x128.Idx) (q : D.contr.Idx) : (D.lhsIdx i q 0).val = (i 0).val := by
  unfold DotDims.lhsIdx
  rw [dif_neg (show ¬(0 : Fin S2000x62.rank) ∈ D.lhsBatch by decide), dif_pos (show (0 : Fin S2000x62.rank) ∈ D.lhsNonContracting by decide)]
  rfl
theorem lhs1 (i : S2000x128.Idx) (q : D.contr.Idx) : (D.lhsIdx i q 1).val = (q ⟨0, by decide⟩).val :=
  D.lhsIdx_val_of_single rfl i q
theorem rhs0 (i : S2000x128.Idx) (q : D.contr.Idx) : (D.rhsIdx i q 0).val = (q ⟨0, by decide⟩).val :=
  D.rhsIdx_val_of_single rfl i q
theorem rhs1 (i : S2000x128.Idx) (q : D.contr.Idx) : (D.rhsIdx i q 1).val = (i 1).val := by
  unfold DotDims.rhsIdx
  rw [dif_neg (show ¬(1 : Fin S62x128.rank) ∈ D.rhsBatch by decide), dif_pos (show (1 : Fin S62x128.rank) ∈ D.rhsNonContracting by decide)]
  rfl

/-! ## The body's stored value at an index of its block -/

/-- At (p, q) the stored block is the row-p-times-column-q sum plus the bias at q. -/
theorem pay (x0 : FVec Ideal S2000x62 .f32) (x1 : FVec Ideal S62x128 .f32) (x2 : FVec Ideal S1x128 .f32) (p : Fin 2000) (q : Fin 128) :
    k6_pay1 x0 x1 x2 (ix2 p q) = (∑ k : Fin 62, x0 (ix2 p k) * x1 (ix2 k q)) + x2 (ix2 (0 : Fin 1) q) := by
  unfold k6_pay1
  refine (addf_apply _ _ _).trans ?_
  refine congrArg₂ (· + ·) ?_ ?_
  · refine (Ideal.matmul_constant_zero_apply D none _ _ _).trans ?_
    rw [← Equiv.sum_comp (contrEquiv1 D 62 rfl rfl).symm]
    refine Finset.sum_congr rfl fun k _ => ?_
    have hk := contrEquiv1_symm_val D 62 rfl rfl k
    have el : D.lhsIdx (ix2 p q) ((contrEquiv1 D 62 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 62 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The body's value on the blocks of point t, at j, is G at j's place in the array. -/
theorem block_eq (X : FVec Ideal S50000x62 .f32) (Wt : FVec Ideal S62x128 .f32) (B : FVec Ideal S1x128 .f32) (t : Fin cfg6.N) (j : S2000x128.Idx) :
    k6_pay1 (((cfg6.win 0).blk t).view.read (Elt Ideal) X) (((cfg6.win 1).blk t).view.read (Elt Ideal) Wt) (((cfg6.win 2).blk t).view.read (Elt Ideal) B) j
      = G X Wt B (((cfg6.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show (∑ k : Fin 62, X (((cfg6.win 0).blk t).view.emb (ix2 p k)) * Wt (((cfg6.win 1).blk t).view.emb (ix2 k q)))
      + B (((cfg6.win 2).blk t).view.emb (ix2 (0 : Fin 1) q))
    = (∑ k : Fin 62, X (ix2 ((((cfg6.win 3).blk t).view.emb (ix2 p q)) 0) k) * Wt (ix2 k ((((cfg6.win 3).blk t).view.emb (ix2 p q)) 1)))
      + B (ix2 (0 : Fin 1) ((((cfg6.win 3).blk t).view.emb (ix2 p q)) 1))
  have h0 : ∀ k : Fin 62, ((cfg6.win 0).blk t).view.emb (ix2 p k) = ix2 ((((cfg6.win 3).blk t).view.emb (ix2 p q)) 0) k := fun k => by
    funext a; apply Fin.ext
    match a with
    | ⟨0, _⟩ => show win6_0.index t (0 : Fin 2) * 2000 + 1 * p.val = win6_3.index t (0 : Fin 2) * 2000 + 1 * p.val; omega
    | ⟨1, _⟩ => show win6_0.index t (1 : Fin 2) * 62 + 1 * k.val = k.val; omega
  have h1 : ∀ k : Fin 62, ((cfg6.win 1).blk t).view.emb (ix2 k q) = ix2 k ((((cfg6.win 3).blk t).view.emb (ix2 p q)) 1) := fun k => by
    funext a; apply Fin.ext
    match a with
    | ⟨0, _⟩ => show win6_1.index t (0 : Fin 2) * 62 + 1 * k.val = k.val; omega
    | ⟨1, _⟩ => show win6_1.index t (1 : Fin 2) * 128 + 1 * q.val = win6_3.index t (1 : Fin 2) * 128 + 1 * q.val; omega
  have h2 : ((cfg6.win 2).blk t).view.emb (ix2 (0 : Fin 1) q) = ix2 (0 : Fin 1) ((((cfg6.win 3).blk t).view.emb (ix2 p q)) 1) := by
    funext a; apply Fin.ext
    match a with
    | ⟨0, _⟩ => show win6_2.index t (0 : Fin 2) * 1 + 1 * 0 = 0; omega
    | ⟨1, _⟩ => show win6_2.index t (1 : Fin 2) * 128 + 1 * q.val = win6_3.index t (1 : Fin 2) * 128 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg6.N) :
    (dat6 V c).flushed 3 t = ((cfg6.win 3).blk t).view.read (Elt Ideal)
      (G (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S2000x62) hz, View.ld_unit_zero (S := S62x128) hz, View.ld_unit_zero (S := S1x128) hz]
  funext j
  exact block_eq _ _ _ t j

/-- An index of the array is in point t's block iff each coordinate is in the block's range on its axis. -/
theorem mem_blk (t : Fin cfg6.N) (i : S50000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v73).slice (win6_3.rect t)).set ↔ _
  rw [View.set_slice_whole, Rect.mem_set_unit]
  exact Iff.rfl

/-- Row r lies in the block of point r / 2000. -/
theorem cover (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  have hN : grid6.N = 25 := N_6
  let t : Fin cfg6.N := ⟨(i 0).val / 2000, by show (i 0).val / 2000 < grid6.N; omega⟩
  obtain ⟨e00, e01, e10, e11, e20, e21, e30, e31⟩ := idx_facts t
  have ht : t.val = (i 0).val / 2000 := rfl
  refine ⟨t, flush6_3 t, ?_⟩
  rw [mem_blk]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 128 ≤ (i 1).val ∧ (i 1).val < win6_3.index t (1 : Fin 2) * 128 + 128; omega

/-- The output array after the region is G of the arrays the region was entered with. -/
theorem final (c : Dev nD) :
    (dat6 V c).arrAt 3 cfg6.N = G (V c (Pipeline.arrRef spec6 0)) (V c (Pipeline.arrRef spec6 1)) (V c (Pipeline.arrRef spec6 2)) :=
  (dat6 V c).arrAt_eq_of_cover 3 _ (fun t _ => flushed_eq V c t) cover

end Cert.KernelIdeal.Lin6

end
-- ==== Proof.BLin6.lean ====
/-
  Region 6 against the reference: the reference's dot product over the whole arrays, plus its bias broadcast twice
  (a row, then every row), is the region's function of the same arrays, index by index.  At (r, q) both are
  Σ_k X(r, k) · W(k, q) + b(q): the reference's operand indices are (r, k) and (k, q), and the bias recast as a
  one-row array reads b(q) at (0, q).
-/
import proofs.«147497_j34437047780015_1_alg».proof.Proof.ReadP
import proofs.«147497_j34437047780015_1_alg».proof.Proof.Lin6
import Idealize.ShloMosaic.Lib.ValueLayout

set_option maxRecDepth 16384

noncomputable section

namespace Cert.Bridge.Lin6

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v81 (F := Ideal) x0 x1 x2 x3 x4 x5 x6 x7 x8 x9 x10 x11
local notation "PREV" => val_main_v77 (F := Ideal) x0 x1 x2 x3 x4 x5 x8 x9 x10 x11
local notation "WT" => x6
local notation "BIAS" => x7

theorem eq : OUT = Cert.KernelIdeal.Lin6.G PREV WT (shapeCast S1x128 BIAS shapeCasts_S128_S1x128) := by
  funext i
  rw [val_main_v81_apply, val_main_v78_apply, val_main_v80_apply, val_main_v79_apply]
  unfold Cert.KernelIdeal.Lin6.G
  refine congrArg₂ (· + ·) (Finset.sum_congr rfl fun k _ => ?_) ?_
  · refine congrArg₂ (· * ·) (congrArg PREV ?_) (congrArg WT ?_)
    · funext a; match a with | ⟨0, _⟩ => rfl | ⟨1, _⟩ => rfl
    · funext a; match a with | ⟨0, _⟩ => rfl | ⟨1, _⟩ => rfl
  · refine Eq.trans ?_ (shapeCast_a_1a_apply BIAS _ (0 : Fin 1) (i 1)).symm
    exact congrArg BIAS (funext fun a => match a with | ⟨0, _⟩ => rfl)

end Cert.Bridge.Lin6

end
-- ==== Proof.Lin7.lean ====
/-
  Region 7: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin7

open Cert.KernelIdeal Cert.KernelIdeal.Gen
open Idealize.ShloMosaic Idealize.ShloMosaic.TcCoe Idealize.SL.Sem Idealize.ShloMosaic.ValueIdx

/-- The block product's dimension record. -/
abbrev D := dot_S2000x128_S128x128_S2000x128_1_0_0_1_n_n

/-- The output array as one function of the three input arrays. -/
def G (X : FVec Ideal S50000x128 .f32) (Wt : FVec Ideal S128x128 .f32) (B : FVec Ideal S1x128 .f32) : FVec Ideal S50000x128 .f32 :=
  fun i => (∑ k : Fin 128, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs1 (i : S2000x128.Idx) (q : D.contr.Idx) : (D.lhsIdx i q 1).val = (q ⟨0, by decide⟩).val :=
  D.lhsIdx_val_of_single rfl i q
theorem rhs0 (i : S2000x128.Idx) (q : D.contr.Idx) : (D.rhsIdx i q 0).val = (q ⟨0, by decide⟩).val :=
  D.rhsIdx_val_of_single rfl i q
theorem rhs1 (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-! ## The body's stored value at an index of its block -/

/-- At (p, q) the stored block is the row-p-times-column-q sum plus the bias at q. -/
theorem pay (x0 : FVec Ideal S2000x128 .f32) (x1 : FVec Ideal S128x128 .f32) (x2 : FVec Ideal S1x128 .f32) (p : Fin 2000) (q : Fin 128) :
    k7_pay1 x0 x1 x2 (ix2 p q) = (∑ k : Fin 128, x0 (ix2 p k) * x1 (ix2 k q)) + x2 (ix2 (0 : Fin 1) q) := by
  unfold k7_pay1
  refine (addf_apply _ _ _).trans ?_
  refine congrArg₂ (· + ·) ?_ ?_
  · refine (Ideal.matmul_constant_zero_apply D none _ _ _).trans ?_
    rw [← Equiv.sum_comp (contrEquiv1 D 128 rfl rfl).symm]
    refine Finset.sum_congr rfl fun k _ => ?_
    have hk := contrEquiv1_symm_val D 128 rfl rfl k
    have el : D.lhsIdx (ix2 p q) ((contrEquiv1 D 128 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 128 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The body's value on the blocks of point t, at j, is G at j's place in the array. -/
theorem block_eq (X : FVec Ideal S50000x128 .f32) (Wt : FVec Ideal S128x128 .f32) (B : FVec Ideal S1x128 .f32) (t : Fin cfg7.N) (j : S2000x128.Idx) :
    k7_pay1 (((cfg7.win 0).blk t).view.read (Elt Ideal) X) (((cfg7.win 1).blk t).view.read (Elt Ideal) Wt) (((cfg7.win 2).blk t).view.read (Elt Ideal) B) j
      = G X Wt B (((cfg7.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show (∑ k : Fin 128, X (((cfg7.win 0).blk t).view.emb (ix2 p k)) * Wt (((cfg7.win 1).blk t).view.emb (ix2 k q)))
      + B (((cfg7.win 2).blk t).view.emb (ix2 (0 : Fin 1) q))
    = (∑ k : Fin 128, X (ix2 ((((cfg7.win 3).blk t).view.emb (ix2 p q)) 0) k) * Wt (ix2 k ((((cfg7.win 3).blk t).view.emb (ix2 p q)) 1)))
      + B (ix2 (0 : Fin 1) ((((cfg7.win 3).blk t).view.emb (ix2 p q)) 1))
  have h0 : ∀ k : Fin 128, ((cfg7.win 0).blk t).view.emb (ix2 p k) = ix2 ((((cfg7.win 3).blk t).view.emb (ix2 p q)) 0) k := fun k => by
    funext a; apply Fin.ext
    match a with
    | ⟨0, _⟩ => show win7_0.index t (0 : Fin 2) * 2000 + 1 * p.val = win7_3.index t (0 : Fin 2) * 2000 + 1 * p.val; omega
    | ⟨1, _⟩ => show win7_0.index t (1 : Fin 2) * 128 + 1 * k.val = k.val; omega
  have h1 : ∀ k : Fin 128, ((cfg7.win 1).blk t).view.emb (ix2 k q) = ix2 k ((((cfg7.win 3).blk t).view.emb (ix2 p q)) 1) := fun k => by
    funext a; apply Fin.ext
    match a with
    | ⟨0, _⟩ => show win7_1.index t (0 : Fin 2) * 128 + 1 * k.val = k.val; omega
    | ⟨1, _⟩ => show win7_1.index t (1 : Fin 2) * 128 + 1 * q.val = win7_3.index t (1 : Fin 2) * 128 + 1 * q.val; omega
  have h2 : ((cfg7.win 2).blk t).view.emb (ix2 (0 : Fin 1) q) = ix2 (0 : Fin 1) ((((cfg7.win 3).blk t).view.emb (ix2 p q)) 1) := by
    funext a; apply Fin.ext
    match a with
    | ⟨0, _⟩ => show win7_2.index t (0 : Fin 2) * 1 + 1 * 0 = 0; omega
    | ⟨1, _⟩ => show win7_2.index t (1 : Fin 2) * 128 + 1 * q.val = win7_3.index t (1 : Fin 2) * 128 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg7.N) :
    (dat7 V c).flushed 3 t = ((cfg7.win 3).blk t).view.read (Elt Ideal)
      (G (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S2000x128) hz, View.ld_unit_zero (S := S128x128) hz, View.ld_unit_zero (S := S1x128) hz]
  funext j
  exact block_eq _ _ _ t j

/-- An index of the array is in point t's block iff each coordinate is in the block's range on its axis. -/
theorem mem_blk (t : Fin cfg7.N) (i : S50000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v76).slice (win7_3.rect t)).set ↔ _
  rw [View.set_slice_whole, Rect.mem_set_unit]
  exact Iff.rfl

/-- Row r lies in the block of point r / 2000. -/
theorem cover (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  have hN : grid7.N = 25 := N_7
  let t : Fin cfg7.N := ⟨(i 0).val / 2000, by show (i 0).val / 2000 < grid7.N; omega⟩
  obtain ⟨e00, e01, e10, e11, e20, e21, e30, e31⟩ := idx_facts t
  have ht : t.val = (i 0).val / 2000 := rfl
  refine ⟨t, flush7_3 t, ?_⟩
  rw [mem_blk]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 128 ≤ (i 1).val ∧ (i 1).val < win7_3.index t (1 : Fin 2) * 128 + 128; omega

/-- The output array after the region is G of the arrays the region was entered with. -/
theorem final (c : Dev nD) :
    (dat7 V c).arrAt 3 cfg7.N = G (V c (Pipeline.arrRef spec7 0)) (V c (Pipeline.arrRef spec7 1)) (V c (Pipeline.arrRef spec7 2)) :=
  (dat7 V c).arrAt_eq_of_cover 3 _ (fun t _ => flushed_eq V c t) cover

end Cert.KernelIdeal.Lin7

end
-- ==== Proof.BLin7.lean ====
/-
  Region 7 against the reference: the region is entered with an all-zero bias row, and x + 0 = x on every extended
  real, so the region's function of (Y, W, zeros) is the reference's dot product of Y and W over the whole arrays.
  At (r, q) both are Σ_k Y(r, k) · W(k, q).
-/
import proofs.«147497_j34437047780015_1_alg».proof.Proof.ReadP
import proofs.«147497_j34437047780015_1_alg».proof.Proof.Lin7
import Idealize.ShloMosaic.Lib.ValueLayout
import Idealize.ShloMosaic.Lib.IdealHost

set_option maxRecDepth 16384

noncomputable section

namespace Cert.Bridge.Lin7

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v82 (F := Ideal) x0 x1 x2 x3 x4 x5 x6 x7 x8 x9 x10 x11 x12
local notation "PREV" => val_main_v81 (F := Ideal) x0 x1 x2 x3 x4 x5 x6 x7 x8 x9 x10 x11
local notation "WT" => x12

theorem eq (Z : FVec Ideal S1x128 .f32) (hZ : ∀ j, Z j = 0) : OUT = Cert.KernelIdeal.Lin7.G PREV WT Z := by
  funext i
  rw [val_main_v82_apply]
  unfold Cert.KernelIdeal.Lin7.G
  rw [hZ, add_zero]
  refine Finset.sum_congr rfl fun k _ => ?_
  refine congrArg₂ (· * ·) (congrArg PREV ?_) (congrArg WT ?_)
  · funext a; match a with | ⟨0, _⟩ => rfl | ⟨1, _⟩ => rfl
  · funext a; match a with | ⟨0, _⟩ => rfl | ⟨1, _⟩ => rfl

/-- The zero row the region is entered with: a zero constant broadcast to the bias's length and recast as one row. -/
theorem zero_row (j : S1x128.Idx) :
    shapeCast S1x128 (broadcastInDim S128 ![] bcast_S_S128 (constant (F := Ideal) S_ .f32 0x00000000#32)) shapeCasts_S128_S1x128 j = 0 :=
  Ideal.ofBits_zero_f32

end Cert.Bridge.Lin7

end
-- ==== Proof.Lin9.lean ====
/-
  Region 9: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin9

open Cert.KernelIdeal Cert.KernelIdeal.Gen
open Idealize.ShloMosaic Idealize.ShloMosaic.TcCoe Idealize.SL.Sem Idealize.ShloMosaic.ValueIdx

/-- The block product's dimension record. -/
abbrev D := dot_S2000x128_S128x128_S2000x128_1_0_0_1_n_n

/-- The output array as one function of the three input arrays. -/
def G (X : FVec Ideal S50000x128 .f32) (Wt : FVec Ideal S128x128 .f32) (B : FVec Ideal S1x128 .f32) : FVec Ideal S50000x128 .f32 :=
  fun i => (∑ k : Fin 128, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs1 (i : S2000x128.Idx) (q : D.contr.Idx) : (D.lhsIdx i q 1).val = (q ⟨0, by decide⟩).val :=
  D.lhsIdx_val_of_single rfl i q
theorem rhs0 (i : S2000x128.Idx) (q : D.contr.Idx) : (D.rhsIdx i q 0).val = (q ⟨0, by decide⟩).val :=
  D.rhsIdx_val_of_single rfl i q
theorem rhs1 (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-! ## The body's stored value at an index of its block -/

/-- At (p, q) the stored block is the row-p-times-column-q sum plus the bias at q. -/
theorem pay (x0 : FVec Ideal S2000x128 .f32) (x1 : FVec Ideal S128x128 .f32) (x2 : FVec Ideal S1x128 .f32) (p : Fin 2000) (q : Fin 128) :
    k9_pay1 x0 x1 x2 (ix2 p q) = (∑ k : Fin 128, x0 (ix2 p k) * x1 (ix2 k q)) + x2 (ix2 (0 : Fin 1) q) := by
  unfold k9_pay1
  refine (addf_apply _ _ _).trans ?_
  refine congrArg₂ (· + ·) ?_ ?_
  · refine (Ideal.matmul_constant_zero_apply D none _ _ _).trans ?_
    rw [← Equiv.sum_comp (contrEquiv1 D 128 rfl rfl).symm]
    refine Finset.sum_congr rfl fun k _ => ?_
    have hk := contrEquiv1_symm_val D 128 rfl rfl k
    have el : D.lhsIdx (ix2 p q) ((contrEquiv1 D 128 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 128 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The body's value on the blocks of point t, at j, is G at j's place in the array. -/
theorem block_eq (X : FVec Ideal S50000x128 .f32) (Wt : FVec Ideal S128x128 .f32) (B : FVec Ideal S1x128 .f32) (t : Fin cfg9.N) (j : S2000x128.Idx) :
    k9_pay1 (((cfg9.win 0).blk t).view.read (Elt Ideal) X) (((cfg9.win 1).blk t).view.read (Elt Ideal) Wt) (((cfg9.win 2).blk t).view.read (Elt Ideal) B) j
      = G X Wt B (((cfg9.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show (∑ k : Fin 128, X (((cfg9.win 0).blk t).view.emb (ix2 p k)) * Wt (((cfg9.win 1).blk t).view.emb (ix2 k q)))
      + B (((cfg9.win 2).blk t).view.emb (ix2 (0 : Fin 1) q))
    = (∑ k : Fin 128, X (ix2 ((((cfg9.win 3).blk t).view.emb (ix2 p q)) 0) k) * Wt (ix2 k ((((cfg9.win 3).blk t).view.emb (ix2 p q)) 1)))
      + B (ix2 (0 : Fin 1) ((((cfg9.win 3).blk t).view.emb (ix2 p q)) 1))
  have h0 : ∀ k : Fin 128, ((cfg9.win 0).blk t).view.emb (ix2 p k) = ix2 ((((cfg9.win 3).blk t).view.emb (ix2 p q)) 0) k := fun k => by
    funext a; apply Fin.ext
    match a with
    | ⟨0, _⟩ => show win9_0.index t (0 : Fin 2) * 2000 + 1 * p.val = win9_3.index t (0 : Fin 2) * 2000 + 1 * p.val; omega
    | ⟨1, _⟩ => show win9_0.index t (1 : Fin 2) * 128 + 1 * k.val = k.val; omega
  have h1 : ∀ k : Fin 128, ((cfg9.win 1).blk t).view.emb (ix2 k q) = ix2 k ((((cfg9.win 3).blk t).view.emb (ix2 p q)) 1) := fun k => by
    funext a; apply Fin.ext
    match a with
    | ⟨0, _⟩ => show win9_1.index t (0 : Fin 2) * 128 + 1 * k.val = k.val; omega
    | ⟨1, _⟩ => show win9_1.index t (1 : Fin 2) * 128 + 1 * q.val = win9_3.index t (1 : Fin 2) * 128 + 1 * q.val; omega
  have h2 : ((cfg9.win 2).blk t).view.emb (ix2 (0 : Fin 1) q) = ix2 (0 : Fin 1) ((((cfg9.win 3).blk t).view.emb (ix2 p q)) 1) := by
    funext a; apply Fin.ext
    match a with
    | ⟨0, _⟩ => show win9_2.index t (0 : Fin 2) * 1 + 1 * 0 = 0; omega
    | ⟨1, _⟩ => show win9_2.index t (1 : Fin 2) * 128 + 1 * q.val = win9_3.index t (1 : Fin 2) * 128 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg9.N) :
    (dat9 V c).flushed 3 t = ((cfg9.win 3).blk t).view.read (Elt Ideal)
      (G (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz]
  simp only [View.ld_unit_zero (S := S2000x128) hz, View.ld_unit_zero (S := S128x128) hz, View.ld_unit_zero (S := S1x128) hz]
  funext j
  exact block_eq _ _ _ t j

/-- An index of the array is in point t's block iff each coordinate is in the block's range on its axis. -/
theorem mem_blk (t : Fin cfg9.N) (i : S50000x128.Idx) :
    i ∈ ((cfg9.win 3).blk t).view.set ↔ ∀ a : Fin 2, win9_3.index t a * S2000x128.size a ≤ (i a).val ∧ (i a).val < win9_3.index t a * S2000x128.size a + S2000x128.size a := by
  show i ∈ ((View.whole main_v94).slice (win9_3.rect t)).set ↔ _
  rw [View.set_slice_whole, Rect.mem_set_unit]
  exact Iff.rfl

/-- Row r lies in the block of point r / 2000. -/
theorem cover (i : S50000x128.Idx) : ∃ t : Fin cfg9.N, (cfg9.win 3).flush t = true ∧ i ∈ ((cfg9.win 3).blk t).view.set := by
  have hi0 : (i 0).val < 50000 := (i 0).isLt
  have hi1 : (i 1).val < 128 := (i 1).isLt
  have hN : grid9.N = 25 := N_9
  let t : Fin cfg9.N := ⟨(i 0).val / 2000, by show (i 0).val / 2000 < grid9.N; omega⟩
  obtain ⟨e00, e01, e10, e11, e20, e21, e30, e31⟩ := idx_facts t
  have ht : t.val = (i 0).val / 2000 := rfl
  refine ⟨t, flush9_3 t, ?_⟩
  rw [mem_blk]
  intro a
  match a with
  | ⟨0, _⟩ => show win9_3.index t (0 : Fin 2) * 2000 ≤ (i 0).val ∧ (i 0).val < win9_3.index t (0 : Fin 2) * 2000 + 2000; omega
  | ⟨1, _⟩ => show win9_3.index t (1 : Fin 2) * 128 ≤ (i 1).val ∧ (i 1).val < win9_3.index t (1 : Fin 2) * 128 + 128; omega

/-- The output array after the region is G of the arrays the region was entered with. -/
theorem final (c : Dev nD) :
    (dat9 V c).arrAt 3 cfg9.N = G (V c (Pipeline.arrRef spec9 0)) (V c (Pipeline.arrRef spec9 1)) (V c (Pipeline.arrRef spec9 2)) :=
  (dat9 V c).arrAt_eq_of_cover 3 _ (fun t _ => flushed_eq V c t) cover

end Cert.KernelIdeal.Lin9

end
-- ==== Proof.BLin9.lean ====
/-
  Region 9 against the reference: the region is entered with an all-zero bias row, and x + 0 = x on every extended
  real, so the region's function of (Y, W, zeros) is the reference's dot product of Y and W over the whole arrays.
  At (r, q) both are Σ_k Y(r, k) · W(k, q).
-/
import proofs.«147497_j34437047780015_1_alg».proof.Proof.ReadP
import proofs.«147497_j34437047780015_1_alg».proof.Proof.Lin9
import Idealize.ShloMosaic.Lib.ValueLayout
import Idealize.ShloMosaic.Lib.IdealHost

set_option maxRecDepth 16384

noncomputable section

namespace Cert.Bridge.Lin9

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v103 (F := Ideal) x0 x1 x2 x3 x4 x5 x6 x7 x8 x9 x10 x11 x12 x13 x14
local notation "PREV" => val_main_v102 (F := Ideal) x0 x1 x2 x3 x4 x5 x6 x7 x8 x9 x10 x11 x12 x13
local notation "WT" => x14

theorem eq (Z : FVec Ideal S1x128 .f32) (hZ : ∀ j, Z j = 0) : OUT = Cert.KernelIdeal.Lin9.G PREV WT Z := by
  funext i
  rw [val_main_v103_apply]
  unfold Cert.KernelIdeal.Lin9.G
  rw [hZ, add_zero]
  refine Finset.sum_congr rfl fun k _ => ?_
  refine congrArg₂ (· * ·) (congrArg PREV ?_) (congrArg WT ?_)
  · funext a; match a with | ⟨0, _⟩ => rfl | ⟨1, _⟩ => rfl
  · funext a; match a with | ⟨0, _⟩ => rfl | ⟨1, _⟩ => rfl

/-- The zero row the region is entered with: a zero constant broadcast to the bias's length and recast as one row. -/
theorem zero_row (j : S1x128.Idx) :
    shapeCast S1x128 (broadcastInDim S128 ![] bcast_S_S128 (constant (F := Ideal) S_ .f32 0x00000000#32)) shapeCasts_S128_S1x128 j = 0 :=
  Ideal.ofBits_zero_f32

end Cert.Bridge.Lin9

end
-- ==== Proof.Lin11.lean ====
/-
  Region 11: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin11

open Cert.KernelIdeal Cert.KernelIdeal.Gen
open Idealize.ShloMosaic Idealize.ShloMosaic.TcCoe Idealize.SL.Sem Idealize.ShloMosaic.ValueIdx

/-- The block product's dimension record. -/
abbrev D := dot_S2000x128_S128x128_S2000x128_1_0_0_1_n_n

/-- The output array as one function of the three input arrays. -/
def G (X : FVec Ideal S50000x128 .f32) (Wt : FVec Ideal S128x128 .f32) (B : FVec Ideal S1x128 .f32) : FVec Ideal S50000x128 .f32 :=
  fun i => (∑ k : Fin 128, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs1 (i : S2000x128.Idx) (q : D.contr.Idx) : (D.lhsIdx i q 1).val = (q ⟨0, by decide⟩).val :=
  D.lhsIdx_val_of_single rfl i q
theorem rhs0 (i : S2000x128.Idx) (q : D.contr.Idx) : (D.rhsIdx i q 0).val = (q ⟨0, by decide⟩).val :=
  D.rhsIdx_val_of_single rfl i q
theorem rhs1 (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-! ## The body's stored value at an index of its block -/

/-- At (p, q) the stored block is the row-p-times-column-q sum plus the bias at q. -/
theorem pay (x0 : FVec Ideal S2000x128 .f32) (x1 : FVec Ideal S128x128 .f32) (x2 : FVec Ideal S1x128 .f32) (p : Fin 2000) (q : Fin 128) :
    k11_pay1 x0 x1 x2 (ix2 p q) = (∑ k : Fin 128, x0 (ix2 p k) * x1 (ix2 k q)) + x2 (ix2 (0 : Fin 1) q) := by
  unfold k11_pay1
  refine (addf_apply _ _ _).trans ?_
  refine congrArg₂ (· + ·) ?_ ?_
  · refine (Ideal.matmul_constant_zero_apply D none _ _ _).trans ?_
    rw [← Equiv.sum_comp (contrEquiv1 D 128 rfl rfl).symm]
    refine Finset.sum_congr rfl fun k _ => ?_
    have hk := contrEquiv1_symm_val D 128 rfl rfl k
    have el : D.lhsIdx (ix2 p q) ((contrEquiv1 D 128 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 128 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- The body's value on the blocks of point t, at j, is G at j's place in the array. -/
theorem block_eq (X : FVec Ideal S50000x128 .f32) (Wt : FVec Ideal S128x128 .f32) (B : FVec Ideal S1x128 .f32) (t : Fin cfg11.N) (j : S2000x128.Idx) :
    k11_pay1 (((cfg11.win 0).blk t).view.read (Elt Ideal) X) (((cfg11.win 1).blk t).view.read (Elt Ideal) Wt) (((cfg11.win 2).blk t).view.read (Elt Ideal) B) j
      = G X Wt B (((cfg11.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show (∑ k : Fin 128, X (((cfg11.win 0).blk t).view.emb (ix2 p k)) * Wt (((cfg11.win 1).blk t).view.emb (ix2 k q)))
      + B (((cfg11.win 2).blk t).view.emb (ix2 (0 : Fin 1) q))
    = (∑ k : Fin 128, X (ix2 ((((cfg11.win 3).blk t).view.emb (ix2 p q)) 0) k) * Wt (ix2 k ((((cfg11.win 3).blk t).view.emb (ix2 p q)) 1)))
      + B (ix2 (0 : Fin 1) ((((cfg11.win 3).blk t).view.emb (ix2 p q)) 1))
  have h0 : ∀ k : Fin 128, ((cfg11.win 0).blk t).view.emb (ix2 p k) = ix2 ((((cfg11.win 3).blk t).view.emb (ix2 p q)) 0) k := fun k => by
    funext a; apply Fin.ext
    match a with
    | ⟨0, _⟩ => show win11_0.index t (0 : Fin 2) * 2000 + 1 * p.val = win11_3.index t (0 : Fin 2) * 2000 + 1 * p.val; omega
    | ⟨1, _⟩ => show win11_0.index t (1 : Fin 2) * 128 + 1 * k.val = k.val; omega
  have h1 : ∀ k : Fin 128, ((cfg11.win 1).blk t).view.emb (ix2 k q) = ix2 k ((((cfg11.win 3).blk t).view.emb (ix2 p q)) 1) := fun k => by
    funext a; apply Fin.ext
    match a with
    | ⟨0, _⟩ => show win11_1.index t (0 : Fin 2) * 128 + 1 * k.val = k.val; omega
    | ⟨1, _⟩ => show win11_1.index t (1 : Fin 2) * 128 + 1 * q.val = win11_3.index t (1 : Fin 2) * 128 + 1 * q.val; omega
  have h2 : ((cfg11.win 2).blk t).view.emb (ix2 (0 : Fin 1) q) = ix2 (0 : Fin 1) ((((cfg11.win 3).blk t).view.emb (ix2 p q)) 1) := by
    funext a; apply Fin.ext
    match a with
    | ⟨0, _⟩ => show win11_2.index t (0 : Fin 2) * 1 + 1 * 0 = 0; omega
    | ⟨1, _⟩ => show win11_2.index t (1 : Fin 2) * 128 + 1 * q.val = win11_3.index t (1 : Fin 2) * 128 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg11.N) :
    (dat11 V c).flushed 3 t = ((cfg11.win 3).blk t).view.read (Elt Ideal)
      (G (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz]
  simp only [View.ld_unit_zero (S := S2000x128) hz, View.ld_unit_zero (S := S128x128) hz, View.ld_unit_zero (S := S1x128) hz]
  funext j
  exact block_eq _ _ _ t j

/-- An index of the array is in point t's block iff each coordinate is in the block's range on its axis. -/
theorem mem_blk (t : Fin cfg11.N) (i : S50000x128.Idx) :
    i ∈ ((cfg11.win 3).blk t).view.set ↔ ∀ a : Fin 2, win11_3.index t a * S2000x128.size a ≤ (i a).val ∧ (i a).val < win11_3.index t a * S2000x128.size a + S2000x128.size a := by
  show i ∈ ((View.whole main_v112).slice (win11_3.rect t)).set ↔ _
  rw [View.set_slice_whole, Rect.mem_set_unit]
  exact Iff.rfl

/-- Row r lies in the block of point r / 2000. -/
theorem cover (i : S50000x128.Idx) : ∃ t : Fin cfg11.N, (cfg11.win 3).flush t = true ∧ i ∈ ((cfg11.win 3).blk t).view.set := by
  have hi0 : (i 0).val < 50000 := (i 0).isLt
  have hi1 : (i 1).val < 128 := (i 1).isLt
  have hN : grid11.N = 25 := N_11
  let t : Fin cfg11.N := ⟨(i 0).val / 2000, by show (i 0).val / 2000 < grid11.N; omega⟩
  obtain ⟨e00, e01, e10, e11, e20, e21, e30, e31⟩ := idx_facts t
  have ht : t.val = (i 0).val / 2000 := rfl
  refine ⟨t, flush11_3 t, ?_⟩
  rw [mem_blk]
  intro a
  match a with
  | ⟨0, _⟩ => show win11_3.index t (0 : Fin 2) * 2000 ≤ (i 0).val ∧ (i 0).val < win11_3.index t (0 : Fin 2) * 2000 + 2000; omega
  | ⟨1, _⟩ => show win11_3.index t (1 : Fin 2) * 128 ≤ (i 1).val ∧ (i 1).val < win11_3.index t (1 : Fin 2) * 128 + 128; omega

/-- The output array after the region is G of the arrays the region was entered with. -/
theorem final (c : Dev nD) :
    (dat11 V c).arrAt 3 cfg11.N = G (V c (Pipeline.arrRef spec11 0)) (V c (Pipeline.arrRef spec11 1)) (V c (Pipeline.arrRef spec11 2)) :=
  (dat11 V c).arrAt_eq_of_cover 3 _ (fun t _ => flushed_eq V c t) cover

end Cert.KernelIdeal.Lin11

end
-- ==== Proof.BLin11.lean ====
/-
  Region 11 against the reference: the region is entered with an all-zero bias row, and x + 0 = x on every extended
  real, so the region's function of (Y, W, zeros) is the reference's dot product of Y and W over the whole arrays.
  At (r, q) both are Σ_k Y(r, k) · W(k, q).
-/
import proofs.«147497_j34437047780015_1_alg».proof.Proof.ReadP
import proofs.«147497_j34437047780015_1_alg».proof.Proof.Lin11
import Idealize.ShloMosaic.Lib.ValueLayout
import Idealize.ShloMosaic.Lib.IdealHost

set_option maxRecDepth 16384

noncomputable section

namespace Cert.Bridge.Lin11

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v124 (F := Ideal) x0 x1 x2 x3 x4 x5 x6 x7 x8 x9 x10 x11 x12 x13 x14 x15 x16
local notation "PREV" => val_main_v123 (F := Ideal) x0 x1 x2 x3 x4 x5 x6 x7 x8 x9 x10 x11 x12 x13 x14 x15
local notation "WT" => x16

theorem eq (Z : FVec Ideal S1x128 .f32) (hZ : ∀ j, Z j = 0) : OUT = Cert.KernelIdeal.Lin11.G PREV WT Z := by
  funext i
  rw [val_main_v124_apply]
  unfold Cert.KernelIdeal.Lin11.G
  rw [hZ, add_zero]
  refine Finset.sum_congr rfl fun k _ => ?_
  refine congrArg₂ (· * ·) (congrArg PREV ?_) (congrArg WT ?_)
  · funext a; match a with | ⟨0, _⟩ => rfl | ⟨1, _⟩ => rfl
  · funext a; match a with | ⟨0, _⟩ => rfl | ⟨1, _⟩ => rfl

/-- The zero row the region is entered with: a zero constant broadcast to the bias's length and recast as one row. -/
theorem zero_row (j : S1x128.Idx) :
    shapeCast S1x128 (broadcastInDim S128 ![] bcast_S_S128 (constant (F := Ideal) S_ .f32 0x00000000#32)) shapeCasts_S128_S1x128 j = 0 :=
  Ideal.ofBits_zero_f32

end Cert.Bridge.Lin11

end
-- ==== Proof.Lin13.lean ====
/-
  Region 13: a row-blocked matrix product plus a bias row.
  The grid has 25 points; point t holds rows 2000·t … 2000·t + 1999 of the input and of the output, the whole
  weight matrix and the whole one-row bias.  The body stores, at (p, q) of its block, the sum over k of
  x(p, k) · w(k, q) plus the bias at q (rounding to bf16 is the identity on extended reals, and the matmul
  accumulates into a zero splat).  The 25 blocks tile the output, so the array ends at
  G X W B (r, q) = Σ_k X(r, k) · W(k, q) + B(0, q).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Lin13

open Cert.KernelIdeal Cert.KernelIdeal.Gen
open Idealize.ShloMosaic Idealize.ShloMosaic.TcCoe Idealize.SL.Sem Idealize.ShloMosaic.ValueIdx

/-- The block product's dimension record. -/
abbrev D := dot_S2000x128_S128x128_S2000x128_1_0_0_1_n_n

/-- The output array as one function of the three input arrays. -/
def G (X : FVec Ideal S50000x128 .f32) (Wt : FVec Ideal S128x128 .f32) (B : FVec Ideal S1x128 .f32) : FVec Ideal S50000x128 .f32 :=
  fun i => (∑ k : Fin 128, X (ix2 (i 0) k) * Wt (ix2 k (i 1))) + B (ix2 (0 : Fin 1) (i 1))

theorem hz : (![0, 0] : Fin 2 → Nat) = fun _ => 0 := funext fun a => by fin_cases a <;> rfl

/-! ## The operand indices of the block product -/

theorem lhs0 (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs1 (i : S2000x128.Idx) (q : D.contr.Idx) : (D.lhsIdx i q 1).val = (q ⟨0, by decide⟩).val :=
  D.lhsIdx_val_of_single rfl i q
theorem rhs0 (i : S2000x128.Idx) (q : D.contr.Idx) : (D.rhsIdx i q 0).val = (q ⟨0, by decide⟩).val :=
  D.rhsIdx_val_of_single rfl i q
theorem rhs1 (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-! ## The body's stored value at an index of its block -/

/-- At (p, q) the stored block is the row-p-times-column-q sum plus the bias at q. -/
theorem pay (x0 : FVec Ideal S2000x128 .f32) (x1 : FVec Ideal S128x128 .f32) (x2 : FVec Ideal S1x128 .f32) (p : Fin 2000) (q : Fin 128) :
    k13_pay1 x0 x1 x2 (ix2 p q) = (∑ k : Fin 128, x0 (ix2 p k) * x1 (ix2 k q)) + x2 (ix2 (0 : Fin 1) q) := by
  unfold k13_pay1
  refine (addf_apply _ _ _).trans ?_
  refine congrArg₂ (· + ·) ?_ ?_
  · refine (Ideal.matmul_constant_zero_apply D none _ _ _).trans ?_
    rw [← Equiv.sum_comp (contrEquiv1 D 128 rfl rfl).symm]
    refine Finset.sum_congr rfl fun k _ => ?_
    have hk := contrEquiv1_symm_val D 128 rfl rfl k
    have el : D.lhsIdx (ix2 p q) ((contrEquiv1 D 128 rfl rfl).symm k) = ix2 p k := funext fun a => Fin.ext (by
      match a with
      | ⟨0, _⟩ => exact lhs0 _ _
      | ⟨1, _⟩ => exact (lhs1 _ _).trans hk)
    have er : D.rhsIdx (ix2 p q) ((contrEquiv1 D 128 rfl rfl).symm k) = ix2 k q := funext fun a => Fin.ext (by
      match a with
      | ⟨0, _⟩ => exact (rhs0 _ _).trans hk
      | ⟨1, _⟩ => exact rhs1 _ _)
    rw [el, er]
    exact congrArg₂ (· * ·) (by first | rfl | exact congrFun (shapeCast_self _ _) _) rfl
  · refine (broadcastTo_1b_ab_apply _ _ p q).trans ?_
    rw [shapeCast_self]

/-! ## From the blocks to the array -/

variable (V : (c : Dev nD) → (b : Ref sig .tc) → Buf (Elt Ideal) ((c : Thread nD τ).loc b))

/-- The printed index maps over the grid: the row-blocked windows sit at block (t, 0), the others at (0, 0). -/
theorem idx_facts : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- The body's value on the blocks of point t, at j, is G at j's place in the array. -/
theorem block_eq (X : FVec Ideal S50000x128 .f32) (Wt : FVec Ideal S128x128 .f32) (B : FVec Ideal S1x128 .f32) (t : Fin cfg13.N) (j : S2000x128.Idx) :
    k13_pay1 (((cfg13.win 0).blk t).view.read (Elt Ideal) X) (((cfg13.win 1).blk t).view.read (Elt Ideal) Wt) (((cfg13.win 2).blk t).view.read (Elt Ideal) B) j
      = G X Wt B (((cfg13.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show (∑ k : Fin 128, X (((cfg13.win 0).blk t).view.emb (ix2 p k)) * Wt (((cfg13.win 1).blk t).view.emb (ix2 k q)))
      + B (((cfg13.win 2).blk t).view.emb (ix2 (0 : Fin 1) q))
    = (∑ k : Fin 128, X (ix2 ((((cfg13.win 3).blk t).view.emb (ix2 p q)) 0) k) * Wt (ix2 k ((((cfg13.win 3).blk t).view.emb (ix2 p q)) 1)))
      + B (ix2 (0 : Fin 1) ((((cfg13.win 3).blk t).view.emb (ix2 p q)) 1))
  have h0 : ∀ k : Fin 128, ((cfg13.win 0).blk t).view.emb (ix2 p k) = ix2 ((((cfg13.win 3).blk t).view.emb (ix2 p q)) 0) k := fun k => by
    funext a; apply Fin.ext
    match a with
    | ⟨0, _⟩ => show win13_0.index t (0 : Fin 2) * 2000 + 1 * p.val = win13_3.index t (0 : Fin 2) * 2000 + 1 * p.val; omega
    | ⟨1, _⟩ => show win13_0.index t (1 : Fin 2) * 128 + 1 * k.val = k.val; omega
  have h1 : ∀ k : Fin 128, ((cfg13.win 1).blk t).view.emb (ix2 k q) = ix2 k ((((cfg13.win 3).blk t).view.emb (ix2 p q)) 1) := fun k => by
    funext a; apply Fin.ext
    match a with
    | ⟨0, _⟩ => show win13_1.index t (0 : Fin 2) * 128 + 1 * k.val = k.val; omega
    | ⟨1, _⟩ => show win13_1.index t (1 : Fin 2) * 128 + 1 * q.val = win13_3.index t (1 : Fin 2) * 128 + 1 * q.val; omega
  have h2 : ((cfg13.win 2).blk t).view.emb (ix2 (0 : Fin 1) q) = ix2 (0 : Fin 1) ((((cfg13.win 3).blk t).view.emb (ix2 p q)) 1) := by
    funext a; apply Fin.ext
    match a with
    | ⟨0, _⟩ => show win13_2.index t (0 : Fin 2) * 1 + 1 * 0 = 0; omega
    | ⟨1, _⟩ => show win13_2.index t (1 : Fin 2) * 128 + 1 * q.val = win13_3.index t (1 : Fin 2) * 128 + 1 * q.val; omega
  rw [h2]
  exact congrArg (· + _) (Finset.sum_congr rfl fun k _ => by rw [h0 k, h1 k]; rfl)

/-- What point t writes back is block t of G of the arrays as the region finds them. -/
theorem flushed_eq (c : Dev nD) (t : Fin cfg13.N) :
    (dat13 V c).flushed 3 t = ((cfg13.win 3).blk t).view.read (Elt Ideal)
      (G (V c (Pipeline.arrRef spec13 0)) (V c (Pipeline.arrRef spec13 1)) (V c (Pipeline.arrRef spec13 2))) := by
  show (cfg13.win 3).cut (grid13.coords t) ((dat13 V c).after 3 t) = _
  rw [after13_3]
  unfold out13_3
  rw [View.canon_unit_zero hz]
  simp only [View.ld_unit_zero (S := S2000x128) hz, View.ld_unit_zero (S := S128x128) hz, View.ld_unit_zero (S := S1x128) hz]
  funext j
  exact block_eq _ _ _ t j

/-- An index of the array is in point t's block iff each coordinate is in the block's range on its axis. -/
theorem mem_blk (t : Fin cfg13.N) (i : S50000x128.Idx) :
    i ∈ ((cfg13.win 3).blk t).view.set ↔ ∀ a : Fin 2, win13_3.index t a * S2000x128.size a ≤ (i a).val ∧ (i a).val < win13_3.index t a * S2000x128.size a + S2000x128.size a := by
  show i ∈ ((View.whole main_v130).slice (win13_3.rect t)).set ↔ _
  rw [View.set_slice_whole, Rect.mem_set_unit]
  exact Iff.rfl

/-- Row r lies in the block of point r / 2000. -/
theorem cover (i : S50000x128.Idx) : ∃ t : Fin cfg13.N, (cfg13.win 3).flush t = true ∧ i ∈ ((cfg13.win 3).blk t).view.set := by
  have hi0 : (i 0).val < 50000 := (i 0).isLt
  have hi1 : (i 1).val < 128 := (i 1).isLt
  have hN : grid13.N = 25 := N_13
  let t : Fin cfg13.N := ⟨(i 0).val / 2000, by show (i 0).val / 2000 < grid13.N; omega⟩
  obtain ⟨e00, e01, e10, e11, e20, e21, e30, e31⟩ := idx_facts t
  have ht : t.val = (i 0).val / 2000 := rfl
  refine ⟨t, flush13_3 t, ?_⟩
  rw [mem_blk]
  intro a
  match a with
  | ⟨0, _⟩ => show win13_3.index t (0 : Fin 2) * 2000 ≤ (i 0).val ∧ (i 0).val < win13_3.index t (0 : Fin 2) * 2000 + 2000; omega
  | ⟨1, _⟩ => show win13_3.index t (1 : Fin 2) * 128 ≤ (i 1).val ∧ (i 1).val < win13_3.index t (1 : Fin 2) * 128 + 128; omega

/-- The output array after the region is G of the arrays the region was entered with. -/
theorem final (c : Dev nD) :
    (dat13 V c).arrAt 3 cfg13.N = G (V c (Pipeline.arrRef spec13 0)) (V c (Pipeline.arrRef spec13 1)) (V c (Pipeline.arrRef spec13 2)) :=
  (dat13 V c).arrAt_eq_of_cover 3 _ (fun t _ => flushed_eq V c t) cover

end Cert.KernelIdeal.Lin13

end
-- ==== Proof.BLin13.lean ====
/-
  Region 13 against the reference: the region is entered with an all-zero bias row, and x + 0 = x on every extended
  real, so the region's function of (Y, W, zeros) is the reference's dot product of Y and W over the whole arrays.
  At (r, q) both are Σ_k Y(r, k) · W(k, q).
-/
import proofs.«147497_j34437047780015_1_alg».proof.Proof.ReadP
import proofs.«147497_j34437047780015_1_alg».proof.Proof.Lin13
import Idealize.ShloMosaic.Lib.ValueLayout
import Idealize.ShloMosaic.Lib.IdealHost

set_option maxRecDepth 16384

noncomputable section

namespace Cert.Bridge.Lin13

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v145 (F := Ideal) x0 x1 x2 x3 x4 x5 x6 x7 x8 x9 x10 x11 x12 x13 x14 x15 x16 x17 x18
local notation "PREV" => val_main_v144 (F := Ideal) x0 x1 x2 x3 x4 x5 x6 x7 x8 x9 x10 x11 x12 x13 x14 x15 x16 x17
local notation "WT" => x18

theorem eq (Z : FVec Ideal S1x128 .f32) (hZ : ∀ j, Z j = 0) : OUT = Cert.KernelIdeal.Lin13.G PREV WT Z := by
  funext i
  rw [val_main_v145_apply]
  unfold Cert.KernelIdeal.Lin13.G
  rw [hZ, add_zero]
  refine Finset.sum_congr rfl fun k _ => ?_
  refine congrArg₂ (· * ·) (congrArg PREV ?_) (congrArg WT ?_)
  · funext a; match a with | ⟨0, _⟩ => rfl | ⟨1, _⟩ => rfl
  · funext a; match a with | ⟨0, _⟩ => rfl | ⟨1, _⟩ => rfl

/-- The zero row the region is entered with: a zero constant broadcast to the bias's length and recast as one row. -/
theorem zero_row (j : S1x128.Idx) :
    shapeCast S1x128 (broadcastInDim S128 ![] bcast_S_S128 (constant (F := Ideal) S_ .f32 0x00000000#32)) shapeCasts_S128_S1x128 j = 0 :=
  Ideal.ofBits_zero_f32

end Cert.Bridge.Lin13

end
-- ==== Proof.Comb2.lean ====
/-
  Region 2: the residual plus the scaled rectified aggregate.
  The grid has 25 points; point t holds rows 2000·t … 2000·t + 1999 of the residual, of the aggregate and of the
  output, and the whole one-row bias.  The body stores, at (p, q) of its block,
  resid(p, q) + s · max(agg(p, q) + bias(q), z) with s and z the scale's and zero's words.  The 25 blocks tile the
  output, so the array ends at G R A B (r, q) = R(r, q) + s · max(A(r, q) + B(0, q), z).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Comb2

open Cert.KernelIdeal Cert.KernelIdeal.Gen
open Idealize.ShloMosaic Idealize.ShloMosaic.TcCoe Idealize.SL.Sem Idealize.ShloMosaic.ValueIdx

/-- The output array as one function of the three input arrays. -/
def G (R : FVec Ideal S50000x256 .f32) (A : FVec Ideal S50000x256 .f32) (B : FVec Ideal S1x256 .f32) : FVec Ideal S50000x256 .f32 :=
  fun i => R i + (Scalar.ofBits .f32 0x3F800000#32 : Ideal .f32) * max (A i + B (ix2 (0 : Fin 1) (i 1))) (Scalar.ofBits .f32 0x00000000#32 : Ideal .f32)

theorem hz : (![0, 0] : Fin 2 → Nat) = fun _ => 0 := funext fun a => by fin_cases a <;> rfl

/-! ## The body's stored value at an index of its block -/

theorem pay (a : FVec Ideal S2000x256 .f32) (b : FVec Ideal S1x256 .f32) (r : FVec Ideal S2000x256 .f32) (p : Fin 2000) (q : Fin 256) :
    k2_pay1 a b r (ix2 p q) = r (ix2 p q) + (Scalar.ofBits .f32 0x3F800000#32 : Ideal .f32) * max (a (ix2 p q) + b (ix2 (0 : Fin 1) q)) (Scalar.ofBits .f32 0x00000000#32 : Ideal .f32) := by
  unfold k2_pay1
  refine (addf_apply _ _ _).trans ?_
  refine congrArg₂ (· + ·) (congrFun (shapeCast_self _ _) _) ?_
  refine (mulf_apply _ _ _).trans ?_
  refine congrArg₂ (· * ·) rfl ?_
  refine (maximumf_apply _ _ _).trans ?_
  refine congrArg₂ max ?_ rfl
  refine (addf_apply _ _ _).trans ?_
  refine congrArg₂ (· + ·) (congrFun (shapeCast_self _ _) _) ?_
  refine (broadcastTo_1b_ab_apply _ _ p q).trans ?_
  exact congrFun (shapeCast_self _ _) _

/-! ## From the blocks to the array -/

variable (V : (c : Dev nD) → (b : Ref sig .tc) → Buf (Elt Ideal) ((c : Thread nD τ).loc b))

/-- The printed index maps over the grid: the row-blocked windows sit at block (t, 0), the bias at (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's value on the blocks of point t, at j, is G at j's place in the array. -/
theorem block_eq (R : FVec Ideal S50000x256 .f32) (A : FVec Ideal S50000x256 .f32) (B : FVec Ideal S1x256 .f32) (t : Fin cfg2.N) (j : S2000x256.Idx) :
    k2_pay1 (((cfg2.win 1).blk t).view.read (Elt Ideal) A) (((cfg2.win 2).blk t).view.read (Elt Ideal) B) (((cfg2.win 0).blk t).view.read (Elt Ideal) R) j
      = G R A B (((cfg2.win 3).blk t).view.emb j) := by
  obtain ⟨e00, e01, e10, e11, e20, e21, e30, e31⟩ := idx_facts t
  obtain ⟨p, q, rfl⟩ : ∃ (p : Fin 2000) (q : Fin 256), j = ix2 p q := ⟨j 0, j 1, eq_ix2 j⟩
  refine (pay _ _ _ p q).trans ?_
  show R (((cfg2.win 0).blk t).view.emb (ix2 p q))
      + (Scalar.ofBits .f32 0x3F800000#32 : Ideal .f32) * max (A (((cfg2.win 1).blk t).view.emb (ix2 p q))
        + B (((cfg2.win 2).blk t).view.emb (ix2 (0 : Fin 1) q))) (Scalar.ofBits .f32 0x00000000#32 : Ideal .f32)
    = R (((cfg2.win 3).blk t).view.emb (ix2 p q))
      + (Scalar.ofBits .f32 0x3F800000#32 : Ideal .f32) * max (A (((cfg2.win 3).blk t).view.emb (ix2 p q))
        + B (ix2 (0 : Fin 1) ((((cfg2.win 3).blk t).view.emb (ix2 p q)) 1))) (Scalar.ofBits .f32 0x00000000#32 : Ideal .f32)
  have h0 : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 256 + 1 * q.val = win2_3.index t (1 : Fin 2) * 256 + 1 * q.val; omega
  have h1 : ((cfg2.win 1).blk t).view.emb (ix2 p q) = ((cfg2.win 3).blk t).view.emb (ix2 p q) := by
    funext a; apply Fin.ext
    match a with
    | ⟨0, _⟩ => show win2_1.index t (0 : Fin 2) * 2000 + 1 * p.val = win2_3.index t (0 : Fin 2) * 2000 + 1 * p.val; omega
    | ⟨1, _⟩ => show win2_1.index t (1 : Fin 2) * 256 + 1 * q.val = win2_3.index t (1 : Fin 2) * 256 + 1 * q.val; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 256 + 1 * q.val = win2_3.index t (1 : Fin 2) * 256 + 1 * q.val; omega
  rw [h0, h1, h2]
  rfl

/-- What point t writes back is block t of G of the arrays as the region finds them. -/
theorem flushed_eq (c : Dev nD) (t : Fin cfg2.N) :
    (dat2 V c).flushed 3 t = ((cfg2.win 3).blk t).view.read (Elt Ideal)
      (G (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S2000x256) hz, View.ld_unit_zero (S := S1x256) hz]
  funext j
  exact block_eq _ _ _ t j

/-- An index of the array is in point t's block iff each coordinate is in the block's range on its axis. -/
theorem mem_blk (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v51).slice (win2_3.rect t)).set ↔ _
  rw [View.set_slice_whole, Rect.mem_set_unit]
  exact Iff.rfl

/-- Row r lies in the block of point r / 2000. -/
theorem cover (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : grid2.N = 25 := N_2
  let t : Fin cfg2.N := ⟨(i 0).val / 2000, by show (i 0).val / 2000 < grid2.N; omega⟩
  obtain ⟨e00, e01, e10, e11, e20, e21, e30, e31⟩ := idx_facts t
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- The output array after the region is G of the arrays the region was entered with. -/
theorem final (c : Dev nD) :
    (dat2 V c).arrAt 3 cfg2.N = G (V c (Pipeline.arrRef spec2 0)) (V c (Pipeline.arrRef spec2 1)) (V c (Pipeline.arrRef spec2 2)) :=
  (dat2 V c).arrAt_eq_of_cover 3 _ (fun t _ => flushed_eq V c t) cover

end Cert.KernelIdeal.Comb2

end
-- ==== Proof.BComb2.lean ====
/-
  Region 2 against the reference: the residual plus the rectified (aggregate plus bias), the bias broadcast twice in
  the reference (a row, then every row) and recast as one row for the region.  The region multiplies the rectified
  term by the word of 1.0, which is the extended real one, and 1 · x = x.
-/
import proofs.«147497_j34437047780015_1_alg».proof.Proof.ReadP
import proofs.«147497_j34437047780015_1_alg».proof.Proof.Comb2
import Idealize.ShloMosaic.Lib.ValueLayout
import Idealize.ShloMosaic.Lib.IdealHost

set_option maxRecDepth 16384

noncomputable section

namespace Cert.Bridge.Comb2

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v54 (F := Ideal) x0 x1 x2 x3 x8 x9
local notation "RESID" => val_main_v35 (F := Ideal) x0 x2 x3
local notation "AGG" => val_main_v49 (F := Ideal) x0 x1 x2 x3 x8
local notation "BIAS" => x9

theorem eq : OUT = Cert.KernelIdeal.Comb2.G RESID AGG (shapeCast S1x256 BIAS shapeCasts_S256_S1x256) := by
  funext i
  rw [val_main_v54_apply, val_main_v53_apply, val_main_v52_apply, val_main_v51_apply, val_main_v50_apply,
    val_main_call1_v0_apply, val_main_call1_cst_apply]
  unfold Cert.KernelIdeal.Comb2.G
  rw [show (Scalar.ofBits .f32 0x3F800000#32 : Ideal .f32) = 1 from Ideal.ofBits_one_f32, one_mul]
  refine congrArg₂ (· + ·) rfl (congrArg₂ max (congrArg₂ (· + ·) rfl ?_) rfl)
  refine Eq.trans ?_ (shapeCast_a_1a_apply BIAS _ (0 : Fin 1) (i 1)).symm
  exact congrArg BIAS (funext fun a => match a with | ⟨0, _⟩ => rfl)

end Cert.Bridge.Comb2

end
-- ==== Proof.Comb5.lean ====
/-
  Region 5: the residual plus the scaled rectified aggregate.
  The grid has 25 points; point t holds rows 2000·t … 2000·t + 1999 of the residual, of the aggregate and of the
  output, and the whole one-row bias.  The body stores, at (p, q) of its block,
  resid(p, q) + s · max(agg(p, q) + bias(q), z) with s and z the scale's and zero's words.  The 25 blocks tile the
  output, so the array ends at G R A B (r, q) = R(r, q) + s · max(A(r, q) + B(0, q), z).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Comb5

open Cert.KernelIdeal Cert.KernelIdeal.Gen
open Idealize.ShloMosaic Idealize.ShloMosaic.TcCoe Idealize.SL.Sem Idealize.ShloMosaic.ValueIdx

/-- The output array as one function of the three input arrays. -/
def G (R : FVec Ideal S50000x62 .f32) (A : FVec Ideal S50000x62 .f32) (B : FVec Ideal S1x62 .f32) : FVec Ideal S50000x62 .f32 :=
  fun i => R i + (Scalar.ofBits .f32 0x3F800000#32 : Ideal .f32) * max (A i + B (ix2 (0 : Fin 1) (i 1))) (Scalar.ofBits .f32 0x00000000#32 : Ideal .f32)

theorem hz : (![0, 0] : Fin 2 → Nat) = fun _ => 0 := funext fun a => by fin_cases a <;> rfl

/-! ## The body's stored value at an index of its block -/

theorem pay (a : FVec Ideal S2000x62 .f32) (b : FVec Ideal S1x62 .f32) (r : FVec Ideal S2000x62 .f32) (p : Fin 2000) (q : Fin 62) :
    k5_pay1 a b r (ix2 p q) = r (ix2 p q) + (Scalar.ofBits .f32 0x3F800000#32 : Ideal .f32) * max (a (ix2 p q) + b (ix2 (0 : Fin 1) q)) (Scalar.ofBits .f32 0x00000000#32 : Ideal .f32) := by
  unfold k5_pay1
  refine (addf_apply _ _ _).trans ?_
  refine congrArg₂ (· + ·) (congrFun (shapeCast_self _ _) _) ?_
  refine (mulf_apply _ _ _).trans ?_
  refine congrArg₂ (· * ·) rfl ?_
  refine (maximumf_apply _ _ _).trans ?_
  refine congrArg₂ max ?_ rfl
  refine (addf_apply _ _ _).trans ?_
  refine congrArg₂ (· + ·) (congrFun (shapeCast_self _ _) _) ?_
  refine (broadcastTo_1b_ab_apply _ _ p q).trans ?_
  exact congrFun (shapeCast_self _ _) _

/-! ## From the blocks to the array -/

variable (V : (c : Dev nD) → (b : Ref sig .tc) → Buf (Elt Ideal) ((c : Thread nD τ).loc b))

/-- The printed index maps over the grid: the row-blocked windows sit at block (t, 0), the bias at (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The body's value on the blocks of point t, at j, is G at j's place in the array. -/
theorem block_eq (R : FVec Ideal S50000x62 .f32) (A : FVec Ideal S50000x62 .f32) (B : FVec Ideal S1x62 .f32) (t : Fin cfg5.N) (j : S2000x62.Idx) :
    k5_pay1 (((cfg5.win 1).blk t).view.read (Elt Ideal) A) (((cfg5.win 2).blk t).view.read (Elt Ideal) B) (((cfg5.win 0).blk t).view.read (Elt Ideal) R) j
      = G R A B (((cfg5.win 3).blk t).view.emb j) := by
  obtain ⟨e00, e01, e10, e11, e20, e21, e30, e31⟩ := idx_facts t
  obtain ⟨p, q, rfl⟩ : ∃ (p : Fin 2000) (q : Fin 62), j = ix2 p q := ⟨j 0, j 1, eq_ix2 j⟩
  refine (pay _ _ _ p q).trans ?_
  show R (((cfg5.win 0).blk t).view.emb (ix2 p q))
      + (Scalar.ofBits .f32 0x3F800000#32 : Ideal .f32) * max (A (((cfg5.win 1).blk t).view.emb (ix2 p q))
        + B (((cfg5.win 2).blk t).view.emb (ix2 (0 : Fin 1) q))) (Scalar.ofBits .f32 0x00000000#32 : Ideal .f32)
    = R (((cfg5.win 3).blk t).view.emb (ix2 p q))
      + (Scalar.ofBits .f32 0x3F800000#32 : Ideal .f32) * max (A (((cfg5.win 3).blk t).view.emb (ix2 p q))
        + B (ix2 (0 : Fin 1) ((((cfg5.win 3).blk t).view.emb (ix2 p q)) 1))) (Scalar.ofBits .f32 0x00000000#32 : Ideal .f32)
  have h0 : ((cfg5.win 0).blk t).view.emb (ix2 p q) = ((cfg5.win 3).blk t).view.emb (ix2 p q) := by
    funext a; apply Fin.ext
    match a with
    | ⟨0, _⟩ => show win5_0.index t (0 : Fin 2) * 2000 + 1 * p.val = win5_3.index t (0 : Fin 2) * 2000 + 1 * p.val; omega
    | ⟨1, _⟩ => show win5_0.index t (1 : Fin 2) * 62 + 1 * q.val = win5_3.index t (1 : Fin 2) * 62 + 1 * q.val; omega
  have h1 : ((cfg5.win 1).blk t).view.emb (ix2 p q) = ((cfg5.win 3).blk t).view.emb (ix2 p q) := by
    funext a; apply Fin.ext
    match a with
    | ⟨0, _⟩ => show win5_1.index t (0 : Fin 2) * 2000 + 1 * p.val = win5_3.index t (0 : Fin 2) * 2000 + 1 * p.val; omega
    | ⟨1, _⟩ => show win5_1.index t (1 : Fin 2) * 62 + 1 * q.val = win5_3.index t (1 : Fin 2) * 62 + 1 * q.val; omega
  have h2 : ((cfg5.win 2).blk t).view.emb (ix2 (0 : Fin 1) q) = ix2 (0 : Fin 1) ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 62 + 1 * q.val = win5_3.index t (1 : Fin 2) * 62 + 1 * q.val; omega
  rw [h0, h1, h2]
  rfl

/-- What point t writes back is block t of G of the arrays as the region finds them. -/
theorem flushed_eq (c : Dev nD) (t : Fin cfg5.N) :
    (dat5 V c).flushed 3 t = ((cfg5.win 3).blk t).view.read (Elt Ideal)
      (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S2000x62) hz, View.ld_unit_zero (S := S1x62) hz]
  funext j
  exact block_eq _ _ _ t j

/-- An index of the array is in point t's block iff each coordinate is in the block's range on its axis. -/
theorem mem_blk (t : Fin cfg5.N) (i : S50000x62.Idx) :
    i ∈ ((cfg5.win 3).blk t).view.set ↔ ∀ a : Fin 2, win5_3.index t a * S2000x62.size a ≤ (i a).val ∧ (i a).val < win5_3.index t a * S2000x62.size a + S2000x62.size a := by
  show i ∈ ((View.whole main_v71).slice (win5_3.rect t)).set ↔ _
  rw [View.set_slice_whole, Rect.mem_set_unit]
  exact Iff.rfl

/-- Row r lies in the block of point r / 2000. -/
theorem cover (i : S50000x62.Idx) : ∃ t : Fin cfg5.N, (cfg5.win 3).flush t = true ∧ i ∈ ((cfg5.win 3).blk t).view.set := by
  have hi0 : (i 0).val < 50000 := (i 0).isLt
  have hi1 : (i 1).val < 62 := (i 1).isLt
  have hN : grid5.N = 25 := N_5
  let t : Fin cfg5.N := ⟨(i 0).val / 2000, by show (i 0).val / 2000 < grid5.N; omega⟩
  obtain ⟨e00, e01, e10, e11, e20, e21, e30, e31⟩ := idx_facts t
  have ht : t.val = (i 0).val / 2000 := rfl
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 62 ≤ (i 1).val ∧ (i 1).val < win5_3.index t (1 : Fin 2) * 62 + 62; omega

/-- The output array after the region is G of the arrays the region was entered with. -/
theorem final (c : Dev nD) :
    (dat5 V c).arrAt 3 cfg5.N = G (V c (Pipeline.arrRef spec5 0)) (V c (Pipeline.arrRef spec5 1)) (V c (Pipeline.arrRef spec5 2)) :=
  (dat5 V c).arrAt_eq_of_cover 3 _ (fun t _ => flushed_eq V c t) cover

end Cert.KernelIdeal.Comb5

end
-- ==== Proof.BComb5.lean ====
/-
  Region 5 against the reference: the residual plus the rectified (aggregate plus bias), the bias broadcast twice in
  the reference (a row, then every row) and recast as one row for the region.  The region multiplies the rectified
  term by the word of 1.0, which is the extended real one, and 1 · x = x.
-/
import proofs.«147497_j34437047780015_1_alg».proof.Proof.ReadP
import proofs.«147497_j34437047780015_1_alg».proof.Proof.Comb5
import Idealize.ShloMosaic.Lib.ValueLayout
import Idealize.ShloMosaic.Lib.IdealHost

set_option maxRecDepth 16384

noncomputable section

namespace Cert.Bridge.Comb5

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v77 (F := Ideal) x0 x1 x2 x3 x4 x5 x8 x9 x10 x11
local notation "RESID" => val_main_v58 (F := Ideal) x0 x1 x2 x3 x4 x5 x8 x9
local notation "AGG" => val_main_v72 (F := Ideal) x0 x1 x2 x3 x4 x5 x8 x9 x10
local notation "BIAS" => x11

theorem eq : OUT = Cert.KernelIdeal.Comb5.G RESID AGG (shapeCast S1x62 BIAS shapeCasts_S62_S1x62) := by
  funext i
  rw [val_main_v77_apply, val_main_v76_apply, val_main_v75_apply, val_main_v74_apply, val_main_v73_apply,
    val_main_call2_v0_apply, val_main_call2_cst_apply]
  unfold Cert.KernelIdeal.Comb5.G
  rw [show (Scalar.ofBits .f32 0x3F800000#32 : Ideal .f32) = 1 from Ideal.ofBits_one_f32, one_mul]
  refine congrArg₂ (· + ·) rfl (congrArg₂ max (congrArg₂ (· + ·) rfl ?_) rfl)
  refine Eq.trans ?_ (shapeCast_a_1a_apply BIAS _ (0 : Fin 1) (i 1)).symm
  exact congrArg BIAS (funext fun a => match a with | ⟨0, _⟩ => rfl)

end Cert.Bridge.Comb5

end
-- ==== Proof.Comb8.lean ====
/-
  Region 8: the residual plus the scaled rectified aggregate.
  The grid has 25 points; point t holds rows 2000·t … 2000·t + 1999 of the residual, of the aggregate and of the
  output, and the whole one-row bias.  The body stores, at (p, q) of its block,
  resid(p, q) + s · max(agg(p, q) + bias(q), z) with s and z the scale's and zero's words.  The 25 blocks tile the
  output, so the array ends at G R A B (r, q) = R(r, q) + s · max(A(r, q) + B(0, q), z).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Comb8

open Cert.KernelIdeal Cert.KernelIdeal.Gen
open Idealize.ShloMosaic Idealize.ShloMosaic.TcCoe Idealize.SL.Sem Idealize.ShloMosaic.ValueIdx

/-- The output array as one function of the three input arrays. -/
def G (R : FVec Ideal S50000x128 .f32) (A : FVec Ideal S50000x128 .f32) (B : FVec Ideal S1x128 .f32) : FVec Ideal S50000x128 .f32 :=
  fun i => R i + (Scalar.ofBits .f32 0x3F000000#32 : Ideal .f32) * max (A i + B (ix2 (0 : Fin 1) (i 1))) (Scalar.ofBits .f32 0x00000000#32 : Ideal .f32)

theorem hz : (![0, 0] : Fin 2 → Nat) = fun _ => 0 := funext fun a => by fin_cases a <;> rfl

/-! ## The body's stored value at an index of its block -/

theorem pay (a : FVec Ideal S2000x128 .f32) (b : FVec Ideal S1x128 .f32) (r : FVec Ideal S2000x128 .f32) (p : Fin 2000) (q : Fin 128) :
    k8_pay1 a b r (ix2 p q) = r (ix2 p q) + (Scalar.ofBits .f32 0x3F000000#32 : Ideal .f32) * max (a (ix2 p q) + b (ix2 (0 : Fin 1) q)) (Scalar.ofBits .f32 0x00000000#32 : Ideal .f32) := by
  unfold k8_pay1
  refine (addf_apply _ _ _).trans ?_
  refine congrArg₂ (· + ·) (congrFun (shapeCast_self _ _) _) ?_
  refine (mulf_apply _ _ _).trans ?_
  refine congrArg₂ (· * ·) rfl ?_
  refine (maximumf_apply _ _ _).trans ?_
  refine congrArg₂ max ?_ rfl
  refine (addf_apply _ _ _).trans ?_
  refine congrArg₂ (· + ·) (congrFun (shapeCast_self _ _) _) ?_
  refine (broadcastTo_1b_ab_apply _ _ p q).trans ?_
  exact congrFun (shapeCast_self _ _) _

/-! ## From the blocks to the array -/

variable (V : (c : Dev nD) → (b : Ref sig .tc) → Buf (Elt Ideal) ((c : Thread nD τ).loc b))

/-- The printed index maps over the grid: the row-blocked windows sit at block (t, 0), the bias at (0, 0). -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The body's value on the blocks of point t, at j, is G at j's place in the array. -/
theorem block_eq (R : FVec Ideal S50000x128 .f32) (A : FVec Ideal S50000x128 .f32) (B : FVec Ideal S1x128 .f32) (t : Fin cfg8.N) (j : S2000x128.Idx) :
    k8_pay1 (((cfg8.win 1).blk t).view.read (Elt Ideal) A) (((cfg8.win 2).blk t).view.read (Elt Ideal) B) (((cfg8.win 0).blk t).view.read (Elt Ideal) R) j
      = G R A B (((cfg8.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show R (((cfg8.win 0).blk t).view.emb (ix2 p q))
      + (Scalar.ofBits .f32 0x3F000000#32 : Ideal .f32) * max (A (((cfg8.win 1).blk t).view.emb (ix2 p q))
        + B (((cfg8.win 2).blk t).view.emb (ix2 (0 : Fin 1) q))) (Scalar.ofBits .f32 0x00000000#32 : Ideal .f32)
    = R (((cfg8.win 3).blk t).view.emb (ix2 p q))
      + (Scalar.ofBits .f32 0x3F000000#32 : Ideal .f32) * max (A (((cfg8.win 3).blk t).view.emb (ix2 p q))
        + B (ix2 (0 : Fin 1) ((((cfg8.win 3).blk t).view.emb (ix2 p q)) 1))) (Scalar.ofBits .f32 0x00000000#32 : Ideal .f32)
  have h0 : ((cfg8.win 0).blk t).view.emb (ix2 p q) = ((cfg8.win 3).blk t).view.emb (ix2 p q) := by
    funext a; apply Fin.ext
    match a with
    | ⟨0, _⟩ => show win8_0.index t (0 : Fin 2) * 2000 + 1 * p.val = win8_3.index t (0 : Fin 2) * 2000 + 1 * p.val; omega
    | ⟨1, _⟩ => show win8_0.index t (1 : Fin 2) * 128 + 1 * q.val = win8_3.index t (1 : Fin 2) * 128 + 1 * q.val; omega
  have h1 : ((cfg8.win 1).blk t).view.emb (ix2 p q) = ((cfg8.win 3).blk t).view.emb (ix2 p q) := by
    funext a; apply Fin.ext
    match a with
    | ⟨0, _⟩ => show win8_1.index t (0 : Fin 2) * 2000 + 1 * p.val = win8_3.index t (0 : Fin 2) * 2000 + 1 * p.val; omega
    | ⟨1, _⟩ => show win8_1.index t (1 : Fin 2) * 128 + 1 * q.val = win8_3.index t (1 : Fin 2) * 128 + 1 * q.val; omega
  have h2 : ((cfg8.win 2).blk t).view.emb (ix2 (0 : Fin 1) q) = ix2 (0 : Fin 1) ((((cfg8.win 3).blk t).view.emb (ix2 p q)) 1) := by
    funext a; apply Fin.ext
    match a with
    | ⟨0, _⟩ => show win8_2.index t (0 : Fin 2) * 1 + 1 * 0 = 0; omega
    | ⟨1, _⟩ => show win8_2.index t (1 : Fin 2) * 128 + 1 * q.val = win8_3.index t (1 : Fin 2) * 128 + 1 * q.val; omega
  rw [h0, h1, h2]
  rfl

/-- What point t writes back is block t of G of the arrays as the region finds them. -/
theorem flushed_eq (c : Dev nD) (t : Fin cfg8.N) :
    (dat8 V c).flushed 3 t = ((cfg8.win 3).blk t).view.read (Elt Ideal)
      (G (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz]
  simp only [View.ld_unit_zero (S := S2000x128) hz, View.ld_unit_zero (S := S1x128) hz]
  funext j
  exact block_eq _ _ _ t j

/-- An index of the array is in point t's block iff each coordinate is in the block's range on its axis. -/
theorem mem_blk (t : Fin cfg8.N) (i : S50000x128.Idx) :
    i ∈ ((cfg8.win 3).blk t).view.set ↔ ∀ a : Fin 2, win8_3.index t a * S2000x128.size a ≤ (i a).val ∧ (i a).val < win8_3.index t a * S2000x128.size a + S2000x128.size a := by
  show i ∈ ((View.whole main_v91).slice (win8_3.rect t)).set ↔ _
  rw [View.set_slice_whole, Rect.mem_set_unit]
  exact Iff.rfl

/-- Row r lies in the block of point r / 2000. -/
theorem cover (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  have hN : grid8.N = 25 := N_8
  let t : Fin cfg8.N := ⟨(i 0).val / 2000, by show (i 0).val / 2000 < grid8.N; omega⟩
  obtain ⟨e00, e01, e10, e11, e20, e21, e30, e31⟩ := idx_facts t
  have ht : t.val = (i 0).val / 2000 := rfl
  refine ⟨t, flush8_3 t, ?_⟩
  rw [mem_blk]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 128 ≤ (i 1).val ∧ (i 1).val < win8_3.index t (1 : Fin 2) * 128 + 128; omega

/-- The output array after the region is G of the arrays the region was entered with. -/
theorem final (c : Dev nD) :
    (dat8 V c).arrAt 3 cfg8.N = G (V c (Pipeline.arrRef spec8 0)) (V c (Pipeline.arrRef spec8 1)) (V c (Pipeline.arrRef spec8 2)) :=
  (dat8 V c).arrAt_eq_of_cover 3 _ (fun t _ => flushed_eq V c t) cover

end Cert.KernelIdeal.Comb8

end
-- ==== Proof.BComb8.lean ====
/-
  Region 8 against the reference: the residual plus the scale times the rectified (aggregate plus bias); the scale is
  the same word on both sides, a constant broadcast in the reference and splat in the region.
-/
import proofs.«147497_j34437047780015_1_alg».proof.Proof.ReadP
import proofs.«147497_j34437047780015_1_alg».proof.Proof.Comb8
import Idealize.ShloMosaic.Lib.ValueLayout
import Idealize.ShloMosaic.Lib.IdealHost

set_option maxRecDepth 16384

noncomputable section

namespace Cert.Bridge.Comb8

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v102 (F := Ideal) x0 x1 x2 x3 x4 x5 x6 x7 x8 x9 x10 x11 x12 x13
local notation "RESID" => val_main_v81 (F := Ideal) x0 x1 x2 x3 x4 x5 x6 x7 x8 x9 x10 x11
local notation "AGG" => val_main_v95 (F := Ideal) x0 x1 x2 x3 x4 x5 x6 x7 x8 x9 x10 x11 x12
local notation "BIAS" => x13

theorem eq : OUT = Cert.KernelIdeal.Comb8.G RESID AGG (shapeCast S1x128 BIAS shapeCasts_S128_S1x128) := by
  funext i
  rw [val_main_v102_apply, val_main_v101_apply, val_main_v100_apply, val_main_cst_16_apply, val_main_v99_apply,
    val_main_v98_apply, val_main_v97_apply, val_main_v96_apply, val_main_call3_v0_apply, val_main_call3_cst_apply]
  unfold Cert.KernelIdeal.Comb8.G
  refine congrArg₂ (· + ·) rfl (congrArg₂ (· * ·) rfl (congrArg₂ max (congrArg₂ (· + ·) rfl ?_) rfl))
  refine Eq.trans ?_ (shapeCast_a_1a_apply BIAS _ (0 : Fin 1) (i 1)).symm
  exact congrArg BIAS (funext fun a => match a with | ⟨0, _⟩ => rfl)

end Cert.Bridge.Comb8

end
-- ==== Proof.Comb10.lean ====
/-
  Region 10: the residual plus the scaled rectified aggregate.
  The grid has 25 points; point t holds rows 2000·t … 2000·t + 1999 of the residual, of the aggregate and of the
  output, and the whole one-row bias.  The body stores, at (p, q) of its block,
  resid(p, q) + s · max(agg(p, q) + bias(q), z) with s and z the scale's and zero's words.  The 25 blocks tile the
  output, so the array ends at G R A B (r, q) = R(r, q) + s · max(A(r, q) + B(0, q), z).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Comb10

open Cert.KernelIdeal Cert.KernelIdeal.Gen
open Idealize.ShloMosaic Idealize.ShloMosaic.TcCoe Idealize.SL.Sem Idealize.ShloMosaic.ValueIdx

/-- The output array as one function of the three input arrays. -/
def G (R : FVec Ideal S50000x128 .f32) (A : FVec Ideal S50000x128 .f32) (B : FVec Ideal S1x128 .f32) : FVec Ideal S50000x128 .f32 :=
  fun i => R i + (Scalar.ofBits .f32 0x3F000000#32 : Ideal .f32) * max (A i + B (ix2 (0 : Fin 1) (i 1))) (Scalar.ofBits .f32 0x00000000#32 : Ideal .f32)

theorem hz : (![0, 0] : Fin 2 → Nat) = fun _ => 0 := funext fun a => by fin_cases a <;> rfl

/-! ## The body's stored value at an index of its block -/

theorem pay (a : FVec Ideal S2000x128 .f32) (b : FVec Ideal S1x128 .f32) (r : FVec Ideal S2000x128 .f32) (p : Fin 2000) (q : Fin 128) :
    k10_pay1 a b r (ix2 p q) = r (ix2 p q) + (Scalar.ofBits .f32 0x3F000000#32 : Ideal .f32) * max (a (ix2 p q) + b (ix2 (0 : Fin 1) q)) (Scalar.ofBits .f32 0x00000000#32 : Ideal .f32) := by
  unfold k10_pay1
  refine (addf_apply _ _ _).trans ?_
  refine congrArg₂ (· + ·) (congrFun (shapeCast_self _ _) _) ?_
  refine (mulf_apply _ _ _).trans ?_
  refine congrArg₂ (· * ·) rfl ?_
  refine (maximumf_apply _ _ _).trans ?_
  refine congrArg₂ max ?_ rfl
  refine (addf_apply _ _ _).trans ?_
  refine congrArg₂ (· + ·) (congrFun (shapeCast_self _ _) _) ?_
  refine (broadcastTo_1b_ab_apply _ _ p q).trans ?_
  exact congrFun (shapeCast_self _ _) _

/-! ## From the blocks to the array -/

variable (V : (c : Dev nD) → (b : Ref sig .tc) → Buf (Elt Ideal) ((c : Thread nD τ).loc b))

/-- The printed index maps over the grid: the row-blocked windows sit at block (t, 0), the bias at (0, 0). -/
theorem idx_facts : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- The body's value on the blocks of point t, at j, is G at j's place in the array. -/
theorem block_eq (R : FVec Ideal S50000x128 .f32) (A : FVec Ideal S50000x128 .f32) (B : FVec Ideal S1x128 .f32) (t : Fin cfg10.N) (j : S2000x128.Idx) :
    k10_pay1 (((cfg10.win 1).blk t).view.read (Elt Ideal) A) (((cfg10.win 2).blk t).view.read (Elt Ideal) B) (((cfg10.win 0).blk t).view.read (Elt Ideal) R) j
      = G R A B (((cfg10.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show R (((cfg10.win 0).blk t).view.emb (ix2 p q))
      + (Scalar.ofBits .f32 0x3F000000#32 : Ideal .f32) * max (A (((cfg10.win 1).blk t).view.emb (ix2 p q))
        + B (((cfg10.win 2).blk t).view.emb (ix2 (0 : Fin 1) q))) (Scalar.ofBits .f32 0x00000000#32 : Ideal .f32)
    = R (((cfg10.win 3).blk t).view.emb (ix2 p q))
      + (Scalar.ofBits .f32 0x3F000000#32 : Ideal .f32) * max (A (((cfg10.win 3).blk t).view.emb (ix2 p q))
        + B (ix2 (0 : Fin 1) ((((cfg10.win 3).blk t).view.emb (ix2 p q)) 1))) (Scalar.ofBits .f32 0x00000000#32 : Ideal .f32)
  have h0 : ((cfg10.win 0).blk t).view.emb (ix2 p q) = ((cfg10.win 3).blk t).view.emb (ix2 p q) := by
    funext a; apply Fin.ext
    match a with
    | ⟨0, _⟩ => show win10_0.index t (0 : Fin 2) * 2000 + 1 * p.val = win10_3.index t (0 : Fin 2) * 2000 + 1 * p.val; omega
    | ⟨1, _⟩ => show win10_0.index t (1 : Fin 2) * 128 + 1 * q.val = win10_3.index t (1 : Fin 2) * 128 + 1 * q.val; omega
  have h1 : ((cfg10.win 1).blk t).view.emb (ix2 p q) = ((cfg10.win 3).blk t).view.emb (ix2 p q) := by
    funext a; apply Fin.ext
    match a with
    | ⟨0, _⟩ => show win10_1.index t (0 : Fin 2) * 2000 + 1 * p.val = win10_3.index t (0 : Fin 2) * 2000 + 1 * p.val; omega
    | ⟨1, _⟩ => show win10_1.index t (1 : Fin 2) * 128 + 1 * q.val = win10_3.index t (1 : Fin 2) * 128 + 1 * q.val; omega
  have h2 : ((cfg10.win 2).blk t).view.emb (ix2 (0 : Fin 1) q) = ix2 (0 : Fin 1) ((((cfg10.win 3).blk t).view.emb (ix2 p q)) 1) := by
    funext a; apply Fin.ext
    match a with
    | ⟨0, _⟩ => show win10_2.index t (0 : Fin 2) * 1 + 1 * 0 = 0; omega
    | ⟨1, _⟩ => show win10_2.index t (1 : Fin 2) * 128 + 1 * q.val = win10_3.index t (1 : Fin 2) * 128 + 1 * q.val; omega
  rw [h0, h1, h2]
  rfl

/-- What point t writes back is block t of G of the arrays as the region finds them. -/
theorem flushed_eq (c : Dev nD) (t : Fin cfg10.N) :
    (dat10 V c).flushed 3 t = ((cfg10.win 3).blk t).view.read (Elt Ideal)
      (G (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz]
  simp only [View.ld_unit_zero (S := S2000x128) hz, View.ld_unit_zero (S := S1x128) hz]
  funext j
  exact block_eq _ _ _ t j

/-- An index of the array is in point t's block iff each coordinate is in the block's range on its axis. -/
theorem mem_blk (t : Fin cfg10.N) (i : S50000x128.Idx) :
    i ∈ ((cfg10.win 3).blk t).view.set ↔ ∀ a : Fin 2, win10_3.index t a * S2000x128.size a ≤ (i a).val ∧ (i a).val < win10_3.index t a * S2000x128.size a + S2000x128.size a := by
  show i ∈ ((View.whole main_v109).slice (win10_3.rect t)).set ↔ _
  rw [View.set_slice_whole, Rect.mem_set_unit]
  exact Iff.rfl

/-- Row r lies in the block of point r / 2000. -/
theorem cover (i : S50000x128.Idx) : ∃ t : Fin cfg10.N, (cfg10.win 3).flush t = true ∧ i ∈ ((cfg10.win 3).blk t).view.set := by
  have hi0 : (i 0).val < 50000 := (i 0).isLt
  have hi1 : (i 1).val < 128 := (i 1).isLt
  have hN : grid10.N = 25 := N_10
  let t : Fin cfg10.N := ⟨(i 0).val / 2000, by show (i 0).val / 2000 < grid10.N; omega⟩
  obtain ⟨e00, e01, e10, e11, e20, e21, e30, e31⟩ := idx_facts t
  have ht : t.val = (i 0).val / 2000 := rfl
  refine ⟨t, flush10_3 t, ?_⟩
  rw [mem_blk]
  intro a
  match a with
  | ⟨0, _⟩ => show win10_3.index t (0 : Fin 2) * 2000 ≤ (i 0).val ∧ (i 0).val < win10_3.index t (0 : Fin 2) * 2000 + 2000; omega
  | ⟨1, _⟩ => show win10_3.index t (1 : Fin 2) * 128 ≤ (i 1).val ∧ (i 1).val < win10_3.index t (1 : Fin 2) * 128 + 128; omega

/-- The output array after the region is G of the arrays the region was entered with. -/
theorem final (c : Dev nD) :
    (dat10 V c).arrAt 3 cfg10.N = G (V c (Pipeline.arrRef spec10 0)) (V c (Pipeline.arrRef spec10 1)) (V c (Pipeline.arrRef spec10 2)) :=
  (dat10 V c).arrAt_eq_of_cover 3 _ (fun t _ => flushed_eq V c t) cover

end Cert.KernelIdeal.Comb10

end
-- ==== Proof.BComb10.lean ====
/-
  Region 10 against the reference: the residual plus the scale times the rectified (aggregate plus bias); the scale is
  the same word on both sides, a constant broadcast in the reference and splat in the region.
-/
import proofs.«147497_j34437047780015_1_alg».proof.Proof.ReadP
import proofs.«147497_j34437047780015_1_alg».proof.Proof.Comb10
import Idealize.ShloMosaic.Lib.ValueLayout
import Idealize.ShloMosaic.Lib.IdealHost

set_option maxRecDepth 16384

noncomputable section

namespace Cert.Bridge.Comb10

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v123 (F := Ideal) x0 x1 x2 x3 x4 x5 x6 x7 x8 x9 x10 x11 x12 x13 x14 x15
local notation "RESID" => val_main_v102 (F := Ideal) x0 x1 x2 x3 x4 x5 x6 x7 x8 x9 x10 x11 x12 x13
local notation "AGG" => val_main_v116 (F := Ideal) x0 x1 x2 x3 x4 x5 x6 x7 x8 x9 x10 x11 x12 x13 x14
local notation "BIAS" => x15

theorem eq : OUT = Cert.KernelIdeal.Comb10.G RESID AGG (shapeCast S1x128 BIAS shapeCasts_S128_S1x128) := by
  funext i
  rw [val_main_v123_apply, val_main_v122_apply, val_main_v121_apply, val_main_cst_20_apply, val_main_v120_apply,
    val_main_v119_apply, val_main_v118_apply, val_main_v117_apply, val_main_call4_v0_apply, val_main_call4_cst_apply]
  unfold Cert.KernelIdeal.Comb10.G
  refine congrArg₂ (· + ·) rfl (congrArg₂ (· * ·) rfl (congrArg₂ max (congrArg₂ (· + ·) rfl ?_) rfl))
  refine Eq.trans ?_ (shapeCast_a_1a_apply BIAS _ (0 : Fin 1) (i 1)).symm
  exact congrArg BIAS (funext fun a => match a with | ⟨0, _⟩ => rfl)

end Cert.Bridge.Comb10

end
-- ==== Proof.Comb12.lean ====
/-
  Region 12: the residual plus the scaled rectified aggregate.
  The grid has 25 points; point t holds rows 2000·t … 2000·t + 1999 of the residual, of the aggregate and of the
  output, and the whole one-row bias.  The body stores, at (p, q) of its block,
  resid(p, q) + s · max(agg(p, q) + bias(q), z) with s and z the scale's and zero's words.  The 25 blocks tile the
  output, so the array ends at G R A B (r, q) = R(r, q) + s · max(A(r, q) + B(0, q), z).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Comb12

open Cert.KernelIdeal Cert.KernelIdeal.Gen
open Idealize.ShloMosaic Idealize.ShloMosaic.TcCoe Idealize.SL.Sem Idealize.ShloMosaic.ValueIdx

/-- The output array as one function of the three input arrays. -/
def G (R : FVec Ideal S50000x128 .f32) (A : FVec Ideal S50000x128 .f32) (B : FVec Ideal S1x128 .f32) : FVec Ideal S50000x128 .f32 :=
  fun i => R i + (Scalar.ofBits .f32 0x3E800000#32 : Ideal .f32) * max (A i + B (ix2 (0 : Fin 1) (i 1))) (Scalar.ofBits .f32 0x00000000#32 : Ideal .f32)

theorem hz : (![0, 0] : Fin 2 → Nat) = fun _ => 0 := funext fun a => by fin_cases a <;> rfl

/-! ## The body's stored value at an index of its block -/

theorem pay (a : FVec Ideal S2000x128 .f32) (b : FVec Ideal S1x128 .f32) (r : FVec Ideal S2000x128 .f32) (p : Fin 2000) (q : Fin 128) :
    k12_pay1 a b r (ix2 p q) = r (ix2 p q) + (Scalar.ofBits .f32 0x3E800000#32 : Ideal .f32) * max (a (ix2 p q) + b (ix2 (0 : Fin 1) q)) (Scalar.ofBits .f32 0x00000000#32 : Ideal .f32) := by
  unfold k12_pay1
  refine (addf_apply _ _ _).trans ?_
  refine congrArg₂ (· + ·) (congrFun (shapeCast_self _ _) _) ?_
  refine (mulf_apply _ _ _).trans ?_
  refine congrArg₂ (· * ·) rfl ?_
  refine (maximumf_apply _ _ _).trans ?_
  refine congrArg₂ max ?_ rfl
  refine (addf_apply _ _ _).trans ?_
  refine congrArg₂ (· + ·) (congrFun (shapeCast_self _ _) _) ?_
  refine (broadcastTo_1b_ab_apply _ _ p q).trans ?_
  exact congrFun (shapeCast_self _ _) _

/-! ## From the blocks to the array -/

variable (V : (c : Dev nD) → (b : Ref sig .tc) → Buf (Elt Ideal) ((c : Thread nD τ).loc b))

/-- The printed index maps over the grid: the row-blocked windows sit at block (t, 0), the bias at (0, 0). -/
theorem idx_facts : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The body's value on the blocks of point t, at j, is G at j's place in the array. -/
theorem block_eq (R : FVec Ideal S50000x128 .f32) (A : FVec Ideal S50000x128 .f32) (B : FVec Ideal S1x128 .f32) (t : Fin cfg12.N) (j : S2000x128.Idx) :
    k12_pay1 (((cfg12.win 1).blk t).view.read (Elt Ideal) A) (((cfg12.win 2).blk t).view.read (Elt Ideal) B) (((cfg12.win 0).blk t).view.read (Elt Ideal) R) j
      = G R A B (((cfg12.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show R (((cfg12.win 0).blk t).view.emb (ix2 p q))
      + (Scalar.ofBits .f32 0x3E800000#32 : Ideal .f32) * max (A (((cfg12.win 1).blk t).view.emb (ix2 p q))
        + B (((cfg12.win 2).blk t).view.emb (ix2 (0 : Fin 1) q))) (Scalar.ofBits .f32 0x00000000#32 : Ideal .f32)
    = R (((cfg12.win 3).blk t).view.emb (ix2 p q))
      + (Scalar.ofBits .f32 0x3E800000#32 : Ideal .f32) * max (A (((cfg12.win 3).blk t).view.emb (ix2 p q))
        + B (ix2 (0 : Fin 1) ((((cfg12.win 3).blk t).view.emb (ix2 p q)) 1))) (Scalar.ofBits .f32 0x00000000#32 : Ideal .f32)
  have h0 : ((cfg12.win 0).blk t).view.emb (ix2 p q) = ((cfg12.win 3).blk t).view.emb (ix2 p q) := by
    funext a; apply Fin.ext
    match a with
    | ⟨0, _⟩ => show win12_0.index t (0 : Fin 2) * 2000 + 1 * p.val = win12_3.index t (0 : Fin 2) * 2000 + 1 * p.val; omega
    | ⟨1, _⟩ => show win12_0.index t (1 : Fin 2) * 128 + 1 * q.val = win12_3.index t (1 : Fin 2) * 128 + 1 * q.val; omega
  have h1 : ((cfg12.win 1).blk t).view.emb (ix2 p q) = ((cfg12.win 3).blk t).view.emb (ix2 p q) := by
    funext a; apply Fin.ext
    match a with
    | ⟨0, _⟩ => show win12_1.index t (0 : Fin 2) * 2000 + 1 * p.val = win12_3.index t (0 : Fin 2) * 2000 + 1 * p.val; omega
    | ⟨1, _⟩ => show win12_1.index t (1 : Fin 2) * 128 + 1 * q.val = win12_3.index t (1 : Fin 2) * 128 + 1 * q.val; omega
  have h2 : ((cfg12.win 2).blk t).view.emb (ix2 (0 : Fin 1) q) = ix2 (0 : Fin 1) ((((cfg12.win 3).blk t).view.emb (ix2 p q)) 1) := by
    funext a; apply Fin.ext
    match a with
    | ⟨0, _⟩ => show win12_2.index t (0 : Fin 2) * 1 + 1 * 0 = 0; omega
    | ⟨1, _⟩ => show win12_2.index t (1 : Fin 2) * 128 + 1 * q.val = win12_3.index t (1 : Fin 2) * 128 + 1 * q.val; omega
  rw [h0, h1, h2]
  rfl

/-- What point t writes back is block t of G of the arrays as the region finds them. -/
theorem flushed_eq (c : Dev nD) (t : Fin cfg12.N) :
    (dat12 V c).flushed 3 t = ((cfg12.win 3).blk t).view.read (Elt Ideal)
      (G (V c (Pipeline.arrRef spec12 0)) (V c (Pipeline.arrRef spec12 1)) (V c (Pipeline.arrRef spec12 2))) := by
  show (cfg12.win 3).cut (grid12.coords t) ((dat12 V c).after 3 t) = _
  rw [after12_3]
  unfold out12_3
  rw [View.canon_unit_zero hz]
  simp only [View.ld_unit_zero (S := S2000x128) hz, View.ld_unit_zero (S := S1x128) hz]
  funext j
  exact block_eq _ _ _ t j

/-- An index of the array is in point t's block iff each coordinate is in the block's range on its axis. -/
theorem mem_blk (t : Fin cfg12.N) (i : S50000x128.Idx) :
    i ∈ ((cfg12.win 3).blk t).view.set ↔ ∀ a : Fin 2, win12_3.index t a * S2000x128.size a ≤ (i a).val ∧ (i a).val < win12_3.index t a * S2000x128.size a + S2000x128.size a := by
  show i ∈ ((View.whole main_v127).slice (win12_3.rect t)).set ↔ _
  rw [View.set_slice_whole, Rect.mem_set_unit]
  exact Iff.rfl

/-- Row r lies in the block of point r / 2000. -/
theorem cover (i : S50000x128.Idx) : ∃ t : Fin cfg12.N, (cfg12.win 3).flush t = true ∧ i ∈ ((cfg12.win 3).blk t).view.set := by
  have hi0 : (i 0).val < 50000 := (i 0).isLt
  have hi1 : (i 1).val < 128 := (i 1).isLt
  have hN : grid12.N = 25 := N_12
  let t : Fin cfg12.N := ⟨(i 0).val / 2000, by show (i 0).val / 2000 < grid12.N; omega⟩
  obtain ⟨e00, e01, e10, e11, e20, e21, e30, e31⟩ := idx_facts t
  have ht : t.val = (i 0).val / 2000 := rfl
  refine ⟨t, flush12_3 t, ?_⟩
  rw [mem_blk]
  intro a
  match a with
  | ⟨0, _⟩ => show win12_3.index t (0 : Fin 2) * 2000 ≤ (i 0).val ∧ (i 0).val < win12_3.index t (0 : Fin 2) * 2000 + 2000; omega
  | ⟨1, _⟩ => show win12_3.index t (1 : Fin 2) * 128 ≤ (i 1).val ∧ (i 1).val < win12_3.index t (1 : Fin 2) * 128 + 128; omega

/-- The output array after the region is G of the arrays the region was entered with. -/
theorem final (c : Dev nD) :
    (dat12 V c).arrAt 3 cfg12.N = G (V c (Pipeline.arrRef spec12 0)) (V c (Pipeline.arrRef spec12 1)) (V c (Pipeline.arrRef spec12 2)) :=
  (dat12 V c).arrAt_eq_of_cover 3 _ (fun t _ => flushed_eq V c t) cover

end Cert.KernelIdeal.Comb12

end
-- ==== Proof.BComb12.lean ====
/-
  Region 12 against the reference: the residual plus the scale times the rectified (aggregate plus bias); the scale is
  the same word on both sides, a constant broadcast in the reference and splat in the region.
-/
import proofs.«147497_j34437047780015_1_alg».proof.Proof.ReadP
import proofs.«147497_j34437047780015_1_alg».proof.Proof.Comb12
import Idealize.ShloMosaic.Lib.ValueLayout
import Idealize.ShloMosaic.Lib.IdealHost

set_option maxRecDepth 16384

noncomputable section

namespace Cert.Bridge.Comb12

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v144 (F := Ideal) x0 x1 x2 x3 x4 x5 x6 x7 x8 x9 x10 x11 x12 x13 x14 x15 x16 x17
local notation "RESID" => val_main_v123 (F := Ideal) x0 x1 x2 x3 x4 x5 x6 x7 x8 x9 x10 x11 x12 x13 x14 x15
local notation "AGG" => val_main_v137 (F := Ideal) x0 x1 x2 x3 x4 x5 x6 x7 x8 x9 x10 x11 x12 x13 x14 x15 x16
local notation "BIAS" => x17

theorem eq : OUT = Cert.KernelIdeal.Comb12.G RESID AGG (shapeCast S1x128 BIAS shapeCasts_S128_S1x128) := by
  funext i
  rw [val_main_v144_apply, val_main_v143_apply, val_main_v142_apply, val_main_cst_24_apply, val_main_v141_apply,
    val_main_v140_apply, val_main_v139_apply, val_main_v138_apply, val_main_call5_v0_apply, val_main_call5_cst_apply]
  unfold Cert.KernelIdeal.Comb12.G
  refine congrArg₂ (· + ·) rfl (congrArg₂ (· * ·) rfl (congrArg₂ max (congrArg₂ (· + ·) rfl ?_) rfl))
  refine Eq.trans ?_ (shapeCast_a_1a_apply BIAS _ (0 : Fin 1) (i 1)).symm
  exact congrArg BIAS (funext fun a => match a with | ⟨0, _⟩ => rfl)

end Cert.Bridge.Comb12

end
-- ==== Proof.Comb14.lean ====
/-
  Region 14: the residual plus the scaled aggregate, not rectified.
  The grid has 25 points; point t holds rows 2000·t … 2000·t + 1999 of the residual, of the aggregate and of the
  output, and the whole one-row bias.  The body stores, at (p, q) of its block,
  resid(p, q) + s · (agg(p, q) + bias(q)) with s the scale's word.  The 25 blocks tile the output, so the array
  ends at G R A B (r, q) = R(r, q) + s · (A(r, q) + B(0, q)).
-/
import proofs.«147497_j34437047780015_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Comb14

open Cert.KernelIdeal Cert.KernelIdeal.Gen
open Idealize.ShloMosaic Idealize.ShloMosaic.TcCoe Idealize.SL.Sem Idealize.ShloMosaic.ValueIdx

/-- The output array as one function of the three input arrays. -/
def G (R : FVec Ideal S50000x128 .f32) (A : FVec Ideal S50000x128 .f32) (B : FVec Ideal S1x128 .f32) : FVec Ideal S50000x128 .f32 :=
  fun i => R i + (Scalar.ofBits .f32 0x3E800000#32 : Ideal .f32) * (A i + B (ix2 (0 : Fin 1) (i 1)))

theorem hz : (![0, 0] : Fin 2 → Nat) = fun _ => 0 := funext fun a => by fin_cases a <;> rfl

/-! ## The body's stored value at an index of its block -/

theorem pay (a : FVec Ideal S2000x128 .f32) (b : FVec Ideal S1x128 .f32) (r : FVec Ideal S2000x128 .f32) (p : Fin 2000) (q : Fin 128) :
    k14_pay1 a b r (ix2 p q) = r (ix2 p q) + (Scalar.ofBits .f32 0x3E800000#32 : Ideal .f32) * (a (ix2 p q) + b (ix2 (0 : Fin 1) q)) := by
  unfold k14_pay1
  refine (addf_apply _ _ _).trans ?_
  refine congrArg₂ (· + ·) (congrFun (shapeCast_self _ _) _) ?_
  refine (mulf_apply _ _ _).trans ?_
  refine congrArg₂ (· * ·) rfl ?_
  refine (addf_apply _ _ _).trans ?_
  refine congrArg₂ (· + ·) (congrFun (shapeCast_self _ _) _) ?_
  refine (broadcastTo_1b_ab_apply _ _ p q).trans ?_
  exact congrFun (shapeCast_self _ _) _

/-! ## From the blocks to the array -/

variable (V : (c : Dev nD) → (b : Ref sig .tc) → Buf (Elt Ideal) ((c : Thread nD τ).loc b))

/-- The printed index maps over the grid: the row-blocked windows sit at block (t, 0), the bias at (0, 0). -/
theorem idx_facts : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- The body's value on the blocks of point t, at j, is G at j's place in the array. -/
theorem block_eq (R : FVec Ideal S50000x128 .f32) (A : FVec Ideal S50000x128 .f32) (B : FVec Ideal S1x128 .f32) (t : Fin cfg14.N) (j : S2000x128.Idx) :
    k14_pay1 (((cfg14.win 1).blk t).view.read (Elt Ideal) A) (((cfg14.win 2).blk t).view.read (Elt Ideal) B) (((cfg14.win 0).blk t).view.read (Elt Ideal) R) j
      = G R A B (((cfg14.win 3).blk t).view.emb j) := by
  obtain ⟨e00, e01, e10, e11, e20, e21, e30, e31⟩ := idx_facts t
  obtain ⟨p, q, rfl⟩ : ∃ (p : Fin 2000) (q : Fin 128), j = ix2 p q := ⟨j 0, j 1, eq_ix2 j⟩
  refine (pay _ _ _ p q).trans ?_
  show R (((cfg14.win 0).blk t).view.emb (ix2 p q))
      + (Scalar.ofBits .f32 0x3E800000#32 : Ideal .f32) * (A (((cfg14.win 1).blk t).view.emb (ix2 p q))
        + B (((cfg14.win 2).blk t).view.emb (ix2 (0 : Fin 1) q)))
    = R (((cfg14.win 3).blk t).view.emb (ix2 p q))
      + (Scalar.ofBits .f32 0x3E800000#32 : Ideal .f32) * (A (((cfg14.win 3).blk t).view.emb (ix2 p q))
        + B (ix2 (0 : Fin 1) ((((cfg14.win 3).blk t).view.emb (ix2 p q)) 1)))
  have h0 : ((cfg14.win 0).blk t).view.emb (ix2 p q) = ((cfg14.win 3).blk t).view.emb (ix2 p q) := by
    funext a; apply Fin.ext
    match a with
    | ⟨0, _⟩ => show win14_0.index t (0 : Fin 2) * 2000 + 1 * p.val = win14_3.index t (0 : Fin 2) * 2000 + 1 * p.val; omega
    | ⟨1, _⟩ => show win14_0.index t (1 : Fin 2) * 128 + 1 * q.val = win14_3.index t (1 : Fin 2) * 128 + 1 * q.val; omega
  have h1 : ((cfg14.win 1).blk t).view.emb (ix2 p q) = ((cfg14.win 3).blk t).view.emb (ix2 p q) := by
    funext a; apply Fin.ext
    match a with
    | ⟨0, _⟩ => show win14_1.index t (0 : Fin 2) * 2000 + 1 * p.val = win14_3.index t (0 : Fin 2) * 2000 + 1 * p.val; omega
    | ⟨1, _⟩ => show win14_1.index t (1 : Fin 2) * 128 + 1 * q.val = win14_3.index t (1 : Fin 2) * 128 + 1 * q.val; omega
  have h2 : ((cfg14.win 2).blk t).view.emb (ix2 (0 : Fin 1) q) = ix2 (0 : Fin 1) ((((cfg14.win 3).blk t).view.emb (ix2 p q)) 1) := by
    funext a; apply Fin.ext
    match a with
    | ⟨0, _⟩ => show win14_2.index t (0 : Fin 2) * 1 + 1 * 0 = 0; omega
    | ⟨1, _⟩ => show win14_2.index t (1 : Fin 2) * 128 + 1 * q.val = win14_3.index t (1 : Fin 2) * 128 + 1 * q.val; omega
  rw [h0, h1, h2]
  rfl

/-- What point t writes back is block t of G of the arrays as the region finds them. -/
theorem flushed_eq (c : Dev nD) (t : Fin cfg14.N) :
    (dat14 V c).flushed 3 t = ((cfg14.win 3).blk t).view.read (Elt Ideal)
      (G (V c (Pipeline.arrRef spec14 0)) (V c (Pipeline.arrRef spec14 1)) (V c (Pipeline.arrRef spec14 2))) := by
  show (cfg14.win 3).cut (grid14.coords t) ((dat14 V c).after 3 t) = _
  rw [after14_3]
  unfold out14_3
  rw [View.canon_unit_zero hz]
  simp only [View.ld_unit_zero (S := S2000x128) hz, View.ld_unit_zero (S := S1x128) hz]
  funext j
  exact block_eq _ _ _ t j

/-- An index of the array is in point t's block iff each coordinate is in the block's range on its axis. -/
theorem mem_blk (t : Fin cfg14.N) (i : S50000x128.Idx) :
    i ∈ ((cfg14.win 3).blk t).view.set ↔ ∀ a : Fin 2, win14_3.index t a * S2000x128.size a ≤ (i a).val ∧ (i a).val < win14_3.index t a * S2000x128.size a + S2000x128.size a := by
  show i ∈ ((View.whole main_v145).slice (win14_3.rect t)).set ↔ _
  rw [View.set_slice_whole, Rect.mem_set_unit]
  exact Iff.rfl

/-- Row r lies in the block of point r / 2000. -/
theorem cover (i : S50000x128.Idx) : ∃ t : Fin cfg14.N, (cfg14.win 3).flush t = true ∧ i ∈ ((cfg14.win 3).blk t).view.set := by
  have hi0 : (i 0).val < 50000 := (i 0).isLt
  have hi1 : (i 1).val < 128 := (i 1).isLt
  have hN : grid14.N = 25 := N_14
  let t : Fin cfg14.N := ⟨(i 0).val / 2000, by show (i 0).val / 2000 < grid14.N; omega⟩
  obtain ⟨e00, e01, e10, e11, e20, e21, e30, e31⟩ := idx_facts t
  have ht : t.val = (i 0).val / 2000 := rfl
  refine ⟨t, flush14_3 t, ?_⟩
  rw [mem_blk]
  intro a
  match a with
  | ⟨0, _⟩ => show win14_3.index t (0 : Fin 2) * 2000 ≤ (i 0).val ∧ (i 0).val < win14_3.index t (0 : Fin 2) * 2000 + 2000; omega
  | ⟨1, _⟩ => show win14_3.index t (1 : Fin 2) * 128 ≤ (i 1).val ∧ (i 1).val < win14_3.index t (1 : Fin 2) * 128 + 128; omega

/-- The output array after the region is G of the arrays the region was entered with. -/
theorem final (c : Dev nD) :
    (dat14 V c).arrAt 3 cfg14.N = G (V c (Pipeline.arrRef spec14 0)) (V c (Pipeline.arrRef spec14 1)) (V c (Pipeline.arrRef spec14 2)) :=
  (dat14 V c).arrAt_eq_of_cover 3 _ (fun t _ => flushed_eq V c t) cover

end Cert.KernelIdeal.Comb14

end
-- ==== Proof.BComb14.lean ====
/-
  Region 14 against the reference: the residual plus the scale times (aggregate plus bias), not rectified; the scale
  is the same word on both sides.
-/
import proofs.«147497_j34437047780015_1_alg».proof.Proof.ReadP
import proofs.«147497_j34437047780015_1_alg».proof.Proof.Comb14
import Idealize.ShloMosaic.Lib.ValueLayout
import Idealize.ShloMosaic.Lib.IdealHost

set_option maxRecDepth 16384

noncomputable section

namespace Cert.Bridge.Comb14

open Idealize.ShloMosaic Idealize.ShloMosaic.ValueIdx Cert.ReferenceIdeal.ReadP Cert.KernelIdeal
open Cert.KernelIdeal.Facts₀ Cert.KernelIdeal.Facts

variable (x0 : (⟨Cert.ReferenceIdeal.S50000x512, .f32⟩ : BufTy).Contents (Elt Ideal))
variable (x1 : (⟨Cert.ReferenceIdeal.S2x400000, .i32⟩ : BufTy).Contents (Elt Ideal))
variable (x2 : (⟨Cert.ReferenceIdeal.S512x256, .f32⟩ : BufTy).Contents (Elt Ideal))
variable (x3 : (⟨Cert.ReferenceIdeal.S256, .f32⟩ : BufTy).Contents (Elt Ideal))
variable (x4 : (⟨Cert.ReferenceIdeal.S256x62, .f32⟩ : BufTy).Contents (Elt Ideal))
variable (x5 : (⟨Cert.ReferenceIdeal.S62, .f32⟩ : BufTy).Contents (Elt Ideal))
variable (x6 : (⟨Cert.ReferenceIdeal.S62x128, .f32⟩ : BufTy).Contents (Elt Ideal))
variable (x7 : (⟨Cert.ReferenceIdeal.S128, .f32⟩ : BufTy).Contents (Elt Ideal))
variable (x8 : (⟨Cert.ReferenceIdeal.S256x256, .f32⟩ : BufTy).Contents (Elt Ideal))
variable (x9 : (⟨Cert.ReferenceIdeal.S256, .f32⟩ : BufTy).Contents (Elt Ideal))
variable (x10 : (⟨Cert.ReferenceIdeal.S62x62, .f32⟩ : BufTy).Contents (Elt Ideal))
variable (x11 : (⟨Cert.ReferenceIdeal.S62, .f32⟩ : BufTy).Contents (Elt Ideal))
variable (x12 : (⟨Cert.ReferenceIdeal.S128x128, .f32⟩ : BufTy).Contents (Elt Ideal))
variable (x13 : (⟨Cert.ReferenceIdeal.S128, .f32⟩ : BufTy).Contents (Elt Ideal))
variable (x14 : (⟨Cert.ReferenceIdeal.S128x128, .f32⟩ : BufTy).Contents (Elt Ideal))
variable (x15 : (⟨Cert.ReferenceIdeal.S128, .f32⟩ : BufTy).Contents (Elt Ideal))
variable (x16 : (⟨Cert.ReferenceIdeal.S128x128, .f32⟩ : BufTy).Contents (Elt Ideal))
variable (x17 : (⟨Cert.ReferenceIdeal.S128, .f32⟩ : BufTy).Contents (Elt Ideal))
variable (x18 : (⟨Cert.ReferenceIdeal.S128x128, .f32⟩ : BufTy).Contents (Elt Ideal))
variable (x19 : (⟨Cert.ReferenceIdeal.S128, .f32⟩ : BufTy).Contents (Elt Ideal))

local notation "OUT" => val_main_v164 (F := Ideal) x0 x1 x2 x3 x4 x5 x6 x7 x8 x9 x10 x11 x12 x13 x14 x15 x16 x17 x18 x19
local notation "RESID" => val_main_v144 (F := Ideal) x0 x1 x2 x3 x4 x5 x6 x7 x8 x9 x10 x11 x12 x13 x14 x15 x16 x17
local notation "AGG" => val_main_v158 (F := Ideal) x0 x1 x2 x3 x4 x5 x6 x7 x8 x9 x10 x11 x12 x13 x14 x15 x16 x17 x18
local notation "BIAS" => x19

theorem eq : OUT = Cert.KernelIdeal.Comb14.G RESID AGG (shapeCast S1x128 BIAS shapeCasts_S128_S1x128) := by
  funext i
  rw [val_main_v164_apply, val_main_v163_apply, val_main_v162_apply, val_main_cst_28_apply, val_main_v161_apply,
    val_main_v160_apply, val_main_v159_apply]
  unfold Cert.KernelIdeal.Comb14.G
  refine congrArg₂ (· + ·) rfl (congrArg₂ (· * ·) rfl (congrArg₂ (· + ·) rfl ?_))
  refine Eq.trans ?_ (shapeCast_a_1a_apply BIAS _ (0 : Fin 1) (i 1)).symm
  exact congrArg BIAS (funext fun a => match a with | ⟨0, _⟩ => rfl)

end Cert.Bridge.Comb14

end
-- ==== Proof.ChainA.lean ====
/-
  The idealized kernel's buffers at the boundaries of @main's segments, as the reference's stages of the arguments.
  An argument is written by no segment.  The first three stretches compute the edge lists with their self loops and the
  symmetric normalisation, by the reference's own operations.  Then, layer by layer: a stretch recasts a bias as one row
  (or makes a zero row); a region leaves its function of the arrays it was entered with, which is the reference's stage
  by the region's bridge; a stretch gathers, scales and scatter-adds the projected rows by the reference's own operations.
  A buffer is carried from the boundary where it is produced to the boundary where it is read through segments that
  do not write it.
-/
import proofs.«147497_j34437047780015_1_alg».proof.Proof.Keep
import proofs.«147497_j34437047780015_1_alg».proof.Proof.ReadP
import proofs.«147497_j34437047780015_1_alg».proof.Proof.LibHostTyped
import proofs.«147497_j34437047780015_1_alg».proof.Proof.Lin0
import proofs.«147497_j34437047780015_1_alg».proof.Proof.BLin0
import proofs.«147497_j34437047780015_1_alg».proof.Proof.Lin1
import proofs.«147497_j34437047780015_1_alg».proof.Proof.BLin1
import proofs.«147497_j34437047780015_1_alg».proof.Proof.Lin3
import proofs.«147497_j34437047780015_1_alg».proof.Proof.BLin3
import proofs.«147497_j34437047780015_1_alg».proof.Proof.Lin4
import proofs.«147497_j34437047780015_1_alg».proof.Proof.BLin4
import proofs.«147497_j34437047780015_1_alg».proof.Proof.Lin6
import proofs.«147497_j34437047780015_1_alg».proof.Proof.BLin6
import proofs.«147497_j34437047780015_1_alg».proof.Proof.Lin7
import proofs.«147497_j34437047780015_1_alg».proof.Proof.BLin7
import proofs.«147497_j34437047780015_1_alg».proof.Proof.Lin9
import proofs.«147497_j34437047780015_1_alg».proof.Proof.BLin9
import proofs.«147497_j34437047780015_1_alg».proof.Proof.Lin11
import proofs.«147497_j34437047780015_1_alg».proof.Proof.BLin11
import proofs.«147497_j34437047780015_1_alg».proof.Proof.Lin13
import proofs.«147497_j34437047780015_1_alg».proof.Proof.BLin13
import proofs.«147497_j34437047780015_1_alg».proof.Proof.Comb2
import proofs.«147497_j34437047780015_1_alg».proof.Proof.BComb2
import proofs.«147497_j34437047780015_1_alg».proof.Proof.Comb5
import proofs.«147497_j34437047780015_1_alg».proof.Proof.BComb5
import proofs.«147497_j34437047780015_1_alg».proof.Proof.Comb8
import proofs.«147497_j34437047780015_1_alg».proof.Proof.BComb8
import proofs.«147497_j34437047780015_1_alg».proof.Proof.Comb10
import proofs.«147497_j34437047780015_1_alg».proof.Proof.BComb10
import proofs.«147497_j34437047780015_1_alg».proof.Proof.Comb12
import proofs.«147497_j34437047780015_1_alg».proof.Proof.BComb12
import proofs.«147497_j34437047780015_1_alg».proof.Proof.Comb14
import proofs.«147497_j34437047780015_1_alg».proof.Proof.BComb14

set_option maxRecDepth 16384

noncomputable section

namespace Cert.ChainA

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, where they are read -/

theorem arg0_at_3 : W3 m ρ c (Proc.devRef .tc main_arg0) = (m ((c : Thread nD τ).loc main_arg0)) :=
  (((Keep.hostOps0_2_keep m ρ c main_arg0 (by decide)).trans (Keep.hostOps0_1_keep m ρ c main_arg0 (by decide))).trans (Keep.hostOps0_keep m ρ c main_arg0 (by decide))).trans rfl
theorem arg2_at_3 : W3 m ρ c (Proc.devRef .tc main_arg2) = (m ((c : Thread nD τ).loc main_arg2)) :=
  (((Keep.hostOps0_2_keep m ρ c main_arg2 (by decide)).trans (Keep.hostOps0_1_keep m ρ c main_arg2 (by decide))).trans (Keep.hostOps0_keep m ρ c main_arg2 (by decide))).trans rfl
theorem arg3_at_2 : W2 m ρ c (Proc.devRef .tc main_arg3) = (m ((c : Thread nD τ).loc main_arg3)) :=
  ((Keep.hostOps0_1_keep m ρ c main_arg3 (by decide)).trans (Keep.hostOps0_keep m ρ c main_arg3 (by decide))).trans rfl
theorem arg8_at_5 : W5 m ρ c (Proc.devRef .tc main_arg8) = (m ((c : Thread nD τ).loc main_arg8)) :=
  (((((Keep.hostOps1_keep m ρ c main_arg8 (by decide)).trans (W4_of_ne m ρ c main_arg8 (by decide))).trans (Keep.hostOps0_2_keep m ρ c main_arg8 (by decide))).trans (Keep.hostOps0_1_keep m ρ c main_arg8 (by decide))).trans (Keep.hostOps0_keep m ρ c main_arg8 (by decide))).trans rfl
theorem arg9_at_6 : W6 m ρ c (Proc.devRef .tc main_arg9) = (m ((c : Thread nD τ).loc main_arg9)) :=
  ((((((W6_of_ne m ρ c main_arg9 (by decide)).trans (Keep.hostOps1_keep m ρ c main_arg9 (by decide))).trans (W4_of_ne m ρ c main_arg9 (by decide))).trans (Keep.hostOps0_2_keep m ρ c main_arg9 (by decide))).trans (Keep.hostOps0_1_keep m ρ c main_arg9 (by decide))).trans (Keep.hostOps0_keep m ρ c main_arg9 (by decide))).trans rfl
theorem arg4_at_9 : W9 m ρ c (Proc.devRef .tc main_arg4) = (m ((c : Thread nD τ).loc main_arg4)) :=
  (((((((((Keep.hostOps3_keep m ρ c main_arg4 (by decide)).trans (W8_of_ne m ρ c main_arg4 (by decide))).trans (Keep.hostOps2_keep m ρ c main_arg4 (by decide))).trans (W6_of_ne m ρ c main_arg4 (by decide))).trans (Keep.hostOps1_keep m ρ c main_arg4 (by decide))).trans (W4_of_ne m ρ c main_arg4 (by decide))).trans (Keep.hostOps0_2_keep m ρ c main_arg4 (by decide))).trans (Keep.hostOps0_1_keep m ρ c main_arg4 (by decide))).trans (Keep.hostOps0_keep m ρ c main_arg4 (by decide))).trans rfl
theorem arg5_at_8 : W8 m ρ c (Proc.devRef .tc main_arg5) = (m ((c : Thread nD τ).loc main_arg5)) :=
  ((((((((W8_of_ne m ρ c main_arg5 (by decide)).trans (Keep.hostOps2_keep m ρ c main_arg5 (by decide))).trans (W6_of_ne m ρ c main_arg5 (by decide))).trans (Keep.hostOps1_keep m ρ c main_arg5 (by decide))).trans (W4_of_ne m ρ c main_arg5 (by decide))).trans (Keep.hostOps0_2_keep m ρ c main_arg5 (by decide))).trans (Keep.hostOps0_1_keep m ρ c main_arg5 (by decide))).trans (Keep.hostOps0_keep m ρ c main_arg5 (by decide))).trans rfl
theorem arg10_at_11 : W11 m ρ c (Proc.devRef .tc main_arg10) = (m ((c : Thread nD τ).loc main_arg10)) :=
  (((((((((((Keep.hostOps4_keep m ρ c main_arg10 (by decide)).trans (W10_of_ne m ρ c main_arg10 (by decide))).trans (Keep.hostOps3_keep m ρ c main_arg10 (by decide))).trans (W8_of_ne m ρ c main_arg10 (by decide))).trans (Keep.hostOps2_keep m ρ c main_arg10 (by decide))).trans (W6_of_ne m ρ c main_arg10 (by decide))).trans (Keep.hostOps1_keep m ρ c main_arg10 (by decide))).trans (W4_of_ne m ρ c main_arg10 (by decide))).trans (Keep.hostOps0_2_keep m ρ c main_arg10 (by decide))).trans (Keep.hostOps0_1_keep m ρ c main_arg10 (by decide))).trans (Keep.hostOps0_keep m ρ c main_arg10 (by decide))).trans rfl
theorem arg11_at_12 : W12 m ρ c (Proc.devRef .tc main_arg11) = (m ((c : Thread nD τ).loc main_arg11)) :=
  ((((((((((((W12_of_ne m ρ c main_arg11 (by decide)).trans (Keep.hostOps4_keep m ρ c main_arg11 (by decide))).trans (W10_of_ne m ρ c main_arg11 (by decide))).trans (Keep.hostOps3_keep m ρ c main_arg11 (by decide))).trans (W8_of_ne m ρ c main_arg11 (by decide))).trans (Keep.hostOps2_keep m ρ c main_arg11 (by decide))).trans (W6_of_ne m ρ c main_arg11 (by decide))).trans (Keep.hostOps1_keep m ρ c main_arg11 (by decide))).trans (W4_of_ne m ρ c main_arg11 (by decide))).trans (Keep.hostOps0_2_keep m ρ c main_arg11 (by decide))).trans (Keep.hostOps0_1_keep m ρ c main_arg11 (by decide))).trans (Keep.hostOps0_keep m ρ c main_arg11 (by decide))).trans rfl
theorem arg6_at_15 : W15 m ρ c (Proc.devRef .tc main_arg6) = (m ((c : Thread nD τ).loc main_arg6)) :=
  (((((((((((((((Keep.hostOps6_keep m ρ c main_arg6 (by decide)).trans (W14_of_ne m ρ c main_arg6 (by decide))).trans (Keep.hostOps5_keep m ρ c main_arg6 (by decide))).trans (W12_of_ne m ρ c main_arg6 (by decide))).trans (Keep.hostOps4_keep m ρ c main_arg6 (by decide))).trans (W10_of_ne m ρ c main_arg6 (by decide))).trans (Keep.hostOps3_keep m ρ c main_arg6 (by decide))).trans (W8_of_ne m ρ c main_arg6 (by decide))).trans (Keep.hostOps2_keep m ρ c main_arg6 (by decide))).trans (W6_of_ne m ρ c main_arg6 (by decide))).trans (Keep.hostOps1_keep m ρ c main_arg6 (by decide))).trans (W4_of_ne m ρ c main_arg6 (by decide))).trans (Keep.hostOps0_2_keep m ρ c main_arg6 (by decide))).trans (Keep.hostOps0_1_keep m ρ c main_arg6 (by decide))).trans (Keep.hostOps0_keep m ρ c main_arg6 (by decide))).trans rfl
theorem arg7_at_14 : W14 m ρ c (Proc.devRef .tc main_arg7) = (m ((c : Thread nD τ).loc main_arg7)) :=
  ((((((((((((((W14_of_ne m ρ c main_arg7 (by decide)).trans (Keep.hostOps5_keep m ρ c main_arg7 (by decide))).trans (W12_of_ne m ρ c main_arg7 (by decide))).trans (Keep.hostOps4_keep m ρ c main_arg7 (by decide))).trans (W10_of_ne m ρ c main_arg7 (by decide))).trans (Keep.hostOps3_keep m ρ c main_arg7 (by decide))).trans (W8_of_ne m ρ c main_arg7 (by decide))).trans (Keep.hostOps2_keep m ρ c main_arg7 (by decide))).trans (W6_of_ne m ρ c main_arg7 (by decide))).trans (Keep.hostOps1_keep m ρ c main_arg7 (by decide))).trans (W4_of_ne m ρ c main_arg7 (by decide))).trans (Keep.hostOps0_2_keep m ρ c main_arg7 (by decide))).trans (Keep.hostOps0_1_keep m ρ c main_arg7 (by decide))).trans (Keep.hostOps0_keep m ρ c main_arg7 (by decide))).trans rfl
theorem arg12_at_17 : W17 m ρ c (Proc.devRef .tc main_arg12) = (m ((c : Thread nD τ).loc main_arg12)) :=
  (((((((((((((((((Keep.hostOps7_keep m ρ c main_arg12 (by decide)).trans (W16_of_ne m ρ c main_arg12 (by decide))).trans (Keep.hostOps6_keep m ρ c main_arg12 (by decide))).trans (W14_of_ne m ρ c main_arg12 (by decide))).trans (Keep.hostOps5_keep m ρ c main_arg12 (by decide))).trans (W12_of_ne m ρ c main_arg12 (by decide))).trans (Keep.hostOps4_keep m ρ c main_arg12 (by decide))).trans (W10_of_ne m ρ c main_arg12 (by decide))).trans (Keep.hostOps3_keep m ρ c main_arg12 (by decide))).trans (W8_of_ne m ρ c main_arg12 (by decide))).trans (Keep.hostOps2_keep m ρ c main_arg12 (by decide))).trans (W6_of_ne m ρ c main_arg12 (by decide))).trans (Keep.hostOps1_keep m ρ c main_arg12 (by decide))).trans (W4_of_ne m ρ c main_arg12 (by decide))).trans (Keep.hostOps0_2_keep m ρ c main_arg12 (by decide))).trans (Keep.hostOps0_1_keep m ρ c main_arg12 (by decide))).trans (Keep.hostOps0_keep m ρ c main_arg12 (by decide))).trans rfl
theorem arg13_at_18 : W18 m ρ c (Proc.devRef .tc main_arg13) = (m ((c : Thread nD τ).loc main_arg13)) :=
  ((((((((((((((((((W18_of_ne m ρ c main_arg13 (by decide)).trans (Keep.hostOps7_keep m ρ c main_arg13 (by decide))).trans (W16_of_ne m ρ c main_arg13 (by decide))).trans (Keep.hostOps6_keep m ρ c main_arg13 (by decide))).trans (W14_of_ne m ρ c main_arg13 (by decide))).trans (Keep.hostOps5_keep m ρ c main_arg13 (by decide))).trans (W12_of_ne m ρ c main_arg13 (by decide))).trans (Keep.hostOps4_keep m ρ c main_arg13 (by decide))).trans (W10_of_ne m ρ c main_arg13 (by decide))).trans (Keep.hostOps3_keep m ρ c main_arg13 (by decide))).trans (W8_of_ne m ρ c main_arg13 (by decide))).trans (Keep.hostOps2_keep m ρ c main_arg13 (by decide))).trans (W6_of_ne m ρ c main_arg13 (by decide))).trans (Keep.hostOps1_keep m ρ c main_arg13 (by decide))).trans (W4_of_ne m ρ c main_arg13 (by decide))).trans (Keep.hostOps0_2_keep m ρ c main_arg13 (by decide))).trans (Keep.hostOps0_1_keep m ρ c main_arg13 (by decide))).trans (Keep.hostOps0_keep m ρ c main_arg13 (by decide))).trans rfl
theorem arg14_at_21 : W21 m ρ c (Proc.devRef .tc main_arg14) = (m ((c : Thread nD τ).loc main_arg14)) :=
  (((((((((((((((((((((Keep.hostOps9_keep m ρ c main_arg14 (by decide)).trans (W20_of_ne m ρ c main_arg14 (by decide))).trans (Keep.hostOps8_keep m ρ c main_arg14 (by decide))).trans (W18_of_ne m ρ c main_arg14 (by decide))).trans (Keep.hostOps7_keep m ρ c main_arg14 (by decide))).trans (W16_of_ne m ρ c main_arg14 (by decide))).trans (Keep.hostOps6_keep m ρ c main_arg14 (by decide))).trans (W14_of_ne m ρ c main_arg14 (by decide))).trans (Keep.hostOps5_keep m ρ c main_arg14 (by decide))).trans (W12_of_ne m ρ c main_arg14 (by decide))).trans (Keep.hostOps4_keep m ρ c main_arg14 (by decide))).trans (W10_of_ne m ρ c main_arg14 (by decide))).trans (Keep.hostOps3_keep m ρ c main_arg14 (by decide))).trans (W8_of_ne m ρ c main_arg14 (by decide))).trans (Keep.hostOps2_keep m ρ c main_arg14 (by decide))).trans (W6_of_ne m ρ c main_arg14 (by decide))).trans (Keep.hostOps1_keep m ρ c main_arg14 (by decide))).trans (W4_of_ne m ρ c main_arg14 (by decide))).trans (Keep.hostOps0_2_keep m ρ c main_arg14 (by decide))).trans (Keep.hostOps0_1_keep m ρ c main_arg14 (by decide))).trans (Keep.hostOps0_keep m ρ c main_arg14 (by decide))).trans rfl
theorem arg15_at_22 : W22 m ρ c (Proc.devRef .tc main_arg15) = (m ((c : Thread nD τ).loc main_arg15)) :=
  ((((((((((((((((((((((W22_of_ne m ρ c main_arg15 (by decide)).trans (Keep.hostOps9_keep m ρ c main_arg15 (by decide))).trans (W20_of_ne m ρ c main_arg15 (by decide))).trans (Keep.hostOps8_keep m ρ c main_arg15 (by decide))).trans (W18_of_ne m ρ c main_arg15 (by decide))).trans (Keep.hostOps7_keep m ρ c main_arg15 (by decide))).trans (W16_of_ne m ρ c main_arg15 (by decide))).trans (Keep.hostOps6_keep m ρ c main_arg15 (by decide))).trans (W14_of_ne m ρ c main_arg15 (by decide))).trans (Keep.hostOps5_keep m ρ c main_arg15 (by decide))).trans (W12_of_ne m ρ c main_arg15 (by decide))).trans (Keep.hostOps4_keep m ρ c main_arg15 (by decide))).trans (W10_of_ne m ρ c main_arg15 (by decide))).trans (Keep.hostOps3_keep m ρ c main_arg15 (by decide))).trans (W8_of_ne m ρ c main_arg15 (by decide))).trans (Keep.hostOps2_keep m ρ c main_arg15 (by decide))).trans (W6_of_ne m ρ c main_arg15 (by decide))).trans (Keep.hostOps1_keep m ρ c main_arg15 (by decide))).trans (W4_of_ne m ρ c main_arg15 (by decide))).trans (Keep.hostOps0_2_keep m ρ c main_arg15 (by decide))).trans (Keep.hostOps0_1_keep m ρ c main_arg15 (by decide))).trans (Keep.hostOps0_keep m ρ c main_arg15 (by decide))).trans rfl
theorem arg16_at_25 : W25 m ρ c (Proc.devRef .tc main_arg16) = (m ((c : Thread nD τ).loc main_arg16)) :=
  (((((((((((((((((((((((((Keep.hostOps11_keep m ρ c main_arg16 (by decide)).trans (W24_of_ne m ρ c main_arg16 (by decide))).trans (Keep.hostOps10_keep m ρ c main_arg16 (by decide))).trans (W22_of_ne m ρ c main_arg16 (by decide))).trans (Keep.hostOps9_keep m ρ c main_arg16 (by decide))).trans (W20_of_ne m ρ c main_arg16 (by decide))).trans (Keep.hostOps8_keep m ρ c main_arg16 (by decide))).trans (W18_of_ne m ρ c main_arg16 (by decide))).trans (Keep.hostOps7_keep m ρ c main_arg16 (by decide))).trans (W16_of_ne m ρ c main_arg16 (by decide))).trans (Keep.hostOps6_keep m ρ c main_arg16 (by decide))).trans (W14_of_ne m ρ c main_arg16 (by decide))).trans (Keep.hostOps5_keep m ρ c main_arg16 (by decide))).trans (W12_of_ne m ρ c main_arg16 (by decide))).trans (Keep.hostOps4_keep m ρ c main_arg16 (by decide))).trans (W10_of_ne m ρ c main_arg16 (by decide))).trans (Keep.hostOps3_keep m ρ c main_arg16 (by decide))).trans (W8_of_ne m ρ c main_arg16 (by decide))).trans (Keep.hostOps2_keep m ρ c main_arg16 (by decide))).trans (W6_of_ne m ρ c main_arg16 (by decide))).trans (Keep.hostOps1_keep m ρ c main_arg16 (by decide))).trans (W4_of_ne m ρ c main_arg16 (by decide))).trans (Keep.hostOps0_2_keep m ρ c main_arg16 (by decide))).trans (Keep.hostOps0_1_keep m ρ c main_arg16 (by decide))).trans (Keep.hostOps0_keep m ρ c main_arg16 (by decide))).trans rfl
theorem arg17_at_26 : W26 m ρ c (Proc.devRef .tc main_arg17) = (m ((c : Thread nD τ).loc main_arg17)) :=
  ((((((((((((((((((((((((((W26_of_ne m ρ c main_arg17 (by decide)).trans (Keep.hostOps11_keep m ρ c main_arg17 (by decide))).trans (W24_of_ne m ρ c main_arg17 (by decide))).trans (Keep.hostOps10_keep m ρ c main_arg17 (by decide))).trans (W22_of_ne m ρ c main_arg17 (by decide))).trans (Keep.hostOps9_keep m ρ c main_arg17 (by decide))).trans (W20_of_ne m ρ c main_arg17 (by decide))).trans (Keep.hostOps8_keep m ρ c main_arg17 (by decide))).trans (W18_of_ne m ρ c main_arg17 (by decide))).trans (Keep.hostOps7_keep m ρ c main_arg17 (by decide))).trans (W16_of_ne m ρ c main_arg17 (by decide))).trans (Keep.hostOps6_keep m ρ c main_arg17 (by decide))).trans (W14_of_ne m ρ c main_arg17 (by decide))).trans (Keep.hostOps5_keep m ρ c main_arg17 (by decide))).trans (W12_of_ne m ρ c main_arg17 (by decide))).trans (Keep.hostOps4_keep m ρ c main_arg17 (by decide))).trans (W10_of_ne m ρ c main_arg17 (by decide))).trans (Keep.hostOps3_keep m ρ c main_arg17 (by decide))).trans (W8_of_ne m ρ c main_arg17 (by decide))).trans (Keep.hostOps2_keep m ρ c main_arg17 (by decide))).trans (W6_of_ne m ρ c main_arg17 (by decide))).trans (Keep.hostOps1_keep m ρ c main_arg17 (by decide))).trans (W4_of_ne m ρ c main_arg17 (by decide))).trans (Keep.hostOps0_2_keep m ρ c main_arg17 (by decide))).trans (Keep.hostOps0_1_keep m ρ c main_arg17 (by decide))).trans (Keep.hostOps0_keep m ρ c main_arg17 (by decide))).trans rfl
theorem arg18_at_29 : W29 m ρ c (Proc.devRef .tc main_arg18) = (m ((c : Thread nD τ).loc main_arg18)) :=
  (((((((((((((((((((((((((((((Keep.hostOps13_keep m ρ c main_arg18 (by decide)).trans (W28_of_ne m ρ c main_arg18 (by decide))).trans (Keep.hostOps12_keep m ρ c main_arg18 (by decide))).trans (W26_of_ne m ρ c main_arg18 (by decide))).trans (Keep.hostOps11_keep m ρ c main_arg18 (by decide))).trans (W24_of_ne m ρ c main_arg18 (by decide))).trans (Keep.hostOps10_keep m ρ c main_arg18 (by decide))).trans (W22_of_ne m ρ c main_arg18 (by decide))).trans (Keep.hostOps9_keep m ρ c main_arg18 (by decide))).trans (W20_of_ne m ρ c main_arg18 (by decide))).trans (Keep.hostOps8_keep m ρ c main_arg18 (by decide))).trans (W18_of_ne m ρ c main_arg18 (by decide))).trans (Keep.hostOps7_keep m ρ c main_arg18 (by decide))).trans (W16_of_ne m ρ c main_arg18 (by decide))).trans (Keep.hostOps6_keep m ρ c main_arg18 (by decide))).trans (W14_of_ne m ρ c main_arg18 (by decide))).trans (Keep.hostOps5_keep m ρ c main_arg18 (by decide))).trans (W12_of_ne m ρ c main_arg18 (by decide))).trans (Keep.hostOps4_keep m ρ c main_arg18 (by decide))).trans (W10_of_ne m ρ c main_arg18 (by decide))).trans (Keep.hostOps3_keep m ρ c main_arg18 (by decide))).trans (W8_of_ne m ρ c main_arg18 (by decide))).trans (Keep.hostOps2_keep m ρ c main_arg18 (by decide))).trans (W6_of_ne m ρ c main_arg18 (by decide))).trans (Keep.hostOps1_keep m ρ c main_arg18 (by decide))).trans (W4_of_ne m ρ c main_arg18 (by decide))).trans (Keep.hostOps0_2_keep m ρ c main_arg18 (by decide))).trans (Keep.hostOps0_1_keep m ρ c main_arg18 (by decide))).trans (Keep.hostOps0_keep m ρ c main_arg18 (by decide))).trans rfl
theorem arg19_at_30 : W30 m ρ c (Proc.devRef .tc main_arg19) = (m ((c : Thread nD τ).loc main_arg19)) :=
  ((((((((((((((((((((((((((((((W30_of_ne m ρ c main_arg19 (by decide)).trans (Keep.hostOps13_keep m ρ c main_arg19 (by decide))).trans (W28_of_ne m ρ c main_arg19 (by decide))).trans (Keep.hostOps12_keep m ρ c main_arg19 (by decide))).trans (W26_of_ne m ρ c main_arg19 (by decide))).trans (Keep.hostOps11_keep m ρ c main_arg19 (by decide))).trans (W24_of_ne m ρ c main_arg19 (by decide))).trans (Keep.hostOps10_keep m ρ c main_arg19 (by decide))).trans (W22_of_ne m ρ c main_arg19 (by decide))).trans (Keep.hostOps9_keep m ρ c main_arg19 (by decide))).trans (W20_of_ne m ρ c main_arg19 (by decide))).trans (Keep.hostOps8_keep m ρ c main_arg19 (by decide))).trans (W18_of_ne m ρ c main_arg19 (by decide))).trans (Keep.hostOps7_keep m ρ c main_arg19 (by decide))).trans (W16_of_ne m ρ c main_arg19 (by decide))).trans (Keep.hostOps6_keep m ρ c main_arg19 (by decide))).trans (W14_of_ne m ρ c main_arg19 (by decide))).trans (Keep.hostOps5_keep m ρ c main_arg19 (by decide))).trans (W12_of_ne m ρ c main_arg19 (by decide))).trans (Keep.hostOps4_keep m ρ c main_arg19 (by decide))).trans (W10_of_ne m ρ c main_arg19 (by decide))).trans (Keep.hostOps3_keep m ρ c main_arg19 (by decide))).trans (W8_of_ne m ρ c main_arg19 (by decide))).trans (Keep.hostOps2_keep m ρ c main_arg19 (by decide))).trans (W6_of_ne m ρ c main_arg19 (by decide))).trans (Keep.hostOps1_keep m ρ c main_arg19 (by decide))).trans (W4_of_ne m ρ c main_arg19 (by decide))).trans (Keep.hostOps0_2_keep m ρ c main_arg19 (by decide))).trans (Keep.hostOps0_1_keep m ρ c main_arg19 (by decide))).trans (Keep.hostOps0_keep m ρ c main_arg19 (by decide))).trans rfl

/-! ## The edge lists and the normalisation -/

set_option maxHeartbeats 8000000 in
theorem s1_v3 : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results
  try rfl

set_option maxHeartbeats 8000000 in
theorem s1_v6 : W1 m ρ c (Proc.devRef .tc main_v6) = val_main_v6 (F := Ideal) (m ((c : Thread nD τ).loc main_arg1)) := by
  show StableHlo.after hostOps0 (W0 m ρ c) (Proc.devRef .tc main_v6) = _
  dsimp only [hostOps0]
  after_results
  try rfl

set_option maxHeartbeats 8000000 in
theorem s1_v12 : W1 m ρ c (Proc.devRef .tc main_v12) = val_main_v12 (F := Ideal) (m ((c : Thread nD τ).loc main_arg1)) := by
  show StableHlo.after hostOps0 (W0 m ρ c) (Proc.devRef .tc main_v12) = _
  dsimp only [hostOps0]
  after_results
  try rfl

set_option maxHeartbeats 8000000 in
theorem s1_v15 : W1 m ρ c (Proc.devRef .tc main_v15) = val_main_v15 (F := Ideal) (m ((c : Thread nD τ).loc main_arg1)) := by
  show StableHlo.after hostOps0 (W0 m ρ c) (Proc.devRef .tc main_v15) = _
  dsimp only [hostOps0]
  after_results
  try rfl

set_option maxHeartbeats 8000000 in
theorem s1_cst_3 : W1 m ρ c (Proc.devRef .tc main_cst_3) = val_main_cst_3 (F := Ideal) := by
  show StableHlo.after hostOps0 (W0 m ρ c) (Proc.devRef .tc main_cst_3) = _
  dsimp only [hostOps0]
  after_results
  try rfl

theorem outs01 : HostRead.Outs (hostOps0_1 (F := Ideal)) [main_call0_v0, main_call0_v1, main_v16] := by
  unfold hostOps0_1
  iterate 3 (refine List.Forall₂.cons (by first | exact nullary_writes .. | exact unary_writes .. | exact binary_writes .. | exact ternary_writes .. | rfl) ?_)
  exact List.Forall₂.nil

theorem s2_call0_v0 : W2 m ρ c (Proc.devRef .tc main_call0_v0) = val_main_call0_v0 (F := Ideal) :=
  eq_of_heq (HostRead.tunary_at outs01 (W1 m ρ c) 0 _ _ _ rfl (by decide) (by decide) _ (heq_of_eq ((Keep.hostOps0_1_keep m ρ c main_cst_3 (by decide)).trans (s1_cst_3 m ρ c))))
theorem s2_call0_v1 : W2 m ρ c (Proc.devRef .tc main_call0_v1) = val_main_call0_v1 (F := Ideal) :=
  eq_of_heq (HostRead.tunary_at outs01 (W1 m ρ c) 1 _ _ _ rfl (by decide) (by decide) _ (heq_of_eq (s2_call0_v0 m ρ c)))
theorem s2_v16 : W2 m ρ c (Proc.devRef .tc main_v16) = val_main_v16 (F := Ideal) (m ((c : Thread nD τ).loc main_arg1)) :=
  eq_of_heq (HostRead.tternary_at outs01 (W1 m ρ c) 2 _ _ _ _ _ rfl (by decide) (by decide) (by decide) (by decide) _ _ _
    (heq_of_eq ((Keep.hostOps0_1_keep m ρ c main_v12 (by decide)).trans (s1_v12 m ρ c))) (heq_of_eq ((Keep.hostOps0_1_keep m ρ c main_v15 (by decide)).trans (s1_v15 m ρ c))) (heq_of_eq (s2_call0_v1 m ρ c)))
theorem s2_v3 : W2 m ρ c (Proc.devRef .tc main_v3) = val_main_v3 (F := Ideal) (m ((c : Thread nD τ).loc main_arg1)) := (Keep.hostOps0_1_keep m ρ c main_v3 (by decide)).trans (s1_v3 m ρ c)
theorem s2_v6 : W2 m ρ c (Proc.devRef .tc main_v6) = val_main_v6 (F := Ideal) (m ((c : Thread nD τ).loc main_arg1)) := (Keep.hostOps0_1_keep m ρ c main_v6 (by decide)).trans (s1_v6 m ρ c)

set_option maxHeartbeats 8000000 in
theorem s3_v31 : W3 m ρ c (Proc.devRef .tc main_v31) = val_main_v31 (F := Ideal) (m ((c : Thread nD τ).loc main_arg1)) := by
  show StableHlo.after hostOps0_2 (W2 m ρ c) (Proc.devRef .tc main_v31) = _
  have f0 := s2_v3 m ρ c
  have f1 := s2_v6 m ρ c
  have f2 := s2_v16 m ρ c
  generalize W2 m ρ c = V at f0 f1 f2 ⊢
  dsimp only [hostOps0_2]
  after_results
  rw [f0, f1, f2]
  try rfl

theorem s3_v3 : W3 m ρ c (Proc.devRef .tc main_v3) = val_main_v3 (F := Ideal) (m ((c : Thread nD τ).loc main_arg1)) := (Keep.hostOps0_2_keep m ρ c main_v3 (by decide)).trans (s2_v3 m ρ c)
theorem s3_v6 : W3 m ρ c (Proc.devRef .tc main_v6) = val_main_v6 (F := Ideal) (m ((c : Thread nD τ).loc main_arg1)) := (Keep.hostOps0_2_keep m ρ c main_v6 (by decide)).trans (s2_v6 m ρ c)

/-- The three carried through to the boundary where a later stretch reads them. -/
theorem at6_v3 : W6 m ρ c (Proc.devRef .tc main_v3) = val_main_v3 (F := Ideal) (m ((c : Thread nD τ).loc main_arg1)) := (((W6_of_ne m ρ c main_v3 (by decide)).trans (Keep.hostOps1_keep m ρ c main_v3 (by decide))).trans (W4_of_ne m ρ c main_v3 (by decide))).trans (s3_v3 m ρ c)
theorem at6_v6 : W6 m ρ c (Proc.devRef .tc main_v6) = val_main_v6 (F := Ideal) (m ((c : Thread nD τ).loc main_arg1)) := (((W6_of_ne m ρ c main_v6 (by decide)).trans (Keep.hostOps1_keep m ρ c main_v6 (by decide))).trans (W4_of_ne m ρ c main_v6 (by decide))).trans (s3_v6 m ρ c)
theorem at6_v31 : W6 m ρ c (Proc.devRef .tc main_v31) = val_main_v31 (F := Ideal) (m ((c : Thread nD τ).loc main_arg1)) := (((W6_of_ne m ρ c main_v31 (by decide)).trans (Keep.hostOps1_keep m ρ c main_v31 (by decide))).trans (W4_of_ne m ρ c main_v31 (by decide))).trans (s3_v31 m ρ c)
theorem at12_v3 : W12 m ρ c (Proc.devRef .tc main_v3) = val_main_v3 (F := Ideal) (m ((c : Thread nD τ).loc main_arg1)) := (((((((((W12_of_ne m ρ c main_v3 (by decide)).trans (Keep.hostOps4_keep m ρ c main_v3 (by decide))).trans (W10_of_ne m ρ c main_v3 (by decide))).trans (Keep.hostOps3_keep m ρ c main_v3 (by decide))).trans (W8_of_ne m ρ c main_v3 (by decide))).trans (Keep.hostOps2_keep m ρ c main_v3 (by decide))).trans (W6_of_ne m ρ c main_v3 (by decide))).trans (Keep.hostOps1_keep m ρ c main_v3 (by decide))).trans (W4_of_ne m ρ c main_v3 (by decide))).trans (s3_v3 m ρ c)
theorem at12_v6 : W12 m ρ c (Proc.devRef .tc main_v6) = val_main_v6 (F := Ideal) (m ((c : Thread nD τ).loc main_arg1)) := (((((((((W12_of_ne m ρ c main_v6 (by decide)).trans (Keep.hostOps4_keep m ρ c main_v6 (by decide))).trans (W10_of_ne m ρ c main_v6 (by decide))).trans (Keep.hostOps3_keep m ρ c main_v6 (by decide))).trans (W8_of_ne m ρ c main_v6 (by decide))).trans (Keep.hostOps2_keep m ρ c main_v6 (by decide))).trans (W6_of_ne m ρ c main_v6 (by decide))).trans (Keep.hostOps1_keep m ρ c main_v6 (by decide))).trans (W4_of_ne m ρ c main_v6 (by decide))).trans (s3_v6 m ρ c)
theorem at12_v31 : W12 m ρ c (Proc.devRef .tc main_v31) = val_main_v31 (F := Ideal) (m ((c : Thread nD τ).loc main_arg1)) := (((((((((W12_of_ne m ρ c main_v31 (by decide)).trans (Keep.hostOps4_keep m ρ c main_v31 (by decide))).trans (W10_of_ne m ρ c main_v31 (by decide))).trans (Keep.hostOps3_keep m ρ c main_v31 (by decide))).trans (W8_of_ne m ρ c main_v31 (by decide))).trans (Keep.hostOps2_keep m ρ c main_v31 (by decide))).trans (W6_of_ne m ρ c main_v31 (by decide))).trans (Keep.hostOps1_keep m ρ c main_v31 (by decide))).trans (W4_of_ne m ρ c main_v31 (by decide))).trans (s3_v31 m ρ c)
theorem at18_v3 : W18 m ρ c (Proc.devRef .tc main_v3) = val_main_v3 (F := Ideal) (m ((c : Thread nD τ).loc main_arg1)) := (((((((((((((((W18_of_ne m ρ c main_v3 (by decide)).trans (Keep.hostOps7_keep m ρ c main_v3 (by decide))).trans (W16_of_ne m ρ c main_v3 (by decide))).trans (Keep.hostOps6_keep m ρ c main_v3 (by decide))).trans (W14_of_ne m ρ c main_v3 (by decide))).trans (Keep.hostOps5_keep m ρ c main_v3 (by decide))).trans (W12_of_ne m ρ c main_v3 (by decide))).trans (Keep.hostOps4_keep m ρ c main_v3 (by decide))).trans (W10_of_ne m ρ c main_v3 (by decide))).trans (Keep.hostOps3_keep m ρ c main_v3 (by decide))).trans (W8_of_ne m ρ c main_v3 (by decide))).trans (Keep.hostOps2_keep m ρ c main_v3 (by decide))).trans (W6_of_ne m ρ c main_v3 (by decide))).trans (Keep.hostOps1_keep m ρ c main_v3 (by decide))).trans (W4_of_ne m ρ c main_v3 (by decide))).trans (s3_v3 m ρ c)
theorem at18_v6 : W18 m ρ c (Proc.devRef .tc main_v6) = val_main_v6 (F := Ideal) (m ((c : Thread nD τ).loc main_arg1)) := (((((((((((((((W18_of_ne m ρ c main_v6 (by decide)).trans (Keep.hostOps7_keep m ρ c main_v6 (by decide))).trans (W16_of_ne m ρ c main_v6 (by decide))).trans (Keep.hostOps6_keep m ρ c main_v6 (by decide))).trans (W14_of_ne m ρ c main_v6 (by decide))).trans (Keep.hostOps5_keep m ρ c main_v6 (by decide))).trans (W12_of_ne m ρ c main_v6 (by decide))).trans (Keep.hostOps4_keep m ρ c main_v6 (by decide))).trans (W10_of_ne m ρ c main_v6 (by decide))).trans (Keep.hostOps3_keep m ρ c main_v6 (by decide))).trans (W8_of_ne m ρ c main_v6 (by decide))).trans (Keep.hostOps2_keep m ρ c main_v6 (by decide))).trans (W6_of_ne m ρ c main_v6 (by decide))).trans (Keep.hostOps1_keep m ρ c main_v6 (by decide))).trans (W4_of_ne m ρ c main_v6 (by decide))).trans (s3_v6 m ρ c)
theorem at18_v31 : W18 m ρ c (Proc.devRef .tc main_v31) = val_main_v31 (F := Ideal) (m ((c : Thread nD τ).loc main_arg1)) := (((((((((((((((W18_of_ne m ρ c main_v31 (by decide)).trans (Keep.hostOps7_keep m ρ c main_v31 (by decide))).trans (W16_of_ne m ρ c main_v31 (by decide))).trans (Keep.hostOps6_keep m ρ c main_v31 (by decide))).trans (W14_of_ne m ρ c main_v31 (by decide))).trans (Keep.hostOps5_keep m ρ c main_v31 (by decide))).trans (W12_of_ne m ρ c main_v31 (by decide))).trans (Keep.hostOps4_keep m ρ c main_v31 (by decide))).trans (W10_of_ne m ρ c main_v31 (by decide))).trans (Keep.hostOps3_keep m ρ c main_v31 (by decide))).trans (W8_of_ne m ρ c main_v31 (by decide))).trans (Keep.hostOps2_keep m ρ c main_v31 (by decide))).trans (W6_of_ne m ρ c main_v31 (by decide))).trans (Keep.hostOps1_keep m ρ c main_v31 (by decide))).trans (W4_of_ne m ρ c main_v31 (by decide))).trans (s3_v31 m ρ c)
theorem at22_v3 : W22 m ρ c (Proc.devRef .tc main_v3) = val_main_v3 (F := Ideal) (m ((c : Thread nD τ).loc main_arg1)) := (((((((((((((((((((W22_of_ne m ρ c main_v3 (by decide)).trans (Keep.hostOps9_keep m ρ c main_v3 (by decide))).trans (W20_of_ne m ρ c main_v3 (by decide))).trans (Keep.hostOps8_keep m ρ c main_v3 (by decide))).trans (W18_of_ne m ρ c main_v3 (by decide))).trans (Keep.hostOps7_keep m ρ c main_v3 (by decide))).trans (W16_of_ne m ρ c main_v3 (by decide))).trans (Keep.hostOps6_keep m ρ c main_v3 (by decide))).trans (W14_of_ne m ρ c main_v3 (by decide))).trans (Keep.hostOps5_keep m ρ c main_v3 (by decide))).trans (W12_of_ne m ρ c main_v3 (by decide))).trans (Keep.hostOps4_keep m ρ c main_v3 (by decide))).trans (W10_of_ne m ρ c main_v3 (by decide))).trans (Keep.hostOps3_keep m ρ c main_v3 (by decide))).trans (W8_of_ne m ρ c main_v3 (by decide))).trans (Keep.hostOps2_keep m ρ c main_v3 (by decide))).trans (W6_of_ne m ρ c main_v3 (by decide))).trans (Keep.hostOps1_keep m ρ c main_v3 (by decide))).trans (W4_of_ne m ρ c main_v3 (by decide))).trans (s3_v3 m ρ c)
theorem at22_v6 : W22 m ρ c (Proc.devRef .tc main_v6) = val_main_v6 (F := Ideal) (m ((c : Thread nD τ).loc main_arg1)) := (((((((((((((((((((W22_of_ne m ρ c main_v6 (by decide)).trans (Keep.hostOps9_keep m ρ c main_v6 (by decide))).trans (W20_of_ne m ρ c main_v6 (by decide))).trans (Keep.hostOps8_keep m ρ c main_v6 (by decide))).trans (W18_of_ne m ρ c main_v6 (by decide))).trans (Keep.hostOps7_keep m ρ c main_v6 (by decide))).trans (W16_of_ne m ρ c main_v6 (by decide))).trans (Keep.hostOps6_keep m ρ c main_v6 (by decide))).trans (W14_of_ne m ρ c main_v6 (by decide))).trans (Keep.hostOps5_keep m ρ c main_v6 (by decide))).trans (W12_of_ne m ρ c main_v6 (by decide))).trans (Keep.hostOps4_keep m ρ c main_v6 (by decide))).trans (W10_of_ne m ρ c main_v6 (by decide))).trans (Keep.hostOps3_keep m ρ c main_v6 (by decide))).trans (W8_of_ne m ρ c main_v6 (by decide))).trans (Keep.hostOps2_keep m ρ c main_v6 (by decide))).trans (W6_of_ne m ρ c main_v6 (by decide))).trans (Keep.hostOps1_keep m ρ c main_v6 (by decide))).trans (W4_of_ne m ρ c main_v6 (by decide))).trans (s3_v6 m ρ c)
theorem at22_v31 : W22 m ρ c (Proc.devRef .tc main_v31) = val_main_v31 (F := Ideal) (m ((c : Thread nD τ).loc main_arg1)) := (((((((((((((((((((W22_of_ne m ρ c main_v31 (by decide)).trans (Keep.hostOps9_keep m ρ c main_v31 (by decide))).trans (W20_of_ne m ρ c main_v31 (by decide))).trans (Keep.hostOps8_keep m ρ c main_v31 (by decide))).trans (W18_of_ne m ρ c main_v31 (by decide))).trans (Keep.hostOps7_keep m ρ c main_v31 (by decide))).trans (W16_of_ne m ρ c main_v31 (by decide))).trans (Keep.hostOps6_keep m ρ c main_v31 (by decide))).trans (W14_of_ne m ρ c main_v31 (by decide))).trans (Keep.hostOps5_keep m ρ c main_v31 (by decide))).trans (W12_of_ne m ρ c main_v31 (by decide))).trans (Keep.hostOps4_keep m ρ c main_v31 (by decide))).trans (W10_of_ne m ρ c main_v31 (by decide))).trans (Keep.hostOps3_keep m ρ c main_v31 (by decide))).trans (W8_of_ne m ρ c main_v31 (by decide))).trans (Keep.hostOps2_keep m ρ c main_v31 (by decide))).trans (W6_of_ne m ρ c main_v31 (by decide))).trans (Keep.hostOps1_keep m ρ c main_v31 (by decide))).trans (W4_of_ne m ρ c main_v31 (by decide))).trans (s3_v31 m ρ c)
theorem at26_v3 : W26 m ρ c (Proc.devRef .tc main_v3) = val_main_v3 (F := Ideal) (m ((c : Thread nD τ).loc main_arg1)) := (((((((((((((((((((((((W26_of_ne m ρ c main_v3 (by decide)).trans (Keep.hostOps11_keep m ρ c main_v3 (by decide))).trans (W24_of_ne m ρ c main_v3 (by decide))).trans (Keep.hostOps10_keep m ρ c main_v3 (by decide))).trans (W22_of_ne m ρ c main_v3 (by decide))).trans (Keep.hostOps9_keep m ρ c main_v3 (by decide))).trans (W20_of_ne m ρ c main_v3 (by decide))).trans (Keep.hostOps8_keep m ρ c main_v3 (by decide))).trans (W18_of_ne m ρ c main_v3 (by decide))).trans (Keep.hostOps7_keep m ρ c main_v3 (by decide))).trans (W16_of_ne m ρ c main_v3 (by decide))).trans (Keep.hostOps6_keep m ρ c main_v3 (by decide))).trans (W14_of_ne m ρ c main_v3 (by decide))).trans (Keep.hostOps5_keep m ρ c main_v3 (by decide))).trans (W12_of_ne m ρ c main_v3 (by decide))).trans (Keep.hostOps4_keep m ρ c main_v3 (by decide))).trans (W10_of_ne m ρ c main_v3 (by decide))).trans (Keep.hostOps3_keep m ρ c main_v3 (by decide))).trans (W8_of_ne m ρ c main_v3 (by decide))).trans (Keep.hostOps2_keep m ρ c main_v3 (by decide))).trans (W6_of_ne m ρ c main_v3 (by decide))).trans (Keep.hostOps1_keep m ρ c main_v3 (by decide))).trans (W4_of_ne m ρ c main_v3 (by decide))).trans (s3_v3 m ρ c)
theorem at26_v6 : W26 m ρ c (Proc.devRef .tc main_v6) = val_main_v6 (F := Ideal) (m ((c : Thread nD τ).loc main_arg1)) := (((((((((((((((((((((((W26_of_ne m ρ c main_v6 (by decide)).trans (Keep.hostOps11_keep m ρ c main_v6 (by decide))).trans (W24_of_ne m ρ c main_v6 (by decide))).trans (Keep.hostOps10_keep m ρ c main_v6 (by decide))).trans (W22_of_ne m ρ c main_v6 (by decide))).trans (Keep.hostOps9_keep m ρ c main_v6 (by decide))).trans (W20_of_ne m ρ c main_v6 (by decide))).trans (Keep.hostOps8_keep m ρ c main_v6 (by decide))).trans (W18_of_ne m ρ c main_v6 (by decide))).trans (Keep.hostOps7_keep m ρ c main_v6 (by decide))).trans (W16_of_ne m ρ c main_v6 (by decide))).trans (Keep.hostOps6_keep m ρ c main_v6 (by decide))).trans (W14_of_ne m ρ c main_v6 (by decide))).trans (Keep.hostOps5_keep m ρ c main_v6 (by decide))).trans (W12_of_ne m ρ c main_v6 (by decide))).trans (Keep.hostOps4_keep m ρ c main_v6 (by decide))).trans (W10_of_ne m ρ c main_v6 (by decide))).trans (Keep.hostOps3_keep m ρ c main_v6 (by decide))).trans (W8_of_ne m ρ c main_v6 (by decide))).trans (Keep.hostOps2_keep m ρ c main_v6 (by decide))).trans (W6_of_ne m ρ c main_v6 (by decide))).trans (Keep.hostOps1_keep m ρ c main_v6 (by decide))).trans (W4_of_ne m ρ c main_v6 (by decide))).trans (s3_v6 m ρ c)
theorem at26_v31 : W26 m ρ c (Proc.devRef .tc main_v31) = val_main_v31 (F := Ideal) (m ((c : Thread nD τ).loc main_arg1)) := (((((((((((((((((((((((W26_of_ne m ρ c main_v31 (by decide)).trans (Keep.hostOps11_keep m ρ c main_v31 (by decide))).trans (W24_of_ne m ρ c main_v31 (by decide))).trans (Keep.hostOps10_keep m ρ c main_v31 (by decide))).trans (W22_of_ne m ρ c main_v31 (by decide))).trans (Keep.hostOps9_keep m ρ c main_v31 (by decide))).trans (W20_of_ne m ρ c main_v31 (by decide))).trans (Keep.hostOps8_keep m ρ c main_v31 (by decide))).trans (W18_of_ne m ρ c main_v31 (by decide))).trans (Keep.hostOps7_keep m ρ c main_v31 (by decide))).trans (W16_of_ne m ρ c main_v31 (by decide))).trans (Keep.hostOps6_keep m ρ c main_v31 (by decide))).trans (W14_of_ne m ρ c main_v31 (by decide))).trans (Keep.hostOps5_keep m ρ c main_v31 (by decide))).trans (W12_of_ne m ρ c main_v31 (by decide))).trans (Keep.hostOps4_keep m ρ c main_v31 (by decide))).trans (W10_of_ne m ρ c main_v31 (by decide))).trans (Keep.hostOps3_keep m ρ c main_v31 (by decide))).trans (W8_of_ne m ρ c main_v31 (by decide))).trans (Keep.hostOps2_keep m ρ c main_v31 (by decide))).trans (W6_of_ne m ρ c main_v31 (by decide))).trans (Keep.hostOps1_keep m ρ c main_v31 (by decide))).trans (W4_of_ne m ρ c main_v31 (by decide))).trans (s3_v31 m ρ c)
theorem at30_v3 : W30 m ρ c (Proc.devRef .tc main_v3) = val_main_v3 (F := Ideal) (m ((c : Thread nD τ).loc main_arg1)) := (((((((((((((((((((((((((((W30_of_ne m ρ c main_v3 (by decide)).trans (Keep.hostOps13_keep m ρ c main_v3 (by decide))).trans (W28_of_ne m ρ c main_v3 (by decide))).trans (Keep.hostOps12_keep m ρ c main_v3 (by decide))).trans (W26_of_ne m ρ c main_v3 (by decide))).trans (Keep.hostOps11_keep m ρ c main_v3 (by decide))).trans (W24_of_ne m ρ c main_v3 (by decide))).trans (Keep.hostOps10_keep m ρ c main_v3 (by decide))).trans (W22_of_ne m ρ c main_v3 (by decide))).trans (Keep.hostOps9_keep m ρ c main_v3 (by decide))).trans (W20_of_ne m ρ c main_v3 (by decide))).trans (Keep.hostOps8_keep m ρ c main_v3 (by decide))).trans (W18_of_ne m ρ c main_v3 (by decide))).trans (Keep.hostOps7_keep m ρ c main_v3 (by decide))).trans (W16_of_ne m ρ c main_v3 (by decide))).trans (Keep.hostOps6_keep m ρ c main_v3 (by decide))).trans (W14_of_ne m ρ c main_v3 (by decide))).trans (Keep.hostOps5_keep m ρ c main_v3 (by decide))).trans (W12_of_ne m ρ c main_v3 (by decide))).trans (Keep.hostOps4_keep m ρ c main_v3 (by decide))).trans (W10_of_ne m ρ c main_v3 (by decide))).trans (Keep.hostOps3_keep m ρ c main_v3 (by decide))).trans (W8_of_ne m ρ c main_v3 (by decide))).trans (Keep.hostOps2_keep m ρ c main_v3 (by decide))).trans (W6_of_ne m ρ c main_v3 (by decide))).trans (Keep.hostOps1_keep m ρ c main_v3 (by decide))).trans (W4_of_ne m ρ c main_v3 (by decide))).trans (s3_v3 m ρ c)
theorem at30_v6 : W30 m ρ c (Proc.devRef .tc main_v6) = val_main_v6 (F := Ideal) (m ((c : Thread nD τ).loc main_arg1)) := (((((((((((((((((((((((((((W30_of_ne m ρ c main_v6 (by decide)).trans (Keep.hostOps13_keep m ρ c main_v6 (by decide))).trans (W28_of_ne m ρ c main_v6 (by decide))).trans (Keep.hostOps12_keep m ρ c main_v6 (by decide))).trans (W26_of_ne m ρ c main_v6 (by decide))).trans (Keep.hostOps11_keep m ρ c main_v6 (by decide))).trans (W24_of_ne m ρ c main_v6 (by decide))).trans (Keep.hostOps10_keep m ρ c main_v6 (by decide))).trans (W22_of_ne m ρ c main_v6 (by decide))).trans (Keep.hostOps9_keep m ρ c main_v6 (by decide))).trans (W20_of_ne m ρ c main_v6 (by decide))).trans (Keep.hostOps8_keep m ρ c main_v6 (by decide))).trans (W18_of_ne m ρ c main_v6 (by decide))).trans (Keep.hostOps7_keep m ρ c main_v6 (by decide))).trans (W16_of_ne m ρ c main_v6 (by decide))).trans (Keep.hostOps6_keep m ρ c main_v6 (by decide))).trans (W14_of_ne m ρ c main_v6 (by decide))).trans (Keep.hostOps5_keep m ρ c main_v6 (by decide))).trans (W12_of_ne m ρ c main_v6 (by decide))).trans (Keep.hostOps4_keep m ρ c main_v6 (by decide))).trans (W10_of_ne m ρ c main_v6 (by decide))).trans (Keep.hostOps3_keep m ρ c main_v6 (by decide))).trans (W8_of_ne m ρ c main_v6 (by decide))).trans (Keep.hostOps2_keep m ρ c main_v6 (by decide))).trans (W6_of_ne m ρ c main_v6 (by decide))).trans (Keep.hostOps1_keep m ρ c main_v6 (by decide))).trans (W4_of_ne m ρ c main_v6 (by decide))).trans (s3_v6 m ρ c)
theorem at30_v31 : W30 m ρ c (Proc.devRef .tc main_v31) = val_main_v31 (F := Ideal) (m ((c : Thread nD τ).loc main_arg1)) := (((((((((((((((((((((((((((W30_of_ne m ρ c main_v31 (by decide)).trans (Keep.hostOps13_keep m ρ c main_v31 (by decide))).trans (W28_of_ne m ρ c main_v31 (by decide))).trans (Keep.hostOps12_keep m ρ c main_v31 (by decide))).trans (W26_of_ne m ρ c main_v31 (by decide))).trans (Keep.hostOps11_keep m ρ c main_v31 (by decide))).trans (W24_of_ne m ρ c main_v31 (by decide))).trans (Keep.hostOps10_keep m ρ c main_v31 (by decide))).trans (W22_of_ne m ρ c main_v31 (by decide))).trans (Keep.hostOps9_keep m ρ c main_v31 (by decide))).trans (W20_of_ne m ρ c main_v31 (by decide))).trans (Keep.hostOps8_keep m ρ c main_v31 (by decide))).trans (W18_of_ne m ρ c main_v31 (by decide))).trans (Keep.hostOps7_keep m ρ c main_v31 (by decide))).trans (W16_of_ne m ρ c main_v31 (by decide))).trans (Keep.hostOps6_keep m ρ c main_v31 (by decide))).trans (W14_of_ne m ρ c main_v31 (by decide))).trans (Keep.hostOps5_keep m ρ c main_v31 (by decide))).trans (W12_of_ne m ρ c main_v31 (by decide))).trans (Keep.hostOps4_keep m ρ c main_v31 (by decide))).trans (W10_of_ne m ρ c main_v31 (by decide))).trans (Keep.hostOps3_keep m ρ c main_v31 (by decide))).trans (W8_of_ne m ρ c main_v31 (by decide))).trans (Keep.hostOps2_keep m ρ c main_v31 (by decide))).trans (W6_of_ne m ρ c main_v31 (by decide))).trans (Keep.hostOps1_keep m ρ c main_v31 (by decide))).trans (W4_of_ne m ρ c main_v31 (by decide))).trans (s3_v31 m ρ c)

end Cert.ChainA

end
-- ==== Proof.Chain.lean ====
/-
  The layers of the idealized kernel at the boundaries of @main's segments, as the reference's stages of the arguments.
  A stretch recasts a bias as one row (or makes a zero row); a region leaves its function of the arrays it was entered
  with, which is the reference's stage by the region's bridge; a stretch gathers, scales and scatter-adds the projected
  rows by the reference's own operations.  A buffer is carried from the boundary where it is produced to the boundary where
  it is read through segments that do not write it (a region leaves its input arrays as entered).
-/
import proofs.«147497_j34437047780015_1_alg».proof.Proof.ChainA

set_option maxRecDepth 16384

noncomputable section

namespace Cert.Chain

open Cert.KernelIdeal Cert.KernelIdeal.Gen Cert.ReferenceIdeal.ReadP Cert.ChainA
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 8000000 in
theorem s3_v32 : W3 m ρ c (Proc.devRef .tc main_v32) = shapeCast S1x256 (m ((c : Thread nD τ).loc main_arg3)) shapeCasts_S256_S1x256 := by
  show StableHlo.after hostOps0_2 (W2 m ρ c) (Proc.devRef .tc main_v32) = _
  have f0 := arg3_at_2 m ρ c
  generalize W2 m ρ c = V at f0 ⊢
  dsimp only [hostOps0_2]
  after_results
  rw [f0]
  try rfl

theorem out0 : W4 m ρ c (Proc.devRef .tc main_v33) = val_main_v35 (F := Ideal) (m ((c : Thread nD τ).loc main_arg0)) (m ((c : Thread nD τ).loc main_arg2)) (m ((c : Thread nD τ).loc main_arg3)) := by
  refine (W4_arr m ρ c 3).trans ?_
  rw [Lin0.final (V3 m ρ) c]
  rw [show V3 m ρ c (Pipeline.arrRef spec0 0) = (m ((c : Thread nD τ).loc main_arg0)) from arg0_at_3 m ρ c,
    show V3 m ρ c (Pipeline.arrRef spec0 1) = (m ((c : Thread nD τ).loc main_arg2)) from arg2_at_3 m ρ c,
    show V3 m ρ c (Pipeline.arrRef spec0 2) = shapeCast S1x256 (m ((c : Thread nD τ).loc main_arg3)) shapeCasts_S256_S1x256 from s3_v32 m ρ c]
  exact (Cert.Bridge.Lin0.eq (m ((c : Thread nD τ).loc main_arg0)) (m ((c : Thread nD τ).loc main_arg2)) (m ((c : Thread nD τ).loc main_arg3))).symm

set_option maxHeartbeats 8000000 in
theorem z1 : W5 m ρ c (Proc.devRef .tc main_v35) = shapeCast S1x256 (broadcastInDim S256 ![] bcast_S_S256 (constant (F := Ideal) S_ .f32 0x00000000#32)) shapeCasts_S256_S1x256 := by
  show StableHlo.after hostOps1 (W4 m ρ c) (Proc.devRef .tc main_v35) = _
  generalize W4 m ρ c = V at ⊢
  dsimp only [hostOps1]
  after_results
  try rfl

theorem out1 : W6 m ρ c (Proc.devRef .tc main_v36) = val_main_v36 (F := Ideal) (m ((c : Thread nD τ).loc main_arg0)) (m ((c : Thread nD τ).loc main_arg2)) (m ((c : Thread nD τ).loc main_arg3)) (m ((c : Thread nD τ).loc main_arg8)) := by
  refine (W6_arr m ρ c 3).trans ?_
  rw [Lin1.final (V5 m ρ) c]
  rw [show V5 m ρ c (Pipeline.arrRef spec1 0) = val_main_v35 (F := Ideal) (m ((c : Thread nD τ).loc main_arg0)) (m ((c : Thread nD τ).loc main_arg2)) (m ((c : Thread nD τ).loc main_arg3)) from (Keep.hostOps1_keep m ρ c main_v33 (by decide)).trans (out0 m ρ c),
    show V5 m ρ c (Pipeline.arrRef spec1 1) = (m ((c : Thread nD τ).loc main_arg8)) from arg8_at_5 m ρ c,
    show V5 m ρ c (Pipeline.arrRef spec1 2) = shapeCast S1x256 (broadcastInDim S256 ![] bcast_S_S256 (constant (F := Ideal) S_ .f32 0x00000000#32)) shapeCasts_S256_S1x256 from z1 m ρ c]
  exact (Cert.Bridge.Lin1.eq (m ((c : Thread nD τ).loc main_arg0)) (m ((c : Thread nD τ).loc main_arg2)) (m ((c : Thread nD τ).loc main_arg3)) (m ((c : Thread nD τ).loc main_arg8)) _ Cert.Bridge.Lin1.zero_row).symm

set_option maxHeartbeats 8000000 in
theorem agg2 : W7 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg8)) := by
  show StableHlo.after hostOps2 (W6 m ρ c) (Proc.devRef .tc main_v49) = _
  have f0 := out1 m ρ c
  have f1 := at6_v3 m ρ c
  have f2 := at6_v6 m ρ c
  have f3 := at6_v31 m ρ c
  generalize W6 m ρ c = V at f0 f1 f2 f3 ⊢
  dsimp only [hostOps2]
  after_results
  rw [f0, f1, f2, f3]
  try rfl

set_option maxHeartbeats 8000000 in
theorem b2 : W7 m ρ c (Proc.devRef .tc main_v50) = shapeCast S1x256 (m ((c : Thread nD τ).loc main_arg9)) shapeCasts_S256_S1x256 := by
  show StableHlo.after hostOps2 (W6 m ρ c) (Proc.devRef .tc main_v50) = _
  have f0 := arg9_at_6 m ρ c
  generalize W6 m ρ c = V at f0 ⊢
  dsimp only [hostOps2]
  after_results
  rw [f0]
  try rfl

theorem out2 : W8 m ρ c (Proc.devRef .tc main_v51) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  refine (W8_arr m ρ c 3).trans ?_
  rw [Comb2.final (V7 m ρ) c]
  rw [show V7 m ρ c (Pipeline.arrRef spec2 0) = val_main_v35 (F := Ideal) (m ((c : Thread nD τ).loc main_arg0)) (m ((c : Thread nD τ).loc main_arg2)) (m ((c : Thread nD τ).loc main_arg3)) from (((Keep.hostOps2_keep m ρ c main_v33 (by decide)).trans ((W6_arr m ρ c 0).trans (((dat1 (V5 m ρ) c).arrAt_in 0 rfl _).trans (A_eq1 (V5 m ρ) c 0)))).trans (Keep.hostOps1_keep m ρ c main_v33 (by decide))).trans (out0 m ρ c),
    show V7 m ρ c (Pipeline.arrRef spec2 1) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg8)) from agg2 m ρ c,
    show V7 m ρ c (Pipeline.arrRef spec2 2) = shapeCast S1x256 (m ((c : Thread nD τ).loc main_arg9)) shapeCasts_S256_S1x256 from b2 m ρ c]
  exact (Cert.Bridge.Comb2.eq (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))).symm

set_option maxHeartbeats 8000000 in
theorem b3 : W9 m ρ c (Proc.devRef .tc main_v52) = shapeCast S1x62 (m ((c : Thread nD τ).loc main_arg5)) shapeCasts_S62_S1x62 := by
  show StableHlo.after hostOps3 (W8 m ρ c) (Proc.devRef .tc main_v52) = _
  have f0 := arg5_at_8 m ρ c
  generalize W8 m ρ c = V at f0 ⊢
  dsimp only [hostOps3]
  after_results
  rw [f0]
  try rfl

theorem out3 : W10 m ρ c (Proc.devRef .tc main_v53) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  refine (W10_arr m ρ c 3).trans ?_
  rw [Lin3.final (V9 m ρ) c]
  rw [show V9 m ρ c (Pipeline.arrRef spec3 0) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) from (Keep.hostOps3_keep m ρ c main_v51 (by decide)).trans (out2 m ρ c),
    show V9 m ρ c (Pipeline.arrRef spec3 1) = (m ((c : Thread nD τ).loc main_arg4)) from arg4_at_9 m ρ c,
    show V9 m ρ c (Pipeline.arrRef spec3 2) = shapeCast S1x62 (m ((c : Thread nD τ).loc main_arg5)) shapeCasts_S62_S1x62 from b3 m ρ c]
  exact (Cert.Bridge.Lin3.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))).symm

set_option maxHeartbeats 8000000 in
theorem z4 : W11 m ρ c (Proc.devRef .tc main_v55) = shapeCast S1x62 (broadcastInDim S62 ![] bcast_S_S62 (constant (F := Ideal) S_ .f32 0x00000000#32)) shapeCasts_S62_S1x62 := by
  show StableHlo.after hostOps4 (W10 m ρ c) (Proc.devRef .tc main_v55) = _
  generalize W10 m ρ c = V at ⊢
  dsimp only [hostOps4]
  after_results
  try rfl

theorem out4 : W12 m ρ c (Proc.devRef .tc main_v56) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) := by
  refine (W12_arr m ρ c 3).trans ?_
  rw [Lin4.final (V11 m ρ) c]
  rw [show V11 m ρ c (Pipeline.arrRef spec4 0) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) from (Keep.hostOps4_keep m ρ c main_v53 (by decide)).trans (out3 m ρ c),
    show V11 m ρ c (Pipeline.arrRef spec4 1) = (m ((c : Thread nD τ).loc main_arg10)) from arg10_at_11 m ρ c,
    show V11 m ρ c (Pipeline.arrRef spec4 2) = shapeCast S1x62 (broadcastInDim S62 ![] bcast_S_S62 (constant (F := Ideal) S_ .f32 0x00000000#32)) shapeCasts_S62_S1x62 from z4 m ρ c]
  exact (Cert.Bridge.Lin4.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) _ Cert.Bridge.Lin4.zero_row).symm

set_option maxHeartbeats 8000000 in
theorem agg5 : W13 m ρ c (Proc.devRef .tc main_v69) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) := by
  show StableHlo.after hostOps5 (W12 m ρ c) (Proc.devRef .tc main_v69) = _
  have f0 := out4 m ρ c
  have f1 := at12_v3 m ρ c
  have f2 := at12_v6 m ρ c
  have f3 := at12_v31 m ρ c
  generalize W12 m ρ c = V at f0 f1 f2 f3 ⊢
  dsimp only [hostOps5]
  after_results
  rw [f0, f1, f2, f3]
  try rfl

set_option maxHeartbeats 8000000 in
theorem b5 : W13 m ρ c (Proc.devRef .tc main_v70) = shapeCast S1x62 (m ((c : Thread nD τ).loc main_arg11)) shapeCasts_S62_S1x62 := by
  show StableHlo.after hostOps5 (W12 m ρ c) (Proc.devRef .tc main_v70) = _
  have f0 := arg11_at_12 m ρ c
  generalize W12 m ρ c = V at f0 ⊢
  dsimp only [hostOps5]
  after_results
  rw [f0]
  try rfl

theorem out5 : W14 m ρ c (Proc.devRef .tc main_v71) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  refine (W14_arr m ρ c 3).trans ?_
  rw [Comb5.final (V13 m ρ) c]
  rw [show V13 m ρ c (Pipeline.arrRef spec5 0) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) from (((Keep.hostOps5_keep m ρ c main_v53 (by decide)).trans ((W12_arr m ρ c 0).trans (((dat4 (V11 m ρ) c).arrAt_in 0 rfl _).trans (A_eq4 (V11 m ρ) c 0)))).trans (Keep.hostOps4_keep m ρ c main_v53 (by decide))).trans (out3 m ρ c),
    show V13 m ρ c (Pipeline.arrRef spec5 1) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) from agg5 m ρ c,
    show V13 m ρ c (Pipeline.arrRef spec5 2) = shapeCast S1x62 (m ((c : Thread nD τ).loc main_arg11)) shapeCasts_S62_S1x62 from b5 m ρ c]
  exact (Cert.Bridge.Comb5.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))).symm

set_option maxHeartbeats 8000000 in
theorem b6 : W15 m ρ c (Proc.devRef .tc main_v72) = shapeCast S1x128 (m ((c : Thread nD τ).loc main_arg7)) shapeCasts_S128_S1x128 := by
  show StableHlo.after hostOps6 (W14 m ρ c) (Proc.devRef .tc main_v72) = _
  have f0 := arg7_at_14 m ρ c
  generalize W14 m ρ c = V at f0 ⊢
  dsimp only [hostOps6]
  after_results
  rw [f0]
  try rfl

theorem out6 : W16 m ρ c (Proc.devRef .tc main_v73) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W16_arr m ρ c 3).trans ?_
  rw [Lin6.final (V15 m ρ) c]
  rw [show V15 m ρ c (Pipeline.arrRef spec6 0) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) from (Keep.hostOps6_keep m ρ c main_v71 (by decide)).trans (out5 m ρ c),
    show V15 m ρ c (Pipeline.arrRef spec6 1) = (m ((c : Thread nD τ).loc main_arg6)) from arg6_at_15 m ρ c,
    show V15 m ρ c (Pipeline.arrRef spec6 2) = shapeCast S1x128 (m ((c : Thread nD τ).loc main_arg7)) shapeCasts_S128_S1x128 from b6 m ρ c]
  exact (Cert.Bridge.Lin6.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

set_option maxHeartbeats 8000000 in
theorem z7 : W17 m ρ c (Proc.devRef .tc main_v75) = shapeCast S1x128 (broadcastInDim S128 ![] bcast_S_S128 (constant (F := Ideal) S_ .f32 0x00000000#32)) shapeCasts_S128_S1x128 := by
  show StableHlo.after hostOps7 (W16 m ρ c) (Proc.devRef .tc main_v75) = _
  generalize W16 m ρ c = V at ⊢
  dsimp only [hostOps7]
  after_results
  try rfl

theorem out7 : W18 m ρ c (Proc.devRef .tc main_v76) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W18_arr m ρ c 3).trans ?_
  rw [Lin7.final (V17 m ρ) c]
  rw [show V17 m ρ c (Pipeline.arrRef spec7 0) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) from (Keep.hostOps7_keep m ρ c main_v73 (by decide)).trans (out6 m ρ c),
    show V17 m ρ c (Pipeline.arrRef spec7 1) = (m ((c : Thread nD τ).loc main_arg12)) from arg12_at_17 m ρ c,
    show V17 m ρ c (Pipeline.arrRef spec7 2) = shapeCast S1x128 (broadcastInDim S128 ![] bcast_S_S128 (constant (F := Ideal) S_ .f32 0x00000000#32)) shapeCasts_S128_S1x128 from z7 m ρ c]
  exact (Cert.Bridge.Lin7.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ Cert.Bridge.Lin7.zero_row).symm

set_option maxHeartbeats 8000000 in
theorem agg8 : W19 m ρ c (Proc.devRef .tc main_v89) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps8 (W18 m ρ c) (Proc.devRef .tc main_v89) = _
  have f0 := out7 m ρ c
  have f1 := at18_v3 m ρ c
  have f2 := at18_v6 m ρ c
  have f3 := at18_v31 m ρ c
  generalize W18 m ρ c = V at f0 f1 f2 f3 ⊢
  dsimp only [hostOps8]
  after_results
  rw [f0, f1, f2, f3]
  try rfl

set_option maxHeartbeats 8000000 in
theorem b8 : W19 m ρ c (Proc.devRef .tc main_v90) = shapeCast S1x128 (m ((c : Thread nD τ).loc main_arg13)) shapeCasts_S128_S1x128 := by
  show StableHlo.after hostOps8 (W18 m ρ c) (Proc.devRef .tc main_v90) = _
  have f0 := arg13_at_18 m ρ c
  generalize W18 m ρ c = V at f0 ⊢
  dsimp only [hostOps8]
  after_results
  rw [f0]
  try rfl

theorem out8 : W20 m ρ c (Proc.devRef .tc main_v91) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W20_arr m ρ c 3).trans ?_
  rw [Comb8.final (V19 m ρ) c]
  rw [show V19 m ρ c (Pipeline.arrRef spec8 0) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) from (((Keep.hostOps8_keep m ρ c main_v73 (by decide)).trans ((W18_arr m ρ c 0).trans (((dat7 (V17 m ρ) c).arrAt_in 0 rfl _).trans (A_eq7 (V17 m ρ) c 0)))).trans (Keep.hostOps7_keep m ρ c main_v73 (by decide))).trans (out6 m ρ c),
    show V19 m ρ c (Pipeline.arrRef spec8 1) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) from agg8 m ρ c,
    show V19 m ρ c (Pipeline.arrRef spec8 2) = shapeCast S1x128 (m ((c : Thread nD τ).loc main_arg13)) shapeCasts_S128_S1x128 from b8 m ρ c]
  exact (Cert.Bridge.Comb8.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

set_option maxHeartbeats 8000000 in
theorem z9 : W21 m ρ c (Proc.devRef .tc main_v93) = shapeCast S1x128 (broadcastInDim S128 ![] bcast_S_S128 (constant (F := Ideal) S_ .f32 0x00000000#32)) shapeCasts_S128_S1x128 := by
  show StableHlo.after hostOps9 (W20 m ρ c) (Proc.devRef .tc main_v93) = _
  generalize W20 m ρ c = V at ⊢
  dsimp only [hostOps9]
  after_results
  try rfl

theorem out9 : W22 m ρ c (Proc.devRef .tc main_v94) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W22_arr m ρ c 3).trans ?_
  rw [Lin9.final (V21 m ρ) c]
  rw [show V21 m ρ c (Pipeline.arrRef spec9 0) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) from (Keep.hostOps9_keep m ρ c main_v91 (by decide)).trans (out8 m ρ c),
    show V21 m ρ c (Pipeline.arrRef spec9 1) = (m ((c : Thread nD τ).loc main_arg14)) from arg14_at_21 m ρ c,
    show V21 m ρ c (Pipeline.arrRef spec9 2) = shapeCast S1x128 (broadcastInDim S128 ![] bcast_S_S128 (constant (F := Ideal) S_ .f32 0x00000000#32)) shapeCasts_S128_S1x128 from z9 m ρ c]
  exact (Cert.Bridge.Lin9.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) _ Cert.Bridge.Lin9.zero_row).symm

set_option maxHeartbeats 8000000 in
theorem agg10 : W23 m ρ c (Proc.devRef .tc main_v107) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps10 (W22 m ρ c) (Proc.devRef .tc main_v107) = _
  have f0 := out9 m ρ c
  have f1 := at22_v3 m ρ c
  have f2 := at22_v6 m ρ c
  have f3 := at22_v31 m ρ c
  generalize W22 m ρ c = V at f0 f1 f2 f3 ⊢
  dsimp only [hostOps10]
  after_results
  rw [f0, f1, f2, f3]
  try rfl

set_option maxHeartbeats 8000000 in
theorem b10 : W23 m ρ c (Proc.devRef .tc main_v108) = shapeCast S1x128 (m ((c : Thread nD τ).loc main_arg15)) shapeCasts_S128_S1x128 := by
  show StableHlo.after hostOps10 (W22 m ρ c) (Proc.devRef .tc main_v108) = _
  have f0 := arg15_at_22 m ρ c
  generalize W22 m ρ c = V at f0 ⊢
  dsimp only [hostOps10]
  after_results
  rw [f0]
  try rfl

theorem out10 : W24 m ρ c (Proc.devRef .tc main_v109) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W24_arr m ρ c 3).trans ?_
  rw [Comb10.final (V23 m ρ) c]
  rw [show V23 m ρ c (Pipeline.arrRef spec10 0) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) from (((Keep.hostOps10_keep m ρ c main_v91 (by decide)).trans ((W22_arr m ρ c 0).trans (((dat9 (V21 m ρ) c).arrAt_in 0 rfl _).trans (A_eq9 (V21 m ρ) c 0)))).trans (Keep.hostOps9_keep m ρ c main_v91 (by decide))).trans (out8 m ρ c),
    show V23 m ρ c (Pipeline.arrRef spec10 1) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) from agg10 m ρ c,
    show V23 m ρ c (Pipeline.arrRef spec10 2) = shapeCast S1x128 (m ((c : Thread nD τ).loc main_arg15)) shapeCasts_S128_S1x128 from b10 m ρ c]
  exact (Cert.Bridge.Comb10.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).symm

set_option maxHeartbeats 8000000 in
theorem z11 : W25 m ρ c (Proc.devRef .tc main_v111) = shapeCast S1x128 (broadcastInDim S128 ![] bcast_S_S128 (constant (F := Ideal) S_ .f32 0x00000000#32)) shapeCasts_S128_S1x128 := by
  show StableHlo.after hostOps11 (W24 m ρ c) (Proc.devRef .tc main_v111) = _
  generalize W24 m ρ c = V at ⊢
  dsimp only [hostOps11]
  after_results
  try rfl

theorem out11 : W26 m ρ c (Proc.devRef .tc main_v112) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W26_arr m ρ c 3).trans ?_
  rw [Lin11.final (V25 m ρ) c]
  rw [show V25 m ρ c (Pipeline.arrRef spec11 0) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) from (Keep.hostOps11_keep m ρ c main_v109 (by decide)).trans (out10 m ρ c),
    show V25 m ρ c (Pipeline.arrRef spec11 1) = (m ((c : Thread nD τ).loc main_arg16)) from arg16_at_25 m ρ c,
    show V25 m ρ c (Pipeline.arrRef spec11 2) = shapeCast S1x128 (broadcastInDim S128 ![] bcast_S_S128 (constant (F := Ideal) S_ .f32 0x00000000#32)) shapeCasts_S128_S1x128 from z11 m ρ c]
  exact (Cert.Bridge.Lin11.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) _ Cert.Bridge.Lin11.zero_row).symm

set_option maxHeartbeats 8000000 in
theorem agg12 : W27 m ρ c (Proc.devRef .tc main_v125) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps12 (W26 m ρ c) (Proc.devRef .tc main_v125) = _
  have f0 := out11 m ρ c
  have f1 := at26_v3 m ρ c
  have f2 := at26_v6 m ρ c
  have f3 := at26_v31 m ρ c
  generalize W26 m ρ c = V at f0 f1 f2 f3 ⊢
  dsimp only [hostOps12]
  after_results
  rw [f0, f1, f2, f3]
  try rfl

set_option maxHeartbeats 8000000 in
theorem b12 : W27 m ρ c (Proc.devRef .tc main_v126) = shapeCast S1x128 (m ((c : Thread nD τ).loc main_arg17)) shapeCasts_S128_S1x128 := by
  show StableHlo.after hostOps12 (W26 m ρ c) (Proc.devRef .tc main_v126) = _
  have f0 := arg17_at_26 m ρ c
  generalize W26 m ρ c = V at f0 ⊢
  dsimp only [hostOps12]
  after_results
  rw [f0]
  try rfl

theorem out12 : W28 m ρ c (Proc.devRef .tc main_v127) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W28_arr m ρ c 3).trans ?_
  rw [Comb12.final (V27 m ρ) c]
  rw [show V27 m ρ c (Pipeline.arrRef spec12 0) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) from (((Keep.hostOps12_keep m ρ c main_v109 (by decide)).trans ((W26_arr m ρ c 0).trans (((dat11 (V25 m ρ) c).arrAt_in 0 rfl _).trans (A_eq11 (V25 m ρ) c 0)))).trans (Keep.hostOps11_keep m ρ c main_v109 (by decide))).trans (out10 m ρ c),
    show V27 m ρ c (Pipeline.arrRef spec12 1) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) from agg12 m ρ c,
    show V27 m ρ c (Pipeline.arrRef spec12 2) = shapeCast S1x128 (m ((c : Thread nD τ).loc main_arg17)) shapeCasts_S128_S1x128 from b12 m ρ c]
  exact (Cert.Bridge.Comb12.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).symm

set_option maxHeartbeats 8000000 in
theorem z13 : W29 m ρ c (Proc.devRef .tc main_v129) = shapeCast S1x128 (broadcastInDim S128 ![] bcast_S_S128 (constant (F := Ideal) S_ .f32 0x00000000#32)) shapeCasts_S128_S1x128 := by
  show StableHlo.after hostOps13 (W28 m ρ c) (Proc.devRef .tc main_v129) = _
  generalize W28 m ρ c = V at ⊢
  dsimp only [hostOps13]
  after_results
  try rfl

theorem out13 : W30 m ρ c (Proc.devRef .tc main_v130) = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W30_arr m ρ c 3).trans ?_
  rw [Lin13.final (V29 m ρ) c]
  rw [show V29 m ρ c (Pipeline.arrRef spec13 0) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) from (Keep.hostOps13_keep m ρ c main_v127 (by decide)).trans (out12 m ρ c),
    show V29 m ρ c (Pipeline.arrRef spec13 1) = (m ((c : Thread nD τ).loc main_arg18)) from arg18_at_29 m ρ c,
    show V29 m ρ c (Pipeline.arrRef spec13 2) = shapeCast S1x128 (broadcastInDim S128 ![] bcast_S_S128 (constant (F := Ideal) S_ .f32 0x00000000#32)) shapeCasts_S128_S1x128 from z13 m ρ c]
  exact (Cert.Bridge.Lin13.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) _ Cert.Bridge.Lin13.zero_row).symm

set_option maxHeartbeats 8000000 in
theorem agg14 : W31 m ρ c (Proc.devRef .tc main_v143) = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps14 (W30 m ρ c) (Proc.devRef .tc main_v143) = _
  have f0 := out13 m ρ c
  have f1 := at30_v3 m ρ c
  have f2 := at30_v6 m ρ c
  have f3 := at30_v31 m ρ c
  generalize W30 m ρ c = V at f0 f1 f2 f3 ⊢
  dsimp only [hostOps14]
  after_results
  rw [f0, f1, f2, f3]
  try rfl

set_option maxHeartbeats 8000000 in
theorem b14 : W31 m ρ c (Proc.devRef .tc main_v144) = shapeCast S1x128 (m ((c : Thread nD τ).loc main_arg19)) shapeCasts_S128_S1x128 := by
  show StableHlo.after hostOps14 (W30 m ρ c) (Proc.devRef .tc main_v144) = _
  have f0 := arg19_at_30 m ρ c
  generalize W30 m ρ c = V at f0 ⊢
  dsimp only [hostOps14]
  after_results
  rw [f0]
  try rfl

theorem out14 : W32 m ρ c (Proc.devRef .tc main_v145) = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W32_arr m ρ c 3).trans ?_
  rw [Comb14.final (V31 m ρ) c]
  rw [show V31 m ρ c (Pipeline.arrRef spec14 0) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) from (((Keep.hostOps14_keep m ρ c main_v127 (by decide)).trans ((W30_arr m ρ c 0).trans (((dat13 (V29 m ρ) c).arrAt_in 0 rfl _).trans (A_eq13 (V29 m ρ) c 0)))).trans (Keep.hostOps13_keep m ρ c main_v127 (by decide))).trans (out12 m ρ c),
    show V31 m ρ c (Pipeline.arrRef spec14 1) = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) from agg14 m ρ c,
    show V31 m ρ c (Pipeline.arrRef spec14 2) = shapeCast S1x128 (m ((c : Thread nD τ).loc main_arg19)) shapeCasts_S128_S1x128 from b14 m ρ c]
  exact (Cert.Bridge.Comb14.eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))).symm

/-- The result buffer at the last boundary is the reference's last stage of the arguments. -/
theorem result : W32 m ρ c (Proc.devRef .tc main_v145) = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := out14 m ρ c

end Cert.Chain

end
-- ==== Proof.RefStages.lean ====
/-
  The reference's @main, one operation at a time.  Every buffer of the line is written once, so after the whole line the
  buffer an operation writes holds the operation's function of what its operand buffers hold after the whole line.
  Stage by stage, in program order, the contents of every buffer after the line are the stage functions of the
  argument arrays; an argument is written by no operation and keeps its launch contents.
-/
import proofs.«147497_j34437047780015_1_alg».proof.Proof.RunP
import proofs.«147497_j34437047780015_1_alg».proof.Proof.ReadP
import proofs.«147497_j34437047780015_1_alg».proof.Proof.LibHostTyped

set_option maxRecDepth 16384

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The buffers the line writes, in order. -/
abbrev ys : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31, main_v32, main_v33, main_v34, main_v35, main_v36, main_c_7, main_v37, main_v38, main_c_8, main_v39, main_v40, main_v41, main_v42, main_v43, main_v44, main_v45, main_v46, main_cst_9, main_v47, main_v48, main_v49, main_v50, main_v51, main_v52, main_call1_cst, main_call1_v0, main_v53, main_v54, main_v55, main_v56, main_v57, main_v58, main_v59, main_c_10, main_v60, main_v61, main_c_11, main_v62, main_v63, main_v64, main_v65, main_v66, main_v67, main_v68, main_v69, main_cst_12, main_v70, main_v71, main_v72, main_v73, main_v74, main_v75, main_call2_cst, main_call2_v0, main_v76, main_v77, main_v78, main_v79, main_v80, main_v81, main_v82, main_c_13, main_v83, main_v84, main_c_14, main_v85, main_v86, main_v87, main_v88, main_v89, main_v90, main_v91, main_v92, main_cst_15, main_v93, main_v94, main_v95, main_v96, main_v97, main_v98, main_call3_cst, main_call3_v0, main_v99, main_cst_16, main_v100, main_v101, main_v102, main_v103, main_c_17, main_v104, main_v105, main_c_18, main_v106, main_v107, main_v108, main_v109, main_v110, main_v111, main_v112, main_v113, main_cst_19, main_v114, main_v115, main_v116, main_v117, main_v118, main_v119, main_call4_cst, main_call4_v0, main_v120, main_cst_20, main_v121, main_v122, main_v123, main_v124, main_c_21, main_v125, main_v126, main_c_22, main_v127, main_v128, main_v129, main_v130, main_v131, main_v132, main_v133, main_v134, main_cst_23, main_v135, main_v136, main_v137, main_v138, main_v139, main_v140, main_call5_cst, main_call5_v0, main_v141, main_cst_24, main_v142, main_v143, main_v144, main_v145, main_c_25, main_v146, main_v147, main_c_26, main_v148, main_v149, main_v150, main_v151, main_v152, main_v153, main_v154, main_v155, main_cst_27, main_v156, main_v157, main_v158, main_v159, main_v160, main_v161, main_cst_28, main_v162, main_v163, main_v164]

/-- Each operation writes exactly the buffer listed at its place. -/
theorem outs : HostRead.Outs (ops (F := Ideal)) ys := by
  unfold ops ys
  iterate 208 (refine List.Forall₂.cons (by first | exact nullary_writes .. | exact unary_writes .. | exact binary_writes .. | exact ternary_writes .. | exact reshape_writes .. | rfl) ?_)
  exact List.Forall₂.nil

/-- No buffer is written twice. -/
theorem nd : ys.Nodup := by decide +kernel

theorem nd_out (k : Nat) (y : Ref sig .tc) (h : ys[k]? = some y) : y ∉ ys.drop (k + 1) := HostRead.not_mem_drop_of_lt nd h (Nat.lt_succ_self k)
theorem nd_in (j k : Nat) (y : Ref sig .tc) (h : ys[j]? = some y) (hjk : j < k) : y ∉ ys.drop k := HostRead.not_mem_drop_of_lt nd h hjk
theorem nd_arg (k : Nat) (y : Ref sig .tc) (h : y ∉ ys) : y ∉ ys.drop k := fun hm => h (List.mem_of_mem_drop hm)

variable (m : (ℓ : Loc nD τ sig) → Buf (Elt Ideal) ℓ) (c : Dev nD)

/-! ## The arguments keep their launch contents -/

theorem A_0 : after (ops (F := Ideal)) (launchContents m c) (Proc.devRef .tc main_arg0) = m ((c.tc : Thread nD τ).loc main_arg0) :=
  after_of_forall_not_mem _ _ (HostRead.not_written outs main_arg0 (by decide))
theorem A_1 : after (ops (F := Ideal)) (launchContents m c) (Proc.devRef .tc main_arg1) = m ((c.tc : Thread nD τ).loc main_arg1) :=
  after_of_forall_not_mem _ _ (HostRead.not_written outs main_arg1 (by decide))
theorem A_2 : after (ops (F := Ideal)) (launchContents m c) (Proc.devRef .tc main_arg2) = m ((c.tc : Thread nD τ).loc main_arg2) :=
  after_of_forall_not_mem _ _ (HostRead.not_written outs main_arg2 (by decide))
theorem A_3 : after (ops (F := Ideal)) (launchContents m c) (Proc.devRef .tc main_arg3) = m ((c.tc : Thread nD τ).loc main_arg3) :=
  after_of_forall_not_mem _ _ (HostRead.not_written outs main_arg3 (by decide))
theorem A_4 : after (ops (F := Ideal)) (launchContents m c) (Proc.devRef .tc main_arg4) = m ((c.tc : Thread nD τ).loc main_arg4) :=
  after_of_forall_not_mem _ _ (HostRead.not_written outs main_arg4 (by decide))
theorem A_5 : after (ops (F := Ideal)) (launchContents m c) (Proc.devRef .tc main_arg5) = m ((c.tc : Thread nD τ).loc main_arg5) :=
  after_of_forall_not_mem _ _ (HostRead.not_written outs main_arg5 (by decide))
theorem A_6 : after (ops (F := Ideal)) (launchContents m c) (Proc.devRef .tc main_arg6) = m ((c.tc : Thread nD τ).loc main_arg6) :=
  after_of_forall_not_mem _ _ (HostRead.not_written outs main_arg6 (by decide))
theorem A_7 : after (ops (F := Ideal)) (launchContents m c) (Proc.devRef .tc main_arg7) = m ((c.tc : Thread nD τ).loc main_arg7) :=
  after_of_forall_not_mem _ _ (HostRead.not_written outs main_arg7 (by decide))
theorem A_8 : after (ops (F := Ideal)) (launchContents m c) (Proc.devRef .tc main_arg8) = m ((c.tc : Thread nD τ).loc main_arg8) :=
  after_of_forall_not_mem _ _ (HostRead.not_written outs main_arg8 (by decide))
theorem A_9 : after (ops (F := Ideal)) (launchContents m c) (Proc.devRef .tc main_arg9) = m ((c.tc : Thread nD τ).loc main_arg9) :=
  after_of_forall_not_mem _ _ (HostRead.not_written outs main_arg9 (by decide))
theorem A_10 : after (ops (F := Ideal)) (launchContents m c) (Proc.devRef .tc main_arg10) = m ((c.tc : Thread nD τ).loc main_arg10) :=
  after_of_forall_not_mem _ _ (HostRead.not_written outs main_arg10 (by decide))
theorem A_11 : after (ops (F := Ideal)) (launchContents m c) (Proc.devRef .tc main_arg11) = m ((c.tc : Thread nD τ).loc main_arg11) :=
  after_of_forall_not_mem _ _ (HostRead.not_written outs main_arg11 (by decide))
theorem A_12 : after (ops (F := Ideal)) (launchContents m c) (Proc.devRef .tc main_arg12) = m ((c.tc : Thread nD τ).loc main_arg12) :=
  after_of_forall_not_mem _ _ (HostRead.not_written outs main_arg12 (by decide))
theorem A_13 : after (ops (F := Ideal)) (launchContents m c) (Proc.devRef .tc main_arg13) = m ((c.tc : Thread nD τ).loc main_arg13) :=
  after_of_forall_not_mem _ _ (HostRead.not_written outs main_arg13 (by decide))
theorem A_14 : after (ops (F := Ideal)) (launchContents m c) (Proc.devRef .tc main_arg14) = m ((c.tc : Thread nD τ).loc main_arg14) :=
  after_of_forall_not_mem _ _ (HostRead.not_written outs main_arg14 (by decide))
theorem A_15 : after (ops (F := Ideal)) (launchContents m c) (Proc.devRef .tc main_arg15) = m ((c.tc : Thread nD τ).loc main_arg15) :=
  after_of_forall_not_mem _ _ (HostRead.not_written outs main_arg15 (by decide))
theorem A_16 : after (ops (F := Ideal)) (launchContents m c) (Proc.devRef .tc main_arg16) = m ((c.tc : Thread nD τ).loc main_arg16) :=
  after_of_forall_not_mem _ _ (HostRead.not_written outs main_arg16 (by decide))
theorem A_17 : after (ops (F := Ideal)) (launchContents m c) (Proc.devRef .tc main_arg17) = m ((c.tc : Thread nD τ).loc main_arg17) :=
  after_of_forall_not_mem _ _ (HostRead.not_written outs main_arg17 (by decide))
theorem A_18 : after (ops (F := Ideal)) (launchContents m c) (Proc.devRef .tc main_arg18) = m ((c.tc : Thread nD τ).loc main_arg18) :=
  after_of_forall_not_mem _ _ (HostRead.not_written outs main_arg18 (by decide))
theorem A_19 : after (ops (F := Ideal)) (launchContents m c) (Proc.devRef .tc main_arg19) = m ((c.tc : Thread nD τ).loc main_arg19) :=
  after_of_forall_not_mem _ _ (HostRead.not_written outs main_arg19 (by decide))

/-! ## The stages, in program order -/

theorem S_v0 : after (ops (F := Ideal)) (launchContents m c) (Proc.devRef .tc main_v0) = val_main_v0 (F := Ideal) :=
  (HostRead.nullary_at outs (launchContents m c) 0 main_v0 _ _ rfl (nd_out 0 main_v0 rfl)).trans
    rfl
theorem S_v1 : after (ops (F := Ideal)) (launchContents m c) (Proc.devRef .tc main_v1) = val_main_v1 (F := Ideal) (m ((c.tc : Thread nD τ).loc main_arg1)) :=
  (HostRead.unary_at outs (launchContents m c) 1 main_arg1 main_v1 _ _ _ rfl (nd_out 1 main_v1 rfl) (nd_arg 1 main_arg1 (by decide))).trans
    (by simp only [A_1 m c] <;> rfl)
theorem S_v2 : after (ops (F := Ideal)) (launchContents m c) (Proc.devRef .tc main_v2) = val_main_v2 (F := Ideal) (m ((c.tc : Thread nD τ).loc main_arg1)) :=
  (HostRead.reshape_at outs (launchContents m c) 2 main_v1 main_v2 _ _ _ _ rfl (nd_out 2 main_v2 rfl) (nd_in 1 2 main_v1 rfl (by decide))).trans
    (by simp only [S_v1 m c] <;> rfl)
theorem S_v3 : after (ops (F := Ideal)) (launchContents m c) (Proc.devRef .tc main_v3) = val_main_v3 (F := Ideal) (m ((c.tc : Thread nD τ).loc main_arg1)) :=
  (HostRead.binary_at outs (launchContents m c) 3 main_v2 main_v0 main_v3 _ _ _ _ rfl (nd_out 3 main_v3 rfl) (nd_in 2 3 main_v2 rfl (by decide)) (nd_in 0 3 main_v0 rfl (by decide))).trans
    (by simp only [S_v2 m c, S_v0 m c] <;> rfl)
theorem S_v4 : after (ops (F := Ideal)) (launchContents m c) (Proc.devRef .tc main_v4) = val_main_v4 (F := Ideal) (m ((c.tc : Thread nD τ).loc main_arg1)) :=
  (HostRead.unary_at outs (launchContents m c) 4 main_arg1 main_v4 _ _ _ rfl (nd_out 4 main_v4 rfl) (nd_arg 4 main_arg1 (by decide))).trans
    (by simp only [A_1 m c] <;> rfl)
theorem S_v5 : after (ops (F := Ideal)) (launchContents m c) (Proc.devRef .tc main_v5) = val_main_v5 (F := Ideal) (m ((c.tc : Thread nD τ).loc main_arg1)) :=
  (HostRead.reshape_at outs (launchContents m c) 5 main_v4 main_v5 _ _ _ _ rfl (nd_out 5 main_v5 rfl) (nd_in 4 5 main_v4 rfl (by decide))).trans
    (by simp only [S_v4 m c] <;> rfl)
theorem S_v6 : after (ops (F := Ideal)) (launchContents m c) (Proc.devRef .tc main_v6) = val_main_v6 (F := Ideal) (m ((c.tc : Thread nD τ).loc main_arg1)) :=
  (HostRead.binary_at outs (launchContents m c) 6 main_v5 main_v0 main_v6 _ _ _ _ rfl (nd_out 6 main_v6 rfl) (nd_in 5 6 main_v5 rfl (by decide)) (nd_in 0 6 main_v0 rfl (by decide))).trans
    (by simp only [S_v5 m c, S_v0 m c] <;> rfl)
theorem S_cst : after (ops (F := Ideal)) (launchContents m c) (Proc.devRef .tc main_cst) = val_main_cst (F := Ideal) :=
  (HostRead.nullary_at outs (launchContents m c) 7 main_cst _ _ rfl (nd_out 7 main_cst rfl)).trans
    rfl
theorem S_v7 : after (ops (F := Ideal)) (launchContents m c) (Proc.devRef .tc main_v7) = val_main_v7 (F := Ideal) :=
  (HostRead.unary_at outs (launchContents m c) 8 main_cst main_v7 _ _ _ rfl (nd_out 8 main_v7 rfl) (nd_in 7 8 main_cst rfl (by decide))).trans
    (by simp only [S_cst m c] <;> rfl)
theorem S_cst_0 : after (ops (F := Ideal)) (launchContents m c) (Proc.devRef .tc main_cst_0) = val_main_cst_0 (F := Ideal) :=
  (HostRead.nullary_at outs (launchContents m c) 9 main_cst_0 _ _ rfl (nd_out 9 main_cst_0 rfl)).trans
    rfl
theorem S_v8 : after (ops (F := Ideal)) (launchContents m c) (Proc.devRef .tc main_v8) = val_main_v8 (F := Ideal) :=
  (HostRead.unary_at outs (launchContents m c) 10 main_cst_0 main_v8 _ _ _ rfl (nd_out 10 main_v8 rfl) (nd_in 9 10 main_cst_0 rfl (by decide))).trans
    (by simp only [S_cst_0 m c] <;> rfl)
theorem S_v9 : after (ops (F := Ideal)) (launchContents m c) (Proc.devRef .tc main_v9) = val_main_v9 (F := Ideal) (m ((c.tc : Thread nD τ).loc main_arg1)) :=
  (HostRead.unary_at outs (launchContents m c) 11 main_v6 main_v9 _ _ _ rfl (nd_out 11 main_v9 rfl) (nd_in 6 11 main_v6 rfl (by decide))).trans
    (by simp only [S_v6 m c] <;> rfl)
theorem S_v10 : after (ops (F := Ideal)) (launchContents m c) (Proc.devRef .tc main_v10) = val_main_v10 (F := Ideal) (m ((c.tc : Thread nD τ).loc main_arg1)) :=
  (HostRead.ternary_at outs (launchContents m c) 12 main_v8 main_v9 main_v7 main_v10 _ _ _ _ _ rfl (nd_out 12 main_v10 rfl) (nd_in 10 12 main_v8 rfl (by decide)) (nd_in 11 12 main_v9 rfl (by decide)) (nd_in 8 12 main_v7 rfl (by decide))).trans
    (by simp only [S_v8 m c, S_v9 m c, S_v7 m c] <;> rfl)
theorem S_cst_1 : after (ops (F := Ideal)) (launchContents m c) (Proc.devRef .tc main_cst_1) = val_main_cst_1 (F := Ideal) :=
  (HostRead.nullary_at outs (launchContents m c) 13 main_cst_1 _ _ rfl (nd_out 13 main_cst_1 rfl)).trans
    rfl
theorem S_v11 : after (ops (F := Ideal)) (launchContents m c) (Proc.devRef .tc main_v11) = val_main_v11 (F := Ideal) :=
  (HostRead.unary_at outs (launchContents m c) 14 main_cst_1 main_v11 _ _ _ rfl (nd_out 14 main_v11 rfl) (nd_in 13 14 main_cst_1 rfl (by decide))).trans
    (by simp only [S_cst_1 m c] <;> rfl)
theorem S_v12 : after (ops (F := Ideal)) (launchContents m c) (Proc.devRef .tc main_v12) = val_main_v12 (F := Ideal) (m ((c.tc : Thread nD τ).loc main_arg1)) :=
  (HostRead.binary_at outs (launchContents m c) 15 main_v10 main_v11 main_v12 _ _ _ _ rfl (nd_out 15 main_v12 rfl) (nd_in 12 15 main_v10 rfl (by decide)) (nd_in 14 15 main_v11 rfl (by decide))).trans
    (by simp only [S_v10 m c, S_v11 m c] <;> rfl)
theorem S_cst_2 : after (ops (F := Ideal)) (launchContents m c) (Proc.devRef .tc main_cst_2) = val_main_cst_2 (F := Ideal) :=
  (HostRead.nullary_at outs (launchContents m c) 16 main_cst_2 _ _ rfl (nd_out 16 main_cst_2 rfl)).trans
    rfl
theorem S_v13 : after (ops (F := Ideal)) (launchContents m c) (Proc.devRef .tc main_v13) = val_main_v13 (F := Ideal) :=
  (HostRead.unary_at outs (launchContents m c) 17 main_cst_2 main_v13 _ _ _ rfl (nd_out 17 main_v13 rfl) (nd_in 16 17 main_cst_2 rfl (by decide))).trans
    (by simp only [S_cst_2 m c] <;> rfl)
theorem S_v14 : after (ops (F := Ideal)) (launchContents m c) (Proc.devRef .tc main_v14) = val_main_v14 (F := Ideal) (m ((c.tc : Thread nD τ).loc main_arg1)) :=
  (HostRead.binary_at outs (launchContents m c) 18 main_v10 main_v13 main_v14 _ _ _ _ rfl (nd_out 18 main_v14 rfl) (nd_in 12 18 main_v10 rfl (by decide)) (nd_in 17 18 main_v13 rfl (by decide))).trans
    (by simp only [S_v10 m c, S_v13 m c] <;> rfl)
theorem S_v15 : after (ops (F := Ideal)) (launchContents m c) (Proc.devRef .tc main_v15) = val_main_v15 (F := Ideal) (m ((c.tc : Thread nD τ).loc main_arg1)) :=
  (HostRead.unary_at outs (launchContents m c) 19 main_v14 main_v15 _ _ _ rfl (nd_out 19 main_v15 rfl) (nd_in 18 19 main_v14 rfl (by decide))).trans
    (by simp only [S_v14 m c] <;> rfl)
theorem S_cst_3 : after (ops (F := Ideal)) (launchContents m c) (Proc.devRef .tc main_cst_3) = val_main_cst_3 (F := Ideal) :=
  (HostRead.nullary_at outs (launchContents m c) 20 main_cst_3 _ _ rfl (nd_out 20 main_cst_3 rfl)).trans
    rfl
theorem S_call0_v0 : after (ops (F := Ideal)) (launchContents m c) (Proc.devRef .tc main_call0_v0) = val_main_call0_v0 (F := Ideal) :=
  eq_of_heq (HostRead.tunary_at outs (launchContents m c) 21 _ _ _ rfl (nd_out 21 main_call0_v0 rfl) (nd_in 20 21 main_cst_3 rfl (by decide)) _ (heq_of_eq (S_cst_3 m c)))
theorem S_call0_v1 : after (ops (F := Ideal)) (launchContents m c) (Proc.devRef .tc main_call0_v1) = val_main_call0_v1 (F := Ideal) :=
  eq_of_heq (HostRead.tunary_at outs (launchContents m c) 22 _ _ _ rfl (nd_out 22 main_call0_v1 rfl) (nd_in 21 22 main_call0_v0 rfl (by decide)) _ (heq_of_eq (S_call0_v0 m c)))
theorem S_v16 : after (ops (F := Ideal)) (launchContents m c) (Proc.devRef .tc main_v16) = val_main_v16 (F := Ideal) (m ((c.tc : Thread nD τ).loc main_arg1)) :=
  eq_of_heq (HostRead.tternary_at outs (launchContents m c) 23 _ _ _ _ _ rfl (nd_out 23 main_v16 rfl) (nd_in 15 23 main_v12 rfl (by decide)) (nd_in 19 23 main_v15 rfl (by decide)) (nd_in 22 23 main_call0_v1 rfl (by decide)) _ _ _ (heq_of_eq (S_v12 m c)) (heq_of_eq (S_v15 m c)) (heq_of_eq (S_call0_v1 m c)))
theorem S_c : after (ops (F := Ideal)) (launchContents m c) (Proc.devRef .tc main_c) = val_main_c (F := Ideal) :=
  (HostRead.nullary_at outs (launchContents m c) 24 main_c _ _ rfl (nd_out 24 main_c rfl)).trans
    rfl
theorem S_v17 : after (ops (F := Ideal)) (launchContents m c) (Proc.devRef .tc main_v17) = val_main_v17 (F := Ideal) :=
  (HostRead.unary_at outs (launchContents m c) 25 main_c main_v17 _ _ _ rfl (nd_out 25 main_v17 rfl) (nd_in 24 25 main_c rfl (by decide))).trans
    (by simp only [S_c m c] <;> rfl)
theorem S_v18 : after (ops (F := Ideal)) (launchContents m c) (Proc.devRef .tc main_v18) = val_main_v18 (F := Ideal) (m ((c.tc : Thread nD τ).loc main_arg1)) :=
  (HostRead.binary_at outs (launchContents m c) 26 main_v3 main_v17 main_v18 _ _ _ _ rfl (nd_out 26 main_v18 rfl) (nd_in 3 26 main_v3 rfl (by decide)) (nd_in 25 26 main_v17 rfl (by decide))).trans
    (by simp only [S_v3 m c, S_v17 m c] <;> rfl)
theorem S_c_4 : after (ops (F := Ideal)) (launchContents m c) (Proc.devRef .tc main_c_4) = val_main_c_4 (F := Ideal) :=
  (HostRead.nullary_at outs (launchContents m c) 27 main_c_4 _ _ rfl (nd_out 27 main_c_4 rfl)).trans
    rfl
theorem S_v19 : after (ops (F := Ideal)) (launchContents m c) (Proc.devRef .tc main_v19) = val_main_v19 (F := Ideal) :=
  (HostRead.unary_at outs (launchContents m c) 28 main_c_4 main_v19 _ _ _ rfl (nd_out 28 main_v19 rfl) (nd_in 27 28 main_c_4 rfl (by decide))).trans
    (by simp only [S_c_4 m c] <;> rfl)
theorem S_v20 : after (ops (F := Ideal)) (launchContents m c) (Proc.devRef .tc main_v20) = val_main_v20 (F := Ideal) (m ((c.tc : Thread nD τ).loc main_arg1)) :=
  (HostRead.binary_at outs (launchContents m c) 29 main_v3 main_v19 main_v20 _ _ _ _ rfl (nd_out 29 main_v20 rfl) (nd_in 3 29 main_v3 rfl (by decide)) (nd_in 28 29 main_v19 rfl (by decide))).trans
    (by simp only [S_v3 m c, S_v19 m c] <;> rfl)
theorem S_v21 : after (ops (F := Ideal)) (launchContents m c) (Proc.devRef .tc main_v21) = val_main_v21 (F := Ideal) (m ((c.tc : Thread nD τ).loc main_arg1)) :=
  (HostRead.ternary_at outs (launchContents m c) 30 main_v18 main_v20 main_v3 main_v21 _ _ _ _ _ rfl (nd_out 30 main_v21 rfl) (nd_in 26 30 main_v18 rfl (by decide)) (nd_in 29 30 main_v20 rfl (by decide)) (nd_in 3 30 main_v3 rfl (by decide))).trans
    (by simp only [S_v18 m c, S_v20 m c, S_v3 m c] <;> rfl)
theorem S_v22 : after (ops (F := Ideal)) (launchContents m c) (Proc.devRef .tc main_v22) = val_main_v22 (F := Ideal) (m ((c.tc : Thread nD τ).loc main_arg1)) :=
  (HostRead.unary_at outs (launchContents m c) 31 main_v21 main_v22 _ _ _ rfl (nd_out 31 main_v22 rfl) (nd_in 30 31 main_v21 rfl (by decide))).trans
    (by simp only [S_v21 m c] <;> rfl)
theorem S_v23 : after (ops (F := Ideal)) (launchContents m c) (Proc.devRef .tc main_v23) = val_main_v23 (F := Ideal) (m ((c.tc : Thread nD τ).loc main_arg1)) :=
  (HostRead.binary_at outs (launchContents m c) 32 main_v16 main_v22 main_v23 _ _ _ _ rfl (nd_out 32 main_v23 rfl) (nd_in 23 32 main_v16 rfl (by decide)) (nd_in 31 32 main_v22 rfl (by decide))).trans
    (by simp only [S_v16 m c, S_v22 m c] <;> rfl)
theorem S_c_5 : after (ops (F := Ideal)) (launchContents m c) (Proc.devRef .tc main_c_5) = val_main_c_5 (F := Ideal) :=
  (HostRead.nullary_at outs (launchContents m c) 33 main_c_5 _ _ rfl (nd_out 33 main_c_5 rfl)).trans
    rfl
theorem S_v24 : after (ops (F := Ideal)) (launchContents m c) (Proc.devRef .tc main_v24) = val_main_v24 (F := Ideal) :=
  (HostRead.unary_at outs (launchContents m c) 34 main_c_5 main_v24 _ _ _ rfl (nd_out 34 main_v24 rfl) (nd_in 33 34 main_c_5 rfl (by decide))).trans
    (by simp only [S_c_5 m c] <;> rfl)
theorem S_v25 : after (ops (F := Ideal)) (launchContents m c) (Proc.devRef .tc main_v25) = val_main_v25 (F := Ideal) (m ((c.tc : Thread nD τ).loc main_arg1)) :=
  (HostRead.binary_at outs (launchContents m c) 35 main_v6 main_v24 main_v25 _ _ _ _ rfl (nd_out 35 main_v25 rfl) (nd_in 6 35 main_v6 rfl (by decide)) (nd_in 34 35 main_v24 rfl (by decide))).trans
    (by simp only [S_v6 m c, S_v24 m c] <;> rfl)
theorem S_c_6 : after (ops (F := Ideal)) (launchContents m c) (Proc.devRef .tc main_c_6) = val_main_c_6 (F := Ideal) :=
  (HostRead.nullary_at outs (launchContents m c) 36 main_c_6 _ _ rfl (nd_out 36 main_c_6 rfl)).trans
    rfl
theorem S_v26 : after (ops (F := Ideal)) (launchContents m c) (Proc.devRef .tc main_v26) = val_main_v26 (F := Ideal) :=
  (HostRead.unary_at outs (launchContents m c) 37 main_c_6 main_v26 _ _ _ rfl (nd_out 37 main_v26 rfl) (nd_in 36 37 main_c_6 rfl (by decide))).trans
    (by simp only [S_c_6 m c] <;> rfl)
theorem S_v27 : after (ops (F := Ideal)) (launchContents m c) (Proc.devRef .tc main_v27) = val_main_v27 (F := Ideal) (m ((c.tc : Thread nD τ).loc main_arg1)) :=
  (HostRead.binary_at outs (launchContents m c) 38 main_v6 main_v26 main_v27 _ _ _ _ rfl (nd_out 38 main_v27 rfl) (nd_in 6 38 main_v6 rfl (by decide)) (nd_in 37 38 main_v26 rfl (by decide))).trans
    (by simp only [S_v6 m c, S_v26 m c] <;> rfl)
theorem S_v28 : after (ops (F := Ideal)) (launchContents m c) (Proc.devRef .tc main_v28) = val_main_v28 (F := Ideal) (m ((c.tc : Thread nD τ).loc main_arg1)) :=
  (HostRead.ternary_at outs (launchContents m c) 39 main_v25 main_v27 main_v6 main_v28 _ _ _ _ _ rfl (nd_out 39 main_v28 rfl) (nd_in 35 39 main_v25 rfl (by decide)) (nd_in 38 39 main_v27 rfl (by decide)) (nd_in 6 39 main_v6 rfl (by decide))).trans
    (by simp only [S_v25 m c, S_v27 m c, S_v6 m c] <;> rfl)
theorem S_v29 : after (ops (F := Ideal)) (launchContents m c) (Proc.devRef .tc main_v29) = val_main_v29 (F := Ideal) (m ((c.tc : Thread nD τ).loc main_arg1)) :=
  (HostRead.unary_at outs (launchContents m c) 40 main_v28 main_v29 _ _ _ rfl (nd_out 40 main_v29 rfl) (nd_in 39 40 main_v28 rfl (by decide))).trans
    (by simp only [S_v28 m c] <;> rfl)
theorem S_v30 : after (ops (F := Ideal)) (launchContents m c) (Proc.devRef .tc main_v30) = val_main_v30 (F := Ideal) (m ((c.tc : Thread nD τ).loc main_arg1)) :=
  (HostRead.binary_at outs (launchContents m c) 41 main_v16 main_v29 main_v30 _ _ _ _ rfl (nd_out 41 main_v30 rfl) (nd_in 23 41 main_v16 rfl (by decide)) (nd_in 40 41 main_v29 rfl (by decide))).trans
    (by simp only [S_v16 m c, S_v29 m c] <;> rfl)
theorem S_v31 : after (ops (F := Ideal)) (launchContents m c) (Proc.devRef .tc main_v31) = val_main_v31 (F := Ideal) (m ((c.tc : Thread nD τ).loc main_arg1)) :=
  (HostRead.binary_at outs (launchContents m c) 42 main_v23 main_v30 main_v31 _ _ _ _ rfl (nd_out 42 main_v31 rfl) (nd_in 32 42 main_v23 rfl (by decide)) (nd_in 41 42 main_v30 rfl (by decide))).trans
    (by simp only [S_v23 m c, S_v30 m c] <;> rfl)
theorem S_v32 : after (ops (F := Ideal)) (launchContents m c) (Proc.devRef .tc main_v32) = val_main_v32 (F := Ideal) (m ((c.tc : Thread nD τ).loc main_arg0)) (m ((c.tc : Thread nD τ).loc main_arg2)) :=
  (HostRead.binary_at outs (launchContents m c) 43 main_arg0 main_arg2 main_v32 _ _ _ _ rfl (nd_out 43 main_v32 rfl) (nd_arg 43 main_arg0 (by decide)) (nd_arg 43 main_arg2 (by decide))).trans
    (by simp only [A_0 m c, A_2 m c] <;> rfl)
theorem S_v33 : after (ops (F := Ideal)) (launchContents m c) (Proc.devRef .tc main_v33) = val_main_v33 (F := Ideal) (m ((c.tc : Thread nD τ).loc main_arg3)) :=
  (HostRead.unary_at outs (launchContents m c) 44 main_arg3 main_v33 _ _ _ rfl (nd_out 44 main_v33 rfl) (nd_arg 44 main_arg3 (by decide))).trans
    (by simp only [A_3 m c] <;> rfl)
theorem S_v34 : after (ops (F := Ideal)) (launchContents m c) (Proc.devRef .tc main_v34) = val_main_v34 (F := Ideal) (m ((c.tc : Thread nD τ).loc main_arg3)) :=
  (HostRead.unary_at outs (launchContents m c) 45 main_v33 main_v34 _ _ _ rfl (nd_out 45 main_v34 rfl) (nd_in 44 45 main_v33 rfl (by decide))).trans
    (by simp only [S_v33 m c] <;> rfl)
theorem S_v35 : after (ops (F := Ideal)) (launchContents m c) (Proc.devRef .tc main_v35) = val_main_v35 (F := Ideal) (m ((c.tc : Thread nD τ).loc main_arg0)) (m ((c.tc : Thread nD τ).loc main_arg2)) (m ((c.tc : Thread nD τ).loc main_arg3)) :=
  (HostRead.binary_at outs (launchContents m c) 46 main_v32 main_v34 main_v35 _ _ _ _ rfl (nd_out 46 main_v35 rfl) (nd_in 43 46 main_v32 rfl (by decide)) (nd_in 45 46 main_v34 rfl (by decide))).trans
    (by simp only [S_v32 m c, S_v34 m c] <;> rfl)
theorem S_v36 : after (ops (F := Ideal)) (launchContents m c) (Proc.devRef .tc main_v36) = val_main_v36 (F := Ideal) (m ((c.tc : Thread nD τ).loc main_arg0)) (m ((c.tc : Thread nD τ).loc main_arg2)) (m ((c.tc : Thread nD τ).loc main_arg3)) (m ((c.tc : Thread nD τ).loc main_arg8)) :=
  (HostRead.binary_at outs (launchContents m c) 47 main_v35 main_arg8 main_v36 _ _ _ _ rfl (nd_out 47 main_v36 rfl) (nd_in 46 47 main_v35 rfl (by decide)) (nd_arg 47 main_arg8 (by decide))).trans
    (by simp only [S_v35 m c, A_8 m c] <;> rfl)
theorem S_c_7 : after (ops (F := Ideal)) (launchContents m c) (Proc.devRef .tc main_c_7) = val_main_c_7 (F := Ideal) :=
  (HostRead.nullary_at outs (launchContents m c) 48 main_c_7 _ _ rfl (nd_out 48 main_c_7 rfl)).trans
    rfl
theorem S_v37 : after (ops (F := Ideal)) (launchContents m c) (Proc.devRef .tc main_v37) = val_main_v37 (F := Ideal) :=
  (HostRead.unary_at outs (launchContents m c) 49 main_c_7 main_v37 _ _ _ rfl (nd_out 49 main_v37 rfl) (nd_in 48 49 main_c_7 rfl (by decide))).trans
    (by simp only [S_c_7 m c] <;> rfl)
theorem S_v38 : after (ops (F := Ideal)) (launchContents m c) (Proc.devRef .tc main_v38) = val_main_v38 (F := Ideal) (m ((c.tc : Thread nD τ).loc main_arg1)) :=
  (HostRead.binary_at outs (launchContents m c) 50 main_v3 main_v37 main_v38 _ _ _ _ rfl (nd_out 50 main_v38 rfl) (nd_in 3 50 main_v3 rfl (by decide)) (nd_in 49 50 main_v37 rfl (by decide))).trans
    (by simp only [S_v3 m c, S_v37 m c] <;> rfl)
theorem S_c_8 : after (ops (F := Ideal)) (launchContents m c) (Proc.devRef .tc main_c_8) = val_main_c_8 (F := Ideal) :=
  (HostRead.nullary_at outs (launchContents m c) 51 main_c_8 _ _ rfl (nd_out 51 main_c_8 rfl)).trans
    rfl
theorem S_v39 : after (ops (F := Ideal)) (launchContents m c) (Proc.devRef .tc main_v39) = val_main_v39 (F := Ideal) :=
  (HostRead.unary_at outs (launchContents m c) 52 main_c_8 main_v39 _ _ _ rfl (nd_out 52 main_v39 rfl) (nd_in 51 52 main_c_8 rfl (by decide))).trans
    (by simp only [S_c_8 m c] <;> rfl)
theorem S_v40 : after (ops (F := Ideal)) (launchContents m c) (Proc.devRef .tc main_v40) = val_main_v40 (F := Ideal) (m ((c.tc : Thread nD τ).loc main_arg1)) :=
  (HostRead.binary_at outs (launchContents m c) 53 main_v3 main_v39 main_v40 _ _ _ _ rfl (nd_out 53 main_v40 rfl) (nd_in 3 53 main_v3 rfl (by decide)) (nd_in 52 53 main_v39 rfl (by decide))).trans
    (by simp only [S_v3 m c, S_v39 m c] <;> rfl)
theorem S_v41 : after (ops (F := Ideal)) (launchContents m c) (Proc.devRef .tc main_v41) = val_main_v41 (F := Ideal) (m ((c.tc : Thread nD τ).loc main_arg1)) :=
  (HostRead.ternary_at outs (launchContents m c) 54 main_v38 main_v40 main_v3 main_v41 _ _ _ _ _ rfl (nd_out 54 main_v41 rfl) (nd_in 50 54 main_v38 rfl (by decide)) (nd_in 53 54 main_v40 rfl (by decide)) (nd_in 3 54 main_v3 rfl (by decide))).trans
    (by simp only [S_v38 m c, S_v40 m c, S_v3 m c] <;> rfl)
theorem S_v42 : after (ops (F := Ideal)) (launchContents m c) (Proc.devRef .tc main_v42) = val_main_v42 (F := Ideal) (m ((c.tc : Thread nD τ).loc main_arg1)) :=
  (HostRead.unary_at outs (launchContents m c) 55 main_v41 main_v42 _ _ _ rfl (nd_out 55 main_v42 rfl) (nd_in 54 55 main_v41 rfl (by decide))).trans
    (by simp only [S_v41 m c] <;> rfl)
theorem S_v43 : after (ops (F := Ideal)) (launchContents m c) (Proc.devRef .tc main_v43) = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) :=
  (HostRead.binary_at outs (launchContents m c) 56 main_v36 main_v42 main_v43 _ _ _ _ rfl (nd_out 56 main_v43 rfl) (nd_in 47 56 main_v36 rfl (by decide)) (nd_in 55 56 main_v42 rfl (by decide))).trans
    (by simp only [S_v36 m c, S_v42 m c] <;> rfl)
theorem S_v44 : after (ops (F := Ideal)) (launchContents m c) (Proc.devRef .tc main_v44) = val_main_v44 (F := Ideal) (m ((c.tc : Thread nD τ).loc main_arg1)) :=
  (HostRead.unary_at outs (launchContents m c) 57 main_v31 main_v44 _ _ _ rfl (nd_out 57 main_v44 rfl) (nd_in 42 57 main_v31 rfl (by decide))).trans
    (by simp only [S_v31 m c] <;> rfl)
theorem S_v45 : after (ops (F := Ideal)) (launchContents m c) (Proc.devRef .tc main_v45) = val_main_v45 (F := Ideal) (m ((c.tc : Thread nD τ).loc main_arg1)) :=
  (HostRead.unary_at outs (launchContents m c) 58 main_v44 main_v45 _ _ _ rfl (nd_out 58 main_v45 rfl) (nd_in 57 58 main_v44 rfl (by decide))).trans
    (by simp only [S_v44 m c] <;> rfl)
theorem S_v46 : after (ops (F := Ideal)) (launchContents m c) (Proc.devRef .tc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) :=
  (HostRead.binary_at outs (launchContents m c) 59 main_v43 main_v45 main_v46 _ _ _ _ rfl (nd_out 59 main_v46 rfl) (nd_in 56 59 main_v43 rfl (by decide)) (nd_in 58 59 main_v45 rfl (by decide))).trans
    (by simp only [S_v43 m c, S_v45 m c] <;> rfl)
theorem S_cst_9 : after (ops (F := Ideal)) (launchContents m c) (Proc.devRef .tc main_cst_9) = val_main_cst_9 (F := Ideal) :=
  (HostRead.nullary_at outs (launchContents m c) 60 main_cst_9 _ _ rfl (nd_out 60 main_cst_9 rfl)).trans
    rfl
theorem S_v47 : after (ops (F := Ideal)) (launchContents m c) (Proc.devRef .tc main_v47) = val_main_v47 (F := Ideal) :=
  (HostRead.unary_at outs (launchContents m c) 61 main_cst_9 main_v47 _ _ _ rfl (nd_out 61 main_v47 rfl) (nd_in 60 61 main_cst_9 rfl (by decide))).trans
    (by simp only [S_cst_9 m c] <;> rfl)
theorem S_v48 : after (ops (F := Ideal)) (launchContents m c) (Proc.devRef .tc main_v48) = val_main_v48 (F := Ideal) (m ((c.tc : Thread nD τ).loc main_arg1)) :=
  (HostRead.unary_at outs (launchContents m c) 62 main_v6 main_v48 _ _ _ rfl (nd_out 62 main_v48 rfl) (nd_in 6 62 main_v6 rfl (by decide))).trans
    (by simp only [S_v6 m c] <;> rfl)
theorem S_v49 : after (ops (F := Ideal)) (launchContents m c) (Proc.devRef .tc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) :=
  (HostRead.ternary_at outs (launchContents m c) 63 main_v47 main_v48 main_v46 main_v49 _ _ _ _ _ rfl (nd_out 63 main_v49 rfl) (nd_in 61 63 main_v47 rfl (by decide)) (nd_in 62 63 main_v48 rfl (by decide)) (nd_in 59 63 main_v46 rfl (by decide))).trans
    (by simp only [S_v47 m c, S_v48 m c, S_v46 m c] <;> rfl)
theorem S_v50 : after (ops (F := Ideal)) (launchContents m c) (Proc.devRef .tc main_v50) = val_main_v50 (F := Ideal) (m ((c.tc : Thread nD τ).loc main_arg9)) :=
  (HostRead.unary_at outs (launchContents m c) 64 main_arg9 main_v50 _ _ _ rfl (nd_out 64 main_v50 rfl) (nd_arg 64 main_arg9 (by decide))).trans
    (by simp only [A_9 m c] <;> rfl)
theorem S_v51 : after (ops (F := Ideal)) (launchContents m c) (Proc.devRef .tc main_v51) = val_main_v51 (F := Ideal) (m ((c.tc : Thread nD τ).loc main_arg9)) :=
  (HostRead.unary_at outs (launchContents m c) 65 main_v50 main_v51 _ _ _ rfl (nd_out 65 main_v51 rfl) (nd_in 64 65 main_v50 rfl (by decide))).trans
    (by simp only [S_v50 m c] <;> rfl)
theorem S_v52 : after (ops (F := Ideal)) (launchContents m c) (Proc.devRef .tc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) :=
  (HostRead.binary_at outs (launchContents m c) 66 main_v49 main_v51 main_v52 _ _ _ _ rfl (nd_out 66 main_v52 rfl) (nd_in 63 66 main_v49 rfl (by decide)) (nd_in 65 66 main_v51 rfl (by decide))).trans
    (by simp only [S_v49 m c, S_v51 m c] <;> rfl)
theorem S_call1_cst : after (ops (F := Ideal)) (launchContents m c) (Proc.devRef .tc main_call1_cst) = val_main_call1_cst (F := Ideal) :=
  eq_of_heq (HostRead.tnullary_at outs (launchContents m c) 67 _ _ rfl (nd_out 67 main_call1_cst rfl))
theorem S_call1_v0 : after (ops (F := Ideal)) (launchContents m c) (Proc.devRef .tc main_call1_v0) = val_main_call1_v0 (F := Ideal) :=
  eq_of_heq (HostRead.tunary_at outs (launchContents m c) 68 _ _ _ rfl (nd_out 68 main_call1_v0 rfl) (nd_in 67 68 main_call1_cst rfl (by decide)) _ (heq_of_eq (S_call1_cst m c)))
theorem S_v53 : after (ops (F := Ideal)) (launchContents m c) (Proc.devRef .tc main_v53) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) :=
  eq_of_heq (HostRead.tbinary_at outs (launchContents m c) 69 _ _ _ _ rfl (nd_out 69 main_v53 rfl) (nd_in 66 69 main_v52 rfl (by decide)) (nd_in 68 69 main_call1_v0 rfl (by decide)) _ _ (heq_of_eq (S_v52 m c)) (heq_of_eq (S_call1_v0 m c)))
theorem S_v54 : after (ops (F := Ideal)) (launchContents m c) (Proc.devRef .tc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) :=
  (HostRead.binary_at outs (launchContents m c) 70 main_v35 main_v53 main_v54 _ _ _ _ rfl (nd_out 70 main_v54 rfl) (nd_in 46 70 main_v35 rfl (by decide)) (nd_in 69 70 main_v53 rfl (by decide))).trans
    (by simp only [S_v35 m c, S_v53 m c] <;> rfl)
theorem S_v55 : after (ops (F := Ideal)) (launchContents m c) (Proc.devRef .tc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) :=
  (HostRead.binary_at outs (launchContents m c) 71 main_v54 main_arg4 main_v55 _ _ _ _ rfl (nd_out 71 main_v55 rfl) (nd_in 70 71 main_v54 rfl (by decide)) (nd_arg 71 main_arg4 (by decide))).trans
    (by simp only [S_v54 m c, A_4 m c] <;> rfl)
theorem S_v56 : after (ops (F := Ideal)) (launchContents m c) (Proc.devRef .tc main_v56) = val_main_v56 (F := Ideal) (m ((c.tc : Thread nD τ).loc main_arg5)) :=
  (HostRead.unary_at outs (launchContents m c) 72 main_arg5 main_v56 _ _ _ rfl (nd_out 72 main_v56 rfl) (nd_arg 72 main_arg5 (by decide))).trans
    (by simp only [A_5 m c] <;> rfl)
theorem S_v57 : after (ops (F := Ideal)) (launchContents m c) (Proc.devRef .tc main_v57) = val_main_v57 (F := Ideal) (m ((c.tc : Thread nD τ).loc main_arg5)) :=
  (HostRead.unary_at outs (launchContents m c) 73 main_v56 main_v57 _ _ _ rfl (nd_out 73 main_v57 rfl) (nd_in 72 73 main_v56 rfl (by decide))).trans
    (by simp only [S_v56 m c] <;> rfl)
theorem S_v58 : after (ops (F := Ideal)) (launchContents m c) (Proc.devRef .tc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) :=
  (HostRead.binary_at outs (launchContents m c) 74 main_v55 main_v57 main_v58 _ _ _ _ rfl (nd_out 74 main_v58 rfl) (nd_in 71 74 main_v55 rfl (by decide)) (nd_in 73 74 main_v57 rfl (by decide))).trans
    (by simp only [S_v55 m c, S_v57 m c] <;> rfl)
theorem S_v59 : after (ops (F := Ideal)) (launchContents m c) (Proc.devRef .tc main_v59) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) :=
  (HostRead.binary_at outs (launchContents m c) 75 main_v58 main_arg10 main_v59 _ _ _ _ rfl (nd_out 75 main_v59 rfl) (nd_in 74 75 main_v58 rfl (by decide)) (nd_arg 75 main_arg10 (by decide))).trans
    (by simp only [S_v58 m c, A_10 m c] <;> rfl)
theorem S_c_10 : after (ops (F := Ideal)) (launchContents m c) (Proc.devRef .tc main_c_10) = val_main_c_10 (F := Ideal) :=
  (HostRead.nullary_at outs (launchContents m c) 76 main_c_10 _ _ rfl (nd_out 76 main_c_10 rfl)).trans
    rfl
theorem S_v60 : after (ops (F := Ideal)) (launchContents m c) (Proc.devRef .tc main_v60) = val_main_v60 (F := Ideal) :=
  (HostRead.unary_at outs (launchContents m c) 77 main_c_10 main_v60 _ _ _ rfl (nd_out 77 main_v60 rfl) (nd_in 76 77 main_c_10 rfl (by decide))).trans
    (by simp only [S_c_10 m c] <;> rfl)
theorem S_v61 : after (ops (F := Ideal)) (launchContents m c) (Proc.devRef .tc main_v61) = val_main_v61 (F := Ideal) (m ((c.tc : Thread nD τ).loc main_arg1)) :=
  (HostRead.binary_at outs (launchContents m c) 78 main_v3 main_v60 main_v61 _ _ _ _ rfl (nd_out 78 main_v61 rfl) (nd_in 3 78 main_v3 rfl (by decide)) (nd_in 77 78 main_v60 rfl (by decide))).trans
    (by simp only [S_v3 m c, S_v60 m c] <;> rfl)
theorem S_c_11 : after (ops (F := Ideal)) (launchContents m c) (Proc.devRef .tc main_c_11) = val_main_c_11 (F := Ideal) :=
  (HostRead.nullary_at outs (launchContents m c) 79 main_c_11 _ _ rfl (nd_out 79 main_c_11 rfl)).trans
    rfl
theorem S_v62 : after (ops (F := Ideal)) (launchContents m c) (Proc.devRef .tc main_v62) = val_main_v62 (F := Ideal) :=
  (HostRead.unary_at outs (launchContents m c) 80 main_c_11 main_v62 _ _ _ rfl (nd_out 80 main_v62 rfl) (nd_in 79 80 main_c_11 rfl (by decide))).trans
    (by simp only [S_c_11 m c] <;> rfl)
theorem S_v63 : after (ops (F := Ideal)) (launchContents m c) (Proc.devRef .tc main_v63) = val_main_v63 (F := Ideal) (m ((c.tc : Thread nD τ).loc main_arg1)) :=
  (HostRead.binary_at outs (launchContents m c) 81 main_v3 main_v62 main_v63 _ _ _ _ rfl (nd_out 81 main_v63 rfl) (nd_in 3 81 main_v3 rfl (by decide)) (nd_in 80 81 main_v62 rfl (by decide))).trans
    (by simp only [S_v3 m c, S_v62 m c] <;> rfl)
theorem S_v64 : after (ops (F := Ideal)) (launchContents m c) (Proc.devRef .tc main_v64) = val_main_v64 (F := Ideal) (m ((c.tc : Thread nD τ).loc main_arg1)) :=
  (HostRead.ternary_at outs (launchContents m c) 82 main_v61 main_v63 main_v3 main_v64 _ _ _ _ _ rfl (nd_out 82 main_v64 rfl) (nd_in 78 82 main_v61 rfl (by decide)) (nd_in 81 82 main_v63 rfl (by decide)) (nd_in 3 82 main_v3 rfl (by decide))).trans
    (by simp only [S_v61 m c, S_v63 m c, S_v3 m c] <;> rfl)
theorem S_v65 : after (ops (F := Ideal)) (launchContents m c) (Proc.devRef .tc main_v65) = val_main_v65 (F := Ideal) (m ((c.tc : Thread nD τ).loc main_arg1)) :=
  (HostRead.unary_at outs (launchContents m c) 83 main_v64 main_v65 _ _ _ rfl (nd_out 83 main_v65 rfl) (nd_in 82 83 main_v64 rfl (by decide))).trans
    (by simp only [S_v64 m c] <;> rfl)
theorem S_v66 : after (ops (F := Ideal)) (launchContents m c) (Proc.devRef .tc main_v66) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) :=
  (HostRead.binary_at outs (launchContents m c) 84 main_v59 main_v65 main_v66 _ _ _ _ rfl (nd_out 84 main_v66 rfl) (nd_in 75 84 main_v59 rfl (by decide)) (nd_in 83 84 main_v65 rfl (by decide))).trans
    (by simp only [S_v59 m c, S_v65 m c] <;> rfl)
theorem S_v67 : after (ops (F := Ideal)) (launchContents m c) (Proc.devRef .tc main_v67) = val_main_v67 (F := Ideal) (m ((c.tc : Thread nD τ).loc main_arg1)) :=
  (HostRead.unary_at outs (launchContents m c) 85 main_v31 main_v67 _ _ _ rfl (nd_out 85 main_v67 rfl) (nd_in 42 85 main_v31 rfl (by decide))).trans
    (by simp only [S_v31 m c] <;> rfl)
theorem S_v68 : after (ops (F := Ideal)) (launchContents m c) (Proc.devRef .tc main_v68) = val_main_v68 (F := Ideal) (m ((c.tc : Thread nD τ).loc main_arg1)) :=
  (HostRead.unary_at outs (launchContents m c) 86 main_v67 main_v68 _ _ _ rfl (nd_out 86 main_v68 rfl) (nd_in 85 86 main_v67 rfl (by decide))).trans
    (by simp only [S_v67 m c] <;> rfl)
theorem S_v69 : after (ops (F := Ideal)) (launchContents m c) (Proc.devRef .tc main_v69) = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) :=
  (HostRead.binary_at outs (launchContents m c) 87 main_v66 main_v68 main_v69 _ _ _ _ rfl (nd_out 87 main_v69 rfl) (nd_in 84 87 main_v66 rfl (by decide)) (nd_in 86 87 main_v68 rfl (by decide))).trans
    (by simp only [S_v66 m c, S_v68 m c] <;> rfl)
theorem S_cst_12 : after (ops (F := Ideal)) (launchContents m c) (Proc.devRef .tc main_cst_12) = val_main_cst_12 (F := Ideal) :=
  (HostRead.nullary_at outs (launchContents m c) 88 main_cst_12 _ _ rfl (nd_out 88 main_cst_12 rfl)).trans
    rfl
theorem S_v70 : after (ops (F := Ideal)) (launchContents m c) (Proc.devRef .tc main_v70) = val_main_v70 (F := Ideal) :=
  (HostRead.unary_at outs (launchContents m c) 89 main_cst_12 main_v70 _ _ _ rfl (nd_out 89 main_v70 rfl) (nd_in 88 89 main_cst_12 rfl (by decide))).trans
    (by simp only [S_cst_12 m c] <;> rfl)
theorem S_v71 : after (ops (F := Ideal)) (launchContents m c) (Proc.devRef .tc main_v71) = val_main_v71 (F := Ideal) (m ((c.tc : Thread nD τ).loc main_arg1)) :=
  (HostRead.unary_at outs (launchContents m c) 90 main_v6 main_v71 _ _ _ rfl (nd_out 90 main_v71 rfl) (nd_in 6 90 main_v6 rfl (by decide))).trans
    (by simp only [S_v6 m c] <;> rfl)
theorem S_v72 : after (ops (F := Ideal)) (launchContents m c) (Proc.devRef .tc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) :=
  (HostRead.ternary_at outs (launchContents m c) 91 main_v70 main_v71 main_v69 main_v72 _ _ _ _ _ rfl (nd_out 91 main_v72 rfl) (nd_in 89 91 main_v70 rfl (by decide)) (nd_in 90 91 main_v71 rfl (by decide)) (nd_in 87 91 main_v69 rfl (by decide))).trans
    (by simp only [S_v70 m c, S_v71 m c, S_v69 m c] <;> rfl)
theorem S_v73 : after (ops (F := Ideal)) (launchContents m c) (Proc.devRef .tc main_v73) = val_main_v73 (F := Ideal) (m ((c.tc : Thread nD τ).loc main_arg11)) :=
  (HostRead.unary_at outs (launchContents m c) 92 main_arg11 main_v73 _ _ _ rfl (nd_out 92 main_v73 rfl) (nd_arg 92 main_arg11 (by decide))).trans
    (by simp only [A_11 m c] <;> rfl)
theorem S_v74 : after (ops (F := Ideal)) (launchContents m c) (Proc.devRef .tc main_v74) = val_main_v74 (F := Ideal) (m ((c.tc : Thread nD τ).loc main_arg11)) :=
  (HostRead.unary_at outs (launchContents m c) 93 main_v73 main_v74 _ _ _ rfl (nd_out 93 main_v74 rfl) (nd_in 92 93 main_v73 rfl (by decide))).trans
    (by simp only [S_v73 m c] <;> rfl)
theorem S_v75 : after (ops (F := Ideal)) (launchContents m c) (Proc.devRef .tc main_v75) = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) :=
  (HostRead.binary_at outs (launchContents m c) 94 main_v72 main_v74 main_v75 _ _ _ _ rfl (nd_out 94 main_v75 rfl) (nd_in 91 94 main_v72 rfl (by decide)) (nd_in 93 94 main_v74 rfl (by decide))).trans
    (by simp only [S_v72 m c, S_v74 m c] <;> rfl)
theorem S_call2_cst : after (ops (F := Ideal)) (launchContents m c) (Proc.devRef .tc main_call2_cst) = val_main_call2_cst (F := Ideal) :=
  eq_of_heq (HostRead.tnullary_at outs (launchContents m c) 95 _ _ rfl (nd_out 95 main_call2_cst rfl))
theorem S_call2_v0 : after (ops (F := Ideal)) (launchContents m c) (Proc.devRef .tc main_call2_v0) = val_main_call2_v0 (F := Ideal) :=
  eq_of_heq (HostRead.tunary_at outs (launchContents m c) 96 _ _ _ rfl (nd_out 96 main_call2_v0 rfl) (nd_in 95 96 main_call2_cst rfl (by decide)) _ (heq_of_eq (S_call2_cst m c)))
theorem S_v76 : after (ops (F := Ideal)) (launchContents m c) (Proc.devRef .tc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) :=
  eq_of_heq (HostRead.tbinary_at outs (launchContents m c) 97 _ _ _ _ rfl (nd_out 97 main_v76 rfl) (nd_in 94 97 main_v75 rfl (by decide)) (nd_in 96 97 main_call2_v0 rfl (by decide)) _ _ (heq_of_eq (S_v75 m c)) (heq_of_eq (S_call2_v0 m c)))
theorem S_v77 : after (ops (F := Ideal)) (launchContents m c) (Proc.devRef .tc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) :=
  (HostRead.binary_at outs (launchContents m c) 98 main_v58 main_v76 main_v77 _ _ _ _ rfl (nd_out 98 main_v77 rfl) (nd_in 74 98 main_v58 rfl (by decide)) (nd_in 97 98 main_v76 rfl (by decide))).trans
    (by simp only [S_v58 m c, S_v76 m c] <;> rfl)
theorem S_v78 : after (ops (F := Ideal)) (launchContents m c) (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) :=
  (HostRead.binary_at outs (launchContents m c) 99 main_v77 main_arg6 main_v78 _ _ _ _ rfl (nd_out 99 main_v78 rfl) (nd_in 98 99 main_v77 rfl (by decide)) (nd_arg 99 main_arg6 (by decide))).trans
    (by simp only [S_v77 m c, A_6 m c] <;> rfl)
theorem S_v79 : after (ops (F := Ideal)) (launchContents m c) (Proc.devRef .tc main_v79) = val_main_v79 (F := Ideal) (m ((c.tc : Thread nD τ).loc main_arg7)) :=
  (HostRead.unary_at outs (launchContents m c) 100 main_arg7 main_v79 _ _ _ rfl (nd_out 100 main_v79 rfl) (nd_arg 100 main_arg7 (by decide))).trans
    (by simp only [A_7 m c] <;> rfl)
theorem S_v80 : after (ops (F := Ideal)) (launchContents m c) (Proc.devRef .tc main_v80) = val_main_v80 (F := Ideal) (m ((c.tc : Thread nD τ).loc main_arg7)) :=
  (HostRead.unary_at outs (launchContents m c) 101 main_v79 main_v80 _ _ _ rfl (nd_out 101 main_v80 rfl) (nd_in 100 101 main_v79 rfl (by decide))).trans
    (by simp only [S_v79 m c] <;> rfl)
theorem S_v81 : after (ops (F := Ideal)) (launchContents m c) (Proc.devRef .tc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (HostRead.binary_at outs (launchContents m c) 102 main_v78 main_v80 main_v81 _ _ _ _ rfl (nd_out 102 main_v81 rfl) (nd_in 99 102 main_v78 rfl (by decide)) (nd_in 101 102 main_v80 rfl (by decide))).trans
    (by simp only [S_v78 m c, S_v80 m c] <;> rfl)
theorem S_v82 : after (ops (F := Ideal)) (launchContents m c) (Proc.devRef .tc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (HostRead.binary_at outs (launchContents m c) 103 main_v81 main_arg12 main_v82 _ _ _ _ rfl (nd_out 103 main_v82 rfl) (nd_in 102 103 main_v81 rfl (by decide)) (nd_arg 103 main_arg12 (by decide))).trans
    (by simp only [S_v81 m c, A_12 m c] <;> rfl)
theorem S_c_13 : after (ops (F := Ideal)) (launchContents m c) (Proc.devRef .tc main_c_13) = val_main_c_13 (F := Ideal) :=
  (HostRead.nullary_at outs (launchContents m c) 104 main_c_13 _ _ rfl (nd_out 104 main_c_13 rfl)).trans
    rfl
theorem S_v83 : after (ops (F := Ideal)) (launchContents m c) (Proc.devRef .tc main_v83) = val_main_v83 (F := Ideal) :=
  (HostRead.unary_at outs (launchContents m c) 105 main_c_13 main_v83 _ _ _ rfl (nd_out 105 main_v83 rfl) (nd_in 104 105 main_c_13 rfl (by decide))).trans
    (by simp only [S_c_13 m c] <;> rfl)
theorem S_v84 : after (ops (F := Ideal)) (launchContents m c) (Proc.devRef .tc main_v84) = val_main_v84 (F := Ideal) (m ((c.tc : Thread nD τ).loc main_arg1)) :=
  (HostRead.binary_at outs (launchContents m c) 106 main_v3 main_v83 main_v84 _ _ _ _ rfl (nd_out 106 main_v84 rfl) (nd_in 3 106 main_v3 rfl (by decide)) (nd_in 105 106 main_v83 rfl (by decide))).trans
    (by simp only [S_v3 m c, S_v83 m c] <;> rfl)
theorem S_c_14 : after (ops (F := Ideal)) (launchContents m c) (Proc.devRef .tc main_c_14) = val_main_c_14 (F := Ideal) :=
  (HostRead.nullary_at outs (launchContents m c) 107 main_c_14 _ _ rfl (nd_out 107 main_c_14 rfl)).trans
    rfl
theorem S_v85 : after (ops (F := Ideal)) (launchContents m c) (Proc.devRef .tc main_v85) = val_main_v85 (F := Ideal) :=
  (HostRead.unary_at outs (launchContents m c) 108 main_c_14 main_v85 _ _ _ rfl (nd_out 108 main_v85 rfl) (nd_in 107 108 main_c_14 rfl (by decide))).trans
    (by simp only [S_c_14 m c] <;> rfl)
theorem S_v86 : after (ops (F := Ideal)) (launchContents m c) (Proc.devRef .tc main_v86) = val_main_v86 (F := Ideal) (m ((c.tc : Thread nD τ).loc main_arg1)) :=
  (HostRead.binary_at outs (launchContents m c) 109 main_v3 main_v85 main_v86 _ _ _ _ rfl (nd_out 109 main_v86 rfl) (nd_in 3 109 main_v3 rfl (by decide)) (nd_in 108 109 main_v85 rfl (by decide))).trans
    (by simp only [S_v3 m c, S_v85 m c] <;> rfl)
theorem S_v87 : after (ops (F := Ideal)) (launchContents m c) (Proc.devRef .tc main_v87) = val_main_v87 (F := Ideal) (m ((c.tc : Thread nD τ).loc main_arg1)) :=
  (HostRead.ternary_at outs (launchContents m c) 110 main_v84 main_v86 main_v3 main_v87 _ _ _ _ _ rfl (nd_out 110 main_v87 rfl) (nd_in 106 110 main_v84 rfl (by decide)) (nd_in 109 110 main_v86 rfl (by decide)) (nd_in 3 110 main_v3 rfl (by decide))).trans
    (by simp only [S_v84 m c, S_v86 m c, S_v3 m c] <;> rfl)
theorem S_v88 : after (ops (F := Ideal)) (launchContents m c) (Proc.devRef .tc main_v88) = val_main_v88 (F := Ideal) (m ((c.tc : Thread nD τ).loc main_arg1)) :=
  (HostRead.unary_at outs (launchContents m c) 111 main_v87 main_v88 _ _ _ rfl (nd_out 111 main_v88 rfl) (nd_in 110 111 main_v87 rfl (by decide))).trans
    (by simp only [S_v87 m c] <;> rfl)
theorem S_v89 : after (ops (F := Ideal)) (launchContents m c) (Proc.devRef .tc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (HostRead.binary_at outs (launchContents m c) 112 main_v82 main_v88 main_v89 _ _ _ _ rfl (nd_out 112 main_v89 rfl) (nd_in 103 112 main_v82 rfl (by decide)) (nd_in 111 112 main_v88 rfl (by decide))).trans
    (by simp only [S_v82 m c, S_v88 m c] <;> rfl)
theorem S_v90 : after (ops (F := Ideal)) (launchContents m c) (Proc.devRef .tc main_v90) = val_main_v90 (F := Ideal) (m ((c.tc : Thread nD τ).loc main_arg1)) :=
  (HostRead.unary_at outs (launchContents m c) 113 main_v31 main_v90 _ _ _ rfl (nd_out 113 main_v90 rfl) (nd_in 42 113 main_v31 rfl (by decide))).trans
    (by simp only [S_v31 m c] <;> rfl)
theorem S_v91 : after (ops (F := Ideal)) (launchContents m c) (Proc.devRef .tc main_v91) = val_main_v91 (F := Ideal) (m ((c.tc : Thread nD τ).loc main_arg1)) :=
  (HostRead.unary_at outs (launchContents m c) 114 main_v90 main_v91 _ _ _ rfl (nd_out 114 main_v91 rfl) (nd_in 113 114 main_v90 rfl (by decide))).trans
    (by simp only [S_v90 m c] <;> rfl)
theorem S_v92 : after (ops (F := Ideal)) (launchContents m c) (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (HostRead.binary_at outs (launchContents m c) 115 main_v89 main_v91 main_v92 _ _ _ _ rfl (nd_out 115 main_v92 rfl) (nd_in 112 115 main_v89 rfl (by decide)) (nd_in 114 115 main_v91 rfl (by decide))).trans
    (by simp only [S_v89 m c, S_v91 m c] <;> rfl)
theorem S_cst_15 : after (ops (F := Ideal)) (launchContents m c) (Proc.devRef .tc main_cst_15) = val_main_cst_15 (F := Ideal) :=
  (HostRead.nullary_at outs (launchContents m c) 116 main_cst_15 _ _ rfl (nd_out 116 main_cst_15 rfl)).trans
    rfl
theorem S_v93 : after (ops (F := Ideal)) (launchContents m c) (Proc.devRef .tc main_v93) = val_main_v93 (F := Ideal) :=
  (HostRead.unary_at outs (launchContents m c) 117 main_cst_15 main_v93 _ _ _ rfl (nd_out 117 main_v93 rfl) (nd_in 116 117 main_cst_15 rfl (by decide))).trans
    (by simp only [S_cst_15 m c] <;> rfl)
theorem S_v94 : after (ops (F := Ideal)) (launchContents m c) (Proc.devRef .tc main_v94) = val_main_v94 (F := Ideal) (m ((c.tc : Thread nD τ).loc main_arg1)) :=
  (HostRead.unary_at outs (launchContents m c) 118 main_v6 main_v94 _ _ _ rfl (nd_out 118 main_v94 rfl) (nd_in 6 118 main_v6 rfl (by decide))).trans
    (by simp only [S_v6 m c] <;> rfl)
theorem S_v95 : after (ops (F := Ideal)) (launchContents m c) (Proc.devRef .tc main_v95) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (HostRead.ternary_at outs (launchContents m c) 119 main_v93 main_v94 main_v92 main_v95 _ _ _ _ _ rfl (nd_out 119 main_v95 rfl) (nd_in 117 119 main_v93 rfl (by decide)) (nd_in 118 119 main_v94 rfl (by decide)) (nd_in 115 119 main_v92 rfl (by decide))).trans
    (by simp only [S_v93 m c, S_v94 m c, S_v92 m c] <;> rfl)
theorem S_v96 : after (ops (F := Ideal)) (launchContents m c) (Proc.devRef .tc main_v96) = val_main_v96 (F := Ideal) (m ((c.tc : Thread nD τ).loc main_arg13)) :=
  (HostRead.unary_at outs (launchContents m c) 120 main_arg13 main_v96 _ _ _ rfl (nd_out 120 main_v96 rfl) (nd_arg 120 main_arg13 (by decide))).trans
    (by simp only [A_13 m c] <;> rfl)
theorem S_v97 : after (ops (F := Ideal)) (launchContents m c) (Proc.devRef .tc main_v97) = val_main_v97 (F := Ideal) (m ((c.tc : Thread nD τ).loc main_arg13)) :=
  (HostRead.unary_at outs (launchContents m c) 121 main_v96 main_v97 _ _ _ rfl (nd_out 121 main_v97 rfl) (nd_in 120 121 main_v96 rfl (by decide))).trans
    (by simp only [S_v96 m c] <;> rfl)
theorem S_v98 : after (ops (F := Ideal)) (launchContents m c) (Proc.devRef .tc main_v98) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (HostRead.binary_at outs (launchContents m c) 122 main_v95 main_v97 main_v98 _ _ _ _ rfl (nd_out 122 main_v98 rfl) (nd_in 119 122 main_v95 rfl (by decide)) (nd_in 121 122 main_v97 rfl (by decide))).trans
    (by simp only [S_v95 m c, S_v97 m c] <;> rfl)
theorem S_call3_cst : after (ops (F := Ideal)) (launchContents m c) (Proc.devRef .tc main_call3_cst) = val_main_call3_cst (F := Ideal) :=
  eq_of_heq (HostRead.tnullary_at outs (launchContents m c) 123 _ _ rfl (nd_out 123 main_call3_cst rfl))
theorem S_call3_v0 : after (ops (F := Ideal)) (launchContents m c) (Proc.devRef .tc main_call3_v0) = val_main_call3_v0 (F := Ideal) :=
  eq_of_heq (HostRead.tunary_at outs (launchContents m c) 124 _ _ _ rfl (nd_out 124 main_call3_v0 rfl) (nd_in 123 124 main_call3_cst rfl (by decide)) _ (heq_of_eq (S_call3_cst m c)))
theorem S_v99 : after (ops (F := Ideal)) (launchContents m c) (Proc.devRef .tc main_v99) = val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  eq_of_heq (HostRead.tbinary_at outs (launchContents m c) 125 _ _ _ _ rfl (nd_out 125 main_v99 rfl) (nd_in 122 125 main_v98 rfl (by decide)) (nd_in 124 125 main_call3_v0 rfl (by decide)) _ _ (heq_of_eq (S_v98 m c)) (heq_of_eq (S_call3_v0 m c)))
theorem S_cst_16 : after (ops (F := Ideal)) (launchContents m c) (Proc.devRef .tc main_cst_16) = val_main_cst_16 (F := Ideal) :=
  (HostRead.nullary_at outs (launchContents m c) 126 main_cst_16 _ _ rfl (nd_out 126 main_cst_16 rfl)).trans
    rfl
theorem S_v100 : after (ops (F := Ideal)) (launchContents m c) (Proc.devRef .tc main_v100) = val_main_v100 (F := Ideal) :=
  (HostRead.unary_at outs (launchContents m c) 127 main_cst_16 main_v100 _ _ _ rfl (nd_out 127 main_v100 rfl) (nd_in 126 127 main_cst_16 rfl (by decide))).trans
    (by simp only [S_cst_16 m c] <;> rfl)
theorem S_v101 : after (ops (F := Ideal)) (launchContents m c) (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (HostRead.binary_at outs (launchContents m c) 128 main_v100 main_v99 main_v101 _ _ _ _ rfl (nd_out 128 main_v101 rfl) (nd_in 127 128 main_v100 rfl (by decide)) (nd_in 125 128 main_v99 rfl (by decide))).trans
    (by simp only [S_v100 m c, S_v99 m c] <;> rfl)
theorem S_v102 : after (ops (F := Ideal)) (launchContents m c) (Proc.devRef .tc main_v102) = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (HostRead.binary_at outs (launchContents m c) 129 main_v81 main_v101 main_v102 _ _ _ _ rfl (nd_out 129 main_v102 rfl) (nd_in 102 129 main_v81 rfl (by decide)) (nd_in 128 129 main_v101 rfl (by decide))).trans
    (by simp only [S_v81 m c, S_v101 m c] <;> rfl)
theorem S_v103 : after (ops (F := Ideal)) (launchContents m c) (Proc.devRef .tc main_v103) = val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (HostRead.binary_at outs (launchContents m c) 130 main_v102 main_arg14 main_v103 _ _ _ _ rfl (nd_out 130 main_v103 rfl) (nd_in 129 130 main_v102 rfl (by decide)) (nd_arg 130 main_arg14 (by decide))).trans
    (by simp only [S_v102 m c, A_14 m c] <;> rfl)
theorem S_c_17 : after (ops (F := Ideal)) (launchContents m c) (Proc.devRef .tc main_c_17) = val_main_c_17 (F := Ideal) :=
  (HostRead.nullary_at outs (launchContents m c) 131 main_c_17 _ _ rfl (nd_out 131 main_c_17 rfl)).trans
    rfl
theorem S_v104 : after (ops (F := Ideal)) (launchContents m c) (Proc.devRef .tc main_v104) = val_main_v104 (F := Ideal) :=
  (HostRead.unary_at outs (launchContents m c) 132 main_c_17 main_v104 _ _ _ rfl (nd_out 132 main_v104 rfl) (nd_in 131 132 main_c_17 rfl (by decide))).trans
    (by simp only [S_c_17 m c] <;> rfl)
theorem S_v105 : after (ops (F := Ideal)) (launchContents m c) (Proc.devRef .tc main_v105) = val_main_v105 (F := Ideal) (m ((c.tc : Thread nD τ).loc main_arg1)) :=
  (HostRead.binary_at outs (launchContents m c) 133 main_v3 main_v104 main_v105 _ _ _ _ rfl (nd_out 133 main_v105 rfl) (nd_in 3 133 main_v3 rfl (by decide)) (nd_in 132 133 main_v104 rfl (by decide))).trans
    (by simp only [S_v3 m c, S_v104 m c] <;> rfl)
theorem S_c_18 : after (ops (F := Ideal)) (launchContents m c) (Proc.devRef .tc main_c_18) = val_main_c_18 (F := Ideal) :=
  (HostRead.nullary_at outs (launchContents m c) 134 main_c_18 _ _ rfl (nd_out 134 main_c_18 rfl)).trans
    rfl
theorem S_v106 : after (ops (F := Ideal)) (launchContents m c) (Proc.devRef .tc main_v106) = val_main_v106 (F := Ideal) :=
  (HostRead.unary_at outs (launchContents m c) 135 main_c_18 main_v106 _ _ _ rfl (nd_out 135 main_v106 rfl) (nd_in 134 135 main_c_18 rfl (by decide))).trans
    (by simp only [S_c_18 m c] <;> rfl)
theorem S_v107 : after (ops (F := Ideal)) (launchContents m c) (Proc.devRef .tc main_v107) = val_main_v107 (F := Ideal) (m ((c.tc : Thread nD τ).loc main_arg1)) :=
  (HostRead.binary_at outs (launchContents m c) 136 main_v3 main_v106 main_v107 _ _ _ _ rfl (nd_out 136 main_v107 rfl) (nd_in 3 136 main_v3 rfl (by decide)) (nd_in 135 136 main_v106 rfl (by decide))).trans
    (by simp only [S_v3 m c, S_v106 m c] <;> rfl)
theorem S_v108 : after (ops (F := Ideal)) (launchContents m c) (Proc.devRef .tc main_v108) = val_main_v108 (F := Ideal) (m ((c.tc : Thread nD τ).loc main_arg1)) :=
  (HostRead.ternary_at outs (launchContents m c) 137 main_v105 main_v107 main_v3 main_v108 _ _ _ _ _ rfl (nd_out 137 main_v108 rfl) (nd_in 133 137 main_v105 rfl (by decide)) (nd_in 136 137 main_v107 rfl (by decide)) (nd_in 3 137 main_v3 rfl (by decide))).trans
    (by simp only [S_v105 m c, S_v107 m c, S_v3 m c] <;> rfl)
theorem S_v109 : after (ops (F := Ideal)) (launchContents m c) (Proc.devRef .tc main_v109) = val_main_v109 (F := Ideal) (m ((c.tc : Thread nD τ).loc main_arg1)) :=
  (HostRead.unary_at outs (launchContents m c) 138 main_v108 main_v109 _ _ _ rfl (nd_out 138 main_v109 rfl) (nd_in 137 138 main_v108 rfl (by decide))).trans
    (by simp only [S_v108 m c] <;> rfl)
theorem S_v110 : after (ops (F := Ideal)) (launchContents m c) (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (HostRead.binary_at outs (launchContents m c) 139 main_v103 main_v109 main_v110 _ _ _ _ rfl (nd_out 139 main_v110 rfl) (nd_in 130 139 main_v103 rfl (by decide)) (nd_in 138 139 main_v109 rfl (by decide))).trans
    (by simp only [S_v103 m c, S_v109 m c] <;> rfl)
theorem S_v111 : after (ops (F := Ideal)) (launchContents m c) (Proc.devRef .tc main_v111) = val_main_v111 (F := Ideal) (m ((c.tc : Thread nD τ).loc main_arg1)) :=
  (HostRead.unary_at outs (launchContents m c) 140 main_v31 main_v111 _ _ _ rfl (nd_out 140 main_v111 rfl) (nd_in 42 140 main_v31 rfl (by decide))).trans
    (by simp only [S_v31 m c] <;> rfl)
theorem S_v112 : after (ops (F := Ideal)) (launchContents m c) (Proc.devRef .tc main_v112) = val_main_v112 (F := Ideal) (m ((c.tc : Thread nD τ).loc main_arg1)) :=
  (HostRead.unary_at outs (launchContents m c) 141 main_v111 main_v112 _ _ _ rfl (nd_out 141 main_v112 rfl) (nd_in 140 141 main_v111 rfl (by decide))).trans
    (by simp only [S_v111 m c] <;> rfl)
theorem S_v113 : after (ops (F := Ideal)) (launchContents m c) (Proc.devRef .tc main_v113) = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (HostRead.binary_at outs (launchContents m c) 142 main_v110 main_v112 main_v113 _ _ _ _ rfl (nd_out 142 main_v113 rfl) (nd_in 139 142 main_v110 rfl (by decide)) (nd_in 141 142 main_v112 rfl (by decide))).trans
    (by simp only [S_v110 m c, S_v112 m c] <;> rfl)
theorem S_cst_19 : after (ops (F := Ideal)) (launchContents m c) (Proc.devRef .tc main_cst_19) = val_main_cst_19 (F := Ideal) :=
  (HostRead.nullary_at outs (launchContents m c) 143 main_cst_19 _ _ rfl (nd_out 143 main_cst_19 rfl)).trans
    rfl
theorem S_v114 : after (ops (F := Ideal)) (launchContents m c) (Proc.devRef .tc main_v114) = val_main_v114 (F := Ideal) :=
  (HostRead.unary_at outs (launchContents m c) 144 main_cst_19 main_v114 _ _ _ rfl (nd_out 144 main_v114 rfl) (nd_in 143 144 main_cst_19 rfl (by decide))).trans
    (by simp only [S_cst_19 m c] <;> rfl)
theorem S_v115 : after (ops (F := Ideal)) (launchContents m c) (Proc.devRef .tc main_v115) = val_main_v115 (F := Ideal) (m ((c.tc : Thread nD τ).loc main_arg1)) :=
  (HostRead.unary_at outs (launchContents m c) 145 main_v6 main_v115 _ _ _ rfl (nd_out 145 main_v115 rfl) (nd_in 6 145 main_v6 rfl (by decide))).trans
    (by simp only [S_v6 m c] <;> rfl)
theorem S_v116 : after (ops (F := Ideal)) (launchContents m c) (Proc.devRef .tc main_v116) = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (HostRead.ternary_at outs (launchContents m c) 146 main_v114 main_v115 main_v113 main_v116 _ _ _ _ _ rfl (nd_out 146 main_v116 rfl) (nd_in 144 146 main_v114 rfl (by decide)) (nd_in 145 146 main_v115 rfl (by decide)) (nd_in 142 146 main_v113 rfl (by decide))).trans
    (by simp only [S_v114 m c, S_v115 m c, S_v113 m c] <;> rfl)
theorem S_v117 : after (ops (F := Ideal)) (launchContents m c) (Proc.devRef .tc main_v117) = val_main_v117 (F := Ideal) (m ((c.tc : Thread nD τ).loc main_arg15)) :=
  (HostRead.unary_at outs (launchContents m c) 147 main_arg15 main_v117 _ _ _ rfl (nd_out 147 main_v117 rfl) (nd_arg 147 main_arg15 (by decide))).trans
    (by simp only [A_15 m c] <;> rfl)
theorem S_v118 : after (ops (F := Ideal)) (launchContents m c) (Proc.devRef .tc main_v118) = val_main_v118 (F := Ideal) (m ((c.tc : Thread nD τ).loc main_arg15)) :=
  (HostRead.unary_at outs (launchContents m c) 148 main_v117 main_v118 _ _ _ rfl (nd_out 148 main_v118 rfl) (nd_in 147 148 main_v117 rfl (by decide))).trans
    (by simp only [S_v117 m c] <;> rfl)
theorem S_v119 : after (ops (F := Ideal)) (launchContents m c) (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (HostRead.binary_at outs (launchContents m c) 149 main_v116 main_v118 main_v119 _ _ _ _ rfl (nd_out 149 main_v119 rfl) (nd_in 146 149 main_v116 rfl (by decide)) (nd_in 148 149 main_v118 rfl (by decide))).trans
    (by simp only [S_v116 m c, S_v118 m c] <;> rfl)
theorem S_call4_cst : after (ops (F := Ideal)) (launchContents m c) (Proc.devRef .tc main_call4_cst) = val_main_call4_cst (F := Ideal) :=
  eq_of_heq (HostRead.tnullary_at outs (launchContents m c) 150 _ _ rfl (nd_out 150 main_call4_cst rfl))
theorem S_call4_v0 : after (ops (F := Ideal)) (launchContents m c) (Proc.devRef .tc main_call4_v0) = val_main_call4_v0 (F := Ideal) :=
  eq_of_heq (HostRead.tunary_at outs (launchContents m c) 151 _ _ _ rfl (nd_out 151 main_call4_v0 rfl) (nd_in 150 151 main_call4_cst rfl (by decide)) _ (heq_of_eq (S_call4_cst m c)))
theorem S_v120 : after (ops (F := Ideal)) (launchContents m c) (Proc.devRef .tc main_v120) = val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  eq_of_heq (HostRead.tbinary_at outs (launchContents m c) 152 _ _ _ _ rfl (nd_out 152 main_v120 rfl) (nd_in 149 152 main_v119 rfl (by decide)) (nd_in 151 152 main_call4_v0 rfl (by decide)) _ _ (heq_of_eq (S_v119 m c)) (heq_of_eq (S_call4_v0 m c)))
theorem S_cst_20 : after (ops (F := Ideal)) (launchContents m c) (Proc.devRef .tc main_cst_20) = val_main_cst_20 (F := Ideal) :=
  (HostRead.nullary_at outs (launchContents m c) 153 main_cst_20 _ _ rfl (nd_out 153 main_cst_20 rfl)).trans
    rfl
theorem S_v121 : after (ops (F := Ideal)) (launchContents m c) (Proc.devRef .tc main_v121) = val_main_v121 (F := Ideal) :=
  (HostRead.unary_at outs (launchContents m c) 154 main_cst_20 main_v121 _ _ _ rfl (nd_out 154 main_v121 rfl) (nd_in 153 154 main_cst_20 rfl (by decide))).trans
    (by simp only [S_cst_20 m c] <;> rfl)
theorem S_v122 : after (ops (F := Ideal)) (launchContents m c) (Proc.devRef .tc main_v122) = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (HostRead.binary_at outs (launchContents m c) 155 main_v121 main_v120 main_v122 _ _ _ _ rfl (nd_out 155 main_v122 rfl) (nd_in 154 155 main_v121 rfl (by decide)) (nd_in 152 155 main_v120 rfl (by decide))).trans
    (by simp only [S_v121 m c, S_v120 m c] <;> rfl)
theorem S_v123 : after (ops (F := Ideal)) (launchContents m c) (Proc.devRef .tc main_v123) = val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (HostRead.binary_at outs (launchContents m c) 156 main_v102 main_v122 main_v123 _ _ _ _ rfl (nd_out 156 main_v123 rfl) (nd_in 129 156 main_v102 rfl (by decide)) (nd_in 155 156 main_v122 rfl (by decide))).trans
    (by simp only [S_v102 m c, S_v122 m c] <;> rfl)
theorem S_v124 : after (ops (F := Ideal)) (launchContents m c) (Proc.devRef .tc main_v124) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (HostRead.binary_at outs (launchContents m c) 157 main_v123 main_arg16 main_v124 _ _ _ _ rfl (nd_out 157 main_v124 rfl) (nd_in 156 157 main_v123 rfl (by decide)) (nd_arg 157 main_arg16 (by decide))).trans
    (by simp only [S_v123 m c, A_16 m c] <;> rfl)
theorem S_c_21 : after (ops (F := Ideal)) (launchContents m c) (Proc.devRef .tc main_c_21) = val_main_c_21 (F := Ideal) :=
  (HostRead.nullary_at outs (launchContents m c) 158 main_c_21 _ _ rfl (nd_out 158 main_c_21 rfl)).trans
    rfl
theorem S_v125 : after (ops (F := Ideal)) (launchContents m c) (Proc.devRef .tc main_v125) = val_main_v125 (F := Ideal) :=
  (HostRead.unary_at outs (launchContents m c) 159 main_c_21 main_v125 _ _ _ rfl (nd_out 159 main_v125 rfl) (nd_in 158 159 main_c_21 rfl (by decide))).trans
    (by simp only [S_c_21 m c] <;> rfl)
theorem S_v126 : after (ops (F := Ideal)) (launchContents m c) (Proc.devRef .tc main_v126) = val_main_v126 (F := Ideal) (m ((c.tc : Thread nD τ).loc main_arg1)) :=
  (HostRead.binary_at outs (launchContents m c) 160 main_v3 main_v125 main_v126 _ _ _ _ rfl (nd_out 160 main_v126 rfl) (nd_in 3 160 main_v3 rfl (by decide)) (nd_in 159 160 main_v125 rfl (by decide))).trans
    (by simp only [S_v3 m c, S_v125 m c] <;> rfl)
theorem S_c_22 : after (ops (F := Ideal)) (launchContents m c) (Proc.devRef .tc main_c_22) = val_main_c_22 (F := Ideal) :=
  (HostRead.nullary_at outs (launchContents m c) 161 main_c_22 _ _ rfl (nd_out 161 main_c_22 rfl)).trans
    rfl
theorem S_v127 : after (ops (F := Ideal)) (launchContents m c) (Proc.devRef .tc main_v127) = val_main_v127 (F := Ideal) :=
  (HostRead.unary_at outs (launchContents m c) 162 main_c_22 main_v127 _ _ _ rfl (nd_out 162 main_v127 rfl) (nd_in 161 162 main_c_22 rfl (by decide))).trans
    (by simp only [S_c_22 m c] <;> rfl)
theorem S_v128 : after (ops (F := Ideal)) (launchContents m c) (Proc.devRef .tc main_v128) = val_main_v128 (F := Ideal) (m ((c.tc : Thread nD τ).loc main_arg1)) :=
  (HostRead.binary_at outs (launchContents m c) 163 main_v3 main_v127 main_v128 _ _ _ _ rfl (nd_out 163 main_v128 rfl) (nd_in 3 163 main_v3 rfl (by decide)) (nd_in 162 163 main_v127 rfl (by decide))).trans
    (by simp only [S_v3 m c, S_v127 m c] <;> rfl)
theorem S_v129 : after (ops (F := Ideal)) (launchContents m c) (Proc.devRef .tc main_v129) = val_main_v129 (F := Ideal) (m ((c.tc : Thread nD τ).loc main_arg1)) :=
  (HostRead.ternary_at outs (launchContents m c) 164 main_v126 main_v128 main_v3 main_v129 _ _ _ _ _ rfl (nd_out 164 main_v129 rfl) (nd_in 160 164 main_v126 rfl (by decide)) (nd_in 163 164 main_v128 rfl (by decide)) (nd_in 3 164 main_v3 rfl (by decide))).trans
    (by simp only [S_v126 m c, S_v128 m c, S_v3 m c] <;> rfl)
theorem S_v130 : after (ops (F := Ideal)) (launchContents m c) (Proc.devRef .tc main_v130) = val_main_v130 (F := Ideal) (m ((c.tc : Thread nD τ).loc main_arg1)) :=
  (HostRead.unary_at outs (launchContents m c) 165 main_v129 main_v130 _ _ _ rfl (nd_out 165 main_v130 rfl) (nd_in 164 165 main_v129 rfl (by decide))).trans
    (by simp only [S_v129 m c] <;> rfl)
theorem S_v131 : after (ops (F := Ideal)) (launchContents m c) (Proc.devRef .tc main_v131) = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (HostRead.binary_at outs (launchContents m c) 166 main_v124 main_v130 main_v131 _ _ _ _ rfl (nd_out 166 main_v131 rfl) (nd_in 157 166 main_v124 rfl (by decide)) (nd_in 165 166 main_v130 rfl (by decide))).trans
    (by simp only [S_v124 m c, S_v130 m c] <;> rfl)
theorem S_v132 : after (ops (F := Ideal)) (launchContents m c) (Proc.devRef .tc main_v132) = val_main_v132 (F := Ideal) (m ((c.tc : Thread nD τ).loc main_arg1)) :=
  (HostRead.unary_at outs (launchContents m c) 167 main_v31 main_v132 _ _ _ rfl (nd_out 167 main_v132 rfl) (nd_in 42 167 main_v31 rfl (by decide))).trans
    (by simp only [S_v31 m c] <;> rfl)
theorem S_v133 : after (ops (F := Ideal)) (launchContents m c) (Proc.devRef .tc main_v133) = val_main_v133 (F := Ideal) (m ((c.tc : Thread nD τ).loc main_arg1)) :=
  (HostRead.unary_at outs (launchContents m c) 168 main_v132 main_v133 _ _ _ rfl (nd_out 168 main_v133 rfl) (nd_in 167 168 main_v132 rfl (by decide))).trans
    (by simp only [S_v132 m c] <;> rfl)
theorem S_v134 : after (ops (F := Ideal)) (launchContents m c) (Proc.devRef .tc main_v134) = val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (HostRead.binary_at outs (launchContents m c) 169 main_v131 main_v133 main_v134 _ _ _ _ rfl (nd_out 169 main_v134 rfl) (nd_in 166 169 main_v131 rfl (by decide)) (nd_in 168 169 main_v133 rfl (by decide))).trans
    (by simp only [S_v131 m c, S_v133 m c] <;> rfl)
theorem S_cst_23 : after (ops (F := Ideal)) (launchContents m c) (Proc.devRef .tc main_cst_23) = val_main_cst_23 (F := Ideal) :=
  (HostRead.nullary_at outs (launchContents m c) 170 main_cst_23 _ _ rfl (nd_out 170 main_cst_23 rfl)).trans
    rfl
theorem S_v135 : after (ops (F := Ideal)) (launchContents m c) (Proc.devRef .tc main_v135) = val_main_v135 (F := Ideal) :=
  (HostRead.unary_at outs (launchContents m c) 171 main_cst_23 main_v135 _ _ _ rfl (nd_out 171 main_v135 rfl) (nd_in 170 171 main_cst_23 rfl (by decide))).trans
    (by simp only [S_cst_23 m c] <;> rfl)
theorem S_v136 : after (ops (F := Ideal)) (launchContents m c) (Proc.devRef .tc main_v136) = val_main_v136 (F := Ideal) (m ((c.tc : Thread nD τ).loc main_arg1)) :=
  (HostRead.unary_at outs (launchContents m c) 172 main_v6 main_v136 _ _ _ rfl (nd_out 172 main_v136 rfl) (nd_in 6 172 main_v6 rfl (by decide))).trans
    (by simp only [S_v6 m c] <;> rfl)
theorem S_v137 : after (ops (F := Ideal)) (launchContents m c) (Proc.devRef .tc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (HostRead.ternary_at outs (launchContents m c) 173 main_v135 main_v136 main_v134 main_v137 _ _ _ _ _ rfl (nd_out 173 main_v137 rfl) (nd_in 171 173 main_v135 rfl (by decide)) (nd_in 172 173 main_v136 rfl (by decide)) (nd_in 169 173 main_v134 rfl (by decide))).trans
    (by simp only [S_v135 m c, S_v136 m c, S_v134 m c] <;> rfl)
theorem S_v138 : after (ops (F := Ideal)) (launchContents m c) (Proc.devRef .tc main_v138) = val_main_v138 (F := Ideal) (m ((c.tc : Thread nD τ).loc main_arg17)) :=
  (HostRead.unary_at outs (launchContents m c) 174 main_arg17 main_v138 _ _ _ rfl (nd_out 174 main_v138 rfl) (nd_arg 174 main_arg17 (by decide))).trans
    (by simp only [A_17 m c] <;> rfl)
theorem S_v139 : after (ops (F := Ideal)) (launchContents m c) (Proc.devRef .tc main_v139) = val_main_v139 (F := Ideal) (m ((c.tc : Thread nD τ).loc main_arg17)) :=
  (HostRead.unary_at outs (launchContents m c) 175 main_v138 main_v139 _ _ _ rfl (nd_out 175 main_v139 rfl) (nd_in 174 175 main_v138 rfl (by decide))).trans
    (by simp only [S_v138 m c] <;> rfl)
theorem S_v140 : after (ops (F := Ideal)) (launchContents m c) (Proc.devRef .tc main_v140) = val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (HostRead.binary_at outs (launchContents m c) 176 main_v137 main_v139 main_v140 _ _ _ _ rfl (nd_out 176 main_v140 rfl) (nd_in 173 176 main_v137 rfl (by decide)) (nd_in 175 176 main_v139 rfl (by decide))).trans
    (by simp only [S_v137 m c, S_v139 m c] <;> rfl)
theorem S_call5_cst : after (ops (F := Ideal)) (launchContents m c) (Proc.devRef .tc main_call5_cst) = val_main_call5_cst (F := Ideal) :=
  eq_of_heq (HostRead.tnullary_at outs (launchContents m c) 177 _ _ rfl (nd_out 177 main_call5_cst rfl))
theorem S_call5_v0 : after (ops (F := Ideal)) (launchContents m c) (Proc.devRef .tc main_call5_v0) = val_main_call5_v0 (F := Ideal) :=
  eq_of_heq (HostRead.tunary_at outs (launchContents m c) 178 _ _ _ rfl (nd_out 178 main_call5_v0 rfl) (nd_in 177 178 main_call5_cst rfl (by decide)) _ (heq_of_eq (S_call5_cst m c)))
theorem S_v141 : after (ops (F := Ideal)) (launchContents m c) (Proc.devRef .tc main_v141) = val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  eq_of_heq (HostRead.tbinary_at outs (launchContents m c) 179 _ _ _ _ rfl (nd_out 179 main_v141 rfl) (nd_in 176 179 main_v140 rfl (by decide)) (nd_in 178 179 main_call5_v0 rfl (by decide)) _ _ (heq_of_eq (S_v140 m c)) (heq_of_eq (S_call5_v0 m c)))
theorem S_cst_24 : after (ops (F := Ideal)) (launchContents m c) (Proc.devRef .tc main_cst_24) = val_main_cst_24 (F := Ideal) :=
  (HostRead.nullary_at outs (launchContents m c) 180 main_cst_24 _ _ rfl (nd_out 180 main_cst_24 rfl)).trans
    rfl
theorem S_v142 : after (ops (F := Ideal)) (launchContents m c) (Proc.devRef .tc main_v142) = val_main_v142 (F := Ideal) :=
  (HostRead.unary_at outs (launchContents m c) 181 main_cst_24 main_v142 _ _ _ rfl (nd_out 181 main_v142 rfl) (nd_in 180 181 main_cst_24 rfl (by decide))).trans
    (by simp only [S_cst_24 m c] <;> rfl)
theorem S_v143 : after (ops (F := Ideal)) (launchContents m c) (Proc.devRef .tc main_v143) = val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (HostRead.binary_at outs (launchContents m c) 182 main_v142 main_v141 main_v143 _ _ _ _ rfl (nd_out 182 main_v143 rfl) (nd_in 181 182 main_v142 rfl (by decide)) (nd_in 179 182 main_v141 rfl (by decide))).trans
    (by simp only [S_v142 m c, S_v141 m c] <;> rfl)
theorem S_v144 : after (ops (F := Ideal)) (launchContents m c) (Proc.devRef .tc main_v144) = val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (HostRead.binary_at outs (launchContents m c) 183 main_v123 main_v143 main_v144 _ _ _ _ rfl (nd_out 183 main_v144 rfl) (nd_in 156 183 main_v123 rfl (by decide)) (nd_in 182 183 main_v143 rfl (by decide))).trans
    (by simp only [S_v123 m c, S_v143 m c] <;> rfl)
theorem S_v145 : after (ops (F := Ideal)) (launchContents m c) (Proc.devRef .tc main_v145) = val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (HostRead.binary_at outs (launchContents m c) 184 main_v144 main_arg18 main_v145 _ _ _ _ rfl (nd_out 184 main_v145 rfl) (nd_in 183 184 main_v144 rfl (by decide)) (nd_arg 184 main_arg18 (by decide))).trans
    (by simp only [S_v144 m c, A_18 m c] <;> rfl)
theorem S_c_25 : after (ops (F := Ideal)) (launchContents m c) (Proc.devRef .tc main_c_25) = val_main_c_25 (F := Ideal) :=
  (HostRead.nullary_at outs (launchContents m c) 185 main_c_25 _ _ rfl (nd_out 185 main_c_25 rfl)).trans
    rfl
theorem S_v146 : after (ops (F := Ideal)) (launchContents m c) (Proc.devRef .tc main_v146) = val_main_v146 (F := Ideal) :=
  (HostRead.unary_at outs (launchContents m c) 186 main_c_25 main_v146 _ _ _ rfl (nd_out 186 main_v146 rfl) (nd_in 185 186 main_c_25 rfl (by decide))).trans
    (by simp only [S_c_25 m c] <;> rfl)
theorem S_v147 : after (ops (F := Ideal)) (launchContents m c) (Proc.devRef .tc main_v147) = val_main_v147 (F := Ideal) (m ((c.tc : Thread nD τ).loc main_arg1)) :=
  (HostRead.binary_at outs (launchContents m c) 187 main_v3 main_v146 main_v147 _ _ _ _ rfl (nd_out 187 main_v147 rfl) (nd_in 3 187 main_v3 rfl (by decide)) (nd_in 186 187 main_v146 rfl (by decide))).trans
    (by simp only [S_v3 m c, S_v146 m c] <;> rfl)
theorem S_c_26 : after (ops (F := Ideal)) (launchContents m c) (Proc.devRef .tc main_c_26) = val_main_c_26 (F := Ideal) :=
  (HostRead.nullary_at outs (launchContents m c) 188 main_c_26 _ _ rfl (nd_out 188 main_c_26 rfl)).trans
    rfl
theorem S_v148 : after (ops (F := Ideal)) (launchContents m c) (Proc.devRef .tc main_v148) = val_main_v148 (F := Ideal) :=
  (HostRead.unary_at outs (launchContents m c) 189 main_c_26 main_v148 _ _ _ rfl (nd_out 189 main_v148 rfl) (nd_in 188 189 main_c_26 rfl (by decide))).trans
    (by simp only [S_c_26 m c] <;> rfl)
theorem S_v149 : after (ops (F := Ideal)) (launchContents m c) (Proc.devRef .tc main_v149) = val_main_v149 (F := Ideal) (m ((c.tc : Thread nD τ).loc main_arg1)) :=
  (HostRead.binary_at outs (launchContents m c) 190 main_v3 main_v148 main_v149 _ _ _ _ rfl (nd_out 190 main_v149 rfl) (nd_in 3 190 main_v3 rfl (by decide)) (nd_in 189 190 main_v148 rfl (by decide))).trans
    (by simp only [S_v3 m c, S_v148 m c] <;> rfl)
theorem S_v150 : after (ops (F := Ideal)) (launchContents m c) (Proc.devRef .tc main_v150) = val_main_v150 (F := Ideal) (m ((c.tc : Thread nD τ).loc main_arg1)) :=
  (HostRead.ternary_at outs (launchContents m c) 191 main_v147 main_v149 main_v3 main_v150 _ _ _ _ _ rfl (nd_out 191 main_v150 rfl) (nd_in 187 191 main_v147 rfl (by decide)) (nd_in 190 191 main_v149 rfl (by decide)) (nd_in 3 191 main_v3 rfl (by decide))).trans
    (by simp only [S_v147 m c, S_v149 m c, S_v3 m c] <;> rfl)
theorem S_v151 : after (ops (F := Ideal)) (launchContents m c) (Proc.devRef .tc main_v151) = val_main_v151 (F := Ideal) (m ((c.tc : Thread nD τ).loc main_arg1)) :=
  (HostRead.unary_at outs (launchContents m c) 192 main_v150 main_v151 _ _ _ rfl (nd_out 192 main_v151 rfl) (nd_in 191 192 main_v150 rfl (by decide))).trans
    (by simp only [S_v150 m c] <;> rfl)
theorem S_v152 : after (ops (F := Ideal)) (launchContents m c) (Proc.devRef .tc main_v152) = val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (HostRead.binary_at outs (launchContents m c) 193 main_v145 main_v151 main_v152 _ _ _ _ rfl (nd_out 193 main_v152 rfl) (nd_in 184 193 main_v145 rfl (by decide)) (nd_in 192 193 main_v151 rfl (by decide))).trans
    (by simp only [S_v145 m c, S_v151 m c] <;> rfl)
theorem S_v153 : after (ops (F := Ideal)) (launchContents m c) (Proc.devRef .tc main_v153) = val_main_v153 (F := Ideal) (m ((c.tc : Thread nD τ).loc main_arg1)) :=
  (HostRead.unary_at outs (launchContents m c) 194 main_v31 main_v153 _ _ _ rfl (nd_out 194 main_v153 rfl) (nd_in 42 194 main_v31 rfl (by decide))).trans
    (by simp only [S_v31 m c] <;> rfl)
theorem S_v154 : after (ops (F := Ideal)) (launchContents m c) (Proc.devRef .tc main_v154) = val_main_v154 (F := Ideal) (m ((c.tc : Thread nD τ).loc main_arg1)) :=
  (HostRead.unary_at outs (launchContents m c) 195 main_v153 main_v154 _ _ _ rfl (nd_out 195 main_v154 rfl) (nd_in 194 195 main_v153 rfl (by decide))).trans
    (by simp only [S_v153 m c] <;> rfl)
theorem S_v155 : after (ops (F := Ideal)) (launchContents m c) (Proc.devRef .tc main_v155) = val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (HostRead.binary_at outs (launchContents m c) 196 main_v152 main_v154 main_v155 _ _ _ _ rfl (nd_out 196 main_v155 rfl) (nd_in 193 196 main_v152 rfl (by decide)) (nd_in 195 196 main_v154 rfl (by decide))).trans
    (by simp only [S_v152 m c, S_v154 m c] <;> rfl)
theorem S_cst_27 : after (ops (F := Ideal)) (launchContents m c) (Proc.devRef .tc main_cst_27) = val_main_cst_27 (F := Ideal) :=
  (HostRead.nullary_at outs (launchContents m c) 197 main_cst_27 _ _ rfl (nd_out 197 main_cst_27 rfl)).trans
    rfl
theorem S_v156 : after (ops (F := Ideal)) (launchContents m c) (Proc.devRef .tc main_v156) = val_main_v156 (F := Ideal) :=
  (HostRead.unary_at outs (launchContents m c) 198 main_cst_27 main_v156 _ _ _ rfl (nd_out 198 main_v156 rfl) (nd_in 197 198 main_cst_27 rfl (by decide))).trans
    (by simp only [S_cst_27 m c] <;> rfl)
theorem S_v157 : after (ops (F := Ideal)) (launchContents m c) (Proc.devRef .tc main_v157) = val_main_v157 (F := Ideal) (m ((c.tc : Thread nD τ).loc main_arg1)) :=
  (HostRead.unary_at outs (launchContents m c) 199 main_v6 main_v157 _ _ _ rfl (nd_out 199 main_v157 rfl) (nd_in 6 199 main_v6 rfl (by decide))).trans
    (by simp only [S_v6 m c] <;> rfl)
theorem S_v158 : after (ops (F := Ideal)) (launchContents m c) (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (HostRead.ternary_at outs (launchContents m c) 200 main_v156 main_v157 main_v155 main_v158 _ _ _ _ _ rfl (nd_out 200 main_v158 rfl) (nd_in 198 200 main_v156 rfl (by decide)) (nd_in 199 200 main_v157 rfl (by decide)) (nd_in 196 200 main_v155 rfl (by decide))).trans
    (by simp only [S_v156 m c, S_v157 m c, S_v155 m c] <;> rfl)
theorem S_v159 : after (ops (F := Ideal)) (launchContents m c) (Proc.devRef .tc main_v159) = val_main_v159 (F := Ideal) (m ((c.tc : Thread nD τ).loc main_arg19)) :=
  (HostRead.unary_at outs (launchContents m c) 201 main_arg19 main_v159 _ _ _ rfl (nd_out 201 main_v159 rfl) (nd_arg 201 main_arg19 (by decide))).trans
    (by simp only [A_19 m c] <;> rfl)
theorem S_v160 : after (ops (F := Ideal)) (launchContents m c) (Proc.devRef .tc main_v160) = val_main_v160 (F := Ideal) (m ((c.tc : Thread nD τ).loc main_arg19)) :=
  (HostRead.unary_at outs (launchContents m c) 202 main_v159 main_v160 _ _ _ rfl (nd_out 202 main_v160 rfl) (nd_in 201 202 main_v159 rfl (by decide))).trans
    (by simp only [S_v159 m c] <;> rfl)
theorem S_v161 : after (ops (F := Ideal)) (launchContents m c) (Proc.devRef .tc main_v161) = val_main_v161 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (HostRead.binary_at outs (launchContents m c) 203 main_v158 main_v160 main_v161 _ _ _ _ rfl (nd_out 203 main_v161 rfl) (nd_in 200 203 main_v158 rfl (by decide)) (nd_in 202 203 main_v160 rfl (by decide))).trans
    (by simp only [S_v158 m c, S_v160 m c] <;> rfl)
theorem S_cst_28 : after (ops (F := Ideal)) (launchContents m c) (Proc.devRef .tc main_cst_28) = val_main_cst_28 (F := Ideal) :=
  (HostRead.nullary_at outs (launchContents m c) 204 main_cst_28 _ _ rfl (nd_out 204 main_cst_28 rfl)).trans
    rfl
theorem S_v162 : after (ops (F := Ideal)) (launchContents m c) (Proc.devRef .tc main_v162) = val_main_v162 (F := Ideal) :=
  (HostRead.unary_at outs (launchContents m c) 205 main_cst_28 main_v162 _ _ _ rfl (nd_out 205 main_v162 rfl) (nd_in 204 205 main_cst_28 rfl (by decide))).trans
    (by simp only [S_cst_28 m c] <;> rfl)
theorem S_v163 : after (ops (F := Ideal)) (launchContents m c) (Proc.devRef .tc main_v163) = val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (HostRead.binary_at outs (launchContents m c) 206 main_v162 main_v161 main_v163 _ _ _ _ rfl (nd_out 206 main_v163 rfl) (nd_in 205 206 main_v162 rfl (by decide)) (nd_in 203 206 main_v161 rfl (by decide))).trans
    (by simp only [S_v162 m c, S_v161 m c] <;> rfl)
theorem S_v164 : after (ops (F := Ideal)) (launchContents m c) (Proc.devRef .tc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (HostRead.binary_at outs (launchContents m c) 207 main_v144 main_v163 main_v164 _ _ _ _ rfl (nd_out 207 main_v164 rfl) (nd_in 183 207 main_v144 rfl (by decide)) (nd_in 206 207 main_v163 rfl (by decide))).trans
    (by simp only [S_v144 m c, S_v163 m c] <;> rfl)

end Cert.ReferenceIdeal.RefStages

end
-- ==== Proof.RefRun.lean ====
/-
  The reference's run.  @main is one line of 208 host operations over tensor values, so every weakly fair execution
  terminates, nothing faulting, with each buffer at the fold of the operations over the launch contents.  Read at the
  result buffer the fold is the last stage of the arguments (one equation per operation, every buffer being written
  once); read at an argument it is the launch contents, no operation writing an argument.
-/
import proofs.«147497_j34437047780015_1_alg».proof.Proof.RefStages

set_option maxRecDepth 16384

noncomputable section

namespace Cert.ReferenceIdeal.RefRun

open Cert.ReferenceIdeal Cert.ReferenceIdeal.Gen Cert.ReferenceIdeal.ValueP Cert.ReferenceIdeal.ReadP Cert.ReferenceIdeal.RefStages
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem run : θ_run defs (onTc (τ := τ) (main (F := Ideal))) ⟨m, fun _ => 0, ρ⟩ fun r => ∀ c : Dev nD,
      r.2.mem ((c.tc : Thread nD τ).loc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v164).trans (S_v164 m c),
      (h c main_arg0).trans (A_0 m c),
      (h c main_arg1).trans (A_1 m c),
      (h c main_arg2).trans (A_2 m c),
      (h c main_arg3).trans (A_3 m c),
      (h c main_arg4).trans (A_4 m c),
      (h c main_arg5).trans (A_5 m c),
      (h c main_arg6).trans (A_6 m c),
      (h c main_arg7).trans (A_7 m c),
      (h c main_arg8).trans (A_8 m c),
      (h c main_arg9).trans (A_9 m c),
      (h c main_arg10).trans (A_10 m c),
      (h c main_arg11).trans (A_11 m c),
      (h c main_arg12).trans (A_12 m c),
      (h c main_arg13).trans (A_13 m c),
      (h c main_arg14).trans (A_14 m c),
      (h c main_arg15).trans (A_15 m c),
      (h c main_arg16).trans (A_16 m c),
      (h c main_arg17).trans (A_17 m c),
      (h c main_arg18).trans (A_18 m c),
      (h c main_arg19).trans (A_19 m c)⟩)
    (run_seq scopedRefs_eq scopedSems_eq defs main (fun _ => ops) main_eq (fun _ => ops_sub) m ρ)

end Cert.ReferenceIdeal.RefRun

end
-- ==== Proof.lean ====
/-
  The certificate of the fifteen-region graph-convolution kernel against its reference.

  Both programs first build the edge lists with their self loops and the symmetric normalisation, by the same host
  operations.  Then six layers: a dense projection of the node features, a gather of the projected rows along the
  edges scaled by the normalisation and scatter-added into the destination nodes (host operations on both sides), and a
  residual update with a bias, a rectification (not in the last layer) and a scale.  The kernel computes each projection
  and each residual update in a region tiled over 2000 rows; the reference computes them by whole-array operations.  On
  extended reals a region's output array is one function of its input arrays, equal index by index to the reference's
  operations: a row-times-column sum plus a bias (x + 0 = x where the kernel passes a zero bias), and
  resid + s · max(agg + bias, 0) (1 · x = x where the scale is one).  No law used needs finiteness, so the
  precondition is never opened.

  The frames of the two kernel programs are the generated ones; the reference's frame is its run with the result
  dropped; the ideal pass rewrote nothing, so preserves is trivial.
-/
import proofs.«147497_j34437047780015_1_alg».proof.Defs
import proofs.«147497_j34437047780015_1_alg».proof.Proof.Gen.Kernel
import proofs.«147497_j34437047780015_1_alg».proof.Proof.Gen.Kernel.Skeleton
import proofs.«147497_j34437047780015_1_alg».proof.Proof.Gen.Kernel.Launch
import proofs.«147497_j34437047780015_1_alg».proof.Proof.Gen.Kernel.Points
import proofs.«147497_j34437047780015_1_alg».proof.Proof.Gen.Kernel.Frame
import proofs.«147497_j34437047780015_1_alg».proof.Proof.Gen.KernelIdeal
import proofs.«147497_j34437047780015_1_alg».proof.Proof.Gen.KernelIdeal.Skeleton
import proofs.«147497_j34437047780015_1_alg».proof.Proof.Gen.KernelIdeal.Launch
import proofs.«147497_j34437047780015_1_alg».proof.Proof.Gen.KernelIdeal.Points
import proofs.«147497_j34437047780015_1_alg».proof.Proof.Gen.KernelIdeal.Frame
import proofs.«147497_j34437047780015_1_alg».proof.Proof.Gen.ReferenceIdeal
import proofs.«147497_j34437047780015_1_alg».proof.Proof.Gen.Pre_finite_inputs
import proofs.«147497_j34437047780015_1_alg».proof.Proof.KRun
import proofs.«147497_j34437047780015_1_alg».proof.Proof.Chain
import proofs.«147497_j34437047780015_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- From memories agreeing on the arguments, both idealized programs end with the result buffer at the reference's last
    stage of the arguments: the kernel's last boundary holds it (the chain through the segments), and the reference's
    fold of its operations is it. -/
theorem algebraic : Cert.algebraic_KernelIdeal_ReferenceIdeal := by
  intro m ρ m' ρ' _ hagree
  refine ⟨fun c => Cert.KernelIdeal.Gen.W32 m ρ c (Proc.devRef .tc Cert.KernelIdeal.main_v145), Cert.KernelIdeal.RunValue.run m ρ, ?_⟩
  refine (θ_run Cert.ReferenceIdeal.defs _ _).mono (fun _ h c => ⟨(h c).1.trans ?_, (h c).2⟩) (Cert.ReferenceIdeal.RefRun.run m' ρ')
  obtain ⟨a0, a1, a2, a3, a4, a5, a6, a7, a8, a9, a10, a11, a12, a13, a14, a15, a16, a17, a18, a19⟩ := hagree c
  rw [a0, a1, a2, a3, a4, a5, a6, a7, a8, a9, a10, a11, a12, a13, a14, a15, a16, a17, a18, a19]
  exact (Cert.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
